-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v7_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S8192x32 : Shape := ⟨2, ![8192, 32]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x32 : S_.BroadcastsInDim S8192x32 (![] : Fin 0 → Fin S8192x32.rank)
  reducesTo_S8192x32_S_d0_1 : S8192x32.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S128x32 .f32) (main_arg8 : FVec F S32 .f32) (main_v33 : IVec S_ 1) : IVec S_ 1 :=
  let main_v34 : FVec F S128x32 .f32 := Host.absf main_arg7
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S128 .f32) (main_arg5 : FVec F S128x32 .f32) (main_arg6 : FVec F S32 .f32) (main_arg7 : FVec F S128x32 .f32) (main_arg8 : FVec F S32 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S8192x64 .f32) (main_arg1 : FVec F S8192x8192 .f32) (main_arg2 : FVec F S8192x32 .f32) (main_arg3 : FVec F S64x128 .f32) (main_arg4 : FVec F S128 .f32) (main_arg5 : FVec F S128x32 .f32) (main_arg6 : FVec F S32 .f32) (main_arg7 : FVec F S128x32 .f32) (main_arg8 : FVec F S32 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S8192x64 : Shape := ⟨2, ![8192, 64]⟩
abbrev S8192x8192 : Shape := ⟨2, ![8192, 8192]⟩
abbrev S8192x32 : Shape := ⟨2, ![8192, 32]⟩
abbrev S64x128 : Shape := ⟨2, ![64, 128]⟩
abbrev S128 : Shape := ⟨1, ![128]⟩
abbrev S128x32 : Shape := ⟨2, ![128, 32]⟩
abbrev S32 : Shape := ⟨1, ![32]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x128 : Shape := ⟨2, ![1, 128]⟩
abbrev S8192x128 : Shape := ⟨2, ![8192, 128]⟩
abbrev S2048x2048 : Shape := ⟨2, ![2048, 2048]⟩
abbrev S2048x64 : Shape := ⟨2, ![2048, 64]⟩
abbrev S2048x1 : Shape := ⟨2, ![2048, 1]⟩
abbrev S2048x128 : Shape := ⟨2, ![2048, 128]⟩
abbrev S1x32 : Shape := ⟨2, ![1, 32]⟩
abbrev S2048x32 : Shape := ⟨2, ![2048, 32]⟩
abbrev S1024x32 : Shape := ⟨2, ![1024, 32]⟩

abbrev nBuf : Space → Nat
  | .hbm => 21
  | .vmem => 43
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x32, .f32⟩
  | .hbm, ⟨3, _⟩ => ⟨S64x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S32, .f32⟩
  | .hbm, ⟨9, _⟩ => ⟨S8192x1, .f32⟩
  | .hbm, ⟨10, _⟩ => ⟨S8192x8192, .bf16⟩
  | .hbm, ⟨11, _⟩ => ⟨S8192x64, .f32⟩
  | .hbm, ⟨12, _⟩ => ⟨S8192x64, .f32⟩
  | .hbm, ⟨13, _⟩ => ⟨S1x128, .f32⟩
  | .hbm, ⟨14, _⟩ => ⟨S8192x128, .f32⟩
  | .hbm, ⟨15, _⟩ => ⟨S1x32, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S2048x2048, .bf16⟩
  | .local _ .vmem, ⟨8, _⟩ => ⟨S2048x2048, .bf16⟩
  | .local _ .vmem, ⟨9, _⟩ => ⟨S2048x64, .f32⟩
  | .local _ .vmem, ⟨10, _⟩ => ⟨S2048x64, .f32⟩
  | .local _ .vmem, ⟨11, _⟩ => ⟨S2048x1, .f32⟩
  | .local _ .vmem, ⟨12, _⟩ => ⟨S2048x1, .f32⟩
  | .local _ .vmem, ⟨13, _⟩ => ⟨S64x128, .f32⟩
  | .local _ .vmem, ⟨14, _⟩ => ⟨S1x128, .f32⟩
  | .local _ .vmem, ⟨15, _⟩ => ⟨S2048x128, .f32⟩
  | .local _ .vmem, ⟨16, _⟩ => ⟨S2048x128, .f32⟩
  | .local _ .vmem, ⟨17, _⟩ => ⟨S2048x64, .f32⟩
  | .local _ .vmem, ⟨18, _⟩ => ⟨S2048x2048, .bf16⟩
  | .local _ .vmem, ⟨19, _⟩ => ⟨S2048x2048, .bf16⟩
  | .local _ .vmem, ⟨20, _⟩ => ⟨S2048x128, .f32⟩
  | .local _ .vmem, ⟨21, _⟩ => ⟨S2048x128, .f32⟩
  | .local _ .vmem, ⟨22, _⟩ => ⟨S2048x1, .f32⟩
  | .local _ .vmem, ⟨23, _⟩ => ⟨S2048x1, .f32⟩
  | .local _ .vmem, ⟨24, _⟩ => ⟨S128x32, .f32⟩
  | .local _ .vmem, ⟨25, _⟩ => ⟨S1x32, .f32⟩
  | .local _ .vmem, ⟨26, _⟩ => ⟨S128x32, .f32⟩
  | .local _ .vmem, ⟨27, _⟩ => ⟨S1x32, .f32⟩
  | .local _ .vmem, ⟨28, _⟩ => ⟨S2048x32, .f32⟩
  | .local _ .vmem, ⟨29, _⟩ => ⟨S2048x32, .f32⟩
  | .local _ .vmem, ⟨30, _⟩ => ⟨S2048x32, .f32⟩
  | .local _ .vmem, ⟨31, _⟩ => ⟨S2048x32, .f32⟩
  | .local _ .vmem, ⟨32, _⟩ => ⟨S2048x32, .f32⟩
  | .local _ .vmem, ⟨33, _⟩ => ⟨S2048x32, .f32⟩
  | .local _ .vmem, ⟨34, _⟩ => ⟨S2048x32, .f32⟩
  | .local _ .vmem, ⟨35, _⟩ => ⟨S2048x32, .f32⟩
  | .local _ .vmem, ⟨36, _⟩ => ⟨S2048x128, .f32⟩
  | .local _ .vmem, ⟨37, _⟩ => ⟨S1024x32, .f32⟩
  | .local _ .vmem, ⟨38, _⟩ => ⟨S1024x32, .f32⟩
  | .local _ .vmem, ⟨39, _⟩ => ⟨S1024x32, .f32⟩
  | .local _ .vmem, ⟨40, _⟩ => ⟨S1024x32, .f32⟩
  | .local _ .vmem, ⟨41, _⟩ => ⟨S1024x1024, .f32⟩
  | .local _ .vmem, ⟨42, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc2_stg10_0 : Ref sig .tc := ⟨.vmem, 34, rfl⟩
abbrev cc2_stg10_1 : Ref sig .tc := ⟨.vmem, 35, rfl⟩
abbrev cc2_scratch0 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem9_1 : DmaSem sig := 31
abbrev cc2_sem10_0 : DmaSem sig := 32
abbrev cc2_sem10_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def k1_cond3 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 4], ![false, false]⟩

def k2_cond3 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S2048x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S2048x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev stage2_9 : Fin 2 → Memref sig .tc .vmem S2048x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, false]

abbrev stage2_10 : Fin 2 → Memref sig .tc .vmem S2048x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, false]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  bcast_S8192x1_S8192x64_0_1 : S8192x1.BroadcastsInDim S8192x64 (![0, 1] : Fin 2 → Fin S8192x64.rank)
  shapeCasts_S128_S1x128 : S128.ShapeCasts S1x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  broadcasts_S2048x1_S2048x128 : S2048x1.Broadcasts S2048x128
  inb_S2048x128_S2048x128_0_0 : ∀ a, (![0, 0] : Fin 2 → Nat) a + S2048x128.size a ≤ S2048x128.size a
  h_S2048x128 : 0 < S2048x128.numel
  shapeCasts_S32_S1x32 : S32.ShapeCasts S1x32
  shapeCasts_S2048x128_S2048x128 : S2048x128.ShapeCasts S2048x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S2048x32_S2048x32_0_0 : ∀ a, (![0, 0] : Fin 2 → Nat) a + S2048x32.size a ≤ S2048x32.size a
  h_S2048x32 : 0 < S2048x32.numel
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  dot_S2048x2048_S2048x64_S2048x64_1_0_0_1_n_n_wf : DotDims.WF S2048x2048 S2048x64 S2048x64 [1] [0] [0] [1] [] []
  dot_S2048x64_S64x128_S2048x128_1_0_0_1_n_n_wf : DotDims.WF S2048x64 S64x128 S2048x128 [1] [0] [0] [1] [] []
  dot_S2048x2048_S2048x128_S2048x128_1_0_0_1_n_n_wf : DotDims.WF S2048x2048 S2048x128 S2048x128 [1] [0] [0] [1] [] []
  dot_S2048x128_S128x32_S2048x32_1_0_0_1_n_n_wf : DotDims.WF S2048x128 S128x32 S2048x32 [1] [0] [0] [1] [] []
  dot_S1024x32_S1024x32_S1024x1024_1_1_0_0_n_n_wf : DotDims.WF S1024x32 S1024x32 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S8192x64.size a
  hwx1_1 : ∀ i : grid1.Coords, EltTy.bits .f32 = 32 ∨ (Rect.block (s := S8192x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S8192x128.size a
  hwx1_5 : ∀ i : grid1.Coords, EltTy.bits .f32 = 32 ∨ (Rect.block (s := S8192x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S8192x128.size a
  hwx2_1 : ∀ i : grid2.Coords, EltTy.bits .f32 = 32 ∨ (Rect.block (s := S8192x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x32.size a ≤ S128x32.size a
  hwx2_3 : ∀ i : grid2.Coords, EltTy.bits .f32 = 32 ∨ (Rect.block (s := S128x32) S128x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x32.size a ≤ S8192x32.size a
  hwx2_7 : ∀ i : grid2.Coords, EltTy.bits .f32 = 32 ∨ (Rect.block (s := S8192x32) S2048x32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x32.size a ≤ S8192x32.size a
  hwx2_8 : ∀ i : grid2.Coords, EltTy.bits .f32 = 32 ∨ (Rect.block (s := S8192x32) S2048x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x32.size a ≤ S8192x32.size a
  hwx2_9 : ∀ i : grid2.Coords, EltTy.bits .f32 = 32 ∨ (Rect.block (s := S8192x32) S2048x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x32.size a ≤ S8192x32.size a
  hwx2_10 : ∀ i : grid2.Coords, EltTy.bits .f32 = 32 ∨ (Rect.block (s := S8192x32) S2048x32.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x32.size a ≤ S8192x32.size a
  hwx3_0 : ∀ i : grid3.Coords, EltTy.bits .f32 = 32 ∨ (Rect.block (s := S8192x32) S1024x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S8192x32.size a
  hwx3_1 : ∀ i : grid3.Coords, EltTy.bits .f32 = 32 ∨ (Rect.block (s := S8192x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S8192x8192.size a
  hwx3_2 : ∀ i : grid3.Coords, EltTy.bits .f32 = 32 ∨ (Rect.block (s := S8192x8192) S1024x1024.size (cc3_transform_2 i) (hinb3_2 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def dot_S1024x32_S1024x32_S1024x1024_1_1_0_0_n_n : DotDims S1024x32 S1024x32 S1024x1024 where
  lhsContracting := [1]
  rhsContracting := [1]
  lhsNonContracting := [0]
  rhsNonContracting := [0]
  lhsBatch := []
  rhsBatch := []
  wf := dot_S1024x32_S1024x32_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v0_1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

abbrev win2_0 : Pipeline.Window sig grid2 :=
  Pipeline.Window.ofSpec (Memref.whole main_v0_1) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_0) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg2) S2048x32.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v7_0) S2048x32.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v7_1) S2048x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v7_2) S2048x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun i => !(k2_cond3 i == 1#1) | 9 => fun i => !(k2_cond3 i == 1#1) | 10 => fun i => !(k2_cond3 i == 1#1) | ⟨_ + 11, h⟩ => absurd h (Nat.not_lt.2 (Nat.le_add_left _ _))

abbrev win3_0 : Pipeline.Window sig grid3 :=
  Pipeline.Window.ofSpec (Memref.whole main_v7_2) S1024x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7_2) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S8192x32 : Shape := ⟨2, ![8192, 32]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S1x128 : Shape := ⟨2, ![1, 128]⟩
abbrev S1x32 : Shape := ⟨2, ![1, 32]⟩
abbrev S32x8192 : Shape := ⟨2, ![32, 8192]⟩

abbrev nBuf : Space → Nat
  | .hbm => 69
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192x32, .f32⟩
  | .hbm, ⟨3, _⟩ => ⟨S64x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S128x32, .f32⟩
  | .hbm, ⟨8, _⟩ => ⟨S32, .f32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .i1⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S1x8192, .f32⟩
  | .hbm, ⟨34, _⟩ => ⟨S8192x8192, .f32⟩
  | .hbm, ⟨35, _⟩ => ⟨S8192x8192, .f32⟩
  | .hbm, ⟨36, _⟩ => ⟨S8192x64, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x32, .f32⟩
  | .hbm, ⟨46, _⟩ => ⟨S1x32, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S1x32, .f32⟩
  | .hbm, ⟨51, _⟩ => ⟨S8192x32, .f32⟩
  | .hbm, ⟨52, _⟩ => ⟨S8192x32, .f32⟩
  | .hbm, ⟨53, _⟩ => ⟨S_, .f32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S32x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_v10 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call2_cst : Ref sig .tc := ⟨.hbm, 41, rfl⟩
abbrev main_call2_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  transposes_S8192x32_S32x8192_1_0 : S8192x32.Transposes [1, 0] S32x8192
  dot_S8192x8192_S8192x64_S8192x64_1_0_0_1_n_n_wf : DotDims.WF S8192x8192 S8192x64 S8192x64 [1] [0] [0] [1] [] []
  dot_S8192x64_S64x128_S8192x128_1_0_0_1_n_n_wf : DotDims.WF S8192x64 S64x128 S8192x128 [1] [0] [0] [1] [] []
  dot_S8192x8192_S8192x128_S8192x128_1_0_0_1_n_n_wf : DotDims.WF S8192x8192 S8192x128 S8192x128 [1] [0] [0] [1] [] []
  dot_S8192x128_S128x32_S8192x32_1_0_0_1_n_n_wf : DotDims.WF S8192x128 S128x32 S8192x32 [1] [0] [0] [1] [] []
  dot_S8192x32_S32x8192_S8192x8192_1_0_0_1_n_n_wf : DotDims.WF S8192x32 S32x8192 S8192x8192 [1] [0] [0] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.RefFrame.lean ====
/-
  The reference program has no kernel launch: its run is a straight line of host operations, each of which writes
  one fresh buffer and reads earlier ones, so every execution ends and no argument array is written. The frame
  claim of the reference is that run with the statement about the results dropped.
-/
import proofs.«169190_j76347338654297_2_alg».proof.Defs
import proofs.«169190_j76347338654297_2_alg».proof.Proof.Gen.ReferenceIdeal
import proofs.«169190_j76347338654297_2_alg».proof.Proof.Gen.Pre_finite_inputs
import proofs.«169190_j76347338654297_2_alg».proof.Proof.Gen.ReferenceIdeal.Run
import proofs.«169190_j76347338654297_2_alg».proof.Proof.Gen.ReferenceIdeal.Read

noncomputable section

open Idealize.ShloMosaic Idealize.ShloMosaic.TcCoe Idealize.SL.Sem

namespace Cert.Proof.RefFrame

/-- Every execution of the reference ends, faults nowhere and leaves its nine argument arrays as launched. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.Proof.RefFrame

end
-- ==== Proof.K_R0_Runs.lean ====
/-
  The degree kernel, first half: the conditions of its two branches in closed form over the grid, where its
  windows are idle, and the body's run in each of its three control cases.

  The grid is 8 row tiles by 8 column tiles, the column tile moving fastest. The body keeps the running row sums
  of one row tile in a scratch column: at column tile 0 it clears the column; at every tile it adds the tile's row
  sums and writes the tile, narrowed, to the copy; at column tile 7 it writes the guarded inverse square root of
  (row sum + 1) to the scaling column's block, which it touches at no other tile.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The branch conditions -/

/-- The first branch (clear the running sums) is taken: the column tile is 0. -/
abbrev cond0_0 (i : grid0.Coords) : Prop :=
  (Scalar.cmpi .ne (Scalar.extui (Scalar.cmpi .eq (BitVec.ofNat 32 (i 1).val) 0#32)) 0#32) = 1#1
/-- In closed form over the 64 points. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (finish: write the scaling block) is taken: the column tile is 7. -/
abbrev cond0_1 (i : grid0.Coords) : Prop := k0_cond2 i = 1#1
/-- In closed form over the 64 points. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input tile is never idle. -/
theorem liveAt0_0 : ∀ t : Fin cfg0.N, cfg0.idle 0 (grid0.coords t) = false := by decide +kernel
/-- The copy's block is never idle. -/
theorem liveAt0_2 : ∀ t : Fin cfg0.N, cfg0.idle 2 (grid0.coords t) = false := by decide +kernel
/-- Away from column tile 7 the scaling block is idle, -/
theorem idleAt0_1 : ∀ t : Fin cfg0.N, ¬cond0_1 (grid0.coords t) → cfg0.idle 1 (grid0.coords t) = true := by decide +kernel
/-- and not written back; -/
theorem noFlush0_1 : ∀ t : Fin cfg0.N, ¬cond0_1 (grid0.coords t) → (cfg0.win 1).flush t = false := by decide +kernel
/-- at column tile 7 it is live. -/
theorem liveAt0_1 : ∀ t : Fin cfg0.N, cond0_1 (grid0.coords t) → cfg0.idle 1 (grid0.coords t) = false := by decide +kernel

/-! ## The memrefs the body is called with -/

/-- One staging buffer of each output window, through which its contents are stated. -/
abbrev VO0_1 : View sig .tc .vmem S1024x1 .f32 := (Memref.whole cc0_stg1_0 : Memref sig .tc .vmem S1024x1 .f32).view
abbrev VO0_2 : View sig .tc .vmem S1024x1024 .bf16 := (Memref.whole cc0_stg2_0 : Memref sig .tc .vmem S1024x1024 .bf16).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The scratch column of running row sums, a whole scoped buffer, and its view. -/
abbrev scM0_0 : Memref sig .tc .vmem S1024x1 .f32 := Memref.whole cc0_scratch0
abbrev VS0_0 : View sig .tc .vmem S1024x1 .f32 := scM0_0.view

/-- The invariant the region is entered with, the scratch column split off as a memref owned at some contents. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run, case by case -/

set_option maxHeartbeats 1000000 in
/-- Column tile 0: from the tile `x0`, the scaling block at any `xi1` (handed back untouched), the copy's block and
    the scratch at anything, the body runs to the end; the pieces it leaves in the copy's block and in the scratch
    are the witnesses. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) :
    Σ' (L2 : List (View.Piece (Elt F) S1024x1024 .bf16)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f2, %hf2, H2⟩, ⟨%f3, %hf3, H3⟩, ⟨%d4, %f4, -, H4⟩, ⟨%d5, %f5, -, H5⟩, Hk⟩
    obtain rfl := harg2.eq_unread hf2; obtain rfl := harg3.eq_unread hf3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

set_option maxHeartbeats 1000000 in
/-- A middle column tile: as at tile 0, but the scratch is found at the running sums `xs0` and not cleared. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) :
    Σ' (L2 : List (View.Piece (Elt F) S1024x1024 .bf16)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

set_option maxHeartbeats 1000000 in
/-- Column tile 7: the scratch is found at the running sums `xs0`; the scaling block, at anything, is written too. -/
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    Σ' (L1 : List (View.Piece (Elt F) S1024x1 .f32)) (L2 : List (View.Piece (Elt F) S1024x1024 .bf16)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__deg_kernel i arg2 harg2 arg3 harg3 arg4 harg4 arg5 harg5) K } := by
  refine ⟨?_, ?_, ?_, fun E K => ?run⟩
  case run =>
    simp only [cc0__deg_kernel_eq_skeleton]; unfold cc0__deg_kernel_skel
    unfold owns
    iintro ⟨⟨%f2, %hf2, H2⟩, ⟨%d3, %f3, -, H3⟩, ⟨%d4, %f4, -, H4⟩, ⟨%f5, %hf5, H5⟩, Hk⟩
    obtain rfl := harg2.eq_unread hf2; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; iexact H3
    isplitl [H4]
    · iexists _; iexact H4
    iexists _; iexact H5

end Cert.Kernel.Hand

end
-- ==== Proof.K_R0.lean ====
/-
  The degree kernel, second half: what its outputs and the scratch column hold after every grid point, the proof
  data of its pipeline, and the body obligation at every point.
-/
import proofs.«169190_j76347338654297_2_alg».proof.Proof.K_R0_Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point, for any proof data over the entry contents
    whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The pieces this case leaves in the copy's block tile it, so they cover it. -/
theorem cover0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) (y : S1024x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S1024x1024.size (by sl_kernel_rfl) y

/-- What this case leaves in the copy's block: its pieces read back. -/
def out0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) : Vec F S1024x1024 .bf16 :=
  VO0_2.read (Elt F) (VO0_2.writes (Elt F) VO0_2.junk (kernelRun0_A c i arg2 harg2 arg3 harg3 arg4 harg4 arg5 harg5 hc0 hc1 x0).1)

/-- The pieces this case leaves in the scratch column tile it, so they cover it. -/
theorem scover0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) (y : S1024x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1024x1.size (by sl_kernel_rfl) y

/-- What this case leaves in the scratch column: its pieces read back. -/
def sout0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) : Vec F S1024x1 .f32 :=
  VS0_0.read (Elt F) (VS0_0.writes (Elt F) VS0_0.junk (kernelRun0_A c i arg2 harg2 arg3 harg3 arg4 harg4 arg5 harg5 hc0 hc1 x0).2.1)

/-- The pieces this case leaves in the copy's block tile it, so they cover it. -/
theorem cover0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) (y : S1024x1024.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S1024x1024.size (by sl_kernel_rfl) y

/-- What this case leaves in the copy's block: its pieces read back. -/
def out0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) : Vec F S1024x1024 .bf16 :=
  VO0_2.read (Elt F) (VO0_2.writes (Elt F) VO0_2.junk (kernelRun0_B c i arg2 harg2 arg3 harg3 arg4 harg4 arg5 harg5 hc0 hc1 x0 xs0).1)

/-- The pieces this case leaves in the scratch column tile it, so they cover it. -/
theorem scover0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) (y : S1024x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1024x1.size (by sl_kernel_rfl) y

/-- What this case leaves in the scratch column: its pieces read back. -/
def sout0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 xs0).2.1)

/-- The pieces this case leaves in the scaling block tile it, so they cover it. -/
theorem cover0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S1024x1.size (by sl_kernel_rfl) y

/-- What this case leaves in the scaling block: its pieces read back. -/
def out0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) : Vec F S1024x1 .f32 :=
  VO0_1.read (Elt F) (VO0_1.writes (Elt F) VO0_1.junk (kernelRun0_C c i arg2 harg2 arg3 harg3 arg4 harg4 arg5 harg5 hc0 hc1 x0 xs0).1)

/-- The pieces this case leaves in the copy's block tile it, so they cover it. -/
theorem cover0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) (y : S1024x1024.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S1024x1024.size (by sl_kernel_rfl) y

/-- What this case leaves in the copy's block: its pieces read back. -/
def out0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) : Vec F S1024x1024 .bf16 :=
  VO0_2.read (Elt F) (VO0_2.writes (Elt F) VO0_2.junk (kernelRun0_C c i arg2 harg2 arg3 harg3 arg4 harg4 arg5 harg5 hc0 hc1 x0 xs0).2.1)

/-- The pieces this case leaves in the scratch column tile it, so they cover it. -/
theorem scover0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S1024x1.size (by sl_kernel_rfl) y

/-- What this case leaves in the scratch column: its pieces read back. -/
def sout0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 xs0).2.2.1)

/-! ## The closed forms as the cases' hypotheses -/

theorem hA0_0 (t : Fin cfg0.N) (h0 : t.val % 8 = 0) : cond0_0 (grid0.coords t) := (hcond0_0 t).mpr h0
theorem hA0_1 (t : Fin cfg0.N) (h0 : t.val % 8 = 0) : ¬cond0_1 (grid0.coords t) := fun h => by
  have h7 := (hcond0_1 t).mp h; omega
theorem hB0_0 (t : Fin cfg0.N) (h0 : ¬t.val % 8 = 0) : ¬cond0_0 (grid0.coords t) := fun h => h0 ((hcond0_0 t).mp h)
theorem hB0_1 (t : Fin cfg0.N) (h1 : ¬t.val % 8 = 7) : ¬cond0_1 (grid0.coords t) := fun h => h1 ((hcond0_1 t).mp h)
theorem hC0_0 (t : Fin cfg0.N) (h1 : t.val % 8 = 7) : ¬cond0_0 (grid0.coords t) := fun h => by
  have h0 := (hcond0_0 t).mp h; omega
theorem hC0_1 (t : Fin cfg0.N) (h1 : t.val % 8 = 7) : cond0_1 (grid0.coords t) := (hcond0_1 t).mpr h1

/-! ## What the outputs and the scratch hold after each point -/

/-- The scaling block's buffer, the copy's block's buffer, the scratch column. -/
abbrev Outs0 (F : FTy → Type) [FloatOps F] : Type := Vec F S1024x1 .f32 × Vec F S1024x1024 .bf16 × Vec F S1024x1 .f32

/-- At column tile 0: the scaling block is not stored into (a placeholder nothing consults); the copy's block and the
    scratch from the tile alone. -/
def ptA0 (c : Dev nD) (t : Fin cfg0.N) (h0 : t.val % 8 = 0) : Outs0 F :=
  (VO0_1.read (Elt F) VO0_1.junk,
   out0_A_2 c (grid0.coords t) (ms0_0 t) (hs0_0 t) (ms0_1 t) (hs0_1 t) (ms0_2 t) (hs0_2 t) scM0_0 (Memref.isWhole_whole _) (hA0_0 t h0) (hA0_1 t h0) (iblk0 V c 0 t),
   sout0_A_0 c (grid0.coords t) (ms0_0 t) (hs0_0 t) (ms0_1 t) (hs0_1 t) (ms0_2 t) (hs0_2 t) scM0_0 (Memref.isWhole_whole _) (hA0_0 t h0) (hA0_1 t h0) (iblk0 V c 0 t))

/-- At a middle column tile: over the running sums `xs` the tile before left. -/
def ptB0 (c : Dev nD) (t : Fin cfg0.N) (h0 : ¬t.val % 8 = 0) (h1 : ¬t.val % 8 = 7) (xs : Vec F S1024x1 .f32) : Outs0 F :=
  (VO0_1.read (Elt F) VO0_1.junk,
   out0_B_2 c (grid0.coords t) (ms0_0 t) (hs0_0 t) (ms0_1 t) (hs0_1 t) (ms0_2 t) (hs0_2 t) scM0_0 (Memref.isWhole_whole _) (hB0_0 t h0) (hB0_1 t h1) (iblk0 V c 0 t) xs,
   sout0_B_0 c (grid0.coords t) (ms0_0 t) (hs0_0 t) (ms0_1 t) (hs0_1 t) (ms0_2 t) (hs0_2 t) scM0_0 (Memref.isWhole_whole _) (hB0_0 t h0) (hB0_1 t h1) (iblk0 V c 0 t) xs)

/-- At column tile 7: over the running sums `xs`, the scaling block written too. -/
def ptC0 (c : Dev nD) (t : Fin cfg0.N) (h1 : t.val % 8 = 7) (xs : Vec F S1024x1 .f32) : Outs0 F :=
  (out0_C_1 c (grid0.coords t) (ms0_0 t) (hs0_0 t) (ms0_1 t) (hs0_1 t) (ms0_2 t) (hs0_2 t) scM0_0 (Memref.isWhole_whole _) (hC0_0 t h1) (hC0_1 t h1) (iblk0 V c 0 t) xs,
   out0_C_2 c (grid0.coords t) (ms0_0 t) (hs0_0 t) (ms0_1 t) (hs0_1 t) (ms0_2 t) (hs0_2 t) scM0_0 (Memref.isWhole_whole _) (hC0_0 t h1) (hC0_1 t h1) (iblk0 V c 0 t) xs,
   sout0_C_0 c (grid0.coords t) (ms0_0 t) (hs0_0 t) (ms0_1 t) (hs0_1 t) (ms0_2 t) (hs0_2 t) scM0_0 (Memref.isWhole_whole _) (hC0_0 t h1) (hC0_1 t h1) (iblk0 V c 0 t) xs)

/-- THE ACCUMULATION: what the two outputs' staging buffers and the scratch hold after the body at position `n`, the
    case chosen by the column tile `n % 8`, the running sums taken from position `n - 1`. -/
def outsAt0 (c : Dev nD) : (n : ℕ) → n < cfg0.N → Outs0 F
  | 0, hn => ptA0 V c ⟨0, hn⟩ (Nat.zero_mod 8)
  | n + 1, hn =>
    if h0 : (n + 1) % 8 = 0 then ptA0 V c ⟨n + 1, hn⟩ h0
    else if h1 : (n + 1) % 8 = 7 then ptC0 V c ⟨n + 1, hn⟩ h1 (outsAt0 c n (Nat.lt_of_succ_lt hn)).2.2
    else ptB0 V c ⟨n + 1, hn⟩ h0 h1 (outsAt0 c n (Nat.lt_of_succ_lt hn)).2.2

theorem outsAt0_A (c : Dev nD) (t : Fin cfg0.N) (h0 : t.val % 8 = 0) :
    outsAt0 V c t.val t.isLt = ptA0 V c t h0 := by
  obtain ⟨n, hn⟩ := t
  cases n with
  | zero => exact rfl
  | succ n => exact dif_pos h0

theorem outsAt0_B (c : Dev nD) (t : Fin cfg0.N) (h0 : ¬t.val % 8 = 0) (h1 : ¬t.val % 8 = 7) :
    outsAt0 V c t.val t.isLt
      = ptB0 V c t h0 h1 (outsAt0 V c (t.val - 1) (Nat.lt_of_le_of_lt (Nat.sub_le _ _) t.isLt)).2.2 := by
  obtain ⟨n, hn⟩ := t
  cases n with
  | zero => exact absurd (Nat.zero_mod 8) h0
  | succ n => exact (dif_neg h0).trans (dif_neg h1)

theorem outsAt0_C (c : Dev nD) (t : Fin cfg0.N) (h1 : t.val % 8 = 7) :
    outsAt0 V c t.val t.isLt
      = ptC0 V c t h1 (outsAt0 V c (t.val - 1) (Nat.lt_of_le_of_lt (Nat.sub_le _ _) t.isLt)).2.2 := by
  obtain ⟨n, hn⟩ := t
  cases n with
  | zero => exact absurd h1 (show ¬(0 % 8 = 7) by decide)
  | succ n => exact (dif_neg (fun h0 : (n + 1) % 8 = 0 => by simp only at h1; omega)).trans (dif_pos h1)

/-! ## The invariant -/

/-- Before position `n`: at the first point what the region is entered with; afterwards the same with the scratch
    column at the running sums the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the degree kernel's pipeline on core `c`: the arrays as the region finds them; after the body
    at point `t` the input's buffer at its block, the outputs' at `outsAt0`; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's memref holds its block; the column tile says which case the point is in; the
    invariant hands the body the scratch at the running sums the point before left (at anything at the first point) and
    takes it back at this point's; away from column tile 7 the scaling block's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 2 t = owns (c : Thread nD τ) (ms0_2 t) fullShare ((dat0 V c).after 2 t) from by
      unfold Dat.leavesExact; rw [liveAt0_2 t], after0_2]
  by_cases h0 : t.val % 8 = 0
  · rw [Dat.leavesExact_idle (dat0 V c) 1 t (idleAt0_1 t (hA0_1 t h0)) (noFlush0_1 t (hA0_1 t h0))]
    rw [outsAt0_A V c t h0]
    unfold ptA0 sout0_A_0 out0_A_2; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0_0 t h0) (hA0_1 t h0) (iblk0 V c 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0_0 t h0) (hA0_1 t h0) (iblk0 V c 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
  · have hz : t.val ≠ 0 := fun hz => h0 (by rw [hz])
    by_cases h1 : t.val % 8 = 7
    · rw [show (dat0 V c).leavesExact 1 t = owns (c : Thread nD τ) (ms0_1 t) fullShare ((dat0 V c).after 1 t) from by
        unfold Dat.leavesExact; rw [liveAt0_1 t (hC0_1 t h1)], after0_1]
      rw [outsAt0_C V c t h1]
      unfold ptC0 out0_C_1 out0_C_2 sout0_C_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (hC0_0 t h1) (hC0_1 t h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_C_0 c _ _ _ _ _ _ _ _ _ _ _ _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    · rw [Dat.leavesExact_idle (dat0 V c) 1 t (idleAt0_1 t (hB0_1 t h1)) (noFlush0_1 t (hB0_1 t h1))]
      rw [outsAt0_B V c t h0 h1]
      unfold ptB0 sout0_B_0 out0_B_2; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (hB0_0 t h0) (hB0_1 t h1) (iblk0 V c 0 t) _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_B_0 c _ _ _ _ _ _ _ _ _ _ _ _ _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the running sums are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitr [Hg]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K_R1_S.lean ====
/-
  The first layer's aggregation kernel, at the buffer contents V found on entry:
  what its six whole-body runs share.

  The grid is 4 x 4: point t has row tile i = t / 4 and column tile j = t % 4. The body keeps a running
  2048 x 64 sum in a scratch: at j = 0 it clears it; at every point it adds the product of the adjacency
  tile (i, j) with the feature tile j; at the diagonal tile i = j it adds the feature tile once more; at
  j = 3 it scales the sum by the rows' scaling column, multiplies by the weights, adds the bias, clamps
  at zero, scales again and writes the row tile i of the result. So three conditions on the point decide
  what runs; they are stated here with their closed forms over the sixteen points, together with where the
  output window is idle, the staging memrefs of a point, and the region invariant with the scratch opened.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not, for any proof
    data whose array is `V`'s and whose body leaves the block in place: where the window is not fetched its block
    index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- The column tile is the first one: the running sum is cleared. -/
abbrev cond1_0 (i : grid1.Coords) : Prop :=
  (Scalar.cmpi .ne (Scalar.extui (Scalar.cmpi .eq (BitVec.ofNat 32 (i 1).val) 0#32)) 0#32) = 1#1
/-- It holds at the points t with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The tile is on the diagonal (row tile = column tile): the feature tile is added once more. -/
abbrev cond1_1 (i : grid1.Coords) : Prop :=
  (Scalar.cmpi .ne (Scalar.extui (Scalar.cmpi .eq (BitVec.ofNat 32 (i 0).val) (BitVec.ofNat 32 (i 1).val))) 0#32) = 1#1
/-- It holds at the points 0, 5, 10, 15: those with t % 5 = 0. -/
theorem hcond1_1 : ∀ t : Fin cfg1.N, cond1_1 (grid1.coords t) ↔ t.val % 5 = 0 :=
  (by decide +kernel : ∀ t : Fin grid1.N, cond1_1 (grid1.coords t) ↔ t.val % 5 = 0)

/-- The column tile is the last one: the running sum is turned into the result's row tile. -/
abbrev cond1_2 (i : grid1.Coords) : Prop := k1_cond3 i = 1#1
/-- It holds at the points t with t % 4 = 3. -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

/-- The five inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last column tile the output is idle: nothing is stored into it, -/
theorem idleAt1_5 : ∀ t : Fin cfg1.N, ¬cond1_2 (grid1.coords t) → cfg1.idle 5 (grid1.coords t) = true := by decide +kernel
/-- and it is not written back there. -/
theorem noFlush1_5 : ∀ t : Fin cfg1.N, ¬cond1_2 (grid1.coords t) → (cfg1.win 5).flush t = false := by decide +kernel
/-- At the last column tile the output is live. -/
theorem liveAt1_5 : ∀ t : Fin cfg1.N, cond1_2 (grid1.coords t) → cfg1.idle 5 (grid1.coords t) = false := by decide +kernel

/-! ## The memrefs of a point -/

/-- One staging buffer of the output window, through which its contents are stated (the choice does not matter). -/
abbrev VO1_5 : View sig .tc .vmem S2048x128 .f32 := (Memref.whole cc1_stg5_0 : Memref sig .tc .vmem S2048x128 .f32).view
/-- Each window's current staging memref at point `t`, as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S2048x64 .f32 := Memref.whole cc1_scratch0
/-- The scratch as a view: what it holds is stated through it. -/
abbrev VS1_0 : View sig .tc .vmem S2048x64 .f32 := scM1_0.view

/-- What the launch hands the region, with the scratch opened: the scratch owned at some contents, the other scoped
    buffers unopened, the generator register at some state. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K_R1_A.lean ====
/-
  The aggregation kernel's whole body at a point of case A (first column tile, on the diagonal: the clearing runs, the diagonal addition runs, the finishing does not run;
  points 0).

  From the five input tiles at their contents, the output tile at contents handed back untouched and the running sum at
  anything, the body runs to the end holding the inputs as they were and the running sum with the
  pieces written; the pieces are the witness the run finds.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_S

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case A, with the pieces it leaves in the output tile (`L5`: none) and in the running sum (`LS0`). -/
noncomputable def kernelRun1_A (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K_R1_B.lean ====
/-
  The aggregation kernel's whole body at a point of case B (first column tile, off the diagonal: the clearing runs, the diagonal addition does not run, the finishing does not run;
  points 4, 8, 12).

  From the five input tiles at their contents, the output tile at contents handed back untouched and the running sum at
  anything, the body runs to the end holding the inputs as they were and the running sum with the
  pieces written; the pieces are the witness the run finds.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case B, with the pieces it leaves in the output tile (`L5`: none) and in the running sum (`LS0`). -/
noncomputable def kernelRun1_B (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K_R1_C.lean ====
/-
  The aggregation kernel's whole body at a point of case C (a middle column tile, on the diagonal: the clearing does not run, the diagonal addition runs, the finishing does not run;
  points 5, 10).

  From the five input tiles at their contents, the output tile at contents handed back untouched and the running sum at
  what the point before left, the body runs to the end holding the inputs as they were and the running sum with the
  pieces written; the pieces are the witness the run finds.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case C, with the pieces it leaves in the output tile (`L5`: none) and in the running sum (`LS0`). -/
noncomputable def kernelRun1_C (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K_R1_D.lean ====
/-
  The aggregation kernel's whole body at a point of case D (a middle column tile, off the diagonal: the clearing does not run, the diagonal addition does not run, the finishing does not run;
  points 1, 2, 6, 9, 13, 14).

  From the five input tiles at their contents, the output tile at contents handed back untouched and the running sum at
  what the point before left, the body runs to the end holding the inputs as they were and the running sum with the
  pieces written; the pieces are the witness the run finds.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case D, with the pieces it leaves in the output tile (`L5`: none) and in the running sum (`LS0`). -/
noncomputable def kernelRun1_D (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K_R1_E.lean ====
/-
  The aggregation kernel's whole body at a point of case E (last column tile, on the diagonal: the clearing does not run, the diagonal addition runs, the finishing runs;
  points 15).

  From the five input tiles at their contents, the output tile at anything and the running sum at
  what the point before left, the body runs to the end holding the inputs as they were and the running sum and the output tile with the
  pieces written; the pieces are the witness the run finds.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_D

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case E, with the pieces it leaves in the output tile (`L5`) and in the running sum (`LS0`). -/
noncomputable def kernelRun1_E (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨?_, ?_, fun E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K_R1_F.lean ====
/-
  The aggregation kernel's whole body at a point of case F (last column tile, off the diagonal: the clearing does not run, the diagonal addition does not run, the finishing runs;
  points 3, 7, 11).

  From the five input tiles at their contents, the output tile at anything and the running sum at
  what the point before left, the body runs to the end holding the inputs as they were and the running sum and the output tile with the
  pieces written; the pieces are the witness the run finds.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_E

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case F, with the pieces it leaves in the output tile (`L5`) and in the running sum (`LS0`). -/
noncomputable def kernelRun1_F (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨?_, ?_, fun E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K_R1.lean ====
/-
  The first layer's aggregation kernel, at the buffer contents V found on entry: its proof data and body obligation.

  Per case of the body's three conditions, what the run leaves in the output tile and in the running sum (the pieces
  read back), and that the stores cover them; point by point, what the output tile and the running sum hold
  (`outsAt1`: the case selected by the closed forms, the running sum read at what the point before left); the
  invariant with the running sum at those contents; the proof data; the body obligation by cases on the closed forms;
  and the entailments at the region's entry and exit.
-/
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.K_R1_F

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-- Case A stores nothing into the output tile (idle at its points, not written back there): a placeholder
    that nothing consults. -/
def out1_A_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x128 .f32 :=
  VO1_5.read (Elt F) (VO1_5.writes (Elt F) VO1_5.junk (kernelRun1_A c i arg2 harg2 arg3 harg3 arg4 harg4 arg5 harg5 arg6 harg6 arg7 harg7 arg8 harg8 hc0 hc1 hc2 x0 x1 x2 x3 x4).1)

/-- Case A's stores into the running sum cover it (each is the whole 2048 x 64 block). -/
theorem scover1_A_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (y : S2048x64.Idx) :
    ∃ pc ∈ (kernelRun1_A c i arg2 harg2 arg3 harg3 arg4 harg4 arg5 harg5 arg6 harg6 arg7 harg7 arg8 harg8 hc0 hc1 hc2 x0 x1 x2 x3 x4).2.1, y ∈ pc.1.set :=
  View.cover_of_tiledL (kernelRun1_A c i arg2 harg2 arg3 harg3 arg4 harg4 arg5 harg5 arg6 harg6 arg7 harg7 arg8 harg8 hc0 hc1 hc2 x0 x1 x2 x3 x4).2.1 S2048x64.size (by sl_kernel_rfl) y

/-- What case A leaves in the running sum: its pieces read back over junk. -/
def sout1_A_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 hc0 hc1 hc2 x0 x1 x2 x3 x4).2.1)

/-- Case B stores nothing into the output tile (idle at its points, not written back there): a placeholder
    that nothing consults. -/
def out1_B_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x128 .f32 :=
  VO1_5.read (Elt F) (VO1_5.writes (Elt F) VO1_5.junk (kernelRun1_B c i arg2 harg2 arg3 harg3 arg4 harg4 arg5 harg5 arg6 harg6 arg7 harg7 arg8 harg8 hc0 hc1 hc2 x0 x1 x2 x3 x4).1)

/-- Case B's stores into the running sum cover it (each is the whole 2048 x 64 block). -/
theorem scover1_B_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (y : S2048x64.Idx) :
    ∃ pc ∈ (kernelRun1_B c i arg2 harg2 arg3 harg3 arg4 harg4 arg5 harg5 arg6 harg6 arg7 harg7 arg8 harg8 hc0 hc1 hc2 x0 x1 x2 x3 x4).2.1, y ∈ pc.1.set :=
  View.cover_of_tiledL (kernelRun1_B c i arg2 harg2 arg3 harg3 arg4 harg4 arg5 harg5 arg6 harg6 arg7 harg7 arg8 harg8 hc0 hc1 hc2 x0 x1 x2 x3 x4).2.1 S2048x64.size (by sl_kernel_rfl) y

/-- What case B leaves in the running sum: its pieces read back over junk. -/
def sout1_B_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 hc0 hc1 hc2 x0 x1 x2 x3 x4).2.1)

/-- Case C stores nothing into the output tile (idle at its points, not written back there): a placeholder
    that nothing consults. -/
def out1_C_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_C c i arg2 harg2 arg3 harg3 arg4 harg4 arg5 harg5 arg6 harg6 arg7 harg7 arg8 harg8 hc0 hc1 hc2 x0 x1 x2 x3 x4 xs0).1)

/-- Case C's stores into the running sum cover it (each is the whole 2048 x 64 block). -/
theorem scover1_C_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_C c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 hc2 x0 x1 x2 x3 x4 xs0).2.1 S2048x64.size (by sl_kernel_rfl) y

/-- What case C leaves in the running sum: its pieces read back over junk. -/
def sout1_C_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 hc0 hc1 hc2 x0 x1 x2 x3 x4 xs0).2.1)

/-- Case D stores nothing into the output tile (idle at its points, not written back there): a placeholder
    that nothing consults. -/
def out1_D_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_D c i arg2 harg2 arg3 harg3 arg4 harg4 arg5 harg5 arg6 harg6 arg7 harg7 arg8 harg8 hc0 hc1 hc2 x0 x1 x2 x3 x4 xs0).1)

/-- Case D's stores into the running sum cover it (each is the whole 2048 x 64 block). -/
theorem scover1_D_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_D c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_D c i arg2 harg2 arg3 harg3 arg4 harg4 arg5 harg5 arg6 harg6 arg7 harg7 arg8 harg8 hc0 hc1 hc2 x0 x1 x2 x3 x4 xs0).2.1 S2048x64.size (by sl_kernel_rfl) y

/-- What case D leaves in the running sum: its pieces read back over junk. -/
def sout1_D_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_D c i arg2 harg2 arg3 harg3 arg4 harg4 arg5 harg5 arg6 harg6 arg7 harg7 arg8 harg8 hc0 hc1 hc2 x0 x1 x2 x3 x4 xs0).2.1)

/-- Case E's one store into the output tile covers it. -/
theorem cover1_E_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x128.Idx) :
    ∃ pc ∈ (kernelRun1_E c i arg2 harg2 arg3 harg3 arg4 harg4 arg5 harg5 arg6 harg6 arg7 harg7 arg8 harg8 hc0 hc1 hc2 x0 x1 x2 x3 x4 xs0).1, y ∈ pc.1.set :=
  View.cover_of_tiledL (kernelRun1_E c i arg2 harg2 arg3 harg3 arg4 harg4 arg5 harg5 arg6 harg6 arg7 harg7 arg8 harg8 hc0 hc1 hc2 x0 x1 x2 x3 x4 xs0).1 S2048x128.size (by sl_kernel_rfl) y

/-- What case E leaves in the output tile: its pieces read back over junk. -/
def out1_E_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_E c i arg2 harg2 arg3 harg3 arg4 harg4 arg5 harg5 arg6 harg6 arg7 harg7 arg8 harg8 hc0 hc1 hc2 x0 x1 x2 x3 x4 xs0).1)

/-- Case E's stores into the running sum cover it (each is the whole 2048 x 64 block). -/
theorem scover1_E_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_E c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_E c i arg2 harg2 arg3 harg3 arg4 harg4 arg5 harg5 arg6 harg6 arg7 harg7 arg8 harg8 hc0 hc1 hc2 x0 x1 x2 x3 x4 xs0).2.1 S2048x64.size (by sl_kernel_rfl) y

/-- What case E leaves in the running sum: its pieces read back over junk. -/
def sout1_E_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_E c i arg2 harg2 arg3 harg3 arg4 harg4 arg5 harg5 arg6 harg6 arg7 harg7 arg8 harg8 hc0 hc1 hc2 x0 x1 x2 x3 x4 xs0).2.1)

/-- Case F's one store into the output tile covers it. -/
theorem cover1_F_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x128.Idx) :
    ∃ pc ∈ (kernelRun1_F c i arg2 harg2 arg3 harg3 arg4 harg4 arg5 harg5 arg6 harg6 arg7 harg7 arg8 harg8 hc0 hc1 hc2 x0 x1 x2 x3 x4 xs0).1, y ∈ pc.1.set :=
  View.cover_of_tiledL (kernelRun1_F c i arg2 harg2 arg3 harg3 arg4 harg4 arg5 harg5 arg6 harg6 arg7 harg7 arg8 harg8 hc0 hc1 hc2 x0 x1 x2 x3 x4 xs0).1 S2048x128.size (by sl_kernel_rfl) y

/-- What case F leaves in the output tile: its pieces read back over junk. -/
def out1_F_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_F c i arg2 harg2 arg3 harg3 arg4 harg4 arg5 harg5 arg6 harg6 arg7 harg7 arg8 harg8 hc0 hc1 hc2 x0 x1 x2 x3 x4 xs0).1)

/-- Case F's stores into the running sum cover it (each is the whole 2048 x 64 block). -/
theorem scover1_F_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_F c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_F c i arg2 harg2 arg3 harg3 arg4 harg4 arg5 harg5 arg6 harg6 arg7 harg7 arg8 harg8 hc0 hc1 hc2 x0 x1 x2 x3 x4 xs0).2.1 S2048x64.size (by sl_kernel_rfl) y

/-- What case F leaves in the running sum: its pieces read back over junk. -/
def sout1_F_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_F c i arg2 harg2 arg3 harg3 arg4 harg4 arg5 harg5 arg6 harg6 arg7 harg7 arg8 harg8 hc0 hc1 hc2 x0 x1 x2 x3 x4 xs0).2.1)

/-! ## What the output tile and the running sum hold after each point -/

/-- THE ACCUMULATION. What the output's staging buffer and the running sum hold after the body at position `n`: the
    case the closed forms select at `n`, run at the point's memrefs and input blocks, the running sum read at what
    position `n - 1` left (the cases of the first column tile do not read it: they clear it first). -/
def outsAt1 (c : Dev nD) : (n : ℕ) → n < cfg1.N → Vec F S2048x128 .f32 × Vec F S2048x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 5 = 0 then
        False.elim (by have hN : n + 1 < 16 := lt_of_lt_of_eq hn (show cfg1.N = 16 from N_1); omega)
      else
        if h2 : (n + 1) % 4 = 3 then
          False.elim (by have hN : n + 1 < 16 := lt_of_lt_of_eq hn (show cfg1.N = 16 from N_1); omega)
        else
          (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 5 = 0 then
        if h2 : (n + 1) % 4 = 3 then
          (out1_E_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
        else
          (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        if h2 : (n + 1) % 4 = 3 then
          (out1_F_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_F_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
        else
          (out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : t.val % 5 = 0) (h2 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) ((hcond1_1 t).mpr h1) (fun h => h2 ((hcond1_2 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) ((hcond1_1 t).mpr h1) (fun h => h2 ((hcond1_2 t).mp h)) (iblk1 V c 0 t) (iblk1 V c 1 t) (iblk1 V c 2 t) (iblk1 V c 3 t) (iblk1 V c 4 t)) := by
  obtain ⟨n, hn⟩ := t
  cases n with
  | zero => exact rfl
  | succ n => exact (by exfalso; have hN : n + 1 < 16 := lt_of_lt_of_eq hn (show cfg1.N = 16 from N_1); (try dsimp only at h0 h1); omega)

/-- `outsAt1` at a point of case B: that case's contents. -/
theorem outsAt1_B (c : Dev nD) (t : Fin cfg1.N) (h0 : t.val % 4 = 0) (h1 : ¬t.val % 5 = 0) (h2 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t), sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)) := by
  obtain ⟨n, hn⟩ := t
  cases n with
  | zero => exact (by exfalso; (try dsimp only at h1); exact absurd (Nat.zero_mod _) h1)
  | succ n => exact ((dif_pos h0).trans ((dif_neg h1).trans ((dif_neg h2).trans rfl)))

/-- `outsAt1` at a point of case C: that case's contents, over what the point before left. -/
theorem outsAt1_C (c : Dev nD) (t : Fin cfg1.N) (h0 : ¬t.val % 4 = 0) (h1 : t.val % 5 = 0) (h2 : ¬t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_pos h1).trans ((dif_neg h2).trans rfl)))

/-- `outsAt1` at a point of case D: that case's contents, over what the point before left. -/
theorem outsAt1_D (c : Dev nD) (t : Fin cfg1.N) (h0 : ¬t.val % 4 = 0) (h1 : ¬t.val % 5 = 0) (h2 : ¬t.val % 4 = 3) :
    outsAt1 V c t.val t.isLt = (out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_neg h1).trans ((dif_neg h2).trans rfl)))

/-- `outsAt1` at a point of case E: that case's contents, over what the point before left. -/
theorem outsAt1_E (c : Dev nD) (t : Fin cfg1.N) (h0 : ¬t.val % 4 = 0) (h1 : t.val % 5 = 0) (h2 : t.val % 4 = 3) :
    outsAt1 V c t.val t.isLt = (out1_E_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_pos h1).trans ((dif_pos h2).trans rfl)))

/-- `outsAt1` at a point of case F: that case's contents, over what the point before left. -/
theorem outsAt1_F (c : Dev nD) (t : Fin cfg1.N) (h0 : ¬t.val % 4 = 0) (h1 : ¬t.val % 5 = 0) (h2 : t.val % 4 = 3) :
    outsAt1 V c t.val t.isLt = (out1_F_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_F_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_neg h1).trans ((dif_pos h2).trans rfl)))

/-- The region invariant before position `n`: before the first point what the launch hands over (every scoped buffer
    at anything); afterwards the same with the running sum at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n`: the running sum at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the running sum at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of the region on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the closed forms say which of the six cases the
    point is in, so that case's run applies; the invariant hands the body the running sum at what the point before
    left (at anything at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 5 = 0
    · by_cases h2 : t.val % 4 = 3
      · exfalso; omega
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_A V c t h0 h1 h2]
        unfold sout1_A_0; (try dsimp only)
        by_cases hz : t.val = 0
        · rw [PhiS1_castSucc V c t, PhiS1_zero V c _ _ hz, PhiA1_eq]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        · exfalso; omega
    · by_cases h2 : t.val % 4 = 3
      · exfalso; omega
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_B V c t h0 h1 h2]
        unfold sout1_B_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_B c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : t.val % 5 = 0
    · by_cases h2 : t.val % 4 = 3
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_E V c t h0 h1 h2]
        unfold out1_E_5 sout1_E_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_E c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_E_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_E_5 c _ _ _ _ _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_C V c t h0 h1 h2]
        unfold sout1_C_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_C c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val % 4 = 3
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_F V c t h0 h1 h2]
        unfold out1_F_5 sout1_F_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_F c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_F_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_F_5 c _ _ _ _ _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_D V c t h0 h1 h2]
        unfold sout1_D_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_D c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_D_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the running sum's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K_R2_Runs.lean ====
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-!
  Region 2 (the second aggregation): what its runs share.

  The body keeps a running sum in a scratch block.  At the first column tile (j = 0) it clears the block; at every
  tile it adds the product of the adjacency tile with the narrowed feature block; on the diagonal (i = j) it adds
  the feature block itself; at the last column tile (j = 3) it scales the sum by the column of inverse square
  roots and writes the two heads and the latent sample.  The three conditions are decided here over the 4 x 4
  grid in closed form, together with where the three output windows are idle.
-/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, the
    block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched, the
    block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched, the
    block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: unfetched, the
    block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: unfetched, the
    block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: unfetched, the
    block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: unfetched, the
    block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The point is at the first column tile: the body clears the running sum. -/
abbrev cond2_0 (i : grid2.Coords) : Prop :=
  (Scalar.cmpi .ne (Scalar.extui (Scalar.cmpi .eq (BitVec.ofNat 32 (i 1).val) 0#32)) 0#32) = 1#1
/-- It holds where the point's number is a multiple of 4. -/
theorem hcond2_0 : ∀ t : Fin cfg2.N, cond2_0 (grid2.coords t) ↔ t.val % 4 = 0 :=
  (by decide +kernel : ∀ t : Fin grid2.N, cond2_0 (grid2.coords t) ↔ t.val % 4 = 0)

/-- The point is on the diagonal: the body adds the feature block itself. -/
abbrev cond2_1 (i : grid2.Coords) : Prop :=
  (Scalar.cmpi .ne (Scalar.extui (Scalar.cmpi .eq (BitVec.ofNat 32 (i 0).val) (BitVec.ofNat 32 (i 1).val))) 0#32) = 1#1
/-- It holds where the row tile is the column tile. -/
theorem hcond2_1 : ∀ t : Fin cfg2.N, cond2_1 (grid2.coords t) ↔ t.val / 4 = t.val % 4 :=
  (by decide +kernel : ∀ t : Fin grid2.N, cond2_1 (grid2.coords t) ↔ t.val / 4 = t.val % 4)

/-- The point is at the last column tile: the body finishes the row tile. -/
abbrev cond2_2 (i : grid2.Coords) : Prop := k2_cond3 i = 1#1
/-- It holds where the point's number is 3 modulo 4. -/
theorem hcond2_2 : ∀ t : Fin cfg2.N, cond2_2 (grid2.coords t) ↔ t.val % 4 = 3 :=
  (by decide +kernel : ∀ t : Fin grid2.N, cond2_2 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
/-- Away from the last column tile output 8 is idle and is not written back. -/
theorem idleAt2_8 : ∀ t : Fin cfg2.N, ¬cond2_2 (grid2.coords t) → cfg2.idle 8 (grid2.coords t) = true := by decide +kernel
theorem noFlush2_8 : ∀ t : Fin cfg2.N, ¬cond2_2 (grid2.coords t) → (cfg2.win 8).flush t = false := by decide +kernel
/-- At the last column tile output 8 is live. -/
theorem liveAt2_8 : ∀ t : Fin cfg2.N, cond2_2 (grid2.coords t) → cfg2.idle 8 (grid2.coords t) = false := by decide +kernel
/-- Away from the last column tile output 9 is idle and is not written back. -/
theorem idleAt2_9 : ∀ t : Fin cfg2.N, ¬cond2_2 (grid2.coords t) → cfg2.idle 9 (grid2.coords t) = true := by decide +kernel
theorem noFlush2_9 : ∀ t : Fin cfg2.N, ¬cond2_2 (grid2.coords t) → (cfg2.win 9).flush t = false := by decide +kernel
/-- At the last column tile output 9 is live. -/
theorem liveAt2_9 : ∀ t : Fin cfg2.N, cond2_2 (grid2.coords t) → cfg2.idle 9 (grid2.coords t) = false := by decide +kernel
/-- Away from the last column tile output 10 is idle and is not written back. -/
theorem idleAt2_10 : ∀ t : Fin cfg2.N, ¬cond2_2 (grid2.coords t) → cfg2.idle 10 (grid2.coords t) = true := by decide +kernel
theorem noFlush2_10 : ∀ t : Fin cfg2.N, ¬cond2_2 (grid2.coords t) → (cfg2.win 10).flush t = false := by decide +kernel
/-- At the last column tile output 10 is live. -/
theorem liveAt2_10 : ∀ t : Fin cfg2.N, cond2_2 (grid2.coords t) → cfg2.idle 10 (grid2.coords t) = false := by decide +kernel

/-! ## The staging and scratch memrefs -/

/-- One staging buffer of output window 8, through which its contents are stated. -/
abbrev VO2_8 : View sig .tc .vmem S2048x32 .f32 := (Memref.whole cc2_stg8_0 : Memref sig .tc .vmem S2048x32 .f32).view
/-- One staging buffer of output window 9, through which its contents are stated. -/
abbrev VO2_9 : View sig .tc .vmem S2048x32 .f32 := (Memref.whole cc2_stg9_0 : Memref sig .tc .vmem S2048x32 .f32).view
/-- One staging buffer of output window 10, through which its contents are stated. -/
abbrev VO2_10 : View sig .tc .vmem S2048x32 .f32 := (Memref.whole cc2_stg10_0 : Memref sig .tc .vmem S2048x32 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2048x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2048x32 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S2048x32 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S2048x32 .f32 := win2_10.stage (cfg2.slots t 10)
abbrev hs2_10 (t : Fin cfg2.N) : (ms2_10 t).IsWhole := hstage2_10 ((cfg2.slots t 10).cast nbuf2_10)
/-- The scratch operand: the running sum, a whole scoped buffer passed beside the windows. -/
abbrev scM2_0 : Memref sig .tc .vmem S2048x128 .f32 := Memref.whole cc2_scratch0
/-- The running sum as a view: what it holds is stated through it. -/
abbrev VS2_0 : View sig .tc .vmem S2048x128 .f32 := scM2_0.view

/-- The scoped buffers of the region that are neither staging buffers nor the running sum: left unopened. -/
abbrev restBut2 (c : Dev nD) : sProp 𝕄 :=
  Pipeline.scopedRestBut (Ix := Unit) (Name := ℕ) (U := UR sig nD τ) (Lvl := ℕ) (Val := Elt F) spec2 c [cc2_scratch0]

/-- The class's invariant with the running sum as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.Kernel.Hand

end
-- ==== Proof.K_R2_Cases.lean ====
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import proofs.«169190_j76347338654297_2_alg».proof.Proof.K_R2_Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-!
  Region 2: the body's run in each of its six control cases (first / middle / last column tile, on or off the
  diagonal), each by running the skeleton with the three conditions decided by the case's hypotheses.
-/

set_option maxHeartbeats 4000000 in
/-- The body at a point of the case "first column tile, on the diagonal": on whole staging memrefs, the inputs' at their
    blocks, the outputs' (idle here) at contents handed back untouched, the running sum at anything, it runs to
    the continuation holding the inputs as they were and the running sum with its pieces written
    (the pieces, last first, are the witnesses the run finds). -/
noncomputable def kernelRun2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : cond2_0 i) (hc1 : cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "first column tile, off the diagonal": on whole staging memrefs, the inputs' at their
    blocks, the outputs' (idle here) at contents handed back untouched, the running sum at anything, it runs to
    the continuation holding the inputs as they were and the running sum with its pieces written
    (the pieces, last first, are the witnesses the run finds). -/
noncomputable def kernelRun2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : cond2_0 i) (hc1 : ¬cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "a middle column tile, on the diagonal": on whole staging memrefs, the inputs' at their
    blocks, the outputs' (idle here) at contents handed back untouched, the running sum at what the point before left, it runs to
    the continuation holding the inputs as they were and the running sum with its pieces written
    (the pieces, last first, are the witnesses the run finds). -/
noncomputable def kernelRun2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "a middle column tile, off the diagonal": on whole staging memrefs, the inputs' at their
    blocks, the outputs' (idle here) at contents handed back untouched, the running sum at what the point before left, it runs to
    the continuation holding the inputs as they were and the running sum with its pieces written
    (the pieces, last first, are the witnesses the run finds). -/
noncomputable def kernelRun2_D (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : ¬cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "last column tile, on the diagonal": on whole staging memrefs, the inputs' at their
    blocks, the outputs' at anything, the running sum at what the point before left, it runs to
    the continuation holding the inputs as they were, each output with its pieces written and the running sum with its pieces written
    (the pieces, last first, are the witnesses the run finds). -/
noncomputable def kernelRun2_E (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    Σ' (L8 : List (View.Piece (Elt F) S2048x32 .f32)) (L9 : List (View.Piece (Elt F) S2048x32 .f32)) (L10 : List (View.Piece (Elt F) S2048x32 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact HS0

set_option maxHeartbeats 4000000 in
/-- The body at a point of the case "last column tile, off the diagonal": on whole staging memrefs, the inputs' at their
    blocks, the outputs' at anything, the running sum at what the point before left, it runs to
    the continuation holding the inputs as they were, each output with its pieces written and the running sum with its pieces written
    (the pieces, last first, are the witnesses the run finds). -/
noncomputable def kernelRun2_F (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : ¬cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    Σ' (L8 : List (View.Piece (Elt F) S2048x32 .f32)) (L9 : List (View.Piece (Elt F) S2048x32 .f32)) (L10 : List (View.Piece (Elt F) S2048x32 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact HS0

end Cert.Kernel.Hand

end
-- ==== Proof.K_R2.lean ====
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import proofs.«169190_j76347338654297_2_alg».proof.Proof.K_R2_Cases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-!
  Region 2 (the second aggregation): the proof data of its pipeline, the body obligation at every grid point, and
  the entry and exit entailments.

  After the body at point t = 4 i + j the running sum holds what the case at t leaves: the cleared block plus the
  products of the column tiles 0..j (plus the feature block once the diagonal is passed); the three output windows
  hold, at j = 3, the two heads and the latent sample computed from the scaled sum, and are idle elsewhere.
-/

/-! ## What each case leaves -/

/-- What an output window's buffer is said to hold where the body stores nothing into it (never consulted:
    the window is idle there and not written back). -/
def idleOut2 : Vec F S2048x32 .f32 := VO2_8.read (Elt F) VO2_8.junk

/-- Case A's pieces for the running sum cover it. -/
theorem scover2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (y : S2048x128.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S2048x128.size (by sl_kernel_rfl) y

/-- What case A leaves in the running sum: its pieces read back. -/
def sout2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) : Vec F S2048x128 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case B's pieces for the running sum cover it. -/
theorem scover2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (y : S2048x128.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S2048x128.size (by sl_kernel_rfl) y

/-- What case B leaves in the running sum: its pieces read back. -/
def sout2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) : Vec F S2048x128 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case C's pieces for the running sum cover it. -/
theorem scover2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x128.size (by sl_kernel_rfl) y

/-- What case C leaves in the running sum: its pieces read back. -/
def sout2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case D's pieces for the running sum cover it. -/
theorem scover2_D (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x128.size (by sl_kernel_rfl) y

/-- What case D leaves in the running sum: its pieces read back. -/
def sout2_D (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case E's pieces for the running sum cover it. -/
theorem scover2_E (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1 S2048x128.size (by sl_kernel_rfl) y

/-- What case E leaves in the running sum: its pieces read back. -/
def sout2_E (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1)

/-- Case E's pieces for output 8 cover its block. -/
theorem cover2_E_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x32.size (by sl_kernel_rfl) y

/-- What case E leaves in output 8's staging buffer: its pieces read back. -/
def out2_E_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_8.read (Elt F) (VO2_8.writes (Elt F) VO2_8.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case E's pieces for output 9 cover its block. -/
theorem cover2_E_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1 S2048x32.size (by sl_kernel_rfl) y

/-- What case E leaves in output 9's staging buffer: its pieces read back. -/
def out2_E_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_9.read (Elt F) (VO2_9.writes (Elt F) VO2_9.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1)

/-- Case E's pieces for output 10 cover its block. -/
theorem cover2_E_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1 S2048x32.size (by sl_kernel_rfl) y

/-- What case E leaves in output 10's staging buffer: its pieces read back. -/
def out2_E_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_10.read (Elt F) (VO2_10.writes (Elt F) VO2_10.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1)

/-- Case F's pieces for the running sum cover it. -/
theorem scover2_F (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1 S2048x128.size (by sl_kernel_rfl) y

/-- What case F leaves in the running sum: its pieces read back. -/
def sout2_F (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1)

/-- Case F's pieces for output 8 cover its block. -/
theorem cover2_F_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x32.size (by sl_kernel_rfl) y

/-- What case F leaves in output 8's staging buffer: its pieces read back. -/
def out2_F_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_8.read (Elt F) (VO2_8.writes (Elt F) VO2_8.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case F's pieces for output 9 cover its block. -/
theorem cover2_F_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1 S2048x32.size (by sl_kernel_rfl) y

/-- What case F leaves in output 9's staging buffer: its pieces read back. -/
def out2_F_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_9.read (Elt F) (VO2_9.writes (Elt F) VO2_9.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1)

/-- Case F's pieces for output 10 cover its block. -/
theorem cover2_F_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1 S2048x32.size (by sl_kernel_rfl) y

/-- What case F leaves in output 10's staging buffer: its pieces read back. -/
def out2_F_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_10.read (Elt F) (VO2_10.writes (Elt F) VO2_10.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1)

/-! ## The cases at a grid point -/

/-- Case A at point `t`: what it leaves in the running sum. -/
def ptS2_A (c : Dev nD) (t : Fin cfg2.N) (h0 : t.val % 4 = 0) (h1 : t.val / 4 = t.val % 4) (h2 : ¬t.val % 4 = 3) : Vec F S2048x128 .f32 :=
  sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)

/-- Case B at point `t`: what it leaves in the running sum. -/
def ptS2_B (c : Dev nD) (t : Fin cfg2.N) (h0 : t.val % 4 = 0) (h1 : ¬t.val / 4 = t.val % 4) (h2 : ¬t.val % 4 = 3) : Vec F S2048x128 .f32 :=
  sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)

/-- Case C at point `t`: what it leaves in the running sum. -/
def ptS2_C (c : Dev nD) (t : Fin cfg2.N) (h0 : ¬t.val % 4 = 0) (h1 : t.val / 4 = t.val % 4) (h2 : ¬t.val % 4 = 3) (xs : Vec F S2048x128 .f32) : Vec F S2048x128 .f32 :=
  sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) xs

/-- Case D at point `t`: what it leaves in the running sum. -/
def ptS2_D (c : Dev nD) (t : Fin cfg2.N) (h0 : ¬t.val % 4 = 0) (h1 : ¬t.val / 4 = t.val % 4) (h2 : ¬t.val % 4 = 3) (xs : Vec F S2048x128 .f32) : Vec F S2048x128 .f32 :=
  sout2_D c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) xs

/-- Case E at point `t`: what it leaves in the running sum. -/
def ptS2_E (c : Dev nD) (t : Fin cfg2.N) (h0 : ¬t.val % 4 = 0) (h1 : t.val / 4 = t.val % 4) (h2 : t.val % 4 = 3) (xs : Vec F S2048x128 .f32) : Vec F S2048x128 .f32 :=
  sout2_E c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case E at point `t`: what it leaves in output 8's buffer. -/
def ptO2_E_8 (c : Dev nD) (t : Fin cfg2.N) (h0 : ¬t.val % 4 = 0) (h1 : t.val / 4 = t.val % 4) (h2 : t.val % 4 = 3) (xs : Vec F S2048x128 .f32) : Vec F S2048x32 .f32 :=
  out2_E_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case E at point `t`: what it leaves in output 9's buffer. -/
def ptO2_E_9 (c : Dev nD) (t : Fin cfg2.N) (h0 : ¬t.val % 4 = 0) (h1 : t.val / 4 = t.val % 4) (h2 : t.val % 4 = 3) (xs : Vec F S2048x128 .f32) : Vec F S2048x32 .f32 :=
  out2_E_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case E at point `t`: what it leaves in output 10's buffer. -/
def ptO2_E_10 (c : Dev nD) (t : Fin cfg2.N) (h0 : ¬t.val % 4 = 0) (h1 : t.val / 4 = t.val % 4) (h2 : t.val % 4 = 3) (xs : Vec F S2048x128 .f32) : Vec F S2048x32 .f32 :=
  out2_E_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs

/-- Case F at point `t`: what it leaves in the running sum. -/
def ptS2_F (c : Dev nD) (t : Fin cfg2.N) (h0 : ¬t.val % 4 = 0) (h1 : ¬t.val / 4 = t.val % 4) (h2 : t.val % 4 = 3) (xs : Vec F S2048x128 .f32) : Vec F S2048x128 .f32 :=
  sout2_F c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case F at point `t`: what it leaves in output 8's buffer. -/
def ptO2_F_8 (c : Dev nD) (t : Fin cfg2.N) (h0 : ¬t.val % 4 = 0) (h1 : ¬t.val / 4 = t.val % 4) (h2 : t.val % 4 = 3) (xs : Vec F S2048x128 .f32) : Vec F S2048x32 .f32 :=
  out2_F_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case F at point `t`: what it leaves in output 9's buffer. -/
def ptO2_F_9 (c : Dev nD) (t : Fin cfg2.N) (h0 : ¬t.val % 4 = 0) (h1 : ¬t.val / 4 = t.val % 4) (h2 : t.val % 4 = 3) (xs : Vec F S2048x128 .f32) : Vec F S2048x32 .f32 :=
  out2_F_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case F at point `t`: what it leaves in output 10's buffer. -/
def ptO2_F_10 (c : Dev nD) (t : Fin cfg2.N) (h0 : ¬t.val % 4 = 0) (h1 : ¬t.val / 4 = t.val % 4) (h2 : t.val % 4 = 3) (xs : Vec F S2048x128 .f32) : Vec F S2048x32 .f32 :=
  out2_F_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs

/-! ## What the outputs and the running sum hold after each point -/

/-- What the three outputs' staging buffers and the running sum hold after the body at position `n`: the case the
    closed forms select there, run at the point's memrefs and input blocks, over the running sum the point before
    left (at the first column tile the sum is cleared, so nothing before is read). -/
def outsAt2 (c : Dev nD) : (n : ℕ) → n < cfg2.N → Vec F S2048x32 .f32 × Vec F S2048x32 .f32 × Vec F S2048x32 .f32 × Vec F S2048x128 .f32
  | 0, hn => (idleOut2, idleOut2, idleOut2, ptS2_A V c ⟨0, hn⟩ (Nat.zero_mod 4) (show (0 : ℕ) / 4 = 0 % 4 from rfl) (show ¬(0 : ℕ) % 4 = 3 by decide))
  | n + 1, hn =>
    if h0 : (n + 1) % 4 = 0 then
      if h1 : (n + 1) / 4 = (n + 1) % 4 then
        (idleOut2, idleOut2, idleOut2, ptS2_A V c ⟨n + 1, hn⟩ h0 h1 (show ¬(n + 1) % 4 = 3 by omega))
      else
        (idleOut2, idleOut2, idleOut2, ptS2_B V c ⟨n + 1, hn⟩ h0 h1 (show ¬(n + 1) % 4 = 3 by omega))
    else if h2 : (n + 1) % 4 = 3 then
      if h1 : (n + 1) / 4 = (n + 1) % 4 then
        (ptO2_E_8 V c ⟨n + 1, hn⟩ h0 h1 h2 (outsAt2 c n (Nat.lt_of_succ_lt hn)).2.2.2, ptO2_E_9 V c ⟨n + 1, hn⟩ h0 h1 h2 (outsAt2 c n (Nat.lt_of_succ_lt hn)).2.2.2, ptO2_E_10 V c ⟨n + 1, hn⟩ h0 h1 h2 (outsAt2 c n (Nat.lt_of_succ_lt hn)).2.2.2, ptS2_E V c ⟨n + 1, hn⟩ h0 h1 h2 (outsAt2 c n (Nat.lt_of_succ_lt hn)).2.2.2)
      else
        (ptO2_F_8 V c ⟨n + 1, hn⟩ h0 h1 h2 (outsAt2 c n (Nat.lt_of_succ_lt hn)).2.2.2, ptO2_F_9 V c ⟨n + 1, hn⟩ h0 h1 h2 (outsAt2 c n (Nat.lt_of_succ_lt hn)).2.2.2, ptO2_F_10 V c ⟨n + 1, hn⟩ h0 h1 h2 (outsAt2 c n (Nat.lt_of_succ_lt hn)).2.2.2, ptS2_F V c ⟨n + 1, hn⟩ h0 h1 h2 (outsAt2 c n (Nat.lt_of_succ_lt hn)).2.2.2)
    else
      if h1 : (n + 1) / 4 = (n + 1) % 4 then
        (idleOut2, idleOut2, idleOut2, ptS2_C V c ⟨n + 1, hn⟩ h0 h1 h2 (outsAt2 c n (Nat.lt_of_succ_lt hn)).2.2.2)
      else
        (idleOut2, idleOut2, idleOut2, ptS2_D V c ⟨n + 1, hn⟩ h0 h1 h2 (outsAt2 c n (Nat.lt_of_succ_lt hn)).2.2.2)

/-- `outsAt2` at a point of case A. -/
theorem outsAt2_A (c : Dev nD) (t : Fin cfg2.N) (h0 : t.val % 4 = 0) (h1 : t.val / 4 = t.val % 4) (h2 : ¬t.val % 4 = 3) :
    outsAt2 V c t.val t.isLt = (idleOut2, idleOut2, idleOut2, ptS2_A V c t h0 h1 h2) := by
  obtain ⟨n, hn⟩ := t
  cases n with
  | zero => exact rfl
  | succ n => exact (dif_pos h0).trans ((dif_pos h1).trans rfl)

/-- `outsAt2` at a point of case B. -/
theorem outsAt2_B (c : Dev nD) (t : Fin cfg2.N) (h0 : t.val % 4 = 0) (h1 : ¬t.val / 4 = t.val % 4) (h2 : ¬t.val % 4 = 3) :
    outsAt2 V c t.val t.isLt = (idleOut2, idleOut2, idleOut2, ptS2_B V c t h0 h1 h2) := by
  obtain ⟨n, hn⟩ := t
  cases n with
  | zero => exact absurd (show (0 : ℕ) / 4 = 0 % 4 from rfl) h1
  | succ n => exact (dif_pos h0).trans ((dif_neg h1).trans rfl)

/-- `outsAt2` at a point of case C. -/
theorem outsAt2_C (c : Dev nD) (t : Fin cfg2.N) (h0 : ¬t.val % 4 = 0) (h1 : t.val / 4 = t.val % 4) (h2 : ¬t.val % 4 = 3) :
    outsAt2 V c t.val t.isLt = (idleOut2, idleOut2, idleOut2, ptS2_C V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_neg h2).trans ((dif_pos h1).trans rfl))

/-- `outsAt2` at a point of case D. -/
theorem outsAt2_D (c : Dev nD) (t : Fin cfg2.N) (h0 : ¬t.val % 4 = 0) (h1 : ¬t.val / 4 = t.val % 4) (h2 : ¬t.val % 4 = 3) :
    outsAt2 V c t.val t.isLt = (idleOut2, idleOut2, idleOut2, ptS2_D V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_neg h2).trans ((dif_neg h1).trans rfl))

/-- `outsAt2` at a point of case E. -/
theorem outsAt2_E (c : Dev nD) (t : Fin cfg2.N) (h0 : ¬t.val % 4 = 0) (h1 : t.val / 4 = t.val % 4) (h2 : t.val % 4 = 3) :
    outsAt2 V c t.val t.isLt = (ptO2_E_8 V c t h0 h1 h2 (outsAt2 V c (t.val - 1) (Nat.lt_of_le_of_lt (Nat.sub_le _ _) t.isLt)).2.2.2, ptO2_E_9 V c t h0 h1 h2 (outsAt2 V c (t.val - 1) (Nat.lt_of_le_of_lt (Nat.sub_le _ _) t.isLt)).2.2.2, ptO2_E_10 V c t h0 h1 h2 (outsAt2 V c (t.val - 1) (Nat.lt_of_le_of_lt (Nat.sub_le _ _) t.isLt)).2.2.2, ptS2_E V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_pos h2).trans ((dif_pos h1).trans rfl))

/-- `outsAt2` at a point of case F. -/
theorem outsAt2_F (c : Dev nD) (t : Fin cfg2.N) (h0 : ¬t.val % 4 = 0) (h1 : ¬t.val / 4 = t.val % 4) (h2 : t.val % 4 = 3) :
    outsAt2 V c t.val t.isLt = (ptO2_F_8 V c t h0 h1 h2 (outsAt2 V c (t.val - 1) (Nat.lt_of_le_of_lt (Nat.sub_le _ _) t.isLt)).2.2.2, ptO2_F_9 V c t h0 h1 h2 (outsAt2 V c (t.val - 1) (Nat.lt_of_le_of_lt (Nat.sub_le _ _) t.isLt)).2.2.2, ptO2_F_10 V c t h0 h1 h2 (outsAt2 V c (t.val - 1) (Nat.lt_of_le_of_lt (Nat.sub_le _ _) t.isLt)).2.2.2, ptS2_F V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_pos h2).trans ((dif_neg h1).trans rfl))

/-! ## The invariant -/

/-- The region invariant before position `n`: before the first point the class's (every scratch at anything);
    afterwards the running sum at what the point before left, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2.2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.2) ∗ restBut2 (F := F) c) ∗ (∃ r, prngReg c r)) := by
  cases n with
  | zero => exact absurd rfl hz
  | succ n => rfl

/-! ## The pipeline's proof data -/

/-- The proof data of the region's pipeline on core `c`: the arrays as the region finds them; after the body at
    point `t` each input's buffer at its block and the outputs' at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2.1
    | ⟨10, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2.1 := by dsimp only [dat2]
theorem after2_10 (c : Dev nD) (t : Fin cfg2.N) : (dat2 V c).after 10 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 16000000 in
/-- The body at any point: the inputs' memrefs hold their blocks; the closed forms say which case the point is in;
    the case's run applies; the invariant hands the body the running sum at what the point before left (at anything
    at the very first point) and takes it back at this point's contents; the outputs are handed back untouched where
    they are idle and with their pieces read back where they are written; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  by_cases h0 : t.val % 4 = 0
  · have h2 : ¬t.val % 4 = 3 := by omega
    rw [Dat.leavesExact_idle (dat2 V c) 8 t (idleAt2_8 t (fun h => h2 ((hcond2_2 t).mp h))) (noFlush2_8 t (fun h => h2 ((hcond2_2 t).mp h)))]
    rw [Dat.leavesExact_idle (dat2 V c) 9 t (idleAt2_9 t (fun h => h2 ((hcond2_2 t).mp h))) (noFlush2_9 t (fun h => h2 ((hcond2_2 t).mp h)))]
    rw [Dat.leavesExact_idle (dat2 V c) 10 t (idleAt2_10 t (fun h => h2 ((hcond2_2 t).mp h))) (noFlush2_10 t (fun h => h2 ((hcond2_2 t).mp h)))]
    by_cases h1 : t.val / 4 = t.val % 4
    · -- first column tile, on the diagonal: the very first point
      rw [outsAt2_A V c t h0 h1 h2]
      unfold ptS2_A sout2_A; (try dsimp only)
      have hz : t.val = 0 := by omega
      rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_A c (grid2.coords t) _ _ _ _ _ _ _ _ _ _ _ _ _ _ _ _ _ _ _ _ _ _ _ _ ((hcond2_0 t).mpr h0) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10
    · -- first column tile, off the diagonal
      rw [outsAt2_B V c t h0 h1 h2]
      unfold ptS2_B sout2_B; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_B c (grid2.coords t) _ _ _ _ _ _ _ _ _ _ _ _ _ _ _ _ _ _ _ _ _ _ _ _ ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      iintro ⟨H0, H1, H2, H3, H4, H5, H6, H7, H8, H9, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10
  · by_cases h2 : t.val % 4 = 3
    · -- last column tile
      rw [show (dat2 V c).leavesExact 8 t = owns (c : Thread nD τ) (ms2_8 t) fullShare ((dat2 V c).after 8 t) from by
        unfold Dat.leavesExact; rw [liveAt2_8 t ((hcond2_2 t).mpr h2)], after2_8]
      rw [show (dat2 V c).leavesExact 9 t = owns (c : Thread nD τ) (ms2_9 t) fullShare ((dat2 V c).after 9 t) from by
        unfold Dat.leavesExact; rw [liveAt2_9 t ((hcond2_2 t).mpr h2)], after2_9]
      rw [show (dat2 V c).leavesExact 10 t = owns (c : Thread nD τ) (ms2_10 t) fullShare ((dat2 V c).after 10 t) from by
        unfold Dat.leavesExact; rw [liveAt2_10 t ((hcond2_2 t).mpr h2)], after2_10]
      by_cases h1 : t.val / 4 = t.val % 4
      · -- on the diagonal
        rw [outsAt2_E V c t h0 h1 h2]
        unfold ptS2_E sout2_E ptO2_E_8 out2_E_8 ptO2_E_9 out2_E_9 ptO2_E_10 out2_E_10; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_E c (grid2.coords t) _ _ _ _ _ _ _ _ _ _ _ _ _ _ _ _ _ _ _ _ _ _ _ _ (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_E c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover2_E_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover2_E_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover2_E_10 c _ _ _ _ _ _ _ _ _ _ _ _ _ _ _ _ _ _ _ _ _ _ _ _ _ _ _ _ _ _ _ _ _ _ _ _ _)
      · -- off the diagonal
        rw [outsAt2_F V c t h0 h1 h2]
        unfold ptS2_F sout2_F ptO2_F_8 out2_F_8 ptO2_F_9 out2_F_9 ptO2_F_10 out2_F_10; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_F c (grid2.coords t) _ _ _ _ _ _ _ _ _ _ _ _ _ _ _ _ _ _ _ _ _ _ _ _ (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_F c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover2_F_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover2_F_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover2_F_10 c _ _ _ _ _ _ _ _ _ _ _ _ _ _ _ _ _ _ _ _ _ _ _ _ _ _ _ _ _ _ _ _ _ _ _ _ _)
    · -- a middle column tile
      rw [Dat.leavesExact_idle (dat2 V c) 8 t (idleAt2_8 t (fun h => h2 ((hcond2_2 t).mp h))) (noFlush2_8 t (fun h => h2 ((hcond2_2 t).mp h)))]
      rw [Dat.leavesExact_idle (dat2 V c) 9 t (idleAt2_9 t (fun h => h2 ((hcond2_2 t).mp h))) (noFlush2_9 t (fun h => h2 ((hcond2_2 t).mp h)))]
      rw [Dat.leavesExact_idle (dat2 V c) 10 t (idleAt2_10 t (fun h => h2 ((hcond2_2 t).mp h))) (noFlush2_10 t (fun h => h2 ((hcond2_2 t).mp h)))]
      by_cases h1 : t.val / 4 = t.val % 4
      · -- on the diagonal
        rw [outsAt2_C V c t h0 h1 h2]
        unfold ptS2_C sout2_C; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_C c (grid2.coords t) _ _ _ _ _ _ _ _ _ _ _ _ _ _ _ _ _ _ _ _ _ _ _ _ (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      · -- off the diagonal
        rw [outsAt2_D V c t h0 h1 h2]
        unfold ptS2_D sout2_D; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_D c (grid2.coords t) _ _ _ _ _ _ _ _ _ _ _ _ _ _ _ _ _ _ _ _ _ _ _ _ (fun h => h0 ((hcond2_0 t).mp h)) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_D c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the running sum holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.K_R3.lean ====
import proofs.«169190_j76347338654297_2_alg».proof.Proof.Gen.Kernel.Launch
import proofs.«169190_j76347338654297_2_alg».proof.Proof.Gen.Kernel.Skeleton
import proofs.«169190_j76347338654297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The decoder region: the logistic of the latent rows' pairwise inner products, tile by tile

The last stage of the program walks an 8 x 8 grid of points. At point (i, j) it is handed row tile i and row tile j of the latent
array — ONE array behind two input windows — and writes the (i, j) tile of the result: the logistic of the product
of tile i by the transpose of tile j. Nothing is carried from point to point and the body has one control path. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window holds its block at every point, although it is fetched only when the row tile changes:
    where it is not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The column-tile window holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A whole latent tile. -/
abbrev r3_0 : Rect S1024x32 := Rect.unit (s := S1024x32) ![0, 0] S1024x32.size inb_S1024x32_S1024x32_0_0
/-- A whole result tile. -/
abbrev r3_2 : Rect S1024x1024 := Rect.unit (s := S1024x1024) ![0, 0] S1024x1024.size inb_S1024x1024_S1024x1024_0_0

/-! ## What the body leaves in the result tile -/

/-- The result tile after the body, from the two latent tiles: its one store, over the whole tile. -/
def out3_2 (x0 : Vec F S1024x32 .f32) (x1 : Vec F S1024x32 .f32) : Vec F S1024x1024 .f32 :=
  View.canon [⟨r3_2, k3_pay1 (View.ld x0 r3_0) (View.ld x1 r3_0)⟩]

/-- The one store covers the tile. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

/-! ## The body's triple -/

set_option maxHeartbeats 1000000 in
/-- The body on whole staging memrefs, the two latent tiles at `x0`, `x1` and the result tile at anything, runs to
    the continuation holding the latent tiles as they were and the result tile at `out3_2 x0 x1`. -/
theorem sound_kernel3 (c : Dev nD) (E : Set ℕ) (i : grid3.Coords)
    (arg2 : Memref sig .tc .vmem S1024x32 .f32) (harg2 : arg2.IsWhole) (arg3 : Memref sig .tc .vmem S1024x32 .f32) (harg3 : arg3.IsWhole)
    (arg4 : Memref sig .tc .vmem S1024x1024 .f32) (harg4 : arg4.IsWhole)
    (x0 : Vec F S1024x32 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The proof data of the decoder on core `c`: the arrays as the region finds them; after the body at point `t`
    each latent tile as found and the result tile at `out3_2` of the two; the invariant only the untouched scoped
    buffers and the generator register; nothing owed. The two input windows stage ONE array, so each holds one half
    of its full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := if w = 0 then fullShare.left else if w = 1 then fullShare.right else fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The shares: a half each for the two windows on the latent array, all of the result. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant before the first point and after the last is the class's. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

/-! ## The region's arrays among the core's unscoped buffers

The two input windows stage one array, so the region's arrays are not distinct buffers: at entry the latent
array's full share is dealt in two halves, one per window, and at the exit the halves — both still at the entry
contents, an input array being never written — are joined again. -/

/-- Every unscoped buffer that is neither the latent array nor the result, at `W`. -/
def rest3 (c : Dev nD) (W : Valuation τ sig (Elt F)) : sProp 𝕄 :=
  Pipeline.unscopedRest (Ix := Unit) (Name := ℕ) (U := UR sig nD τ) (Lvl := ℕ) spec3 c (fun b => W b)

/-- The contents at the region's exit: the result array at what the write-backs leave, every other buffer as entered. -/
def W3out (c : Dev nD) (W : Valuation τ sig (Elt F)) : Valuation τ sig (Elt F) :=
  Function.update W main_v8 ((dat3 (fun _ b => W b) c).arrAt 2 cfg3.N)

/-- The region's arrays are two buffers. -/
theorem img3 : (Finset.univ.image (Pipeline.arrRef spec3)) = {main_v7_2, main_v8} := by decide

/-- The region's arrays, window by window: the two halves of the latent array's share and the whole result. -/
theorem arrays3_eq (c : Dev nD)
    (G : (w : Fin cfg3.W) → Buf (Elt F) ((cfg3.win w).arr.view.loc (c : Thread nD τ))) :
    ((dat3 V c).arrays G : sProp 𝕄) = iprop((((c : Thread nD τ).loc main_v7_2) ↦{fullShare.left} G 0)
      ∗ (((c : Thread nD τ).loc main_v7_2) ↦{fullShare.right} G 1) ∗ (((c : Thread nD τ).loc main_v8) ↦{fullShare} G 2)) := by
  unfold Dat.arrays
  rw [bigSep_W3]
  rw [(arr_whole3 0).set_eq_univ, (arr_whole3 2).set_eq_univ, share3_0, share3_1, share3_2]

/-- The unscoped buffers at `W`: the latent array, the result, and the others. -/
theorem held3_split (c : Dev nD) (W : Valuation τ sig (Elt F)) :
    (StableHlo.held (c : Thread nD τ) (Pipeline.ucRefs τ sig) W : sProp 𝕄)
      = iprop(((((c : Thread nD τ).loc main_v7_2) ↦{fullShare} W main_v7_2) ∗ (((c : Thread nD τ).loc main_v8) ↦{fullShare} W main_v8)) ∗ rest3 c W) := by
  rw [← Pipeline.unscopedBufs_held c W]
  unfold unscopedBufs rest3 Pipeline.unscopedRest
  rw [img3]
  have hA : ({main_v7_2, main_v8} : Finset (Ref sig .tc)) ⊆ Finset.univ.filter fun b => ¬ b.isScoped := by decide
  rw [bigSep_sdiff_split hA, bigSep_insert (by decide), bigSep_singleton]
  rfl

/-- ENTRY: the core's unscoped buffers at `W` are the region's arrays at the entry contents — the latent array's
    share halved between its two windows — and the other unscoped buffers. -/
theorem entry3 (c : Dev nD) (W : Valuation τ sig (Elt F)) :
    (StableHlo.held (c : Thread nD τ) (Pipeline.ucRefs τ sig) W : sProp 𝕄)
      ⊢ iprop((dat3 (fun _ b => W b) c).arrays ((dat3 (fun _ b => W b) c).arrAt · 0) ∗ rest3 c W) := by
  rw [held3_split, arrays3_eq]
  iintro ⟨⟨H7, H8⟩, Hr⟩
  ihave H := (pointsTo_share (PosShare.mem_left_op_right fullShare)).1 $$ H7
  icases H with ⟨Hl, Hr'⟩
  isplitr [Hr]
  · isplitl [Hl]; · iexact Hl
    isplitl [Hr']; · iexact Hr'
    iexact H8
  iexact Hr

/-- The exit contents at the three buffers' references, and off them. -/
theorem W3out_v8 (c : Dev nD) (W : Valuation τ sig (Elt F)) :
    W3out c W main_v8 = (dat3 (fun _ b => W b) c).arrAt 2 cfg3.N := by
  unfold W3out; exact Function.update_self _ _ _
theorem W3out_of_ne (c : Dev nD) (W : Valuation τ sig (Elt F)) (b : Ref sig .tc) (hb : b ≠ main_v8) :
    W3out c W b = W b := by
  unfold W3out; exact Function.update_of_ne (StableHlo.devRef_ne_of_ne hb) _ _

/-- The other unscoped buffers do not see the update. -/
theorem rest3_W3out (c : Dev nD) (W : Valuation τ sig (Elt F)) : rest3 c (W3out c W) = rest3 c W := by
  unfold rest3 Pipeline.unscopedRest
  refine bigSep_congr fun b hb => ?_
  have hne : b ≠ main_v8 := fun e => (Finset.mem_sdiff.mp hb).2 (by rw [e, img3]; decide)
  show (((c : Thread nD τ).loc b) ↦{fullShare} W3out c W b) = (((c : Thread nD τ).loc b) ↦{fullShare} W b)
  rw [W3out_of_ne c W b hne]

/-- EXIT: the region's arrays at what the pipeline leaves — the two halves of the latent array at the entry
    contents, joined — and the other unscoped buffers are the core's unscoped buffers at the exit contents. -/
theorem exit3 (c : Dev nD) (W : Valuation τ sig (Elt F)) :
    iprop((dat3 (fun _ b => W b) c).arrays ((dat3 (fun _ b => W b) c).arrAt · cfg3.N) ∗ rest3 c W)
      ⊢ (StableHlo.held (c : Thread nD τ) (Pipeline.ucRefs τ sig) (W3out c W) : sProp 𝕄) := by
  rw [held3_split, arrays3_eq, rest3_W3out, W3out_v8, W3out_of_ne c W main_v7_2 (by decide),
    (dat3 (fun _ b => W b) c).arrAt_in 0 rfl, (dat3 (fun _ b => W b) c).arrAt_in 1 rfl]
  iintro ⟨⟨Hl, Hr', H8⟩, Hr⟩
  isplitr [Hr]
  · isplitr [H8]
    · iapply (pointsTo_share (PosShare.mem_left_op_right fullShare)).2
      isplitl [Hl]; · iexact Hl
      iexact Hr'
    iexact H8
  iexact Hr

end Cert.Kernel.Hand

end
-- ==== Proof.K_Run.lean ====
/-
  The whole program's run. @main is: launch 0, two host operations forming the scaled features and one reshaping a bias,
  launch 1, two bias reshapes, launch 2, launch 3. Between two items every unscoped buffer of the core holds a known
  content: the launch memory, then after each launch its arrays at what the launch's write-backs leave (every other buffer
  untouched) and after each host stretch the operations' results. Each launch is entered from the boundary before it and
  left at the boundary after it; the last boundary read against the final memory gives every buffer's final content.
-/
import proofs.«169190_j76347338654297_2_alg».proof.Proof.K_R0
import proofs.«169190_j76347338654297_2_alg».proof.Proof.K_R1
import proofs.«169190_j76347338654297_2_alg».proof.Proof.K_R2
import proofs.«169190_j76347338654297_2_alg».proof.Proof.K_R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (launch 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After launch 0: its arrays at what the launch leaves, every other buffer as before it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (launch 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After launch 1: its arrays at what the launch leaves, every other buffer as before it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (launch 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After launch 2: its arrays at what the launch leaves, every other buffer as before it. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After launch 3: its one output array at what the launch leaves, every other buffer as before it. -/
abbrev W6 : Dev nD → Valuation τ sig (Elt F) := fun c => W3out c (W5 m ρ c)

/-! ## The proof data family and the thread state -/

abbrev adm : (p : Fin 4) → (pcfgs (F := F) p).Adm := fun p => (cfgs p).toPCfg_adm
/-- Every launch's proof data, each at its entry contents: a literal match on the launch's number. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (fun _ b => W5 m ρ c b) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary, the generator register. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered from every unscoped buffer at the boundary before it, left at the one after
    it. Its arrays are split out of the unscoped buffers and put back at their final contents; the generator register goes
    into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    rw [show (pdats m ρ 0 c).Φ 0 = (dat0 (V0 m ρ) c).Φ 0 from rfl]
    iintro ⟨Hp, -, Hr⟩
    iapply h
    unfold Pipeline.ΦA
    isplitl [Hr]; · iexact Hr
    iexact Hp
  hout c := by
    rw [Pipeline.ownSems0_none]
    have h := hout0 (V0 m ρ) c
    unfold Pipeline.ΦA at h
    rw [show (pdats m ρ 0 c).Φ (Fin.last _) = (dat0 (V0 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the boundary before it, left at the one after
    it. Its arrays are split out of the unscoped buffers and put back at their final contents; the generator register goes
    into the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    rw [show (pdats m ρ 1 c).Φ 0 = (dat1 (V2 m ρ) c).Φ 0 from rfl]
    iintro ⟨Hp, -, Hr⟩
    iapply h
    unfold Pipeline.ΦA
    isplitl [Hr]; · iexact Hr
    iexact Hp
  hout c := by
    rw [Pipeline.ownSems0_none]
    have h := hout1 (V2 m ρ) c
    unfold Pipeline.ΦA at h
    rw [show (pdats m ρ 1 c).Φ (Fin.last _) = (dat1 (V2 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at the boundary before it, left at the one after
    it. Its arrays are split out of the unscoped buffers and put back at their final contents; the generator register goes
    into the launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V4 m ρ) c
    rw [show (pdats m ρ 2 c).Φ 0 = (dat2 (V4 m ρ) c).Φ 0 from rfl]
    iintro ⟨Hp, -, Hr⟩
    iapply h
    unfold Pipeline.ΦA
    isplitl [Hr]; · iexact Hr
    iexact Hp
  hout c := by
    rw [Pipeline.ownSems0_none]
    have h := hout2 (V4 m ρ) c
    unfold Pipeline.ΦA at h
    rw [show (pdats m ρ 2 c).Φ (Fin.last _) = (dat2 (V4 m ρ) c).Φ (Fin.last cfg2.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: its two input windows stage blocks of ONE array, so the array's points-to is dealt between them by shares at
    the entry and joined again at the exit (entry3 / exit3); otherwise as the other launches. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (fun _ b => W5 m ρ c b) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := rest3 c (W5 m ρ c)
  hentry c := by
    rw [Pipeline.ownSems0_none]
    iintro ⟨⟨Hub, Hp, HO⟩, -, -⟩
    ihave H := (entry3 c (W5 m ρ c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (fun _ b => W5 m ρ c b) c
    rw [show (pdats m ρ 3 c).Φ 0 = (dat3 (fun _ b => W5 m ρ c b) c).Φ 0 from rfl]
    iintro ⟨Hp, -, Hr⟩
    iapply h
    unfold Pipeline.ΦA
    isplitl [Hr]; · iexact Hr
    iexact Hp
  hout c := by
    rw [Pipeline.ownSems0_none]
    have h := hout3 (fun _ b => W5 m ρ c b) c
    unfold Pipeline.ΦA at h
    rw [show (pdats m ρ 3 c).Φ (Fin.last _) = (dat3 (fun _ b => W5 m ρ c b) c).Φ (Fin.last cfg3.N) from rfl]
    iintro HΦ
    ihave H := h $$ HΦ
    icases H with ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit3 c (W5 m ρ c)); isplitl [Ha]
        · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)),
    .region (reg2 m ρ),
    .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state every unscoped buffer of every core holds the last boundary's content. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K_Frame.lean ====
/-
  Every argument array ends as launched. No host operation of @main writes an argument and no launch changes one: a launch
  either stages blocks of it through an input window, whose array the launch leaves as it found it, or does not touch it.
  So each argument's buffer, read at the last boundary, walks back through the six boundaries to the launch memory; with
  the run this is the frame claim: every execution ends, nothing faults, the nine arguments are unchanged.
-/
import proofs.«169190_j76347338654297_2_alg».proof.Proof.K_Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it and no launch changes it (a launch reads it through an input window or not at all). -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := by unfold W6 W3out; exact Function.update_of_ne (StableHlo.devRef_ne_of_ne (by decide)) _ _
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- `main_arg1` ends as launched: no host operation writes it and no launch changes it (a launch reads it through an input window or not at all). -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := by unfold W6 W3out; exact Function.update_of_ne (StableHlo.devRef_ne_of_ne (by decide)) _ _
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- `main_arg2` ends as launched: no host operation writes it and no launch changes it (a launch reads it through an input window or not at all). -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := by unfold W6 W3out; exact Function.update_of_ne (StableHlo.devRef_ne_of_ne (by decide)) _ _
    _ = W4 m ρ c (Proc.devRef .tc main_arg2) := (W5_arr m ρ c 7).trans (((dat2 (V4 m ρ) c).arrAt_in 7 rfl _).trans (A_eq2 (V4 m ρ) c 7))
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- `main_arg3` ends as launched: no host operation writes it and no launch changes it (a launch reads it through an input window or not at all). -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by unfold W6 W3out; exact Function.update_of_ne (StableHlo.devRef_ne_of_ne (by decide)) _ _
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 3).trans (((dat1 (V2 m ρ) c).arrAt_in 3 rfl _).trans (A_eq1 (V2 m ρ) c 3))
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- `main_arg4` ends as launched: no host operation writes it and no launch changes it (a launch reads it through an input window or not at all). -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by unfold W6 W3out; exact Function.update_of_ne (StableHlo.devRef_ne_of_ne (by decide)) _ _
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-- `main_arg5` ends as launched: no host operation writes it and no launch changes it (a launch reads it through an input window or not at all). -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by unfold W6 W3out; exact Function.update_of_ne (StableHlo.devRef_ne_of_ne (by decide)) _ _
    _ = W4 m ρ c (Proc.devRef .tc main_arg5) := (W5_arr m ρ c 3).trans (((dat2 (V4 m ρ) c).arrAt_in 3 rfl _).trans (A_eq2 (V4 m ρ) c 3))
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-- `main_arg6` ends as launched: no host operation writes it and no launch changes it (a launch reads it through an input window or not at all). -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by unfold W6 W3out; exact Function.update_of_ne (StableHlo.devRef_ne_of_ne (by decide)) _ _
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-- `main_arg7` ends as launched: no host operation writes it and no launch changes it (a launch reads it through an input window or not at all). -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := by unfold W6 W3out; exact Function.update_of_ne (StableHlo.devRef_ne_of_ne (by decide)) _ _
    _ = W4 m ρ c (Proc.devRef .tc main_arg7) := (W5_arr m ρ c 5).trans (((dat2 (V4 m ρ) c).arrAt_in 5 rfl _).trans (A_eq2 (V4 m ρ) c 5))
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl

/-- `main_arg8` ends as launched: no host operation writes it and no launch changes it (a launch reads it through an input window or not at all). -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := by unfold W6 W3out; exact Function.update_of_ne (StableHlo.devRef_ne_of_ne (by decide)) _ _
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-- THE FRAME at any float instance: the run, its post read at the nine argument buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c)⟩) (run_all m ρ)

end Cert.Kernel.Hand

end
-- ==== Proof.KI_R0_Runs.lean ====
/-
  The degree kernel, first half: the conditions of its two branches in closed form over the grid, where its
  windows are idle, and the body's run in each of its three control cases.

  The grid is 8 row tiles by 8 column tiles, the column tile moving fastest. The body keeps the running row sums
  of one row tile in a scratch column: at column tile 0 it clears the column; at every tile it adds the tile's row
  sums and writes the tile, narrowed, to the copy; at column tile 7 it writes the guarded inverse square root of
  (row sum + 1) to the scaling column's block, which it touches at no other tile.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The branch conditions -/

/-- The first branch (clear the running sums) is taken: the column tile is 0. -/
abbrev cond0_0 (i : grid0.Coords) : Prop :=
  (Scalar.cmpi .ne (Scalar.extui (Scalar.cmpi .eq (BitVec.ofNat 32 (i 1).val) 0#32)) 0#32) = 1#1
/-- In closed form over the 64 points. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (finish: write the scaling block) is taken: the column tile is 7. -/
abbrev cond0_1 (i : grid0.Coords) : Prop := k0_cond2 i = 1#1
/-- In closed form over the 64 points. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The input tile is never idle. -/
theorem liveAt0_0 : ∀ t : Fin cfg0.N, cfg0.idle 0 (grid0.coords t) = false := by decide +kernel
/-- The copy's block is never idle. -/
theorem liveAt0_2 : ∀ t : Fin cfg0.N, cfg0.idle 2 (grid0.coords t) = false := by decide +kernel
/-- Away from column tile 7 the scaling block is idle, -/
theorem idleAt0_1 : ∀ t : Fin cfg0.N, ¬cond0_1 (grid0.coords t) → cfg0.idle 1 (grid0.coords t) = true := by decide +kernel
/-- and not written back; -/
theorem noFlush0_1 : ∀ t : Fin cfg0.N, ¬cond0_1 (grid0.coords t) → (cfg0.win 1).flush t = false := by decide +kernel
/-- at column tile 7 it is live. -/
theorem liveAt0_1 : ∀ t : Fin cfg0.N, cond0_1 (grid0.coords t) → cfg0.idle 1 (grid0.coords t) = false := by decide +kernel

/-! ## The memrefs the body is called with -/

/-- One staging buffer of each output window, through which its contents are stated. -/
abbrev VO0_1 : View sig .tc .vmem S1024x1 .f32 := (Memref.whole cc0_stg1_0 : Memref sig .tc .vmem S1024x1 .f32).view
abbrev VO0_2 : View sig .tc .vmem S1024x1024 .bf16 := (Memref.whole cc0_stg2_0 : Memref sig .tc .vmem S1024x1024 .bf16).view
/-- Each window's current staging memref at point `t`, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The scratch column of running row sums, a whole scoped buffer, and its view. -/
abbrev scM0_0 : Memref sig .tc .vmem S1024x1 .f32 := Memref.whole cc0_scratch0
abbrev VS0_0 : View sig .tc .vmem S1024x1 .f32 := scM0_0.view

/-- The invariant the region is entered with, the scratch column split off as a memref owned at some contents. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run, case by case -/

set_option maxHeartbeats 1000000 in
/-- Column tile 0: from the tile `x0`, the scaling block at any `xi1` (handed back untouched), the copy's block and
    the scratch at anything, the body runs to the end; the pieces it leaves in the copy's block and in the scratch
    are the witnesses. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) :
    Σ' (L2 : List (View.Piece (Elt F) S1024x1024 .bf16)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f2, %hf2, H2⟩, ⟨%f3, %hf3, H3⟩, ⟨%d4, %f4, -, H4⟩, ⟨%d5, %f5, -, H5⟩, Hk⟩
    obtain rfl := harg2.eq_unread hf2; obtain rfl := harg3.eq_unread hf3
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

set_option maxHeartbeats 1000000 in
/-- A middle column tile: as at tile 0, but the scratch is found at the running sums `xs0` and not cleared. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) :
    Σ' (L2 : List (View.Piece (Elt F) S1024x1024 .bf16)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__deg_kernel i arg2 harg2 arg3 harg3 arg4 harg4 arg5 harg5) K } := by
  refine ⟨?_, ?_, fun xi1 E K => ?run⟩
  case run =>
    simp only [cc0__deg_kernel_eq_skeleton]; unfold cc0__deg_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    iexists _; iexact H5

set_option maxHeartbeats 1000000 in
/-- Column tile 7: the scratch is found at the running sums `xs0`; the scaling block, at anything, is written too. -/
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    Σ' (L1 : List (View.Piece (Elt F) S1024x1 .f32)) (L2 : List (View.Piece (Elt F) S1024x1024 .bf16)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0
                ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc0__deg_kernel i arg2 harg2 arg3 harg3 arg4 harg4 arg5 harg5) K } := by
  refine ⟨?_, ?_, ?_, fun E K => ?run⟩
  case run =>
    simp only [cc0__deg_kernel_eq_skeleton]; unfold cc0__deg_kernel_skel
    unfold owns
    iintro ⟨⟨%f2, %hf2, H2⟩, ⟨%d3, %f3, -, H3⟩, ⟨%d4, %f4, -, H4⟩, ⟨%f5, %hf5, H5⟩, Hk⟩
    obtain rfl := harg2.eq_unread hf2; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; iexact H3
    isplitl [H4]
    · iexists _; iexact H4
    iexists _; iexact H5

end Cert.KernelIdeal.Hand

end
-- ==== Proof.KI_R0.lean ====
/-
  The degree kernel, second half: what its outputs and the scratch column hold after every grid point, the proof
  data of its pipeline, and the body obligation at every point.
-/
import proofs.«169190_j76347338654297_2_alg».proof.Proof.KI_R0_Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input tile's staging buffer holds its block at every point, for any proof data over the entry contents
    whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The pieces this case leaves in the copy's block tile it, so they cover it. -/
theorem cover0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) (y : S1024x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S1024x1024.size (by sl_kernel_rfl) y

/-- What this case leaves in the copy's block: its pieces read back. -/
def out0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) : Vec F S1024x1024 .bf16 :=
  VO0_2.read (Elt F) (VO0_2.writes (Elt F) VO0_2.junk (kernelRun0_A c i arg2 harg2 arg3 harg3 arg4 harg4 arg5 harg5 hc0 hc1 x0).1)

/-- The pieces this case leaves in the scratch column tile it, so they cover it. -/
theorem scover0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) (y : S1024x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1024x1.size (by sl_kernel_rfl) y

/-- What this case leaves in the scratch column: its pieces read back. -/
def sout0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) : Vec F S1024x1 .f32 :=
  VS0_0.read (Elt F) (VS0_0.writes (Elt F) VS0_0.junk (kernelRun0_A c i arg2 harg2 arg3 harg3 arg4 harg4 arg5 harg5 hc0 hc1 x0).2.1)

/-- The pieces this case leaves in the copy's block tile it, so they cover it. -/
theorem cover0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) (y : S1024x1024.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S1024x1024.size (by sl_kernel_rfl) y

/-- What this case leaves in the copy's block: its pieces read back. -/
def out0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) : Vec F S1024x1024 .bf16 :=
  VO0_2.read (Elt F) (VO0_2.writes (Elt F) VO0_2.junk (kernelRun0_B c i arg2 harg2 arg3 harg3 arg4 harg4 arg5 harg5 hc0 hc1 x0 xs0).1)

/-- The pieces this case leaves in the scratch column tile it, so they cover it. -/
theorem scover0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) (y : S1024x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1024x1.size (by sl_kernel_rfl) y

/-- What this case leaves in the scratch column: its pieces read back. -/
def sout0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 xs0).2.1)

/-- The pieces this case leaves in the scaling block tile it, so they cover it. -/
theorem cover0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S1024x1.size (by sl_kernel_rfl) y

/-- What this case leaves in the scaling block: its pieces read back. -/
def out0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) : Vec F S1024x1 .f32 :=
  VO0_1.read (Elt F) (VO0_1.writes (Elt F) VO0_1.junk (kernelRun0_C c i arg2 harg2 arg3 harg3 arg4 harg4 arg5 harg5 hc0 hc1 x0 xs0).1)

/-- The pieces this case leaves in the copy's block tile it, so they cover it. -/
theorem cover0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) (y : S1024x1024.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S1024x1024.size (by sl_kernel_rfl) y

/-- What this case leaves in the copy's block: its pieces read back. -/
def out0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) : Vec F S1024x1024 .bf16 :=
  VO0_2.read (Elt F) (VO0_2.writes (Elt F) VO0_2.junk (kernelRun0_C c i arg2 harg2 arg3 harg3 arg4 harg4 arg5 harg5 hc0 hc1 x0 xs0).2.1)

/-- The pieces this case leaves in the scratch column tile it, so they cover it. -/
theorem scover0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) (y : S1024x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S1024x1.size (by sl_kernel_rfl) y

/-- What this case leaves in the scratch column: its pieces read back. -/
def sout0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 xs0).2.2.1)

/-! ## The closed forms as the cases' hypotheses -/

theorem hA0_0 (t : Fin cfg0.N) (h0 : t.val % 8 = 0) : cond0_0 (grid0.coords t) := (hcond0_0 t).mpr h0
theorem hA0_1 (t : Fin cfg0.N) (h0 : t.val % 8 = 0) : ¬cond0_1 (grid0.coords t) := fun h => by
  have h7 := (hcond0_1 t).mp h; omega
theorem hB0_0 (t : Fin cfg0.N) (h0 : ¬t.val % 8 = 0) : ¬cond0_0 (grid0.coords t) := fun h => h0 ((hcond0_0 t).mp h)
theorem hB0_1 (t : Fin cfg0.N) (h1 : ¬t.val % 8 = 7) : ¬cond0_1 (grid0.coords t) := fun h => h1 ((hcond0_1 t).mp h)
theorem hC0_0 (t : Fin cfg0.N) (h1 : t.val % 8 = 7) : ¬cond0_0 (grid0.coords t) := fun h => by
  have h0 := (hcond0_0 t).mp h; omega
theorem hC0_1 (t : Fin cfg0.N) (h1 : t.val % 8 = 7) : cond0_1 (grid0.coords t) := (hcond0_1 t).mpr h1

/-! ## What the outputs and the scratch hold after each point -/

/-- The scaling block's buffer, the copy's block's buffer, the scratch column. -/
abbrev Outs0 (F : FTy → Type) [FloatOps F] : Type := Vec F S1024x1 .f32 × Vec F S1024x1024 .bf16 × Vec F S1024x1 .f32

/-- At column tile 0: the scaling block is not stored into (a placeholder nothing consults); the copy's block and the
    scratch from the tile alone. -/
def ptA0 (c : Dev nD) (t : Fin cfg0.N) (h0 : t.val % 8 = 0) : Outs0 F :=
  (VO0_1.read (Elt F) VO0_1.junk,
   out0_A_2 c (grid0.coords t) (ms0_0 t) (hs0_0 t) (ms0_1 t) (hs0_1 t) (ms0_2 t) (hs0_2 t) scM0_0 (Memref.isWhole_whole _) (hA0_0 t h0) (hA0_1 t h0) (iblk0 V c 0 t),
   sout0_A_0 c (grid0.coords t) (ms0_0 t) (hs0_0 t) (ms0_1 t) (hs0_1 t) (ms0_2 t) (hs0_2 t) scM0_0 (Memref.isWhole_whole _) (hA0_0 t h0) (hA0_1 t h0) (iblk0 V c 0 t))

/-- At a middle column tile: over the running sums `xs` the tile before left. -/
def ptB0 (c : Dev nD) (t : Fin cfg0.N) (h0 : ¬t.val % 8 = 0) (h1 : ¬t.val % 8 = 7) (xs : Vec F S1024x1 .f32) : Outs0 F :=
  (VO0_1.read (Elt F) VO0_1.junk,
   out0_B_2 c (grid0.coords t) (ms0_0 t) (hs0_0 t) (ms0_1 t) (hs0_1 t) (ms0_2 t) (hs0_2 t) scM0_0 (Memref.isWhole_whole _) (hB0_0 t h0) (hB0_1 t h1) (iblk0 V c 0 t) xs,
   sout0_B_0 c (grid0.coords t) (ms0_0 t) (hs0_0 t) (ms0_1 t) (hs0_1 t) (ms0_2 t) (hs0_2 t) scM0_0 (Memref.isWhole_whole _) (hB0_0 t h0) (hB0_1 t h1) (iblk0 V c 0 t) xs)

/-- At column tile 7: over the running sums `xs`, the scaling block written too. -/
def ptC0 (c : Dev nD) (t : Fin cfg0.N) (h1 : t.val % 8 = 7) (xs : Vec F S1024x1 .f32) : Outs0 F :=
  (out0_C_1 c (grid0.coords t) (ms0_0 t) (hs0_0 t) (ms0_1 t) (hs0_1 t) (ms0_2 t) (hs0_2 t) scM0_0 (Memref.isWhole_whole _) (hC0_0 t h1) (hC0_1 t h1) (iblk0 V c 0 t) xs,
   out0_C_2 c (grid0.coords t) (ms0_0 t) (hs0_0 t) (ms0_1 t) (hs0_1 t) (ms0_2 t) (hs0_2 t) scM0_0 (Memref.isWhole_whole _) (hC0_0 t h1) (hC0_1 t h1) (iblk0 V c 0 t) xs,
   sout0_C_0 c (grid0.coords t) (ms0_0 t) (hs0_0 t) (ms0_1 t) (hs0_1 t) (ms0_2 t) (hs0_2 t) scM0_0 (Memref.isWhole_whole _) (hC0_0 t h1) (hC0_1 t h1) (iblk0 V c 0 t) xs)

/-- THE ACCUMULATION: what the two outputs' staging buffers and the scratch hold after the body at position `n`, the
    case chosen by the column tile `n % 8`, the running sums taken from position `n - 1`. -/
def outsAt0 (c : Dev nD) : (n : ℕ) → n < cfg0.N → Outs0 F
  | 0, hn => ptA0 V c ⟨0, hn⟩ (Nat.zero_mod 8)
  | n + 1, hn =>
    if h0 : (n + 1) % 8 = 0 then ptA0 V c ⟨n + 1, hn⟩ h0
    else if h1 : (n + 1) % 8 = 7 then ptC0 V c ⟨n + 1, hn⟩ h1 (outsAt0 c n (Nat.lt_of_succ_lt hn)).2.2
    else ptB0 V c ⟨n + 1, hn⟩ h0 h1 (outsAt0 c n (Nat.lt_of_succ_lt hn)).2.2

theorem outsAt0_A (c : Dev nD) (t : Fin cfg0.N) (h0 : t.val % 8 = 0) :
    outsAt0 V c t.val t.isLt = ptA0 V c t h0 := by
  obtain ⟨n, hn⟩ := t
  cases n with
  | zero => exact rfl
  | succ n => exact dif_pos h0

theorem outsAt0_B (c : Dev nD) (t : Fin cfg0.N) (h0 : ¬t.val % 8 = 0) (h1 : ¬t.val % 8 = 7) :
    outsAt0 V c t.val t.isLt
      = ptB0 V c t h0 h1 (outsAt0 V c (t.val - 1) (Nat.lt_of_le_of_lt (Nat.sub_le _ _) t.isLt)).2.2 := by
  obtain ⟨n, hn⟩ := t
  cases n with
  | zero => exact absurd (Nat.zero_mod 8) h0
  | succ n => exact (dif_neg h0).trans (dif_neg h1)

theorem outsAt0_C (c : Dev nD) (t : Fin cfg0.N) (h1 : t.val % 8 = 7) :
    outsAt0 V c t.val t.isLt
      = ptC0 V c t h1 (outsAt0 V c (t.val - 1) (Nat.lt_of_le_of_lt (Nat.sub_le _ _) t.isLt)).2.2 := by
  obtain ⟨n, hn⟩ := t
  cases n with
  | zero => exact absurd h1 (show ¬(0 % 8 = 7) by decide)
  | succ n => exact (dif_neg (fun h0 : (n + 1) % 8 = 0 => by simp only at h1; omega)).trans (dif_pos h1)

/-! ## The invariant -/

/-- Before position `n`: at the first point what the region is entered with; afterwards the same with the scratch
    column at the running sums the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the degree kernel's pipeline on core `c`: the arrays as the region finds them; after the body
    at point `t` the input's buffer at its block, the outputs' at `outsAt0`; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The input's memref holds its block; the column tile says which case the point is in; the
    invariant hands the body the scratch at the running sums the point before left (at anything at the first point) and
    takes it back at this point's; away from column tile 7 the scaling block's buffer goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 2 t = owns (c : Thread nD τ) (ms0_2 t) fullShare ((dat0 V c).after 2 t) from by
      unfold Dat.leavesExact; rw [liveAt0_2 t], after0_2]
  by_cases h0 : t.val % 8 = 0
  · rw [Dat.leavesExact_idle (dat0 V c) 1 t (idleAt0_1 t (hA0_1 t h0)) (noFlush0_1 t (hA0_1 t h0))]
    rw [outsAt0_A V c t h0]
    unfold ptA0 sout0_A_0 out0_A_2; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0_0 t h0) (hA0_1 t h0) (iblk0 V c 0 t)).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0_0 t h0) (hA0_1 t h0) (iblk0 V c 0 t)).2.2 _ Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_A_0 c _ _ _ _ _ _ _ _ _ _ _ _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_A_2 c _ _ _ _ _ _ _ _ _ _ _ _)
  · have hz : t.val ≠ 0 := fun hz => h0 (by rw [hz])
    by_cases h1 : t.val % 8 = 7
    · rw [show (dat0 V c).leavesExact 1 t = owns (c : Thread nD τ) (ms0_1 t) fullShare ((dat0 V c).after 1 t) from by
        unfold Dat.leavesExact; rw [liveAt0_1 t (hC0_1 t h1)], after0_1]
      rw [outsAt0_C V c t h1]
      unfold ptC0 out0_C_1 out0_C_2 sout0_C_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (hC0_0 t h1) (hC0_1 t h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_C_0 c _ _ _ _ _ _ _ _ _ _ _ _ _)
          iexact Hr
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    · rw [Dat.leavesExact_idle (dat0 V c) 1 t (idleAt0_1 t (hB0_1 t h1)) (noFlush0_1 t (hB0_1 t h1))]
      rw [outsAt0_B V c t h0 h1]
      unfold ptB0 sout0_B_0 out0_B_2; (try dsimp only)
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (hB0_0 t h0) (hB0_1 t h1) (iblk0 V c 0 t) _).2.2 _ Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitr [Hg]
        · isplitl [HS0]
          · unfold owns; iexists _; isplitr
            swap; · iexact HS0
            ipureintro; exact View.read_writes_of_cover _ _ _ _ _ (scover0_B_0 c _ _ _ _ _ _ _ _ _ _ _ _ _)
          iexact Hr
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the entry invariant back: the running sums are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitr [Hg]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI_R1_S.lean ====
/-
  The first layer's aggregation kernel, at the buffer contents V found on entry:
  what its six whole-body runs share.

  The grid is 4 x 4: point t has row tile i = t / 4 and column tile j = t % 4. The body keeps a running
  2048 x 64 sum in a scratch: at j = 0 it clears it; at every point it adds the product of the adjacency
  tile (i, j) with the feature tile j; at the diagonal tile i = j it adds the feature tile once more; at
  j = 3 it scales the sum by the rows' scaling column, multiplies by the weights, adds the bias, clamps
  at zero, scales again and writes the row tile i of the result. So three conditions on the point decide
  what runs; they are stated here with their closed forms over the sixteen points, together with where the
  output window is idle, the staging memrefs of a point, and the region invariant with the scratch opened.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, fetched there or not, for any proof
    data whose array is `V`'s and whose body leaves the block in place: where the window is not fetched its block
    index has not moved. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions -/

/-- The column tile is the first one: the running sum is cleared. -/
abbrev cond1_0 (i : grid1.Coords) : Prop :=
  (Scalar.cmpi .ne (Scalar.extui (Scalar.cmpi .eq (BitVec.ofNat 32 (i 1).val) 0#32)) 0#32) = 1#1
/-- It holds at the points t with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The tile is on the diagonal (row tile = column tile): the feature tile is added once more. -/
abbrev cond1_1 (i : grid1.Coords) : Prop :=
  (Scalar.cmpi .ne (Scalar.extui (Scalar.cmpi .eq (BitVec.ofNat 32 (i 0).val) (BitVec.ofNat 32 (i 1).val))) 0#32) = 1#1
/-- It holds at the points 0, 5, 10, 15: those with t % 5 = 0. -/
theorem hcond1_1 : ∀ t : Fin cfg1.N, cond1_1 (grid1.coords t) ↔ t.val % 5 = 0 :=
  (by decide +kernel : ∀ t : Fin grid1.N, cond1_1 (grid1.coords t) ↔ t.val % 5 = 0)

/-- The column tile is the last one: the running sum is turned into the result's row tile. -/
abbrev cond1_2 (i : grid1.Coords) : Prop := k1_cond3 i = 1#1
/-- It holds at the points t with t % 4 = 3. -/
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the windows are idle -/

/-- The five inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last column tile the output is idle: nothing is stored into it, -/
theorem idleAt1_5 : ∀ t : Fin cfg1.N, ¬cond1_2 (grid1.coords t) → cfg1.idle 5 (grid1.coords t) = true := by decide +kernel
/-- and it is not written back there. -/
theorem noFlush1_5 : ∀ t : Fin cfg1.N, ¬cond1_2 (grid1.coords t) → (cfg1.win 5).flush t = false := by decide +kernel
/-- At the last column tile the output is live. -/
theorem liveAt1_5 : ∀ t : Fin cfg1.N, cond1_2 (grid1.coords t) → cfg1.idle 5 (grid1.coords t) = false := by decide +kernel

/-! ## The memrefs of a point -/

/-- One staging buffer of the output window, through which its contents are stated (the choice does not matter). -/
abbrev VO1_5 : View sig .tc .vmem S2048x128 .f32 := (Memref.whole cc1_stg5_0 : Memref sig .tc .vmem S2048x128 .f32).view
/-- Each window's current staging memref at point `t`, as the pipeline passes it, and its wholeness. -/
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2048x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S2048x64 .f32 := Memref.whole cc1_scratch0
/-- The scratch as a view: what it holds is stated through it. -/
abbrev VS1_0 : View sig .tc .vmem S2048x64 .f32 := scM1_0.view

/-- What the launch hands the region, with the scratch opened: the scratch owned at some contents, the other scoped
    buffers unopened, the generator register at some state. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI_R1_A.lean ====
/-
  The aggregation kernel's whole body at a point of case A (first column tile, on the diagonal: the clearing runs, the diagonal addition runs, the finishing does not run;
  points 0).

  From the five input tiles at their contents, the output tile at contents handed back untouched and the running sum at
  anything, the body runs to the end holding the inputs as they were and the running sum with the
  pieces written; the pieces are the witness the run finds.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_S

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case A, with the pieces it leaves in the output tile (`L5`: none) and in the running sum (`LS0`). -/
noncomputable def kernelRun1_A (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI_R1_B.lean ====
/-
  The aggregation kernel's whole body at a point of case B (first column tile, off the diagonal: the clearing runs, the diagonal addition does not run, the finishing does not run;
  points 4, 8, 12).

  From the five input tiles at their contents, the output tile at contents handed back untouched and the running sum at
  anything, the body runs to the end holding the inputs as they were and the running sum with the
  pieces written; the pieces are the witness the run finds.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case B, with the pieces it leaves in the output tile (`L5`: none) and in the running sum (`LS0`). -/
noncomputable def kernelRun1_B (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI_R1_C.lean ====
/-
  The aggregation kernel's whole body at a point of case C (a middle column tile, on the diagonal: the clearing does not run, the diagonal addition runs, the finishing does not run;
  points 5, 10).

  From the five input tiles at their contents, the output tile at contents handed back untouched and the running sum at
  what the point before left, the body runs to the end holding the inputs as they were and the running sum with the
  pieces written; the pieces are the witness the run finds.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case C, with the pieces it leaves in the output tile (`L5`: none) and in the running sum (`LS0`). -/
noncomputable def kernelRun1_C (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI_R1_D.lean ====
/-
  The aggregation kernel's whole body at a point of case D (a middle column tile, off the diagonal: the clearing does not run, the diagonal addition does not run, the finishing does not run;
  points 1, 2, 6, 9, 13, 14).

  From the five input tiles at their contents, the output tile at contents handed back untouched and the running sum at
  what the point before left, the body runs to the end holding the inputs as they were and the running sum with the
  pieces written; the pieces are the witness the run finds.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case D, with the pieces it leaves in the output tile (`L5`: none) and in the running sum (`LS0`). -/
noncomputable def kernelRun1_D (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (xi5 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI_R1_E.lean ====
/-
  The aggregation kernel's whole body at a point of case E (last column tile, on the diagonal: the clearing does not run, the diagonal addition runs, the finishing runs;
  points 15).

  From the five input tiles at their contents, the output tile at anything and the running sum at
  what the point before left, the body runs to the end holding the inputs as they were and the running sum and the output tile with the
  pieces written; the pieces are the witness the run finds.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_D

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case E, with the pieces it leaves in the output tile (`L5`) and in the running sum (`LS0`). -/
noncomputable def kernelRun1_E (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨?_, ?_, fun E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI_R1_F.lean ====
/-
  The aggregation kernel's whole body at a point of case F (last column tile, off the diagonal: the clearing does not run, the diagonal addition does not run, the finishing runs;
  points 3, 7, 11).

  From the five input tiles at their contents, the output tile at anything and the running sum at
  what the point before left, the body runs to the end holding the inputs as they were and the running sum and the output tile with the
  pieces written; the pieces are the witness the run finds.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_E

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

set_option maxHeartbeats 1000000 in
/-- The body's run in case F, with the pieces it leaves in the output tile (`L5`) and in the running sum (`LS0`). -/
noncomputable def kernelRun1_F (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    Σ' (L5 : List (View.Piece (Elt F) S2048x128 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨?_, ?_, fun E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI_R1.lean ====
/-
  The first layer's aggregation kernel, at the buffer contents V found on entry: its proof data and body obligation.

  Per case of the body's three conditions, what the run leaves in the output tile and in the running sum (the pieces
  read back), and that the stores cover them; point by point, what the output tile and the running sum hold
  (`outsAt1`: the case selected by the closed forms, the running sum read at what the point before left); the
  invariant with the running sum at those contents; the proof data; the body obligation by cases on the closed forms;
  and the entailments at the region's entry and exit.
-/
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«169190_j76347338654297_2_alg».proof.Proof.KI_R1_F

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-- Case A stores nothing into the output tile (idle at its points, not written back there): a placeholder
    that nothing consults. -/
def out1_A_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x128 .f32 :=
  VO1_5.read (Elt F) (VO1_5.writes (Elt F) VO1_5.junk (kernelRun1_A c i arg2 harg2 arg3 harg3 arg4 harg4 arg5 harg5 arg6 harg6 arg7 harg7 arg8 harg8 hc0 hc1 hc2 x0 x1 x2 x3 x4).1)

/-- Case A's stores into the running sum cover it (each is the whole 2048 x 64 block). -/
theorem scover1_A_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (y : S2048x64.Idx) :
    ∃ pc ∈ (kernelRun1_A c i arg2 harg2 arg3 harg3 arg4 harg4 arg5 harg5 arg6 harg6 arg7 harg7 arg8 harg8 hc0 hc1 hc2 x0 x1 x2 x3 x4).2.1, y ∈ pc.1.set :=
  View.cover_of_tiledL (kernelRun1_A c i arg2 harg2 arg3 harg3 arg4 harg4 arg5 harg5 arg6 harg6 arg7 harg7 arg8 harg8 hc0 hc1 hc2 x0 x1 x2 x3 x4).2.1 S2048x64.size (by sl_kernel_rfl) y

/-- What case A leaves in the running sum: its pieces read back over junk. -/
def sout1_A_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x64 .f32 :=
  VS1_0.read (Elt F) (VS1_0.writes (Elt F) VS1_0.junk (kernelRun1_A c i arg2 harg2 arg3 harg3 arg4 harg4 arg5 harg5 arg6 harg6 arg7 harg7 arg8 harg8 hc0 hc1 hc2 x0 x1 x2 x3 x4).2.1)

/-- Case B stores nothing into the output tile (idle at its points, not written back there): a placeholder
    that nothing consults. -/
def out1_B_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x128 .f32 :=
  VO1_5.read (Elt F) (VO1_5.writes (Elt F) VO1_5.junk (kernelRun1_B c i arg2 harg2 arg3 harg3 arg4 harg4 arg5 harg5 arg6 harg6 arg7 harg7 arg8 harg8 hc0 hc1 hc2 x0 x1 x2 x3 x4).1)

/-- Case B's stores into the running sum cover it (each is the whole 2048 x 64 block). -/
theorem scover1_B_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (y : S2048x64.Idx) :
    ∃ pc ∈ (kernelRun1_B c i arg2 harg2 arg3 harg3 arg4 harg4 arg5 harg5 arg6 harg6 arg7 harg7 arg8 harg8 hc0 hc1 hc2 x0 x1 x2 x3 x4).2.1, y ∈ pc.1.set :=
  View.cover_of_tiledL (kernelRun1_B c i arg2 harg2 arg3 harg3 arg4 harg4 arg5 harg5 arg6 harg6 arg7 harg7 arg8 harg8 hc0 hc1 hc2 x0 x1 x2 x3 x4).2.1 S2048x64.size (by sl_kernel_rfl) y

/-- What case B leaves in the running sum: its pieces read back over junk. -/
def sout1_B_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) : Vec F S2048x64 .f32 :=
  VS1_0.read (Elt F) (VS1_0.writes (Elt F) VS1_0.junk (kernelRun1_B c i arg2 harg2 arg3 harg3 arg4 harg4 arg5 harg5 arg6 harg6 arg7 harg7 arg8 harg8 hc0 hc1 hc2 x0 x1 x2 x3 x4).2.1)

/-- Case C stores nothing into the output tile (idle at its points, not written back there): a placeholder
    that nothing consults. -/
def out1_C_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_C c i arg2 harg2 arg3 harg3 arg4 harg4 arg5 harg5 arg6 harg6 arg7 harg7 arg8 harg8 hc0 hc1 hc2 x0 x1 x2 x3 x4 xs0).1)

/-- Case C's stores into the running sum cover it (each is the whole 2048 x 64 block). -/
theorem scover1_C_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_C c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 hc2 x0 x1 x2 x3 x4 xs0).2.1 S2048x64.size (by sl_kernel_rfl) y

/-- What case C leaves in the running sum: its pieces read back over junk. -/
def sout1_C_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_C c i arg2 harg2 arg3 harg3 arg4 harg4 arg5 harg5 arg6 harg6 arg7 harg7 arg8 harg8 hc0 hc1 hc2 x0 x1 x2 x3 x4 xs0).2.1)

/-- Case D stores nothing into the output tile (idle at its points, not written back there): a placeholder
    that nothing consults. -/
def out1_D_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_D c i arg2 harg2 arg3 harg3 arg4 harg4 arg5 harg5 arg6 harg6 arg7 harg7 arg8 harg8 hc0 hc1 hc2 x0 x1 x2 x3 x4 xs0).1)

/-- Case D's stores into the running sum cover it (each is the whole 2048 x 64 block). -/
theorem scover1_D_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_D c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_D c i arg2 harg2 arg3 harg3 arg4 harg4 arg5 harg5 arg6 harg6 arg7 harg7 arg8 harg8 hc0 hc1 hc2 x0 x1 x2 x3 x4 xs0).2.1 S2048x64.size (by sl_kernel_rfl) y

/-- What case D leaves in the running sum: its pieces read back over junk. -/
def sout1_D_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_D c i arg2 harg2 arg3 harg3 arg4 harg4 arg5 harg5 arg6 harg6 arg7 harg7 arg8 harg8 hc0 hc1 hc2 x0 x1 x2 x3 x4 xs0).2.1)

/-- Case E's one store into the output tile covers it. -/
theorem cover1_E_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x128.Idx) :
    ∃ pc ∈ (kernelRun1_E c i arg2 harg2 arg3 harg3 arg4 harg4 arg5 harg5 arg6 harg6 arg7 harg7 arg8 harg8 hc0 hc1 hc2 x0 x1 x2 x3 x4 xs0).1, y ∈ pc.1.set :=
  View.cover_of_tiledL (kernelRun1_E c i arg2 harg2 arg3 harg3 arg4 harg4 arg5 harg5 arg6 harg6 arg7 harg7 arg8 harg8 hc0 hc1 hc2 x0 x1 x2 x3 x4 xs0).1 S2048x128.size (by sl_kernel_rfl) y

/-- What case E leaves in the output tile: its pieces read back over junk. -/
def out1_E_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_E c i arg2 harg2 arg3 harg3 arg4 harg4 arg5 harg5 arg6 harg6 arg7 harg7 arg8 harg8 hc0 hc1 hc2 x0 x1 x2 x3 x4 xs0).1)

/-- Case E's stores into the running sum cover it (each is the whole 2048 x 64 block). -/
theorem scover1_E_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_E c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_E c i arg2 harg2 arg3 harg3 arg4 harg4 arg5 harg5 arg6 harg6 arg7 harg7 arg8 harg8 hc0 hc1 hc2 x0 x1 x2 x3 x4 xs0).2.1 S2048x64.size (by sl_kernel_rfl) y

/-- What case E leaves in the running sum: its pieces read back over junk. -/
def sout1_E_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_E c i arg2 harg2 arg3 harg3 arg4 harg4 arg5 harg5 arg6 harg6 arg7 harg7 arg8 harg8 hc0 hc1 hc2 x0 x1 x2 x3 x4 xs0).2.1)

/-- Case F's one store into the output tile covers it. -/
theorem cover1_F_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x128.Idx) :
    ∃ pc ∈ (kernelRun1_F c i arg2 harg2 arg3 harg3 arg4 harg4 arg5 harg5 arg6 harg6 arg7 harg7 arg8 harg8 hc0 hc1 hc2 x0 x1 x2 x3 x4 xs0).1, y ∈ pc.1.set :=
  View.cover_of_tiledL (kernelRun1_F c i arg2 harg2 arg3 harg3 arg4 harg4 arg5 harg5 arg6 harg6 arg7 harg7 arg8 harg8 hc0 hc1 hc2 x0 x1 x2 x3 x4 xs0).1 S2048x128.size (by sl_kernel_rfl) y

/-- What case F leaves in the output tile: its pieces read back over junk. -/
def out1_F_5 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x128 .f32 :=
  VO1_5.read (Elt F) (VO1_5.writes (Elt F) VO1_5.junk (kernelRun1_F c i arg2 harg2 arg3 harg3 arg4 harg4 arg5 harg5 arg6 harg6 arg7 harg7 arg8 harg8 hc0 hc1 hc2 x0 x1 x2 x3 x4 xs0).1)

/-- Case F's stores into the running sum cover it (each is the whole 2048 x 64 block). -/
theorem scover1_F_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) (y : S2048x64.Idx) :
    ∃ pc ∈ (kernelRun1_F c i arg2 harg2 arg3 harg3 arg4 harg4 arg5 harg5 arg6 harg6 arg7 harg7 arg8 harg8 hc0 hc1 hc2 x0 x1 x2 x3 x4 xs0).2.1, y ∈ pc.1.set :=
  View.cover_of_tiledL (kernelRun1_F c i arg2 harg2 arg3 harg3 arg4 harg4 arg5 harg5 arg6 harg6 arg7 harg7 arg8 harg8 hc0 hc1 hc2 x0 x1 x2 x3 x4 xs0).2.1 S2048x64.size (by sl_kernel_rfl) y

/-- What case F leaves in the running sum: its pieces read back over junk. -/
def sout1_F_0 (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) : Vec F S2048x64 .f32 :=
  VS1_0.read (Elt F) (VS1_0.writes (Elt F) VS1_0.junk (kernelRun1_F c i arg2 harg2 arg3 harg3 arg4 harg4 arg5 harg5 arg6 harg6 arg7 harg7 arg8 harg8 hc0 hc1 hc2 x0 x1 x2 x3 x4 xs0).2.1)

/-! ## What the output tile and the running sum hold after each point -/

/-- THE ACCUMULATION. What the output's staging buffer and the running sum hold after the body at position `n`: the
    case the closed forms select at `n`, run at the point's memrefs and input blocks, the running sum read at what
    position `n - 1` left (the cases of the first column tile do not read it: they clear it first). -/
def outsAt1 (c : Dev nD) : (n : ℕ) → n < cfg1.N → Vec F S2048x128 .f32 × Vec F S2048x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 5 = 0 then
        False.elim (by have hN : n + 1 < 16 := lt_of_lt_of_eq hn (show cfg1.N = 16 from N_1); omega)
      else
        if h2 : (n + 1) % 4 = 3 then
          False.elim (by have hN : n + 1 < 16 := lt_of_lt_of_eq hn (show cfg1.N = 16 from N_1); omega)
        else
          (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 5 = 0 then
        if h2 : (n + 1) % 4 = 3 then
          (out1_E_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_E_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
        else
          (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        if h2 : (n + 1) % 4 = 3 then
          (out1_F_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_F_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
        else
          (out1_D_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : t.val % 5 = 0) (h2 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) ((hcond1_1 t).mpr h1) (fun h => h2 ((hcond1_2 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) ((hcond1_1 t).mpr h1) (fun h => h2 ((hcond1_2 t).mp h)) (iblk1 V c 0 t) (iblk1 V c 1 t) (iblk1 V c 2 t) (iblk1 V c 3 t) (iblk1 V c 4 t)) := by
  obtain ⟨n, hn⟩ := t
  cases n with
  | zero => exact rfl
  | succ n => exact (by exfalso; have hN : n + 1 < 16 := lt_of_lt_of_eq hn (show cfg1.N = 16 from N_1); (try dsimp only at h0 h1); omega)

/-- `outsAt1` at a point of case B: that case's contents. -/
theorem outsAt1_B (c : Dev nD) (t : Fin cfg1.N) (h0 : t.val % 4 = 0) (h1 : ¬t.val % 5 = 0) (h2 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t), sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)) := by
  obtain ⟨n, hn⟩ := t
  cases n with
  | zero => exact (by exfalso; (try dsimp only at h1); exact absurd (Nat.zero_mod _) h1)
  | succ n => exact ((dif_pos h0).trans ((dif_neg h1).trans ((dif_neg h2).trans rfl)))

/-- `outsAt1` at a point of case C: that case's contents, over what the point before left. -/
theorem outsAt1_C (c : Dev nD) (t : Fin cfg1.N) (h0 : ¬t.val % 4 = 0) (h1 : t.val % 5 = 0) (h2 : ¬t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_pos h1).trans ((dif_neg h2).trans rfl)))

/-- `outsAt1` at a point of case D: that case's contents, over what the point before left. -/
theorem outsAt1_D (c : Dev nD) (t : Fin cfg1.N) (h0 : ¬t.val % 4 = 0) (h1 : ¬t.val % 5 = 0) (h2 : ¬t.val % 4 = 3) :
    outsAt1 V c t.val t.isLt = (out1_D_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_D_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_neg h1).trans ((dif_neg h2).trans rfl)))

/-- `outsAt1` at a point of case E: that case's contents, over what the point before left. -/
theorem outsAt1_E (c : Dev nD) (t : Fin cfg1.N) (h0 : ¬t.val % 4 = 0) (h1 : t.val % 5 = 0) (h2 : t.val % 4 = 3) :
    outsAt1 V c t.val t.isLt = (out1_E_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_E_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_pos h1).trans ((dif_pos h2).trans rfl)))

/-- `outsAt1` at a point of case F: that case's contents, over what the point before left. -/
theorem outsAt1_F (c : Dev nD) (t : Fin cfg1.N) (h0 : ¬t.val % 4 = 0) (h1 : ¬t.val % 5 = 0) (h2 : t.val % 4 = 3) :
    outsAt1 V c t.val t.isLt = (out1_F_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_F_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact ((dif_neg h0).trans ((dif_neg h1).trans ((dif_pos h2).trans rfl)))

/-- The region invariant before position `n`: before the first point what the launch hands over (every scoped buffer
    at anything); afterwards the same with the running sum at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n`: the running sum at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the running sum at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of the region on core `c`: the arrays as the region finds them (`V`); after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the closed forms say which of the six cases the
    point is in, so that case's run applies; the invariant hands the body the running sum at what the point before
    left (at anything at the first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 5 = 0
    · by_cases h2 : t.val % 4 = 3
      · exfalso; omega
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_A V c t h0 h1 h2]
        unfold sout1_A_0; (try dsimp only)
        by_cases hz : t.val = 0
        · rw [PhiS1_castSucc V c t, PhiS1_zero V c _ _ hz, PhiA1_eq]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        · exfalso; omega
    · by_cases h2 : t.val % 4 = 3
      · exfalso; omega
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_B V c t h0 h1 h2]
        unfold sout1_B_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_B c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_B_0 c _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : t.val % 5 = 0
    · by_cases h2 : t.val % 4 = 3
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_E V c t h0 h1 h2]
        unfold out1_E_5 sout1_E_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_E c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_E_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_E_5 c _ _ _ _ _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_C V c t h0 h1 h2]
        unfold sout1_C_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_C c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_C_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val % 4 = 3
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [show (dat1 V c).leavesExact 5 t = owns (c : Thread nD τ) (ms1_5 t) fullShare ((dat1 V c).after 5 t) from by
          unfold Dat.leavesExact; rw [liveAt1_5 t ((hcond1_2 t).mpr h2)], after1_5]
        rw [outsAt1_F V c t h0 h1 h2]
        unfold out1_F_5 sout1_F_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_F c (grid1.coords t) _ _ _ _ _ _ _ _ _ _ _ _ _ _ (fun h => h0 ((hcond1_0 t).mp h)) (fun h => h1 ((hcond1_1 t).mp h)) ((hcond1_2 t).mpr h2) (iblk1 V c 0 t) (iblk1 V c 1 t) (iblk1 V c 2 t) (iblk1 V c 3 t) (iblk1 V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_F_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_F_5 c _ _ _ _ _ _ _ _ _ _ _ _ _ _ _ _ _ _ _ _ _ _ _ _)
      · rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t], after1_3]
        rw [show (dat1 V c).leavesExact 4 t = owns (c : Thread nD τ) (ms1_4 t) fullShare ((dat1 V c).after 4 t) from by
          unfold Dat.leavesExact; rw [liveAt1_4 t], after1_4]
        rw [Dat.leavesExact_idle (dat1 V c) 5 t (idleAt1_5 t (fun h => h2 ((hcond1_2 t).mp h))) (noFlush1_5 t (fun h => h2 ((hcond1_2 t).mp h)))]
        rw [outsAt1_D V c t h0 h1 h2]
        unfold sout1_D_0; (try dsimp only)
        by_cases hz : t.val = 0
        · exfalso; omega
        · rw [PhiS1_castSucc V c t, PhiS1_pos V c _ _ hz]
          iintro ⟨⟨⟨HS0, Hr⟩, Hg⟩, Ho, ⟨%d0, H0⟩, ⟨%d1, H1⟩, ⟨%d2, H2⟩, ⟨%d3, H3⟩, ⟨%d4, H4⟩, ⟨%d5, H5⟩⟩
          iapply ((kernelRun1_D c (grid1.coords t) _ _ _ _ _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) (iblk1 V c 3 t) (iblk1 V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HS0 Hr Hg]
          · isplitl [HS0 Hr]
            · isplitl [HS0]
              · unfold owns; iexists _; isplitr
                swap; · iexact HS0
                ipureintro; exact View.read_writes_of_cover _ _ _ _ _ (scover1_D_0 c _ _ _ _ _ _ _ _ _ _ _ _ _ _ _ _ _ _ _ _ _ _ _ _)
              iexact Hr
            iexact Hg
          isplitl [Ho]; · iexact Ho
          isplitl [H0]; · iexact H0
          isplitl [H1]; · iexact H1
          isplitl [H2]; · iexact H2
          isplitl [H3]; · iexact H3
          isplitl [H4]; · iexact H4
          iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the running sum's named contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI_R2_Runs.lean ====
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-!
  Region 2 (the second aggregation): what its runs share.

  The body keeps a running sum in a scratch block.  At the first column tile (j = 0) it clears the block; at every
  tile it adds the product of the adjacency tile with the narrowed feature block; on the diagonal (i = j) it adds
  the feature block itself; at the last column tile (j = 3) it scales the sum by the column of inverse square
  roots and writes the two heads and the latent sample.  The three conditions are decided here over the 4 x 4
  grid in closed form, together with where the three output windows are idle.
-/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: unfetched, the
    block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: unfetched, the
    block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: unfetched, the
    block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: unfetched, the
    block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: unfetched, the
    block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: unfetched, the
    block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: unfetched, the
    block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not: unfetched, the
    block index has not moved. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The point is at the first column tile: the body clears the running sum. -/
abbrev cond2_0 (i : grid2.Coords) : Prop :=
  (Scalar.cmpi .ne (Scalar.extui (Scalar.cmpi .eq (BitVec.ofNat 32 (i 1).val) 0#32)) 0#32) = 1#1
/-- It holds where the point's number is a multiple of 4. -/
theorem hcond2_0 : ∀ t : Fin cfg2.N, cond2_0 (grid2.coords t) ↔ t.val % 4 = 0 :=
  (by decide +kernel : ∀ t : Fin grid2.N, cond2_0 (grid2.coords t) ↔ t.val % 4 = 0)

/-- The point is on the diagonal: the body adds the feature block itself. -/
abbrev cond2_1 (i : grid2.Coords) : Prop :=
  (Scalar.cmpi .ne (Scalar.extui (Scalar.cmpi .eq (BitVec.ofNat 32 (i 0).val) (BitVec.ofNat 32 (i 1).val))) 0#32) = 1#1
/-- It holds where the row tile is the column tile. -/
theorem hcond2_1 : ∀ t : Fin cfg2.N, cond2_1 (grid2.coords t) ↔ t.val / 4 = t.val % 4 :=
  (by decide +kernel : ∀ t : Fin grid2.N, cond2_1 (grid2.coords t) ↔ t.val / 4 = t.val % 4)

/-- The point is at the last column tile: the body finishes the row tile. -/
abbrev cond2_2 (i : grid2.Coords) : Prop := k2_cond3 i = 1#1
/-- It holds where the point's number is 3 modulo 4. -/
theorem hcond2_2 : ∀ t : Fin cfg2.N, cond2_2 (grid2.coords t) ↔ t.val % 4 = 3 :=
  (by decide +kernel : ∀ t : Fin grid2.N, cond2_2 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
theorem liveAt2_7 : ∀ t : Fin cfg2.N, cfg2.idle 7 (grid2.coords t) = false := by decide +kernel
/-- Away from the last column tile output 8 is idle and is not written back. -/
theorem idleAt2_8 : ∀ t : Fin cfg2.N, ¬cond2_2 (grid2.coords t) → cfg2.idle 8 (grid2.coords t) = true := by decide +kernel
theorem noFlush2_8 : ∀ t : Fin cfg2.N, ¬cond2_2 (grid2.coords t) → (cfg2.win 8).flush t = false := by decide +kernel
/-- At the last column tile output 8 is live. -/
theorem liveAt2_8 : ∀ t : Fin cfg2.N, cond2_2 (grid2.coords t) → cfg2.idle 8 (grid2.coords t) = false := by decide +kernel
/-- Away from the last column tile output 9 is idle and is not written back. -/
theorem idleAt2_9 : ∀ t : Fin cfg2.N, ¬cond2_2 (grid2.coords t) → cfg2.idle 9 (grid2.coords t) = true := by decide +kernel
theorem noFlush2_9 : ∀ t : Fin cfg2.N, ¬cond2_2 (grid2.coords t) → (cfg2.win 9).flush t = false := by decide +kernel
/-- At the last column tile output 9 is live. -/
theorem liveAt2_9 : ∀ t : Fin cfg2.N, cond2_2 (grid2.coords t) → cfg2.idle 9 (grid2.coords t) = false := by decide +kernel
/-- Away from the last column tile output 10 is idle and is not written back. -/
theorem idleAt2_10 : ∀ t : Fin cfg2.N, ¬cond2_2 (grid2.coords t) → cfg2.idle 10 (grid2.coords t) = true := by decide +kernel
theorem noFlush2_10 : ∀ t : Fin cfg2.N, ¬cond2_2 (grid2.coords t) → (cfg2.win 10).flush t = false := by decide +kernel
/-- At the last column tile output 10 is live. -/
theorem liveAt2_10 : ∀ t : Fin cfg2.N, cond2_2 (grid2.coords t) → cfg2.idle 10 (grid2.coords t) = false := by decide +kernel

/-! ## The staging and scratch memrefs -/

/-- One staging buffer of output window 8, through which its contents are stated. -/
abbrev VO2_8 : View sig .tc .vmem S2048x32 .f32 := (Memref.whole cc2_stg8_0 : Memref sig .tc .vmem S2048x32 .f32).view
/-- One staging buffer of output window 9, through which its contents are stated. -/
abbrev VO2_9 : View sig .tc .vmem S2048x32 .f32 := (Memref.whole cc2_stg9_0 : Memref sig .tc .vmem S2048x32 .f32).view
/-- One staging buffer of output window 10, through which its contents are stated. -/
abbrev VO2_10 : View sig .tc .vmem S2048x32 .f32 := (Memref.whole cc2_stg10_0 : Memref sig .tc .vmem S2048x32 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x32 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S2048x32 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S2048x32 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S2048x32 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S2048x32 .f32 := win2_10.stage (cfg2.slots t 10)
abbrev hs2_10 (t : Fin cfg2.N) : (ms2_10 t).IsWhole := hstage2_10 ((cfg2.slots t 10).cast nbuf2_10)
/-- The scratch operand: the running sum, a whole scoped buffer passed beside the windows. -/
abbrev scM2_0 : Memref sig .tc .vmem S2048x128 .f32 := Memref.whole cc2_scratch0
/-- The running sum as a view: what it holds is stated through it. -/
abbrev VS2_0 : View sig .tc .vmem S2048x128 .f32 := scM2_0.view

/-- The scoped buffers of the region that are neither staging buffers nor the running sum: left unopened. -/
abbrev restBut2 (c : Dev nD) : sProp 𝕄 :=
  Pipeline.scopedRestBut (Ix := Unit) (Name := ℕ) (U := UR sig nD τ) (Lvl := ℕ) (Val := Elt F) spec2 c [cc2_scratch0]

/-- The class's invariant with the running sum as a memref owned at some contents. -/
theorem PhiA2_eq (c : Dev nD) :
    (Pipeline.ΦA spec2 c : sProp 𝕄)
      = iprop(iprop(iprop((∃ d, owns (c : Thread nD τ) scM2_0 fullShare d)) ∗ restBut2 (F := F) c) ∗ (∃ r, prngReg c r)) := by
  unfold Pipeline.ΦA; rw [scopedRest2_split]; simp only [scM2_0, owns_whole]; try rfl

end Cert.KernelIdeal.Hand

end
-- ==== Proof.KI_R2_Cases.lean ====
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import proofs.«169190_j76347338654297_2_alg».proof.Proof.KI_R2_Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-!
  Region 2: the body's run in each of its six control cases (first / middle / last column tile, on or off the
  diagonal), each by running the skeleton with the three conditions decided by the case's hypotheses.
-/

set_option maxHeartbeats 4000000 in
/-- The body at a point of the case "first column tile, on the diagonal": on whole staging memrefs, the inputs' at their
    blocks, the outputs' (idle here) at contents handed back untouched, the running sum at anything, it runs to
    the continuation holding the inputs as they were and the running sum with its pieces written
    (the pieces, last first, are the witnesses the run finds). -/
noncomputable def kernelRun2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : cond2_0 i) (hc1 : cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "first column tile, off the diagonal": on whole staging memrefs, the inputs' at their
    blocks, the outputs' (idle here) at contents handed back untouched, the running sum at anything, it runs to
    the continuation holding the inputs as they were and the running sum with its pieces written
    (the pieces, last first, are the witnesses the run finds). -/
noncomputable def kernelRun2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : cond2_0 i) (hc1 : ¬cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "a middle column tile, on the diagonal": on whole staging memrefs, the inputs' at their
    blocks, the outputs' (idle here) at contents handed back untouched, the running sum at what the point before left, it runs to
    the continuation holding the inputs as they were and the running sum with its pieces written
    (the pieces, last first, are the witnesses the run finds). -/
noncomputable def kernelRun2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "a middle column tile, off the diagonal": on whole staging memrefs, the inputs' at their
    blocks, the outputs' (idle here) at contents handed back untouched, the running sum at what the point before left, it runs to
    the continuation holding the inputs as they were and the running sum with its pieces written
    (the pieces, last first, are the witnesses the run finds). -/
noncomputable def kernelRun2_D (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : ¬cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    { LS0 : List (View.Piece (Elt F) S2048x128 .f32) //
      ∀ (xi8 : Vec F S2048x32 .f32) (xi9 : Vec F S2048x32 .f32) (xi10 : Vec F S2048x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xi10 ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, fun xi8 xi9 xi10 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    obtain rfl := harg12.eq_unread hf10
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    iexists _; iexact HS0

set_option maxHeartbeats 4000000 in
/-- The body at a point of the case "last column tile, on the diagonal": on whole staging memrefs, the inputs' at their
    blocks, the outputs' at anything, the running sum at what the point before left, it runs to
    the continuation holding the inputs as they were, each output with its pieces written and the running sum with its pieces written
    (the pieces, last first, are the witnesses the run finds). -/
noncomputable def kernelRun2_E (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    Σ' (L8 : List (View.Piece (Elt F) S2048x32 .f32)) (L9 : List (View.Piece (Elt F) S2048x32 .f32)) (L10 : List (View.Piece (Elt F) S2048x32 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact HS0

set_option maxHeartbeats 4000000 in
/-- The body at a point of the case "last column tile, off the diagonal": on whole staging memrefs, the inputs' at their
    blocks, the outputs' at anything, the running sum at what the point before left, it runs to
    the continuation holding the inputs as they were, each output with its pieces written and the running sum with its pieces written
    (the pieces, last first, are the witnesses the run finds). -/
noncomputable def kernelRun2_F (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole)
    (hc0 : ¬cond2_0 i) (hc1 : ¬cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    Σ' (L8 : List (View.Piece (Elt F) S2048x32 .f32)) (L9 : List (View.Piece (Elt F) S2048x32 .f32)) (L10 : List (View.Piece (Elt F) S2048x32 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg13.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    iexists _; iexact HS0

end Cert.KernelIdeal.Hand

end
-- ==== Proof.KI_R2.lean ====
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import proofs.«169190_j76347338654297_2_alg».proof.Proof.KI_R2_Cases
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-!
  Region 2 (the second aggregation): the proof data of its pipeline, the body obligation at every grid point, and
  the entry and exit entailments.

  After the body at point t = 4 i + j the running sum holds what the case at t leaves: the cleared block plus the
  products of the column tiles 0..j (plus the feature block once the diagonal is passed); the three output windows
  hold, at j = 3, the two heads and the latent sample computed from the scaled sum, and are idle elsewhere.
-/

/-! ## What each case leaves -/

/-- What an output window's buffer is said to hold where the body stores nothing into it (never consulted:
    the window is idle there and not written back). -/
def idleOut2 : Vec F S2048x32 .f32 := VO2_8.read (Elt F) VO2_8.junk

/-- Case A's pieces for the running sum cover it. -/
theorem scover2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (y : S2048x128.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S2048x128.size (by sl_kernel_rfl) y

/-- What case A leaves in the running sum: its pieces read back. -/
def sout2_A (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) : Vec F S2048x128 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case B's pieces for the running sum cover it. -/
theorem scover2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (y : S2048x128.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1 S2048x128.size (by sl_kernel_rfl) y

/-- What case B leaves in the running sum: its pieces read back. -/
def sout2_B (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) : Vec F S2048x128 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7).1)

/-- Case C's pieces for the running sum cover it. -/
theorem scover2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x128.size (by sl_kernel_rfl) y

/-- What case C leaves in the running sum: its pieces read back. -/
def sout2_C (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case D's pieces for the running sum cover it. -/
theorem scover2_D (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x128.size (by sl_kernel_rfl) y

/-- What case D leaves in the running sum: its pieces read back. -/
def sout2_D (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : ¬cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case E's pieces for the running sum cover it. -/
theorem scover2_E (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1 S2048x128.size (by sl_kernel_rfl) y

/-- What case E leaves in the running sum: its pieces read back. -/
def sout2_E (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1)

/-- Case E's pieces for output 8 cover its block. -/
theorem cover2_E_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x32.size (by sl_kernel_rfl) y

/-- What case E leaves in output 8's staging buffer: its pieces read back. -/
def out2_E_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_8.read (Elt F) (VO2_8.writes (Elt F) VO2_8.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case E's pieces for output 9 cover its block. -/
theorem cover2_E_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1 S2048x32.size (by sl_kernel_rfl) y

/-- What case E leaves in output 9's staging buffer: its pieces read back. -/
def out2_E_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_9.read (Elt F) (VO2_9.writes (Elt F) VO2_9.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1)

/-- Case E's pieces for output 10 cover its block. -/
theorem cover2_E_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1, y ∈ pc.1.set :=
  View.cover_of_tiledL (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1 S2048x32.size (by sl_kernel_rfl) y

/-- What case E leaves in output 10's staging buffer: its pieces read back. -/
def out2_E_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_10.read (Elt F) (VO2_10.writes (Elt F) VO2_10.junk (kernelRun2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1)

/-- Case F's pieces for the running sum cover it. -/
theorem scover2_F (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x128.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1 S2048x128.size (by sl_kernel_rfl) y

/-- What case F leaves in the running sum: its pieces read back. -/
def sout2_F (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x128 .f32 :=
  VS2_0.read (Elt F) (VS2_0.writes (Elt F) VS2_0.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.2.1)

/-- Case F's pieces for output 8 cover its block. -/
theorem cover2_F_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1 S2048x32.size (by sl_kernel_rfl) y

/-- What case F leaves in output 8's staging buffer: its pieces read back. -/
def out2_F_8 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_8.read (Elt F) (VO2_8.writes (Elt F) VO2_8.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).1)

/-- Case F's pieces for output 9 cover its block. -/
theorem cover2_F_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1 S2048x32.size (by sl_kernel_rfl) y

/-- What case F leaves in output 9's staging buffer: its pieces read back. -/
def out2_F_9 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_9.read (Elt F) (VO2_9.writes (Elt F) VO2_9.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.1)

/-- Case F's pieces for output 10 cover its block. -/
theorem cover2_F_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) (y : S2048x32.Idx) :
    ∃ pc ∈ (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1, y ∈ pc.1.set :=
  View.cover_of_tiledL (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1 S2048x32.size (by sl_kernel_rfl) y

/-- What case F leaves in output 10's staging buffer: its pieces read back. -/
def out2_F_10 (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i) (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) : Vec F S2048x32 .f32 :=
  VO2_10.read (Elt F) (VO2_10.writes (Elt F) VO2_10.junk (kernelRun2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0).2.2.1)

/-! ## The cases at a grid point -/

/-- Case A at point `t`: what it leaves in the running sum. -/
def ptS2_A (c : Dev nD) (t : Fin cfg2.N) (h0 : t.val % 4 = 0) (h1 : t.val / 4 = t.val % 4) (h2 : ¬t.val % 4 = 3) : Vec F S2048x128 .f32 :=
  sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)

/-- Case B at point `t`: what it leaves in the running sum. -/
def ptS2_B (c : Dev nD) (t : Fin cfg2.N) (h0 : t.val % 4 = 0) (h1 : ¬t.val / 4 = t.val % 4) (h2 : ¬t.val % 4 = 3) : Vec F S2048x128 .f32 :=
  sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)

/-- Case C at point `t`: what it leaves in the running sum. -/
def ptS2_C (c : Dev nD) (t : Fin cfg2.N) (h0 : ¬t.val % 4 = 0) (h1 : t.val / 4 = t.val % 4) (h2 : ¬t.val % 4 = 3) (xs : Vec F S2048x128 .f32) : Vec F S2048x128 .f32 :=
  sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) xs

/-- Case D at point `t`: what it leaves in the running sum. -/
def ptS2_D (c : Dev nD) (t : Fin cfg2.N) (h0 : ¬t.val % 4 = 0) (h1 : ¬t.val / 4 = t.val % 4) (h2 : ¬t.val % 4 = 3) (xs : Vec F S2048x128 .f32) : Vec F S2048x128 .f32 :=
  sout2_D c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) xs

/-- Case E at point `t`: what it leaves in the running sum. -/
def ptS2_E (c : Dev nD) (t : Fin cfg2.N) (h0 : ¬t.val % 4 = 0) (h1 : t.val / 4 = t.val % 4) (h2 : t.val % 4 = 3) (xs : Vec F S2048x128 .f32) : Vec F S2048x128 .f32 :=
  sout2_E c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case E at point `t`: what it leaves in output 8's buffer. -/
def ptO2_E_8 (c : Dev nD) (t : Fin cfg2.N) (h0 : ¬t.val % 4 = 0) (h1 : t.val / 4 = t.val % 4) (h2 : t.val % 4 = 3) (xs : Vec F S2048x128 .f32) : Vec F S2048x32 .f32 :=
  out2_E_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case E at point `t`: what it leaves in output 9's buffer. -/
def ptO2_E_9 (c : Dev nD) (t : Fin cfg2.N) (h0 : ¬t.val % 4 = 0) (h1 : t.val / 4 = t.val % 4) (h2 : t.val % 4 = 3) (xs : Vec F S2048x128 .f32) : Vec F S2048x32 .f32 :=
  out2_E_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case E at point `t`: what it leaves in output 10's buffer. -/
def ptO2_E_10 (c : Dev nD) (t : Fin cfg2.N) (h0 : ¬t.val % 4 = 0) (h1 : t.val / 4 = t.val % 4) (h2 : t.val % 4 = 3) (xs : Vec F S2048x128 .f32) : Vec F S2048x32 .f32 :=
  out2_E_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs

/-- Case F at point `t`: what it leaves in the running sum. -/
def ptS2_F (c : Dev nD) (t : Fin cfg2.N) (h0 : ¬t.val % 4 = 0) (h1 : ¬t.val / 4 = t.val % 4) (h2 : t.val % 4 = 3) (xs : Vec F S2048x128 .f32) : Vec F S2048x128 .f32 :=
  sout2_F c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case F at point `t`: what it leaves in output 8's buffer. -/
def ptO2_F_8 (c : Dev nD) (t : Fin cfg2.N) (h0 : ¬t.val % 4 = 0) (h1 : ¬t.val / 4 = t.val % 4) (h2 : t.val % 4 = 3) (xs : Vec F S2048x128 .f32) : Vec F S2048x32 .f32 :=
  out2_F_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case F at point `t`: what it leaves in output 9's buffer. -/
def ptO2_F_9 (c : Dev nD) (t : Fin cfg2.N) (h0 : ¬t.val % 4 = 0) (h1 : ¬t.val / 4 = t.val % 4) (h2 : t.val % 4 = 3) (xs : Vec F S2048x128 .f32) : Vec F S2048x32 .f32 :=
  out2_F_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
/-- Case F at point `t`: what it leaves in output 10's buffer. -/
def ptO2_F_10 (c : Dev nD) (t : Fin cfg2.N) (h0 : ¬t.val % 4 = 0) (h1 : ¬t.val / 4 = t.val % 4) (h2 : t.val % 4 = 3) (xs : Vec F S2048x128 .f32) : Vec F S2048x32 .f32 :=
  out2_F_10 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs

/-! ## What the outputs and the running sum hold after each point -/

/-- What the three outputs' staging buffers and the running sum hold after the body at position `n`: the case the
    closed forms select there, run at the point's memrefs and input blocks, over the running sum the point before
    left (at the first column tile the sum is cleared, so nothing before is read). -/
def outsAt2 (c : Dev nD) : (n : ℕ) → n < cfg2.N → Vec F S2048x32 .f32 × Vec F S2048x32 .f32 × Vec F S2048x32 .f32 × Vec F S2048x128 .f32
  | 0, hn => (idleOut2, idleOut2, idleOut2, ptS2_A V c ⟨0, hn⟩ (Nat.zero_mod 4) (show (0 : ℕ) / 4 = 0 % 4 from rfl) (show ¬(0 : ℕ) % 4 = 3 by decide))
  | n + 1, hn =>
    if h0 : (n + 1) % 4 = 0 then
      if h1 : (n + 1) / 4 = (n + 1) % 4 then
        (idleOut2, idleOut2, idleOut2, ptS2_A V c ⟨n + 1, hn⟩ h0 h1 (show ¬(n + 1) % 4 = 3 by omega))
      else
        (idleOut2, idleOut2, idleOut2, ptS2_B V c ⟨n + 1, hn⟩ h0 h1 (show ¬(n + 1) % 4 = 3 by omega))
    else if h2 : (n + 1) % 4 = 3 then
      if h1 : (n + 1) / 4 = (n + 1) % 4 then
        (ptO2_E_8 V c ⟨n + 1, hn⟩ h0 h1 h2 (outsAt2 c n (Nat.lt_of_succ_lt hn)).2.2.2, ptO2_E_9 V c ⟨n + 1, hn⟩ h0 h1 h2 (outsAt2 c n (Nat.lt_of_succ_lt hn)).2.2.2, ptO2_E_10 V c ⟨n + 1, hn⟩ h0 h1 h2 (outsAt2 c n (Nat.lt_of_succ_lt hn)).2.2.2, ptS2_E V c ⟨n + 1, hn⟩ h0 h1 h2 (outsAt2 c n (Nat.lt_of_succ_lt hn)).2.2.2)
      else
        (ptO2_F_8 V c ⟨n + 1, hn⟩ h0 h1 h2 (outsAt2 c n (Nat.lt_of_succ_lt hn)).2.2.2, ptO2_F_9 V c ⟨n + 1, hn⟩ h0 h1 h2 (outsAt2 c n (Nat.lt_of_succ_lt hn)).2.2.2, ptO2_F_10 V c ⟨n + 1, hn⟩ h0 h1 h2 (outsAt2 c n (Nat.lt_of_succ_lt hn)).2.2.2, ptS2_F V c ⟨n + 1, hn⟩ h0 h1 h2 (outsAt2 c n (Nat.lt_of_succ_lt hn)).2.2.2)
    else
      if h1 : (n + 1) / 4 = (n + 1) % 4 then
        (idleOut2, idleOut2, idleOut2, ptS2_C V c ⟨n + 1, hn⟩ h0 h1 h2 (outsAt2 c n (Nat.lt_of_succ_lt hn)).2.2.2)
      else
        (idleOut2, idleOut2, idleOut2, ptS2_D V c ⟨n + 1, hn⟩ h0 h1 h2 (outsAt2 c n (Nat.lt_of_succ_lt hn)).2.2.2)

/-- `outsAt2` at a point of case A. -/
theorem outsAt2_A (c : Dev nD) (t : Fin cfg2.N) (h0 : t.val % 4 = 0) (h1 : t.val / 4 = t.val % 4) (h2 : ¬t.val % 4 = 3) :
    outsAt2 V c t.val t.isLt = (idleOut2, idleOut2, idleOut2, ptS2_A V c t h0 h1 h2) := by
  obtain ⟨n, hn⟩ := t
  cases n with
  | zero => exact rfl
  | succ n => exact (dif_pos h0).trans ((dif_pos h1).trans rfl)

/-- `outsAt2` at a point of case B. -/
theorem outsAt2_B (c : Dev nD) (t : Fin cfg2.N) (h0 : t.val % 4 = 0) (h1 : ¬t.val / 4 = t.val % 4) (h2 : ¬t.val % 4 = 3) :
    outsAt2 V c t.val t.isLt = (idleOut2, idleOut2, idleOut2, ptS2_B V c t h0 h1 h2) := by
  obtain ⟨n, hn⟩ := t
  cases n with
  | zero => exact absurd (show (0 : ℕ) / 4 = 0 % 4 from rfl) h1
  | succ n => exact (dif_pos h0).trans ((dif_neg h1).trans rfl)

/-- `outsAt2` at a point of case C. -/
theorem outsAt2_C (c : Dev nD) (t : Fin cfg2.N) (h0 : ¬t.val % 4 = 0) (h1 : t.val / 4 = t.val % 4) (h2 : ¬t.val % 4 = 3) :
    outsAt2 V c t.val t.isLt = (idleOut2, idleOut2, idleOut2, ptS2_C V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_neg h2).trans ((dif_pos h1).trans rfl))

/-- `outsAt2` at a point of case D. -/
theorem outsAt2_D (c : Dev nD) (t : Fin cfg2.N) (h0 : ¬t.val % 4 = 0) (h1 : ¬t.val / 4 = t.val % 4) (h2 : ¬t.val % 4 = 3) :
    outsAt2 V c t.val t.isLt = (idleOut2, idleOut2, idleOut2, ptS2_D V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_neg h2).trans ((dif_neg h1).trans rfl))

/-- `outsAt2` at a point of case E. -/
theorem outsAt2_E (c : Dev nD) (t : Fin cfg2.N) (h0 : ¬t.val % 4 = 0) (h1 : t.val / 4 = t.val % 4) (h2 : t.val % 4 = 3) :
    outsAt2 V c t.val t.isLt = (ptO2_E_8 V c t h0 h1 h2 (outsAt2 V c (t.val - 1) (Nat.lt_of_le_of_lt (Nat.sub_le _ _) t.isLt)).2.2.2, ptO2_E_9 V c t h0 h1 h2 (outsAt2 V c (t.val - 1) (Nat.lt_of_le_of_lt (Nat.sub_le _ _) t.isLt)).2.2.2, ptO2_E_10 V c t h0 h1 h2 (outsAt2 V c (t.val - 1) (Nat.lt_of_le_of_lt (Nat.sub_le _ _) t.isLt)).2.2.2, ptS2_E V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_pos h2).trans ((dif_pos h1).trans rfl))

/-- `outsAt2` at a point of case F. -/
theorem outsAt2_F (c : Dev nD) (t : Fin cfg2.N) (h0 : ¬t.val % 4 = 0) (h1 : ¬t.val / 4 = t.val % 4) (h2 : t.val % 4 = 3) :
    outsAt2 V c t.val t.isLt = (ptO2_F_8 V c t h0 h1 h2 (outsAt2 V c (t.val - 1) (Nat.lt_of_le_of_lt (Nat.sub_le _ _) t.isLt)).2.2.2, ptO2_F_9 V c t h0 h1 h2 (outsAt2 V c (t.val - 1) (Nat.lt_of_le_of_lt (Nat.sub_le _ _) t.isLt)).2.2.2, ptO2_F_10 V c t h0 h1 h2 (outsAt2 V c (t.val - 1) (Nat.lt_of_le_of_lt (Nat.sub_le _ _) t.isLt)).2.2.2, ptS2_F V c t h0 h1 h2 (outsAt2 V c (t.val - 1) (Nat.lt_of_le_of_lt (Nat.sub_le _ _) t.isLt)).2.2.2) := by
  obtain ⟨n, hn⟩ := t
  cases n with
  | zero => exact absurd rfl h0
  | succ n => exact (dif_neg h0).trans ((dif_pos h2).trans ((dif_neg h1).trans rfl))

/-! ## The invariant -/

/-- The region invariant before position `n`: before the first point the class's (every scratch at anything);
    afterwards the running sum at what the point before left, the other scoped buffers unopened, the generator
    register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2.2) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2.2.2) ∗ restBut2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2.2) ∗ restBut2 (F := F) c) ∗ (∃ r, prngReg c r)) := by
  cases n with
  | zero => exact absurd rfl hz
  | succ n => rfl

/-! ## The pipeline's proof data -/

/-- The proof data of the region's pipeline on core `c`: the arrays as the region finds them; after the body at
    point `t` each input's buffer at its block and the outputs' at `outsAt2`; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2.1
    | ⟨10, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2.1 := by dsimp only [dat2]
theorem after2_10 (c : Dev nD) (t : Fin cfg2.N) : (dat2 V c).after 10 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 16000000 in
/-- The body at any point: the inputs' memrefs hold their blocks; the closed forms say which case the point is in;
    the case's run applies; the invariant hands the body the running sum at what the point before left (at anything
    at the very first point) and takes it back at this point's contents; the outputs are handed back untouched where
    they are idle and with their pieces read back where they are written; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  rw [show (dat2 V c).leavesExact 6 t = owns (c : Thread nD τ) (ms2_6 t) fullShare ((dat2 V c).after 6 t) from by
    unfold Dat.leavesExact; rw [liveAt2_6 t], after2_6]
  rw [show (dat2 V c).leavesExact 7 t = owns (c : Thread nD τ) (ms2_7 t) fullShare ((dat2 V c).after 7 t) from by
    unfold Dat.leavesExact; rw [liveAt2_7 t], after2_7]
  by_cases h0 : t.val % 4 = 0
  · have h2 : ¬t.val % 4 = 3 := by omega
    rw [Dat.leavesExact_idle (dat2 V c) 8 t (idleAt2_8 t (fun h => h2 ((hcond2_2 t).mp h))) (noFlush2_8 t (fun h => h2 ((hcond2_2 t).mp h)))]
    rw [Dat.leavesExact_idle (dat2 V c) 9 t (idleAt2_9 t (fun h => h2 ((hcond2_2 t).mp h))) (noFlush2_9 t (fun h => h2 ((hcond2_2 t).mp h)))]
    rw [Dat.leavesExact_idle (dat2 V c) 10 t (idleAt2_10 t (fun h => h2 ((hcond2_2 t).mp h))) (noFlush2_10 t (fun h => h2 ((hcond2_2 t).mp h)))]
    by_cases h1 : t.val / 4 = t.val % 4
    · -- first column tile, on the diagonal: the very first point
      rw [outsAt2_A V c t h0 h1 h2]
      unfold ptS2_A sout2_A; (try dsimp only)
      have hz : t.val = 0 := by omega
      rw [PhiS2_castSucc V c t, PhiS2_zero V c _ _ hz, PhiA2_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_A c (grid2.coords t) _ _ _ _ _ _ _ _ _ _ _ _ _ _ _ _ _ _ _ _ _ _ _ _ ((hcond2_0 t).mpr h0) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      iintro ⟨H0, H1, H2, H3, H4, H5, H6, H7, H8, H9, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10
    · -- first column tile, off the diagonal
      rw [outsAt2_B V c t h0 h1 h2]
      unfold ptS2_B sout2_B; (try dsimp only)
      have hz : t.val ≠ 0 := by omega
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun2_B c (grid2.coords t) _ _ _ _ _ _ _ _ _ _ _ _ _ _ _ _ _ _ _ _ _ _ _ _ ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)).2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexists _; iexact HS0
      iintro ⟨H0, H1, H2, H3, H4, H5, H6, H7, H8, H9, H10, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10
  · by_cases h2 : t.val % 4 = 3
    · -- last column tile
      rw [show (dat2 V c).leavesExact 8 t = owns (c : Thread nD τ) (ms2_8 t) fullShare ((dat2 V c).after 8 t) from by
        unfold Dat.leavesExact; rw [liveAt2_8 t ((hcond2_2 t).mpr h2)], after2_8]
      rw [show (dat2 V c).leavesExact 9 t = owns (c : Thread nD τ) (ms2_9 t) fullShare ((dat2 V c).after 9 t) from by
        unfold Dat.leavesExact; rw [liveAt2_9 t ((hcond2_2 t).mpr h2)], after2_9]
      rw [show (dat2 V c).leavesExact 10 t = owns (c : Thread nD τ) (ms2_10 t) fullShare ((dat2 V c).after 10 t) from by
        unfold Dat.leavesExact; rw [liveAt2_10 t ((hcond2_2 t).mpr h2)], after2_10]
      by_cases h1 : t.val / 4 = t.val % 4
      · -- on the diagonal
        rw [outsAt2_E V c t h0 h1 h2]
        unfold ptS2_E sout2_E ptO2_E_8 out2_E_8 ptO2_E_9 out2_E_9 ptO2_E_10 out2_E_10; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_E c (grid2.coords t) _ _ _ _ _ _ _ _ _ _ _ _ _ _ _ _ _ _ _ _ _ _ _ _ (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_E c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover2_E_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover2_E_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover2_E_10 c _ _ _ _ _ _ _ _ _ _ _ _ _ _ _ _ _ _ _ _ _ _ _ _ _ _ _ _ _ _ _ _ _ _ _ _ _)
      · -- off the diagonal
        rw [outsAt2_F V c t h0 h1 h2]
        unfold ptS2_F sout2_F ptO2_F_8 out2_F_8 ptO2_F_9 out2_F_9 ptO2_F_10 out2_F_10; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_F c (grid2.coords t) _ _ _ _ _ _ _ _ _ _ _ _ _ _ _ _ _ _ _ _ _ _ _ _ (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [HS0]; · iexact HS0
        iintro ⟨H0, H1, H2, H3, H4, H5, H6, H7, ⟨%e8, H8⟩, ⟨%e9, H9⟩, ⟨%e10, H10⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_F c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (cover2_F_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover2_F_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover2_F_10 c _ _ _ _ _ _ _ _ _ _ _ _ _ _ _ _ _ _ _ _ _ _ _ _ _ _ _ _ _ _ _ _ _ _ _ _ _)
    · -- a middle column tile
      rw [Dat.leavesExact_idle (dat2 V c) 8 t (idleAt2_8 t (fun h => h2 ((hcond2_2 t).mp h))) (noFlush2_8 t (fun h => h2 ((hcond2_2 t).mp h)))]
      rw [Dat.leavesExact_idle (dat2 V c) 9 t (idleAt2_9 t (fun h => h2 ((hcond2_2 t).mp h))) (noFlush2_9 t (fun h => h2 ((hcond2_2 t).mp h)))]
      rw [Dat.leavesExact_idle (dat2 V c) 10 t (idleAt2_10 t (fun h => h2 ((hcond2_2 t).mp h))) (noFlush2_10 t (fun h => h2 ((hcond2_2 t).mp h)))]
      by_cases h1 : t.val / 4 = t.val % 4
      · -- on the diagonal
        rw [outsAt2_C V c t h0 h1 h2]
        unfold ptS2_C sout2_C; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_C c (grid2.coords t) _ _ _ _ _ _ _ _ _ _ _ _ _ _ _ _ _ _ _ _ _ _ _ _ (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10
      · -- off the diagonal
        rw [outsAt2_D V c t h0 h1 h2]
        unfold ptS2_D sout2_D; (try dsimp only)
        have hz : t.val ≠ 0 := by omega
        rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun2_D c (grid2.coords t) _ _ _ _ _ _ _ _ _ _ _ _ _ _ _ _ _ _ _ _ _ _ _ _ (fun h => h0 ((hcond2_0 t).mp h)) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) _).2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        iintro ⟨H0, H1, H2, H3, H4, H5, H6, H7, H8, H9, H10, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_D c _ _ _ _ _ _ _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: what the running sum holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KI_R3.lean ====
import proofs.«169190_j76347338654297_2_alg».proof.Proof.Gen.KernelIdeal.Launch
import proofs.«169190_j76347338654297_2_alg».proof.Proof.Gen.KernelIdeal.Skeleton
import proofs.«169190_j76347338654297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! # The decoder region: the logistic of the latent rows' pairwise inner products, tile by tile

The last stage of the program walks an 8 x 8 grid of points. At point (i, j) it is handed row tile i and row tile j of the latent
array — ONE array behind two input windows — and writes the (i, j) tile of the result: the logistic of the product
of tile i by the transpose of tile j. Nothing is carried from point to point and the body has one control path. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window holds its block at every point, although it is fetched only when the row tile changes:
    where it is not fetched the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The column-tile window holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- A whole latent tile. -/
abbrev r3_0 : Rect S1024x32 := Rect.unit (s := S1024x32) ![0, 0] S1024x32.size inb_S1024x32_S1024x32_0_0
/-- A whole result tile. -/
abbrev r3_2 : Rect S1024x1024 := Rect.unit (s := S1024x1024) ![0, 0] S1024x1024.size inb_S1024x1024_S1024x1024_0_0

/-! ## What the body leaves in the result tile -/

/-- The result tile after the body, from the two latent tiles: its one store, over the whole tile. -/
def out3_2 (x0 : Vec F S1024x32 .f32) (x1 : Vec F S1024x32 .f32) : Vec F S1024x1024 .f32 :=
  View.canon [⟨r3_2, k3_pay1 (View.ld x0 r3_0) (View.ld x1 r3_0)⟩]

/-- The one store covers the tile. -/
theorem cover3_2 (p0 : Vec F S1024x1024 .f32) (y : S1024x1024.Idx) :
    ∃ pc ∈ ([⟨r3_2, p0⟩] : List (View.Piece (Elt F) S1024x1024 .f32)), y ∈ pc.1.set :=
  View.cover_of_tiled [⟨r3_2, p0⟩] S1024x1024.size (by rfl) y

/-! ## The body's triple -/

set_option maxHeartbeats 1000000 in
/-- The body on whole staging memrefs, the two latent tiles at `x0`, `x1` and the result tile at anything, runs to
    the continuation holding the latent tiles as they were and the result tile at `out3_2 x0 x1`. -/
theorem sound_kernel3 (c : Dev nD) (E : Set ℕ) (i : grid3.Coords)
    (arg2 : Memref sig .tc .vmem S1024x32 .f32) (harg2 : arg2.IsWhole) (arg3 : Memref sig .tc .vmem S1024x32 .f32) (harg3 : arg3.IsWhole)
    (arg4 : Memref sig .tc .vmem S1024x1024 .f32) (harg4 : arg4.IsWhole)
    (x0 : Vec F S1024x32 .f32) (x1 : Vec F S1024x32 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__decode_kernel i arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- The proof data of the decoder on core `c`: the arrays as the region finds them; after the body at point `t`
    each latent tile as found and the result tile at `out3_2` of the two; the invariant only the untouched scoped
    buffers and the generator register; nothing owed. The two input windows stage ONE array, so each holds one half
    of its full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := if w = 0 then fullShare.left else if w = 1 then fullShare.right else fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The shares: a half each for the two windows on the latent array, all of the result. -/
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- The invariant before the first point and after the last is the class's. -/
theorem hin3 (c : Dev nD) : Pipeline.ΦA spec3 c ⊢ (dat3 V c).Φ 0 := .rfl
theorem hout3 (c : Dev nD) : (dat3 V c).Φ (Fin.last cfg3.N) ⊢ Pipeline.ΦA spec3 c := .rfl

/-! ## The region's arrays among the core's unscoped buffers

The two input windows stage one array, so the region's arrays are not distinct buffers: at entry the latent
array's full share is dealt in two halves, one per window, and at the exit the halves — both still at the entry
contents, an input array being never written — are joined again. -/

/-- Every unscoped buffer that is neither the latent array nor the result, at `W`. -/
def rest3 (c : Dev nD) (W : Valuation τ sig (Elt F)) : sProp 𝕄 :=
  Pipeline.unscopedRest (Ix := Unit) (Name := ℕ) (U := UR sig nD τ) (Lvl := ℕ) spec3 c (fun b => W b)

/-- The contents at the region's exit: the result array at what the write-backs leave, every other buffer as entered. -/
def W3out (c : Dev nD) (W : Valuation τ sig (Elt F)) : Valuation τ sig (Elt F) :=
  Function.update W main_v8 ((dat3 (fun _ b => W b) c).arrAt 2 cfg3.N)

/-- The region's arrays are two buffers. -/
theorem img3 : (Finset.univ.image (Pipeline.arrRef spec3)) = {main_v7_2, main_v8} := by decide

/-- The region's arrays, window by window: the two halves of the latent array's share and the whole result. -/
theorem arrays3_eq (c : Dev nD)
    (G : (w : Fin cfg3.W) → Buf (Elt F) ((cfg3.win w).arr.view.loc (c : Thread nD τ))) :
    ((dat3 V c).arrays G : sProp 𝕄) = iprop((((c : Thread nD τ).loc main_v7_2) ↦{fullShare.left} G 0)
      ∗ (((c : Thread nD τ).loc main_v7_2) ↦{fullShare.right} G 1) ∗ (((c : Thread nD τ).loc main_v8) ↦{fullShare} G 2)) := by
  unfold Dat.arrays
  rw [bigSep_W3]
  rw [(arr_whole3 0).set_eq_univ, (arr_whole3 2).set_eq_univ, share3_0, share3_1, share3_2]

/-- The unscoped buffers at `W`: the latent array, the result, and the others. -/
theorem held3_split (c : Dev nD) (W : Valuation τ sig (Elt F)) :
    (StableHlo.held (c : Thread nD τ) (Pipeline.ucRefs τ sig) W : sProp 𝕄)
      = iprop(((((c : Thread nD τ).loc main_v7_2) ↦{fullShare} W main_v7_2) ∗ (((c : Thread nD τ).loc main_v8) ↦{fullShare} W main_v8)) ∗ rest3 c W) := by
  rw [← Pipeline.unscopedBufs_held c W]
  unfold unscopedBufs rest3 Pipeline.unscopedRest
  rw [img3]
  have hA : ({main_v7_2, main_v8} : Finset (Ref sig .tc)) ⊆ Finset.univ.filter fun b => ¬ b.isScoped := by decide
  rw [bigSep_sdiff_split hA, bigSep_insert (by decide), bigSep_singleton]
  rfl

/-- ENTRY: the core's unscoped buffers at `W` are the region's arrays at the entry contents — the latent array's
    share halved between its two windows — and the other unscoped buffers. -/
theorem entry3 (c : Dev nD) (W : Valuation τ sig (Elt F)) :
    (StableHlo.held (c : Thread nD τ) (Pipeline.ucRefs τ sig) W : sProp 𝕄)
      ⊢ iprop((dat3 (fun _ b => W b) c).arrays ((dat3 (fun _ b => W b) c).arrAt · 0) ∗ rest3 c W) := by
  rw [held3_split, arrays3_eq]
  iintro ⟨⟨H7, H8⟩, Hr⟩
  ihave H := (pointsTo_share (PosShare.mem_left_op_right fullShare)).1 $$ H7
  icases H with ⟨Hl, Hr'⟩
  isplitr [Hr]
  · isplitl [Hl]; · iexact Hl
    isplitl [Hr']; · iexact Hr'
    iexact H8
  iexact Hr

/-- The exit contents at the three buffers' references, and off them. -/
theorem W3out_v8 (c : Dev nD) (W : Valuation τ sig (Elt F)) :
    W3out c W main_v8 = (dat3 (fun _ b => W b) c).arrAt 2 cfg3.N := by
  unfold W3out; exact Function.update_self _ _ _
theorem W3out_of_ne (c : Dev nD) (W : Valuation τ sig (Elt F)) (b : Ref sig .tc) (hb : b ≠ main_v8) :
    W3out c W b = W b := by
  unfold W3out; exact Function.update_of_ne (StableHlo.devRef_ne_of_ne hb) _ _

/-- The other unscoped buffers do not see the update. -/
theorem rest3_W3out (c : Dev nD) (W : Valuation τ sig (Elt F)) : rest3 c (W3out c W) = rest3 c W := by
  unfold rest3 Pipeline.unscopedRest
  refine bigSep_congr fun b hb => ?_
  have hne : b ≠ main_v8 := fun e => (Finset.mem_sdiff.mp hb).2 (by rw [e, img3]; decide)
  show (((c : Thread nD τ).loc b) ↦{fullShare} W3out c W b) = (((c : Thread nD τ).loc b) ↦{fullShare} W b)
  rw [W3out_of_ne c W b hne]

/-- EXIT: the region's arrays at what the pipeline leaves — the two halves of the latent array at the entry
    contents, joined — and the other unscoped buffers are the core's unscoped buffers at the exit contents. -/
theorem exit3 (c : Dev nD) (W : Valuation τ sig (Elt F)) :
    iprop((dat3 (fun _ b => W b) c).arrays ((dat3 (fun _ b => W b) c).arrAt · cfg3.N) ∗ rest3 c W)
      ⊢ (StableHlo.held (c : Thread nD τ) (Pipeline.ucRefs τ sig) (W3out c W) : sProp 𝕄) := by
  rw [held3_split, arrays3_eq, rest3_W3out, W3out_v8, W3out_of_ne c W main_v7_2 (by decide),
    (dat3 (fun _ b => W b) c).arrAt_in 0 rfl, (dat3 (fun _ b => W b) c).arrAt_in 1 rfl]
  iintro ⟨⟨Hl, Hr', H8⟩, Hr⟩
  isplitr [Hr]
  · isplitr [H8]
    · iapply (pointsTo_share (PosShare.mem_left_op_right fullShare)).2
      isplitl [Hl]; · iexact Hl
      iexact Hr'
    iexact H8
  iexact Hr

end Cert.KernelIdeal.Hand

end
-- ==== Proof.KI_Run.lean ====
/-
  The whole program's run. @main is: launch 0, two host operations forming the scaled features and one reshaping a bias,
  launch 1, two bias reshapes, launch 2, launch 3. Between two items every unscoped buffer of the core holds a known
  content: the launch memory, then after each launch its arrays at what the launch's write-backs leave (every other buffer
  untouched) and after each host stretch the operations' results. Each launch is entered from the boundary before it and
  left at the boundary after it; the last boundary read against the final memory gives every buffer's final content.
-/
import proofs.«169190_j76347338654297_2_alg».proof.Proof.KI_R0
import proofs.«169190_j76347338654297_2_alg».proof.Proof.KI_R1
import proofs.«169190_j76347338654297_2_alg».proof.Proof.KI_R2
import proofs.«169190_j76347338654297_2_alg».proof.Proof.KI_R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch (launch 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After launch 0: its arrays at what the launch leaves, every other buffer as before it. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first host stretch (launch 1's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After launch 1: its arrays at what the launch leaves, every other buffer as before it. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (launch 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After launch 2: its arrays at what the launch leaves, every other buffer as before it. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After launch 3: its one output array at what the launch leaves, every other buffer as before it. -/
abbrev W6 : Dev nD → Valuation τ sig (Elt F) := fun c => W3out c (W5 m ρ c)

/-! ## The proof data family and the thread state -/

abbrev adm : (p : Fin 4) → (pcfgs (F := F) p).Adm := fun p => (cfgs p).toPCfg_adm
/-- Every launch's proof data, each at its entry contents: a literal match on the launch's number. -/
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
  | ⟨3, _⟩ => fun c => dat3 (fun _ b => W5 m ρ c b) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's dues: every unscoped buffer at the last boundary, the generator register. -/
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered from every unscoped buffer at the boundary before it, left at the one after
    it. Its arrays are split out of the unscoped buffers and put back at their final contents; the generator register goes
    into the launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V0 m ρ) c
    rw [show (pdats m ρ 0 c).Φ 0 = (dat0 (V0 m ρ) c).Φ 0 from rfl]
    iintro ⟨Hp, -, Hr⟩
    iapply h
    unfold Pipeline.ΦA
    isplitl [Hr]; · iexact Hr
    iexact Hp
  hout c := by
    rw [Pipeline.ownSems0_none]
    have h := hout0 (V0 m ρ) c
    unfold Pipeline.ΦA at h
    rw [show (pdats m ρ 0 c).Φ (Fin.last _) = (dat0 (V0 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the boundary before it, left at the one after
    it. Its arrays are split out of the unscoped buffers and put back at their final contents; the generator register goes
    into the launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V2 m ρ) c
    rw [show (pdats m ρ 1 c).Φ 0 = (dat1 (V2 m ρ) c).Φ 0 from rfl]
    iintro ⟨Hp, -, Hr⟩
    iapply h
    unfold Pipeline.ΦA
    isplitl [Hr]; · iexact Hr
    iexact Hp
  hout c := by
    rw [Pipeline.ownSems0_none]
    have h := hout1 (V2 m ρ) c
    unfold Pipeline.ΦA at h
    rw [show (pdats m ρ 1 c).Φ (Fin.last _) = (dat1 (V2 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at the boundary before it, left at the one after
    it. Its arrays are split out of the unscoped buffers and put back at their final contents; the generator register goes
    into the launch's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V4 m ρ) c
    rw [show (pdats m ρ 2 c).Φ 0 = (dat2 (V4 m ρ) c).Φ 0 from rfl]
    iintro ⟨Hp, -, Hr⟩
    iapply h
    unfold Pipeline.ΦA
    isplitl [Hr]; · iexact Hr
    iexact Hp
  hout c := by
    rw [Pipeline.ownSems0_none]
    have h := hout2 (V4 m ρ) c
    unfold Pipeline.ΦA at h
    rw [show (pdats m ρ 2 c).Φ (Fin.last _) = (dat2 (V4 m ρ) c).Φ (Fin.last cfg2.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: its two input windows stage blocks of ONE array, so the array's points-to is dealt between them by shares at
    the entry and joined again at the exit (entry3 / exit3); otherwise as the other launches. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (fun _ b => W5 m ρ c b) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := rest3 c (W5 m ρ c)
  hentry c := by
    rw [Pipeline.ownSems0_none]
    iintro ⟨⟨Hub, Hp, HO⟩, -, -⟩
    ihave H := (entry3 c (W5 m ρ c)) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (fun _ b => W5 m ρ c b) c
    rw [show (pdats m ρ 3 c).Φ 0 = (dat3 (fun _ b => W5 m ρ c b) c).Φ 0 from rfl]
    iintro ⟨Hp, -, Hr⟩
    iapply h
    unfold Pipeline.ΦA
    isplitl [Hr]; · iexact Hr
    iexact Hp
  hout c := by
    rw [Pipeline.ownSems0_none]
    have h := hout3 (fun _ b => W5 m ρ c b) c
    unfold Pipeline.ΦA at h
    rw [show (pdats m ρ 3 c).Φ (Fin.last _) = (dat3 (fun _ b => W5 m ρ c b) c).Φ (Fin.last cfg3.N) from rfl]
    iintro HΦ
    ihave H := h $$ HΦ
    icases H with ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit3 c (W5 m ρ c)); isplitl [Ha]
        · iexact Ha
        iexact Hrest
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)),
    .region (reg2 m ρ),
    .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and in
    every final state every unscoped buffer of every core holds the last boundary's content. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI_Frame.lean ====
/-
  Every argument array ends as launched. No host operation of @main writes an argument and no launch changes one: a launch
  either stages blocks of it through an input window, whose array the launch leaves as it found it, or does not touch it.
  So each argument's buffer, read at the last boundary, walks back through the six boundaries to the launch memory; with
  the run this is the frame claim: every execution ends, nothing faults, the nine arguments are unchanged.
-/
import proofs.«169190_j76347338654297_2_alg».proof.Proof.KI_Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it and no launch changes it (a launch reads it through an input window or not at all). -/
theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := by unfold W6 W3out; exact Function.update_of_ne (StableHlo.devRef_ne_of_ne (by decide)) _ _
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- `main_arg1` ends as launched: no host operation writes it and no launch changes it (a launch reads it through an input window or not at all). -/
theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := by unfold W6 W3out; exact Function.update_of_ne (StableHlo.devRef_ne_of_ne (by decide)) _ _
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

/-- `main_arg2` ends as launched: no host operation writes it and no launch changes it (a launch reads it through an input window or not at all). -/
theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := by unfold W6 W3out; exact Function.update_of_ne (StableHlo.devRef_ne_of_ne (by decide)) _ _
    _ = W4 m ρ c (Proc.devRef .tc main_arg2) := (W5_arr m ρ c 7).trans (((dat2 (V4 m ρ) c).arrAt_in 7 rfl _).trans (A_eq2 (V4 m ρ) c 7))
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- `main_arg3` ends as launched: no host operation writes it and no launch changes it (a launch reads it through an input window or not at all). -/
theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by unfold W6 W3out; exact Function.update_of_ne (StableHlo.devRef_ne_of_ne (by decide)) _ _
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := (W3_arr m ρ c 3).trans (((dat1 (V2 m ρ) c).arrAt_in 3 rfl _).trans (A_eq1 (V2 m ρ) c 3))
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

/-- `main_arg4` ends as launched: no host operation writes it and no launch changes it (a launch reads it through an input window or not at all). -/
theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by unfold W6 W3out; exact Function.update_of_ne (StableHlo.devRef_ne_of_ne (by decide)) _ _
    _ = W4 m ρ c (Proc.devRef .tc main_arg4) := W5_of_ne m ρ c main_arg4 (by decide)
    _ = W3 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

/-- `main_arg5` ends as launched: no host operation writes it and no launch changes it (a launch reads it through an input window or not at all). -/
theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by unfold W6 W3out; exact Function.update_of_ne (StableHlo.devRef_ne_of_ne (by decide)) _ _
    _ = W4 m ρ c (Proc.devRef .tc main_arg5) := (W5_arr m ρ c 3).trans (((dat2 (V4 m ρ) c).arrAt_in 3 rfl _).trans (A_eq2 (V4 m ρ) c 3))
    _ = W3 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

/-- `main_arg6` ends as launched: no host operation writes it and no launch changes it (a launch reads it through an input window or not at all). -/
theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by unfold W6 W3out; exact Function.update_of_ne (StableHlo.devRef_ne_of_ne (by decide)) _ _
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-- `main_arg7` ends as launched: no host operation writes it and no launch changes it (a launch reads it through an input window or not at all). -/
theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := by unfold W6 W3out; exact Function.update_of_ne (StableHlo.devRef_ne_of_ne (by decide)) _ _
    _ = W4 m ρ c (Proc.devRef .tc main_arg7) := (W5_arr m ρ c 5).trans (((dat2 (V4 m ρ) c).arrAt_in 5 rfl _).trans (A_eq2 (V4 m ρ) c 5))
    _ = W3 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := W1_of_ne m ρ c main_arg7 (by decide)
    _ = m ((c : Thread nD τ).loc main_arg7) := rfl

/-- `main_arg8` ends as launched: no host operation writes it and no launch changes it (a launch reads it through an input window or not at all). -/
theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := by unfold W6 W3out; exact Function.update_of_ne (StableHlo.devRef_ne_of_ne (by decide)) _ _
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

/-- THE FRAME at any float instance: the run, its post read at the nine argument buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c)⟩) (run_all m ρ)

end Cert.KernelIdeal.Hand

end
-- ==== Proof.Spec.lean ====
/-
  The stages of the computation, as functions of each stage's input arrays, index by index on the extended reals.

  A matrix is a function of a two-coordinate index. With A the adjacency, deg_i = (sum_j A_ij) + 1 is the degree with the
  self-loop counted, and the scaling column holds d_i = 1 / sqrt deg_i where 0 < deg_i and 0 elsewhere. The two middle
  stages aggregate a feature matrix S that is ALREADY scaled by d on its rows: row i of the aggregate is
  d_i · ((sum_j A_ij · S_j) + S_i) — the matrix is never scaled, the self-loop is the extra addend S_i. The first of
  them applies a dense layer with a rectifier and scales the rows by d again (so that its output is again a pre-scaled
  feature); the second applies two dense heads and forms z = mu + eps · exp (logvar / 2). The last stage is the logistic
  function of the Gram matrix of z.
-/
import Idealize.ShloMosaic.PureOps.Ideal
import Idealize.ShloMosaic.Lib.ValueIdx

noncomputable section

namespace Cert.Spec

open Idealize.ShloMosaic Idealize.ShloMosaic.ValueIdx

/-- A matrix of extended reals with r rows and c columns. -/
abbrev Mat (r c : Nat) : Type := (⟨2, ![r, c]⟩ : Shape).Idx → EReal

/-- The degree of node i with its self-loop: the row sum plus one. -/
def deg (A : Mat 8192 8192) (i : Fin 8192) : EReal := (∑ j : Fin 8192, A (ix2 i j)) + 1

/-- The scaling of node i: 1 / sqrt deg where the degree is positive, 0 elsewhere. -/
def dinvAt (A : Mat 8192 8192) (i : Fin 8192) : EReal :=
  if 0 < deg A i then Ideal.div 1 (Ideal.sqrt (deg A i)) else 0

/-- Stage 0: the scaling column. -/
def dinvCol (A : Mat 8192 8192) : Mat 8192 1 := fun y => dinvAt A (y 0)

/-- The aggregate of a pre-scaled feature matrix S at node i, feature f: d_i · ((sum_j A_ij · S_jf) + S_if). -/
def aggAt {n : Nat} (ADJ : Mat 8192 8192) (S : Mat 8192 n) (D : Mat 8192 1) (i : Fin 8192) (f : Fin n) : EReal :=
  D (ix2 i 0) * ((∑ j : Fin 8192, ADJ (ix2 i j) * S (ix2 j f)) + S (ix2 i f))

/-- Stage 1: the aggregate through a dense layer with a rectifier, the rows scaled by d again. -/
def gcn1 (ADJ : Mat 8192 8192) (XS : Mat 8192 64) (D : Mat 8192 1) (W1 : Mat 64 128) (B1 : Mat 1 128) : Mat 8192 128 := fun y =>
  D (ix2 (y 0) 0) * max ((∑ f : Fin 64, aggAt ADJ XS D (y 0) f * W1 (ix2 f (y 1))) + B1 (ix2 0 (y 1))) 0

/-- Stage 2, one head: the aggregate through a dense layer. -/
def head (ADJ : Mat 8192 8192) (HS : Mat 8192 128) (D : Mat 8192 1) (Wh : Mat 128 32) (Bh : Mat 1 32) : Mat 8192 32 := fun y =>
  (∑ k : Fin 128, aggAt ADJ HS D (y 0) k * Wh (ix2 k (y 1))) + Bh (ix2 0 (y 1))

/-- Stage 2, the sample: mu + eps · exp (logvar / 2); the half is the float word 0x3F000000. -/
def latent (mu lv eps : Mat 8192 32) : Mat 8192 32 := fun y =>
  mu y + eps y * Ideal.exp (Ideal.ofBits .f32 0x3F000000#32 * lv y)

/-- Stage 3: the logistic function of the Gram matrix of z. -/
def decode (Z : Mat 8192 32) : Mat 8192 8192 := fun y =>
  Ideal.logistic (∑ z : Fin 32, Z (ix2 (y 0) z) * Z (ix2 (y 1) z))

end Cert.Spec

end
-- ==== Proof.SpecAll.lean ====
/-
  The whole computation two ways, index by index on the extended reals.

  * As the composition of the stages (Proof/Spec.lean), the way the four kernel launches and the host operations between
    them compute it: the scaling column d from the adjacency; the features scaled by d on the rows; stage 1; stage 2's two
    heads and the sample; stage 3.
  * As the plain description spells it: a = A + identity, deg = row sums of a, p = deg^(-1/2), d' = 0 where p is infinite
    and p elsewhere, N_ij = (d'_i · a_ij) · d'_j, h = max (N X W1 + b1) 0, mu = N h Wmu + bmu, logvar = N h Wlv + blv,
    z = mu + eps · exp (logvar / 2), result 1 / (1 + exp (-(z zᵀ))).
-/
import proofs.«169190_j76347338654297_2_alg».proof.Proof.Spec

noncomputable section

namespace Cert.Spec

open Idealize.ShloMosaic Idealize.ShloMosaic.ValueIdx

/-- A vector of extended reals. -/
abbrev Vc (n : Nat) : Type := (⟨1, ![n]⟩ : Shape).Idx → EReal

/-- A vector as a one-row matrix. -/
def rowOf {n : Nat} (b : Vc n) : Mat 1 n := fun y => b (ix1 (y 1))

/-! ## The composition of the stages -/

/-- The features scaled by d on the rows. -/
def xsAll (A : Mat 8192 8192) (X : Mat 8192 64) : Mat 8192 64 := fun y => dinvCol A (ix2 (y 0) 0) * X y
def hsAll (A : Mat 8192 8192) (X : Mat 8192 64) (W1 : Mat 64 128) (b1 : Vc 128) : Mat 8192 128 :=
  gcn1 A (xsAll A X) (dinvCol A) W1 (rowOf b1)
def muAll (A : Mat 8192 8192) (X : Mat 8192 64) (W1 : Mat 64 128) (b1 : Vc 128) (Wh : Mat 128 32) (bh : Vc 32) : Mat 8192 32 :=
  head A (hsAll A X W1 b1) (dinvCol A) Wh (rowOf bh)
def zAll (A : Mat 8192 8192) (X : Mat 8192 64) (eps : Mat 8192 32) (W1 : Mat 64 128) (b1 : Vc 128) (Wmu : Mat 128 32) (bmu : Vc 32)
    (Wlv : Mat 128 32) (blv : Vc 32) : Mat 8192 32 :=
  latent (muAll A X W1 b1 Wmu bmu) (muAll A X W1 b1 Wlv blv) eps
def reconAll (A : Mat 8192 8192) (X : Mat 8192 64) (eps : Mat 8192 32) (W1 : Mat 64 128) (b1 : Vc 128) (Wmu : Mat 128 32) (bmu : Vc 32)
    (Wlv : Mat 128 32) (blv : Vc 32) : Mat 8192 8192 :=
  decode (zAll A X eps W1 b1 Wmu bmu Wlv blv)

/-! ## The plain description -/

/-- The identity matrix's entry. -/
def rEye (i j : Fin 8192) : EReal := if i = j then 1 else 0
/-- The adjacency with self-loops. -/
def rA (A : Mat 8192 8192) (i j : Fin 8192) : EReal := A (ix2 i j) + rEye i j
/-- Its row sum, from zero. -/
def rDeg (A : Mat 8192 8192) (i : Fin 8192) : EReal := 0 + ∑ j : Fin 8192, rA A i j
/-- The degree to the power -1/2 (the float word 0xBF000000). -/
def rPow (A : Mat 8192 8192) (i : Fin 8192) : EReal := Ideal.pow (rDeg A i) (Ideal.ofBits .f32 0xBF000000#32)
/-- The power, with an infinite value replaced by 0. -/
def rDinv (A : Mat 8192 8192) (i : Fin 8192) : EReal := if max (rPow A i) (-(rPow A i)) = ⊤ then 0 else rPow A i
/-- The normalized adjacency's entry. -/
def rNorm (A : Mat 8192 8192) (i j : Fin 8192) : EReal := (rDinv A i * rA A i j) * rDinv A j
/-- The normalized adjacency times a matrix. -/
def rAgg {n : Nat} (A : Mat 8192 8192) (Y : Mat 8192 n) (i : Fin 8192) (f : Fin n) : EReal := ∑ j : Fin 8192, rNorm A i j * Y (ix2 j f)
def rH (A : Mat 8192 8192) (X : Mat 8192 64) (W1 : Mat 64 128) (b1 : Vc 128) : Mat 8192 128 := fun y =>
  max ((∑ f : Fin 64, rAgg A X (y 0) f * W1 (ix2 f (y 1))) + b1 (ix1 (y 1))) 0
def rHead (A : Mat 8192 8192) (X : Mat 8192 64) (W1 : Mat 64 128) (b1 : Vc 128) (Wh : Mat 128 32) (bh : Vc 32) : Mat 8192 32 := fun y =>
  (∑ k : Fin 128, rAgg A (rH A X W1 b1) (y 0) k * Wh (ix2 k (y 1))) + bh (ix1 (y 1))
def rZ (A : Mat 8192 8192) (X : Mat 8192 64) (eps : Mat 8192 32) (W1 : Mat 64 128) (b1 : Vc 128) (Wmu : Mat 128 32) (bmu : Vc 32)
    (Wlv : Mat 128 32) (blv : Vc 32) : Mat 8192 32 := fun y =>
  rHead A X W1 b1 Wmu bmu y + eps y * Ideal.exp (Ideal.ofBits .f32 0x3F000000#32 * rHead A X W1 b1 Wlv blv y)
def rRecon (A : Mat 8192 8192) (X : Mat 8192 64) (eps : Mat 8192 32) (W1 : Mat 64 128) (b1 : Vc 128) (Wmu : Mat 128 32) (bmu : Vc 32)
    (Wlv : Mat 128 32) (blv : Vc 32) : Mat 8192 8192 := fun y =>
  Ideal.div (Ideal.ofBits .f32 0x3F800000#32)
    (Ideal.ofBits .f32 0x3F800000#32 + Ideal.exp (-(∑ z : Fin 32, rZ A X eps W1 b1 Wmu bmu Wlv blv (ix2 (y 0) z) * rZ A X eps W1 b1 Wmu bmu Wlv blv (ix2 (y 1) z))))

end Cert.Spec

end
-- ==== Proof.RefIs.lean ====
/-
  The reference program computes the plain description, index by index on the extended reals.

  Its operations, read one at a time: the identity matrix is the comparison of a row counter with a column counter read as
  a float; a = A + identity; deg = 0 + the row sums of a; p = deg^(-1/2); d' = 0 where max p (-p) is the infinity and p
  elsewhere; N_ij = (d'_i · a_ij) · d'_j; h = max (N X W1 + b1) 0; each head is N h W + b; z = mu + eps · exp (logvar / 2);
  the first result is 1 / (1 + exp (-(z zᵀ))). Every step is a reading of one operation at an index: the broadcasts and
  the transposition move the index, a contraction is the sum over its one contracted coordinate, the pointwise operations
  are the extended reals' own. No entry needs to be finite here.
-/
import proofs.«169190_j76347338654297_2_alg».proof.Proof.Gen.ReferenceIdeal.Read
import proofs.«169190_j76347338654297_2_alg».proof.Proof.SpecAll
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.Spec

/-! ## The adjacency with self-loops, its row sums and the scaling -/

private theorem ofNat32_inj {a b : Nat} (ha : a < 8192) (hb : b < 8192) (h : BitVec.ofNat 32 a = BitVec.ofNat 32 b) : a = b := by
  have h' := congrArg BitVec.toNat h
  simp only [BitVec.toNat_ofNat] at h'
  omega

/-- The identity matrix: the row counter compared with the column counter, read as a float. -/
theorem eye_at (i j : Fin 8192) : val_main_v5 (F := Ideal) (ix2 i j) = rEye i j := by
  rw [val_main_v5_apply, val_main_v4_apply, val_main_v3_apply, val_main_v0_apply, val_main_v2_apply, val_main_c_apply,
    val_main_v1_apply]
  show (((IntOp.cmpi .eq (IntOp.addi (BitVec.ofNat 32 i.val) 0#32) (BitVec.ofNat 32 j.val)).toNat : ℝ) : EReal) = rEye i j
  unfold rEye
  by_cases h : i = j
  · subst h
    rw [if_pos rfl, show IntOp.addi (BitVec.ofNat 32 i.val) 0#32 = BitVec.ofNat 32 i.val from BitVec.add_zero _,
      IntOp.cmpi_eq.mpr rfl]
    simp
  · rw [if_neg h]
    have hne : ¬ IntOp.cmpi .eq (IntOp.addi (BitVec.ofNat 32 i.val) 0#32) (BitVec.ofNat 32 j.val) = 1#1 := by
      rw [IntOp.cmpi_eq, show IntOp.addi (BitVec.ofNat 32 i.val) 0#32 = BitVec.ofNat 32 i.val from BitVec.add_zero _]
      exact fun e => h (Fin.ext (ofNat32_inj i.isLt j.isLt e))
    rw [eq_zero_of_ne_one hne]
    simp

/-- The adjacency with self-loops. -/
theorem a_at (adj : Mat 8192 8192) (i j : Fin 8192) : val_main_v6 (F := Ideal) adj (ix2 i j) = rA adj i j := by
  rw [val_main_v6_apply, eye_at]; rfl

/-- Its row sums. -/
theorem deg_at (adj : Mat 8192 8192) (i : Fin 8192) : val_main_v7 (F := Ideal) adj (ix1 i) = rDeg adj i := by
  rw [val_main_v7_apply, val_main_cst_apply]
  have e : ∀ k : Fin 8192, idx_main_v7 (ix1 i) k = ix2 i k := fun k =>
    funext fun a => Fin.ext (by match a with | ⟨0, _⟩ => rfl | ⟨1, _⟩ => rfl)
  simp only [e, a_at, Ideal.ofBits_def, Ideal.ofBits_zero_f32]
  rfl

/-- The row sum to the power -1/2. -/
theorem pow_at (adj : Mat 8192 8192) (i : Fin 8192) : val_main_v9 (F := Ideal) adj (ix1 i) = rPow adj i := by
  rw [val_main_v9_apply, deg_at, val_main_v8_apply, val_main_cst_0_apply]; rfl

/-- The word 0x7F800000 is the infinity. -/
theorem ofBits_inf : Ideal.ofBits .f32 0x7F800000#32 = ⊤ := by simp [Ideal.ofBits, Ideal.ieee]

/-- The power with an infinite value replaced by 0: the test compares the absolute value with the infinity. -/
theorem dinv_at (adj : Mat 8192 8192) (i : Fin 8192) : val_main_v11 (F := Ideal) adj (ix1 i) = rDinv adj i := by
  rw [val_main_v11_apply, val_main_v10_apply, val_main_call0_v0_apply, val_main_call0_v1_apply, val_main_call0_cst_apply,
    val_main_call1_v1_apply, val_main_call1_v0_apply, val_main_cst_1_apply, pow_at]
  show Scalar.select (Ideal.cmp .oeq (max (rPow adj i) (-(rPow adj i))) (Ideal.ofBits .f32 0x7F800000#32))
    (Ideal.ofBits .f32 0x00000000#32) (rPow adj i) = rDinv adj i
  unfold rDinv
  rw [ofBits_inf, Ideal.ofBits_zero_f32]
  by_cases h : max (rPow adj i) (-(rPow adj i)) = ⊤
  · rw [if_pos h, show Ideal.cmp .oeq (max (rPow adj i) (-(rPow adj i))) ⊤ = 1#1 by simp [Ideal.cmp, h], select_one]
  · rw [if_neg h, show Ideal.cmp .oeq (max (rPow adj i) (-(rPow adj i))) ⊤ = 0#1 by simp [Ideal.cmp, h], select_zero]

/-- The normalized adjacency. -/
theorem norm_at (adj : Mat 8192 8192) (i j : Fin 8192) : val_main_v17 (F := Ideal) adj (ix2 i j) = rNorm adj i j := by
  rw [val_main_v17_apply, val_main_v14_apply, val_main_v13_apply, val_main_v12_apply, val_main_v16_apply, val_main_v15_apply, a_at]
  have e1 : idx_main_v12 (idx_main_v13 (ix2 i j)) = ix1 i := funext fun a => Fin.ext (by match a with | ⟨0, _⟩ => rfl)
  have e2 : idx_main_v15 (idx_main_v16 (ix2 i j)) = ix1 j := funext fun a => Fin.ext (by match a with | ⟨0, _⟩ => rfl)
  rw [e1, e2, dinv_at, dinv_at]; rfl

/-! ## The two layers -/

/-- The normalized adjacency times the features. -/
theorem aggx_at (x : Mat 8192 64) (adj : Mat 8192 8192) (i : Fin 8192) (f : Fin 64) :
    val_main_v18 (F := Ideal) x adj (ix2 i f) = rAgg adj x i f := by
  rw [val_main_v18_apply]
  have el : ∀ k : Fin 8192, lidx_main_v18 (ix2 i f) k = ix2 i k := fun k =>
    funext fun a => Fin.ext (by match a with | ⟨0, _⟩ => rfl | ⟨1, _⟩ => rfl)
  have er : ∀ k : Fin 8192, ridx_main_v18 (ix2 i f) k = ix2 k f := fun k =>
    funext fun a => Fin.ext (by match a with | ⟨0, _⟩ => rfl | ⟨1, _⟩ => rfl)
  simp only [el, er, norm_at]
  rfl

/-- The first layer: the dense map, the bias and the rectifier. -/
theorem h_eq (x : Mat 8192 64) (adj : Mat 8192 8192) (W1 : Mat 64 128) (b1 : Vc 128) :
    val_main_v23 (F := Ideal) x adj W1 b1 = rH adj x W1 b1 := by
  funext y
  obtain ⟨i, o, rfl⟩ : ∃ (i : Fin 8192) (o : Fin 128), y = ix2 i o := ⟨y 0, y 1, eq_ix2 y⟩
  rw [val_main_v23_apply, val_main_v22_apply, val_main_v19_apply, val_main_v21_apply, val_main_v20_apply,
    val_main_call2_v0_apply, val_main_call2_cst_apply]
  have el : ∀ k : Fin 64, lidx_main_v19 (ix2 i o) k = ix2 i k := fun k =>
    funext fun a => Fin.ext (by match a with | ⟨0, _⟩ => rfl | ⟨1, _⟩ => rfl)
  have er : ∀ k : Fin 64, ridx_main_v19 (ix2 i o) k = ix2 k o := fun k =>
    funext fun a => Fin.ext (by match a with | ⟨0, _⟩ => rfl | ⟨1, _⟩ => rfl)
  have eb : idx_main_v20 (idx_main_v21 (ix2 i o)) = ix1 o := funext fun a => Fin.ext (by match a with | ⟨0, _⟩ => rfl)
  simp only [el, er, eb, aggx_at, Ideal.ofBits_def, Ideal.ofBits_zero_f32]
  rfl

/-- The normalized adjacency times the first layer's output. -/
theorem aggh_at (x : Mat 8192 64) (adj : Mat 8192 8192) (W1 : Mat 64 128) (b1 : Vc 128) (i : Fin 8192) (k : Fin 128) :
    val_main_v24 (F := Ideal) x adj W1 b1 (ix2 i k) = rAgg adj (rH adj x W1 b1) i k := by
  rw [val_main_v24_apply, h_eq]
  have el : ∀ q : Fin 8192, lidx_main_v24 (ix2 i k) q = ix2 i q := fun q =>
    funext fun a => Fin.ext (by match a with | ⟨0, _⟩ => rfl | ⟨1, _⟩ => rfl)
  have er : ∀ q : Fin 8192, ridx_main_v24 (ix2 i k) q = ix2 q k := fun q =>
    funext fun a => Fin.ext (by match a with | ⟨0, _⟩ => rfl | ⟨1, _⟩ => rfl)
  simp only [el, er, norm_at]
  rfl

/-- The mean head. -/
theorem ref_mu_val (x : Mat 8192 64) (adj : Mat 8192 8192) (W1 : Mat 64 128) (b1 : Vc 128) (Wh : Mat 128 32) (bh : Vc 32) :
    val_main_v28 (F := Ideal) x adj W1 b1 Wh bh = rHead adj x W1 b1 Wh bh := by
  funext y
  obtain ⟨i, z, rfl⟩ : ∃ (i : Fin 8192) (z : Fin 32), y = ix2 i z := ⟨y 0, y 1, eq_ix2 y⟩
  rw [val_main_v28_apply, val_main_v25_apply, val_main_v27_apply, val_main_v26_apply]
  have el : ∀ k : Fin 128, lidx_main_v25 (ix2 i z) k = ix2 i k := fun k =>
    funext fun a => Fin.ext (by match a with | ⟨0, _⟩ => rfl | ⟨1, _⟩ => rfl)
  have er : ∀ k : Fin 128, ridx_main_v25 (ix2 i z) k = ix2 k z := fun k =>
    funext fun a => Fin.ext (by match a with | ⟨0, _⟩ => rfl | ⟨1, _⟩ => rfl)
  have eb : idx_main_v26 (idx_main_v27 (ix2 i z)) = ix1 z := funext fun a => Fin.ext (by match a with | ⟨0, _⟩ => rfl)
  simp only [el, er, eb, aggh_at]
  rfl

/-- The log-variance head. -/
theorem ref_logvar_val (x : Mat 8192 64) (adj : Mat 8192 8192) (W1 : Mat 64 128) (b1 : Vc 128) (Wh : Mat 128 32) (bh : Vc 32) :
    val_main_v32 (F := Ideal) x adj W1 b1 Wh bh = rHead adj x W1 b1 Wh bh := by
  funext y
  obtain ⟨i, z, rfl⟩ : ∃ (i : Fin 8192) (z : Fin 32), y = ix2 i z := ⟨y 0, y 1, eq_ix2 y⟩
  rw [val_main_v32_apply, val_main_v29_apply, val_main_v31_apply, val_main_v30_apply]
  have el : ∀ k : Fin 128, lidx_main_v29 (ix2 i z) k = ix2 i k := fun k =>
    funext fun a => Fin.ext (by match a with | ⟨0, _⟩ => rfl | ⟨1, _⟩ => rfl)
  have er : ∀ k : Fin 128, ridx_main_v29 (ix2 i z) k = ix2 k z := fun k =>
    funext fun a => Fin.ext (by match a with | ⟨0, _⟩ => rfl | ⟨1, _⟩ => rfl)
  have eb : idx_main_v30 (idx_main_v31 (ix2 i z)) = ix1 z := funext fun a => Fin.ext (by match a with | ⟨0, _⟩ => rfl)
  simp only [el, er, eb, aggh_at]
  rfl

/-! ## The sample and the reconstruction -/

/-- The sample: the mean plus the noise times the exponential of half the log-variance. -/
theorem z_eq (x : Mat 8192 64) (adj : Mat 8192 8192) (eps : Mat 8192 32) (W1 : Mat 64 128) (b1 : Vc 128) (Wmu : Mat 128 32) (bmu : Vc 32)
    (Wlv : Mat 128 32) (blv : Vc 32) :
    val_main_v37 (F := Ideal) x adj eps W1 b1 Wmu bmu Wlv blv = rZ adj x eps W1 b1 Wmu bmu Wlv blv := by
  funext y
  rw [val_main_v37_apply, val_main_v36_apply, val_main_v35_apply, val_main_v34_apply, val_main_v33_apply, val_main_cst_2_apply,
    ref_mu_val, ref_logvar_val]
  rfl

/-- The reconstruction: the logistic function, spelled 1 / (1 + exp (-t)), of the sample's Gram matrix. -/
theorem ref_recon_val (x : Mat 8192 64) (adj : Mat 8192 8192) (eps : Mat 8192 32) (W1 : Mat 64 128) (b1 : Vc 128) (Wmu : Mat 128 32) (bmu : Vc 32)
    (Wlv : Mat 128 32) (blv : Vc 32) :
    val_main_v45 (F := Ideal) x adj eps W1 b1 Wmu bmu Wlv blv = rRecon adj x eps W1 b1 Wmu bmu Wlv blv := by
  funext y
  obtain ⟨i, j, rfl⟩ : ∃ (i j : Fin 8192), y = ix2 i j := ⟨y 0, y 1, eq_ix2 y⟩
  rw [val_main_v45_apply, val_main_v44_apply, val_main_cst_4_apply, val_main_v43_apply, val_main_v42_apply, val_main_cst_3_apply,
    val_main_v41_apply, val_main_v40_apply, val_main_v39_apply]
  have el : ∀ k : Fin 32, lidx_main_v39 (ix2 i j) k = ix2 i k := fun k =>
    funext fun a => Fin.ext (by match a with | ⟨0, _⟩ => rfl | ⟨1, _⟩ => rfl)
  have er : ∀ k : Fin 32, idx_main_v38 (ridx_main_v39 (ix2 i j) k) = ix2 j k := fun k =>
    funext fun a => Fin.ext (by match a with | ⟨0, _⟩ => rfl | ⟨1, _⟩ => rfl)
  simp only [val_main_v38_apply, el, er, z_eq]
  rfl

/-! ## The run's three results -/

/-- The run's first result is the reconstruction of the plain description. -/
theorem ref_recon (m : (ℓ : Loc nD τ sig) → Buf (Elt Ideal) ℓ) (c : Dev nD) :
    Cert.ReferenceIdeal.Value.res_main_v45 m c
      = rRecon (m ((c.tc : Thread nD τ).loc main_arg1)) (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) :=
  (val_main_v45_eq m c).trans (ref_recon_val _ _ _ _ _ _ _ _ _)

/-- The run's second result is the mean head. -/
theorem ref_mu (m : (ℓ : Loc nD τ sig) → Buf (Elt Ideal) ℓ) (c : Dev nD) :
    Cert.ReferenceIdeal.Value.res_main_v28 m c
      = rHead (m ((c.tc : Thread nD τ).loc main_arg1)) (m ((c.tc : Thread nD τ).loc main_arg0))
          (m ((c.tc : Thread nD τ).loc main_arg3)) (m ((c.tc : Thread nD τ).loc main_arg4)) (m ((c.tc : Thread nD τ).loc main_arg5))
          (m ((c.tc : Thread nD τ).loc main_arg6)) :=
  (val_main_v28_eq m c).trans (ref_mu_val _ _ _ _ _ _)

/-- The run's third result is the log-variance head. -/
theorem ref_logvar (m : (ℓ : Loc nD τ sig) → Buf (Elt Ideal) ℓ) (c : Dev nD) :
    Cert.ReferenceIdeal.Value.res_main_v32 m c
      = rHead (m ((c.tc : Thread nD τ).loc main_arg1)) (m ((c.tc : Thread nD τ).loc main_arg0))
          (m ((c.tc : Thread nD τ).loc main_arg3)) (m ((c.tc : Thread nD τ).loc main_arg4)) (m ((c.tc : Thread nD τ).loc main_arg7))
          (m ((c.tc : Thread nD τ).loc main_arg8)) :=
  (val_main_v32_eq m c).trans (ref_logvar_val _ _ _ _ _ _)

end Cert.ReferenceIdeal.RefValue

end
-- ==== Proof.LibInvSqrtGuard.lean ====
/-
  Cert.Lib.InvSqrtGuard — the inverse square root of a degree, with its guard, two ways.

  A normalized graph convolution scales by d ↦ d^(-1/2) of a row sum d, and protects the value against d = 0.
  One spelling raises d to the power -1/2 and replaces an infinite result by 0; another takes 1 / sqrt d where
  0 < d and 0 elsewhere. On the extended reals, at a REAL d, the two agree everywhere, including at d ≤ 0:
  the real power d^(-1/2) is 1 / sqrt d for 0 < d, is 0 at d = 0 (the convention 0^y = 0 for y ≠ 0), and is
  exp(-(1/2) log d) · cos(-(π/2)) = 0 for d < 0; it is never infinite, so the guard of the first spelling never
  fires, and the guard of the second picks exactly the branch where the power is not 0 by convention.

  * rpow_neg_half      : d^(-(1/2)) = if 0 < d then 1 / sqrt d else 0 over the reals
  * pow_neg_half_coe   : the same for the extended reals' power at real arguments
  * one_div_sqrt_coe   : for 0 < d, the extended reals' quotient of 1 by their square root of d is the real 1 / sqrt d
  * abs_coe_ne_top     : a real number's magnitude is not +∞ (the "is infinite" test fails on it)
  * the float words 0xBF000000, 0x3F000000, 0x3F800000 denote -1/2, 1/2 and 1.

  Imports only the Idealize library (PureOps/Ideal) and Mathlib.
-/
import Idealize.ShloMosaic.PureOps.Ideal
import Idealize.ShloMosaic.PureOps.Ideal.Laws
import Mathlib.Analysis.SpecialFunctions.Pow.Real
import Mathlib.Analysis.SpecialFunctions.Trigonometric.Basic

noncomputable section

namespace Cert.Lib.InvSqrtGuard

open Idealize.ShloMosaic

/-- Over the reals, d^(-1/2) is 1 / sqrt d where 0 < d and 0 elsewhere: at 0 by the convention 0^y = 0 (y ≠ 0),
    below 0 because the real power of a negative base carries the factor cos(y π), and cos(-(π/2)) = 0. -/
theorem rpow_neg_half (d : ℝ) : d ^ (-(1 / 2) : ℝ) = if 0 < d then 1 / Real.sqrt d else 0 := by
  rcases lt_trichotomy d 0 with h | h | h
  · rw [if_neg (not_lt.2 h.le), Real.rpow_def_of_neg h]
    have : Real.cos (-(1 / 2) * Real.pi) = 0 := by
      rw [show -(1 / 2) * Real.pi = -(Real.pi / 2) by ring, Real.cos_neg, Real.cos_pi_div_two]
    rw [this, mul_zero]
  · subst h
    rw [if_neg (lt_irrefl _), Real.zero_rpow (by norm_num)]
  · rw [if_pos h, Real.rpow_neg h.le, Real.sqrt_eq_rpow]
    exact (one_div _).symm

/-- The extended reals' power at a real base and the exponent -1/2 is that real number. -/
theorem pow_neg_half_coe (d : ℝ) :
    Ideal.pow (d : EReal) ((-(1 / 2) : ℝ) : EReal) = ((if 0 < d then 1 / Real.sqrt d else 0 : ℝ) : EReal) := by
  rw [Ideal.pow_coe_coe]
  exact congrArg _ (rpow_neg_half d)

/-- For 0 < d the quotient of 1 by the square root of d, both taken on the extended reals, is the real 1 / sqrt d. -/
theorem one_div_sqrt_coe {d : ℝ} (h : 0 < d) :
    Ideal.div 1 (Ideal.sqrt (d : EReal)) = ((1 / Real.sqrt d : ℝ) : EReal) := by
  rw [Ideal.sqrt_coe, if_neg (not_lt.2 h.le), Ideal.div_coe (ne_of_gt (Real.sqrt_pos.2 h)), one_mul]

/-- A real number's magnitude is not +∞. -/
theorem abs_coe_ne_top (r : ℝ) : ((|r| : ℝ) : EReal) ≠ ⊤ := EReal.coe_ne_top _

/-- The float word 0xBF000000 denotes -1/2. -/
theorem ofBits_neg_half : Ideal.ofBits .f32 0xBF000000#32 = ((-(1 / 2) : ℝ) : EReal) := by
  simp [Ideal.ofBits, Ideal.ieee]
  rw [← EReal.coe_mul]
  norm_num

/-- The float word 0x3F000000 denotes 1/2. -/
theorem ofBits_half : Ideal.ofBits .f32 0x3F000000#32 = (((1 / 2) : ℝ) : EReal) := by
  simp [Ideal.ofBits, Ideal.ieee]
  rw [← EReal.coe_mul]
  norm_num

/-- The float word 0x3F800000 denotes 1. -/
theorem ofBits_one : Ideal.ofBits .f32 0x3F800000#32 = 1 := by
  simp [Ideal.ofBits, Ideal.ieee]
  rw [← EReal.coe_mul, show (8388608 : ℝ) * ((2 : ℝ) ^ 23)⁻¹ = 1 by norm_num]
  rfl

end Cert.Lib.InvSqrtGuard

end
-- ==== Proof.LibDenseNormAgg.lean ====
/-
  Cert.Lib.DenseNormAgg — a dense normalized graph aggregation with self-loops, two ways.

  With an adjacency matrix a over a finite node set, a scaling vector d (the inverse square roots of the degrees)
  and a node feature x, the symmetric normalization with self-loops aggregates

      sum_j (d_i · (a_ij + [i = j])) · d_j · x_j                     (scale the matrix, then multiply)

  and the same number is

      d_i · ( (sum_j a_ij · (d_j · x_j)) + d_i · x_i )               (scale the feature, multiply, add the node's own
                                                                     scaled feature, scale the row)

  The second form never touches the matrix elementwise: the identity's contribution is one extra addend per row.
  The step uses distributivity of · over + and over the sum, so it is a law of the real numbers; on the extended
  reals it holds for data that are real numbers (agg_ereal), where both sides are then real.

  * sum_add_eye  : sum_j (a_ij + [i = j]) = (sum_j a_ij) + 1 in any semiring-like setting where only + is
                   rearranged (stated over an additive commutative monoid with a one): the degree with a self-loop
  * agg_real     : the aggregation law over the reals
  * coe_sum      : the coercion of a finite real sum into the extended reals is the sum of the coercions
  * agg_ereal    : the aggregation law on the extended reals, for real data
  * sum_add_eye_ereal : the degree law on the extended reals, for a real matrix (the value is real)

  Imports only Mathlib.
-/
import Mathlib.Data.EReal.Inv
import Mathlib.Algebra.BigOperators.Ring.Finset
import Mathlib.Tactic.Ring

noncomputable section

namespace Cert.Lib.DenseNormAgg

open Finset

variable {ι : Type*} [Fintype ι] [DecidableEq ι]

/-- The degree with a self-loop: a row of (a + identity) sums to the row's sum plus one. Only + is rearranged. -/
theorem sum_add_eye {M : Type*} [AddCommMonoid M] [One M] (a : ι → ι → M) (i : ι) :
    ∑ j, (a i j + if i = j then (1 : M) else 0) = (∑ j, a i j) + 1 := by
  rw [Finset.sum_add_distrib, Finset.sum_ite_eq, if_pos (Finset.mem_univ i)]

/-- The aggregation law over the reals: scaling the matrix on both sides and multiplying, against scaling the
    feature, multiplying, adding the node's own scaled feature and scaling the row. -/
theorem agg_real (d : ι → ℝ) (a : ι → ι → ℝ) (x : ι → ℝ) (i : ι) :
    d i * ((∑ j, a i j * (d j * x j)) + d i * x i)
      = ∑ j, (d i * (a i j + if i = j then 1 else 0)) * d j * x j := by
  have h : ∀ j, (d i * (a i j + if i = j then 1 else 0)) * d j * x j
      = d i * (a i j * (d j * x j)) + (if i = j then d i * (d j * x j) else 0) := by
    intro j
    split_ifs <;> ring
  simp only [h, Finset.sum_add_distrib, Finset.sum_ite_eq, Finset.mem_univ, if_true, ← Finset.mul_sum]
  ring

/-- The coercion of a finite real sum into the extended reals is the sum of the coercions. -/
theorem coe_sum {κ : Type*} (s : Finset κ) (f : κ → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- The indicator of the diagonal on the extended reals is the coercion of the real one. -/
theorem coe_eye (i j : ι) : (if i = j then (1 : EReal) else 0) = ((if i = j then 1 else 0 : ℝ) : EReal) := by
  split_ifs <;> simp

/-- The aggregation law on the extended reals, for data that are real numbers. -/
theorem agg_ereal (d : ι → ℝ) (a : ι → ι → ℝ) (x : ι → ℝ) (i : ι) :
    (d i : EReal) * ((∑ j, (a i j : EReal) * ((d j : EReal) * (x j : EReal))) + (d i : EReal) * (x i : EReal))
      = ∑ j, ((d i : EReal) * ((a i j : EReal) + if i = j then 1 else 0)) * (d j : EReal) * (x j : EReal) := by
  simp only [coe_eye, ← EReal.coe_mul, ← EReal.coe_add, ← coe_sum]
  exact congrArg _ (agg_real d a x i)

/-- The degree law on the extended reals, for a real matrix: the value is the real row sum plus one. -/
theorem sum_add_eye_ereal (a : ι → ι → ℝ) (i : ι) :
    ∑ j, ((a i j : EReal) + if i = j then 1 else 0) = (((∑ j, a i j) + 1 : ℝ) : EReal) := by
  rw [sum_add_eye (M := EReal) (fun i j => (a i j : EReal)) i, EReal.coe_add, coe_sum, EReal.coe_one]

end Cert.Lib.DenseNormAgg

end
-- ==== Proof.RefMath.lean ====
/-
  The plain description of the computation is the composition of the stages, for data that are real numbers.

  An extended real is REAL when it is the coercion of a real number; sums, products, maxima of real values are real.
  For a real adjacency A the degree with its self-loop, deg_i = (sum_j A_ij) + 1, is real, so its power to -1/2 is a
  finite number: the test "is infinite" fails on it and the guarded power is 1 / sqrt deg_i where 0 < deg_i and 0
  elsewhere — the scaling d_i of the stages. With real scalings the normalized aggregation

      sum_j ((d_i · (A_ij + [i = j])) · d_j) · Y_jf  =  d_i · ((sum_j A_ij · (d_j · Y_jf)) + d_i · Y_if)

  is distributivity over the reals, which is where the realness of the data is used. The aggregate of real data is real,
  so the hidden layer max (N X W1 + b1) 0 is real and the law applies to it again; the heads follow. The sample z and
  the logistic function of its Gram matrix are the same expressions on both sides (1 / (1 + exp (-s)) is the logistic
  function's definition, and the float word 0x3F800000 denotes 1).
-/
import proofs.«169190_j76347338654297_2_alg».proof.Proof.SpecAll
import proofs.«169190_j76347338654297_2_alg».proof.Proof.LibInvSqrtGuard
import proofs.«169190_j76347338654297_2_alg».proof.Proof.LibDenseNormAgg

noncomputable section

namespace Cert.Spec

open Idealize.ShloMosaic Idealize.ShloMosaic.ValueIdx
open Cert.Lib.InvSqrtGuard Cert.Lib.DenseNormAgg

/-! ## Real values among the extended reals -/

/-- An extended real that is a real number. -/
def IsRe (x : EReal) : Prop := ∃ r : ℝ, x = (r : EReal)

/-- An array all of whose entries are real numbers. -/
def IsR {ι : Type} (f : ι → EReal) : Prop := ∀ y, ∃ r : ℝ, f y = (r : EReal)

theorem isRe_zero : IsRe 0 := ⟨0, rfl⟩
theorem isRe_one : IsRe 1 := ⟨1, rfl⟩

theorem IsRe.add {x y : EReal} (hx : IsRe x) (hy : IsRe y) : IsRe (x + y) := by
  obtain ⟨a, rfl⟩ := hx
  obtain ⟨b, rfl⟩ := hy
  exact ⟨a + b, (EReal.coe_add a b).symm⟩

theorem IsRe.mul {x y : EReal} (hx : IsRe x) (hy : IsRe y) : IsRe (x * y) := by
  obtain ⟨a, rfl⟩ := hx
  obtain ⟨b, rfl⟩ := hy
  exact ⟨a * b, (EReal.coe_mul a b).symm⟩

/-- The coercion of the larger of two reals is the larger of the coercions. -/
theorem coe_max (a b : ℝ) : ((max a b : ℝ) : EReal) = max (a : EReal) (b : EReal) :=
  EReal.coe_strictMono.monotone.map_max

theorem IsRe.max {x y : EReal} (hx : IsRe x) (hy : IsRe y) : IsRe (max x y) := by
  obtain ⟨a, rfl⟩ := hx
  obtain ⟨b, rfl⟩ := hy
  exact ⟨Max.max a b, (coe_max a b).symm⟩

theorem IsRe.sum {κ : Type} (s : Finset κ) (f : κ → EReal) (h : ∀ k ∈ s, IsRe (f k)) : IsRe (∑ k ∈ s, f k) := by
  classical
  induction s using Finset.induction_on with
  | empty => exact ⟨0, by simp⟩
  | insert k s hk ih =>
    rw [Finset.sum_insert hk]
    exact (h k (Finset.mem_insert_self k s)).add (ih fun j hj => h j (Finset.mem_insert_of_mem hj))

/-! ## The degree and the scaling -/

/-- The row sum of the adjacency with self-loops, from zero, is the degree: only + is rearranged. -/
theorem rDeg_eq (A : Mat 8192 8192) (i : Fin 8192) : rDeg A i = deg A i := by
  unfold rDeg deg rA rEye
  rw [zero_add]
  exact sum_add_eye (M := EReal) (fun i j => A (ix2 i j)) i

/-- The degree of a real adjacency is real. -/
theorem deg_isRe {A : Mat 8192 8192} (hA : IsR A) (i : Fin 8192) : IsRe (deg A i) :=
  (IsRe.sum _ _ fun j _ => hA (ix2 i j)).add isRe_one

/-- The scaling 1 / sqrt d where 0 < d and 0 elsewhere, over the reals. -/
def dReal (d : ℝ) : ℝ := if 0 < d then 1 / Real.sqrt d else 0

/-- At a real degree the scaling of the stages is the real scaling. -/
theorem dinvAt_coe {A : Mat 8192 8192} {i : Fin 8192} {d : ℝ} (h : deg A i = (d : EReal)) :
    dinvAt A i = (dReal d : EReal) := by
  unfold dinvAt dReal
  rw [h]
  by_cases hd : 0 < d
  · rw [if_pos (by exact_mod_cast hd), if_pos hd, one_div_sqrt_coe hd]
  · rw [if_neg (by exact_mod_cast hd), if_neg hd]
    rfl

/-- At a real degree the power to -1/2 is finite, so its guard does not fire, and it is the real scaling. -/
theorem rDinv_coe {A : Mat 8192 8192} {i : Fin 8192} {d : ℝ} (h : deg A i = (d : EReal)) :
    rDinv A i = (dReal d : EReal) := by
  have hp : rPow A i = (dReal d : EReal) := by
    unfold rPow dReal
    rw [rDeg_eq, h, ofBits_neg_half, pow_neg_half_coe]
  unfold rDinv
  rw [hp, ← EReal.coe_neg, ← coe_max, if_neg (EReal.coe_ne_top _)]

/-- For a real adjacency the guarded power is the scaling of the stages. -/
theorem rDinv_eq {A : Mat 8192 8192} (hA : IsR A) (i : Fin 8192) : rDinv A i = dinvAt A i := by
  obtain ⟨d, hd⟩ := deg_isRe hA i
  rw [rDinv_coe hd, dinvAt_coe hd]

/-- The scaling of a real adjacency is real. -/
theorem dinvAt_isRe {A : Mat 8192 8192} (hA : IsR A) (i : Fin 8192) : IsRe (dinvAt A i) := by
  obtain ⟨d, hd⟩ := deg_isRe hA i
  exact ⟨_, dinvAt_coe hd⟩

/-! ## The aggregation -/

/-- The normalized aggregation of real data is the aggregate of the stages at the feature scaled on its rows. -/
theorem rAgg_eq {n : Nat} {A : Mat 8192 8192} {Y : Mat 8192 n} (hA : IsR A) (hY : IsR Y) (i : Fin 8192) (f : Fin n) :
    rAgg A Y i f = aggAt (n := n) A (fun y => dinvAt A (y 0) * Y y) (dinvCol A) i f := by
  have hD := dinvAt_isRe hA
  have hR := rDinv_eq hA
  choose a ha using hA
  choose x hx using hY
  choose d hd using hD
  unfold rAgg rNorm rA rEye aggAt dinvCol
  simp only [hR]
  show (∑ j : Fin 8192, dinvAt A i * (A (ix2 i j) + if i = j then 1 else 0) * dinvAt A j * Y (ix2 j f))
      = dinvAt A i * ((∑ j : Fin 8192, A (ix2 i j) * (dinvAt A j * Y (ix2 j f))) + dinvAt A i * Y (ix2 i f))
  simp only [hd, ha, hx]
  exact (agg_ereal d (fun i j => a (ix2 i j)) (fun j => x (ix2 j f)) i).symm

/-- The normalized aggregation of real data is real. -/
theorem rAgg_isRe {n : Nat} {A : Mat 8192 8192} {Y : Mat 8192 n} (hA : IsR A) (hY : IsR Y) (i : Fin 8192) (f : Fin n) :
    IsRe (rAgg A Y i f) := by
  have hR := rDinv_eq hA
  have hD := dinvAt_isRe hA
  unfold rAgg rNorm rA rEye
  refine IsRe.sum _ _ fun j _ => ?_
  rw [hR, hR]
  refine (((hD i).mul (IsRe.add (hA _) ?_)).mul (hD j)).mul (hY _)
  split_ifs
  · exact isRe_one
  · exact isRe_zero

/-! ## The hidden layer and the heads -/

/-- The hidden layer of real data is real. -/
theorem rH_isR {A : Mat 8192 8192} {X : Mat 8192 64} {W1 : Mat 64 128} {b1 : Vc 128}
    (hA : IsR A) (hX : IsR X) (hW1 : IsR W1) (hb1 : IsR b1) : IsR (rH A X W1 b1) := fun y =>
  ((IsRe.sum _ _ fun f _ => (rAgg_isRe hA hX (y 0) f).mul (hW1 _)).add (hb1 _)).max isRe_zero

/-- Stage 1's output is the hidden layer scaled on its rows. -/
theorem hsAll_eq {A : Mat 8192 8192} {X : Mat 8192 64} (W1 : Mat 64 128) (b1 : Vc 128) (hA : IsR A) (hX : IsR X) :
    hsAll A X W1 b1 = fun y => dinvAt A (y 0) * rH A X W1 b1 y := by
  funext y
  obtain ⟨i, k, rfl⟩ : ∃ i k, y = ix2 i k := ⟨_, _, eq_ix2 y⟩
  show dinvAt A i * max ((∑ f : Fin 64, aggAt A (xsAll A X) (dinvCol A) i f * W1 (ix2 f k)) + b1 (ix1 k)) 0
      = dinvAt A i * max ((∑ f : Fin 64, rAgg A X i f * W1 (ix2 f k)) + b1 (ix1 k)) 0
  simp only [rAgg_eq hA hX]
  rfl

theorem rHead_eq {A : Mat 8192 8192} {X : Mat 8192 64} {W1 : Mat 64 128} {b1 : Vc 128} {Wh : Mat 128 32} {bh : Vc 32}
    (hA : IsR A) (hX : IsR X) (hW1 : IsR W1) (hb1 : IsR b1) (hWh : IsR Wh) (hbh : IsR bh) :
    rHead A X W1 b1 Wh bh = muAll A X W1 b1 Wh bh := by
  funext y
  obtain ⟨i, k, rfl⟩ : ∃ i k, y = ix2 i k := ⟨_, _, eq_ix2 y⟩
  show (∑ c : Fin 128, rAgg A (rH A X W1 b1) i c * Wh (ix2 c k)) + bh (ix1 k)
      = (∑ c : Fin 128, aggAt A (hsAll A X W1 b1) (dinvCol A) i c * Wh (ix2 c k)) + bh (ix1 k)
  simp only [rAgg_eq hA (rH_isR hA hX hW1 hb1), hsAll_eq W1 b1 hA hX]

/-! ## The sample and the result -/

theorem rZ_eq {A : Mat 8192 8192} {X : Mat 8192 64} {eps : Mat 8192 32} {W1 : Mat 64 128} {b1 : Vc 128}
    {Wmu : Mat 128 32} {bmu : Vc 32} {Wlv : Mat 128 32} {blv : Vc 32}
    (hA : IsR A) (hX : IsR X) (hW1 : IsR W1) (hb1 : IsR b1) (hWmu : IsR Wmu) (hbmu : IsR bmu)
    (hWlv : IsR Wlv) (hblv : IsR blv) :
    rZ A X eps W1 b1 Wmu bmu Wlv blv = zAll A X eps W1 b1 Wmu bmu Wlv blv := by
  funext y
  unfold rZ zAll latent
  rw [rHead_eq hA hX hW1 hb1 hWmu hbmu, rHead_eq hA hX hW1 hb1 hWlv hblv]

theorem rRecon_eq {A : Mat 8192 8192} {X : Mat 8192 64} {eps : Mat 8192 32} {W1 : Mat 64 128} {b1 : Vc 128}
    {Wmu : Mat 128 32} {bmu : Vc 32} {Wlv : Mat 128 32} {blv : Vc 32}
    (hA : IsR A) (hX : IsR X) (heps : IsR eps) (hW1 : IsR W1) (hb1 : IsR b1) (hWmu : IsR Wmu) (hbmu : IsR bmu)
    (hWlv : IsR Wlv) (hblv : IsR blv) :
    rRecon A X eps W1 b1 Wmu bmu Wlv blv = reconAll A X eps W1 b1 Wmu bmu Wlv blv := by
  funext y
  unfold rRecon reconAll decode
  rw [rZ_eq hA hX hW1 hb1 hWmu hbmu hWlv hblv, ofBits_one]
  rfl

end Cert.Spec

end
-- ==== Proof.Finite.lean ====
/-
  FROM THE PRECONDITION TO "EVERY INPUT ENTRY IS A REAL NUMBER". The precondition of the claim says, on every device,
  that the printed predicate of the nine argument arrays is 1. The predicate is the conjunction, array by array, of
  "for all entries x, |x| < +inf": each conjunct is a reduction by "and", started at 1, of the array of comparisons
  |x| < +inf over all axes. At the ideal instance an entry is an extended real, |x| is max x (-x), the pattern of
  +inf denotes the top element, and the comparison is the linear order's. So a conjunct that is 1 says max x (-x) < ⊤
  at every entry x; of the three kinds of extended real, ⊥ and ⊤ have max x (-x) = ⊤, so x is a real number.
-/
import proofs.«169190_j76347338654297_2_alg».proof.Defs
import proofs.«169190_j76347338654297_2_alg».proof.Proof.Gen.Pre_finite_inputs
import Idealize.ShloMosaic.Lib.ReduceAll
import Idealize.ShloMosaic.Lib.ValueIdx

noncomputable section

open Idealize.ShloMosaic Idealize.ShloMosaic.TcCoe Idealize.SL.Sem

namespace Cert.Proof.Finite

/-- The pattern of positive infinity (exponent field all ones, fraction zero, sign clear) denotes the top of the
    extended reals. -/
theorem inf_eq_top : Ideal.ofBits .f32 0x7F800000#32 = (⊤ : EReal) := by
  simp [Ideal.ofBits, Ideal.ieee]

/-- An extended real whose absolute value max x (-x) is below positive infinity is a real number: at ⊥ and at ⊤ the
    absolute value is ⊤, which is not below itself. -/
theorem real_of_abs_lt (x : EReal) (hx : Ideal.cmp .olt (max x (-x)) (Ideal.ofBits .f32 0x7F800000#32) = 1#1) :
    ∃ r : ℝ, x = (r : EReal) := by
  rw [inf_eq_top] at hx
  induction x using EReal.rec with
  | bot => simp [Ideal.cmp] at hx
  | coe r => exact ⟨r, rfl⟩
  | top => simp [Ideal.cmp] at hx

/-- The scalar shape has one index. -/
instance subsingleton_scalar_idx : Subsingleton Cert.Pre_finite_inputs.S_.Idx :=
  ⟨fun a b => funext fun d => d.elim0⟩

/-- One conjunct of the predicate: if the "and" over a whole array of the comparisons |x| < +inf is 1, every entry of
    the array is a real number. The reduction is over all axes, so every entry reduces into the one result. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ y, ∃ r : ℝ, x y = (r : EReal) :=
  fun y => real_of_abs_lt (x y) (Host.reduce_andi_all _ _ hr hu _ e y)

/-- Under the precondition every entry of each of the nine argument arrays, on every device, is a real number. The
    predicate's value at the one scalar index is the "and" of nine conjuncts, associated to the left; "and" of two
    one-bit words is 1 exactly when both are. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ y, ∃ r : ℝ, (m ((c.tc : Thread Cert.KernelIdeal.nD Cert.KernelIdeal.τ).loc Cert.KernelIdeal.main_arg0)) y = (r : EReal))
      ∧ (∀ y, ∃ r : ℝ, (m ((c.tc : Thread Cert.KernelIdeal.nD Cert.KernelIdeal.τ).loc Cert.KernelIdeal.main_arg1)) y = (r : EReal))
      ∧ (∀ y, ∃ r : ℝ, (m ((c.tc : Thread Cert.KernelIdeal.nD Cert.KernelIdeal.τ).loc Cert.KernelIdeal.main_arg2)) y = (r : EReal))
      ∧ (∀ y, ∃ r : ℝ, (m ((c.tc : Thread Cert.KernelIdeal.nD Cert.KernelIdeal.τ).loc Cert.KernelIdeal.main_arg3)) y = (r : EReal))
      ∧ (∀ y, ∃ r : ℝ, (m ((c.tc : Thread Cert.KernelIdeal.nD Cert.KernelIdeal.τ).loc Cert.KernelIdeal.main_arg4)) y = (r : EReal))
      ∧ (∀ y, ∃ r : ℝ, (m ((c.tc : Thread Cert.KernelIdeal.nD Cert.KernelIdeal.τ).loc Cert.KernelIdeal.main_arg5)) y = (r : EReal))
      ∧ (∀ y, ∃ r : ℝ, (m ((c.tc : Thread Cert.KernelIdeal.nD Cert.KernelIdeal.τ).loc Cert.KernelIdeal.main_arg6)) y = (r : EReal))
      ∧ (∀ y, ∃ r : ℝ, (m ((c.tc : Thread Cert.KernelIdeal.nD Cert.KernelIdeal.τ).loc Cert.KernelIdeal.main_arg7)) y = (r : EReal))
      ∧ (∀ y, ∃ r : ℝ, (m ((c.tc : Thread Cert.KernelIdeal.nD Cert.KernelIdeal.τ).loc Cert.KernelIdeal.main_arg8)) y = (r : EReal)) := by
  have e := congrFun (h c) ValueIdx.ix0
  dsimp only [Cert.Pre_finite_inputs.fn, Cert.Pre_finite_inputs.fn_part1, Cert.Pre_finite_inputs.fn_part2] at e
  simp only [Idealize.ShloMosaic.andi, IntOp.andi_eq_one] at e
  obtain ⟨⟨⟨⟨⟨⟨⟨⟨e0, e1⟩, e2⟩, e3⟩, e4⟩, e5⟩, e6⟩, e7⟩, e8⟩ := e
  exact ⟨all_real _ _ _ _ e0, all_real _ _ _ _ e1, all_real _ _ _ _ e2, all_real _ _ _ _ e3, all_real _ _ _ _ e4,
    all_real _ _ _ _ e5, all_real _ _ _ _ e6, all_real _ _ _ _ e7, all_real _ _ _ _ e8⟩

end Cert.Proof.Finite

end
-- ==== Proof.BridgeWalk.lean ====
/-
  THE KERNEL PROGRAM'S RESULTS AS THE COMPOSITION OF THE STAGES. @main is: launch 0, a host stretch (the scaling column
  spread over the feature columns, its product with the features, the first bias reshaped to a row), launch 1, a host
  stretch (the two head biases reshaped to rows), launch 2, launch 3. Given what each launch leaves in its output arrays
  as a function of the contents it is entered with — the seven hypotheses below: the scaling column and the adjacency
  from launch 0, stage 1 from launch 1, the two heads and the sample from launch 2, stage 3 from launch 3 — the three
  results are read back boundary by boundary. An array a launch only reads, or does not window, holds after the launch
  what it held before; a buffer a host stretch does not write likewise; an argument array therefore holds the launch
  memory's content throughout. Reading launch 3's output gives stage 3 of launch 2's third output, which is the sample of
  the two heads of stage 1 of the scaled features: the composition reconAll; the two heads are launch 2's first two
  outputs, which launch 3 does not write: muAll at the two heads' weights.
-/
import proofs.«169190_j76347338654297_2_alg».proof.Proof.KI_Run
import proofs.«169190_j76347338654297_2_alg».proof.Proof.SpecAll
import Idealize.ShloMosaic.Lib.Pipeline.Value
import Idealize.ShloMosaic.Lib.StableHlo.Run

set_option maxRecDepth 16384

noncomputable section

namespace Cert.KernelIdeal.Bridge

open Cert.KernelIdeal Cert.KernelIdeal.Gen Cert.KernelIdeal.Hand Cert.Spec
open Idealize.ShloMosaic Idealize.ShloMosaic.TcCoe Idealize.ShloMosaic.ValueIdx Idealize.SL.Sem

/-- The contents of every buffer of every core when a launch is entered. -/
abbrev Ent : Type := (c : Dev nD) → (b : Ref sig .tc) → Buf (Elt Ideal) ((c : Thread nD τ).loc b)

variable (m : (ℓ : Loc nD τ sig) → Buf (Elt Ideal) ℓ) (ρ : Dev nD → PrngReg)

/-! ## Reading the host operations at an index -/

/-- The scaling column spread over 64 columns reads, at row i and any column, the column's entry of row i. -/
theorem bcast_col (D : Mat 8192 1) (y : S8192x64.Idx) :
    broadcastInDim S8192x64 ![0, 1] bcast_S8192x1_S8192x64_0_1 D y = D (ix2 (y 0) 0) := by
  unfold broadcastInDim
  congr 1
  funext a
  match a with
  | ⟨0, _⟩ => rfl
  | ⟨1, _⟩ => rfl

/-- A vector reshaped to one row reads, at (0, j), the vector's entry j. -/
theorem reshape_row {n : Nat} (b : Vc n) (h : (⟨1, ![n]⟩ : Shape).ShapeCasts ⟨2, ![1, n]⟩) :
    shapeCast (⟨2, ![1, n]⟩ : Shape) b h = rowOf b := by
  funext j
  rw [shapeCast_addUnit_apply ![n] b h j]
  unfold rowOf
  congr 1
  funext a
  match a with
  | ⟨0, _⟩ => rfl

/-! ## What each boundary holds

  Boundary 1 is after launch 0, boundary 2 after the first host stretch, boundary 3 after launch 1, boundary 4 after the
  second host stretch, boundary 5 after launch 2, boundary 6 after launch 3. An argument array is written by nothing, so
  at every boundary it holds the launch memory's content. -/

section Keep
variable (c : Dev nD)
theorem b1_arg0 : W1 m ρ c (Proc.devRef .tc main_arg0) = (m ((c.tc : Thread nD τ).loc main_arg0)) := W1_of_ne m ρ c main_arg0 (by decide)
theorem b1_arg2 : W1 m ρ c (Proc.devRef .tc main_arg2) = (m ((c.tc : Thread nD τ).loc main_arg2)) := W1_of_ne m ρ c main_arg2 (by decide)
theorem b1_arg3 : W1 m ρ c (Proc.devRef .tc main_arg3) = (m ((c.tc : Thread nD τ).loc main_arg3)) := W1_of_ne m ρ c main_arg3 (by decide)
theorem b1_arg4 : W1 m ρ c (Proc.devRef .tc main_arg4) = (m ((c.tc : Thread nD τ).loc main_arg4)) := W1_of_ne m ρ c main_arg4 (by decide)
theorem b1_arg5 : W1 m ρ c (Proc.devRef .tc main_arg5) = (m ((c.tc : Thread nD τ).loc main_arg5)) := W1_of_ne m ρ c main_arg5 (by decide)
theorem b1_arg6 : W1 m ρ c (Proc.devRef .tc main_arg6) = (m ((c.tc : Thread nD τ).loc main_arg6)) := W1_of_ne m ρ c main_arg6 (by decide)
theorem b1_arg7 : W1 m ρ c (Proc.devRef .tc main_arg7) = (m ((c.tc : Thread nD τ).loc main_arg7)) := W1_of_ne m ρ c main_arg7 (by decide)
theorem b1_arg8 : W1 m ρ c (Proc.devRef .tc main_arg8) = (m ((c.tc : Thread nD τ).loc main_arg8)) := W1_of_ne m ρ c main_arg8 (by decide)
theorem b2_keep_main_v0_0 : W2 m ρ c (Proc.devRef .tc main_v0_0) = W1 m ρ c (Proc.devRef .tc main_v0_0) := by
  show StableHlo.after hostOps1 (W1 m ρ c) (Proc.devRef .tc main_v0_0) = _
  after_results
theorem b2_keep_main_v0_1 : W2 m ρ c (Proc.devRef .tc main_v0_1) = W1 m ρ c (Proc.devRef .tc main_v0_1) := by
  show StableHlo.after hostOps1 (W1 m ρ c) (Proc.devRef .tc main_v0_1) = _
  after_results
theorem b2_keep_main_arg2 : W2 m ρ c (Proc.devRef .tc main_arg2) = W1 m ρ c (Proc.devRef .tc main_arg2) := by
  show StableHlo.after hostOps1 (W1 m ρ c) (Proc.devRef .tc main_arg2) = _
  after_results
theorem b2_keep_main_arg3 : W2 m ρ c (Proc.devRef .tc main_arg3) = W1 m ρ c (Proc.devRef .tc main_arg3) := by
  show StableHlo.after hostOps1 (W1 m ρ c) (Proc.devRef .tc main_arg3) = _
  after_results
theorem b2_keep_main_arg5 : W2 m ρ c (Proc.devRef .tc main_arg5) = W1 m ρ c (Proc.devRef .tc main_arg5) := by
  show StableHlo.after hostOps1 (W1 m ρ c) (Proc.devRef .tc main_arg5) = _
  after_results
theorem b2_keep_main_arg6 : W2 m ρ c (Proc.devRef .tc main_arg6) = W1 m ρ c (Proc.devRef .tc main_arg6) := by
  show StableHlo.after hostOps1 (W1 m ρ c) (Proc.devRef .tc main_arg6) = _
  after_results
theorem b2_keep_main_arg7 : W2 m ρ c (Proc.devRef .tc main_arg7) = W1 m ρ c (Proc.devRef .tc main_arg7) := by
  show StableHlo.after hostOps1 (W1 m ρ c) (Proc.devRef .tc main_arg7) = _
  after_results
theorem b2_keep_main_arg8 : W2 m ρ c (Proc.devRef .tc main_arg8) = W1 m ρ c (Proc.devRef .tc main_arg8) := by
  show StableHlo.after hostOps1 (W1 m ρ c) (Proc.devRef .tc main_arg8) = _
  after_results
theorem b2_arg2 : W2 m ρ c (Proc.devRef .tc main_arg2) = (m ((c.tc : Thread nD τ).loc main_arg2)) := (b2_keep_main_arg2 m ρ c).trans (b1_arg2 m ρ c)
theorem b2_arg3 : W2 m ρ c (Proc.devRef .tc main_arg3) = (m ((c.tc : Thread nD τ).loc main_arg3)) := (b2_keep_main_arg3 m ρ c).trans (b1_arg3 m ρ c)
theorem b2_arg5 : W2 m ρ c (Proc.devRef .tc main_arg5) = (m ((c.tc : Thread nD τ).loc main_arg5)) := (b2_keep_main_arg5 m ρ c).trans (b1_arg5 m ρ c)
theorem b2_arg6 : W2 m ρ c (Proc.devRef .tc main_arg6) = (m ((c.tc : Thread nD τ).loc main_arg6)) := (b2_keep_main_arg6 m ρ c).trans (b1_arg6 m ρ c)
theorem b2_arg7 : W2 m ρ c (Proc.devRef .tc main_arg7) = (m ((c.tc : Thread nD τ).loc main_arg7)) := (b2_keep_main_arg7 m ρ c).trans (b1_arg7 m ρ c)
theorem b2_arg8 : W2 m ρ c (Proc.devRef .tc main_arg8) = (m ((c.tc : Thread nD τ).loc main_arg8)) := (b2_keep_main_arg8 m ρ c).trans (b1_arg8 m ρ c)
theorem b3_arg2 : W3 m ρ c (Proc.devRef .tc main_arg2) = (m ((c.tc : Thread nD τ).loc main_arg2)) := (W3_of_ne m ρ c main_arg2 (by decide)).trans (b2_arg2 m ρ c)
theorem b3_arg5 : W3 m ρ c (Proc.devRef .tc main_arg5) = (m ((c.tc : Thread nD τ).loc main_arg5)) := (W3_of_ne m ρ c main_arg5 (by decide)).trans (b2_arg5 m ρ c)
theorem b3_arg6 : W3 m ρ c (Proc.devRef .tc main_arg6) = (m ((c.tc : Thread nD τ).loc main_arg6)) := (W3_of_ne m ρ c main_arg6 (by decide)).trans (b2_arg6 m ρ c)
theorem b3_arg7 : W3 m ρ c (Proc.devRef .tc main_arg7) = (m ((c.tc : Thread nD τ).loc main_arg7)) := (W3_of_ne m ρ c main_arg7 (by decide)).trans (b2_arg7 m ρ c)
theorem b3_arg8 : W3 m ρ c (Proc.devRef .tc main_arg8) = (m ((c.tc : Thread nD τ).loc main_arg8)) := (W3_of_ne m ρ c main_arg8 (by decide)).trans (b2_arg8 m ρ c)
theorem b3_keep_main_v0_1 : W3 m ρ c (Proc.devRef .tc main_v0_1) = W2 m ρ c (Proc.devRef .tc main_v0_1) :=
  (W3_arr m ρ c 0).trans (((dat1 (V2 m ρ) c).arrAt_in 0 rfl _).trans (A_eq1 (V2 m ρ) c 0))
theorem b3_keep_main_v0_0 : W3 m ρ c (Proc.devRef .tc main_v0_0) = W2 m ρ c (Proc.devRef .tc main_v0_0) :=
  (W3_arr m ρ c 2).trans (((dat1 (V2 m ρ) c).arrAt_in 2 rfl _).trans (A_eq1 (V2 m ρ) c 2))
theorem b4_keep_main_v0_0 : W4 m ρ c (Proc.devRef .tc main_v0_0) = W3 m ρ c (Proc.devRef .tc main_v0_0) := by
  show StableHlo.after hostOps2 (W3 m ρ c) (Proc.devRef .tc main_v0_0) = _
  after_results
theorem b4_keep_main_v0_1 : W4 m ρ c (Proc.devRef .tc main_v0_1) = W3 m ρ c (Proc.devRef .tc main_v0_1) := by
  show StableHlo.after hostOps2 (W3 m ρ c) (Proc.devRef .tc main_v0_1) = _
  after_results
theorem b4_keep_main_v4 : W4 m ρ c (Proc.devRef .tc main_v4) = W3 m ρ c (Proc.devRef .tc main_v4) := by
  show StableHlo.after hostOps2 (W3 m ρ c) (Proc.devRef .tc main_v4) = _
  after_results
theorem b4_keep_main_arg2 : W4 m ρ c (Proc.devRef .tc main_arg2) = W3 m ρ c (Proc.devRef .tc main_arg2) := by
  show StableHlo.after hostOps2 (W3 m ρ c) (Proc.devRef .tc main_arg2) = _
  after_results
theorem b4_keep_main_arg5 : W4 m ρ c (Proc.devRef .tc main_arg5) = W3 m ρ c (Proc.devRef .tc main_arg5) := by
  show StableHlo.after hostOps2 (W3 m ρ c) (Proc.devRef .tc main_arg5) = _
  after_results
theorem b4_keep_main_arg7 : W4 m ρ c (Proc.devRef .tc main_arg7) = W3 m ρ c (Proc.devRef .tc main_arg7) := by
  show StableHlo.after hostOps2 (W3 m ρ c) (Proc.devRef .tc main_arg7) = _
  after_results

end Keep

/-! ## The values -/

section Value
variable
  (h01 : ∀ (V : Ent) (c : Dev nD), ((dat0 (F := Ideal) V c).arrAt 1 cfg0.N : S8192x1.Idx → EReal) = dinvCol (V c main_arg1))
  (h02 : ∀ (V : Ent) (c : Dev nD), ((dat0 (F := Ideal) V c).arrAt 2 cfg0.N : S8192x8192.Idx → EReal) = (V c main_arg1 : S8192x8192.Idx → EReal))
  (h15 : ∀ (V : Ent) (c : Dev nD), ((dat1 (F := Ideal) V c).arrAt 5 cfg1.N : S8192x128.Idx → EReal) = gcn1 (V c main_v0_1) (V c main_v2) (V c main_v0_0) (V c main_arg3) (V c main_v3))
  (h28 : ∀ (V : Ent) (c : Dev nD), (dat2 V c).arrAt 8 cfg2.N = head (V c main_v0_1) (V c main_v4) (V c main_v0_0) (V c main_arg5) (V c main_v5))
  (h29 : ∀ (V : Ent) (c : Dev nD), (dat2 V c).arrAt 9 cfg2.N = head (V c main_v0_1) (V c main_v4) (V c main_v0_0) (V c main_arg7) (V c main_v6))
  (h210 : ∀ (V : Ent) (c : Dev nD), (dat2 V c).arrAt 10 cfg2.N = latent (head (V c main_v0_1) (V c main_v4) (V c main_v0_0) (V c main_arg5) (V c main_v5)) (head (V c main_v0_1) (V c main_v4) (V c main_v0_0) (V c main_arg7) (V c main_v6)) (V c main_arg2))
  (h32 : ∀ (V : Ent) (c : Dev nD), ((dat3 (F := Ideal) V c).arrAt 2 cfg3.N : S8192x8192.Idx → EReal) = decode (V c main_v7_2))

variable (c : Dev nD)

include h01 in
/-- Launch 0 leaves the scaling column in its first output. -/
theorem b1_v0_0 : (W1 m ρ c (Proc.devRef .tc main_v0_0) : S8192x1.Idx → EReal) = dinvCol (m ((c.tc : Thread nD τ).loc main_arg1)) :=
  (W1_arr m ρ c 1).trans (h01 (V0 m ρ) c)

include h02 in
/-- Launch 0 leaves the adjacency in its second output. -/
theorem b1_v0_1 : (W1 m ρ c (Proc.devRef .tc main_v0_1) : S8192x8192.Idx → EReal) = (m ((c.tc : Thread nD τ).loc main_arg1)) :=
  (W1_arr m ρ c 2).trans (h02 (V0 m ρ) c)

include h01 in
/-- The first host stretch forms the features scaled by d on the rows. -/
theorem b2_v2 : (W2 m ρ c (Proc.devRef .tc main_v2) : S8192x64.Idx → EReal) = xsAll (m ((c.tc : Thread nD τ).loc main_arg1)) (m ((c.tc : Thread nD τ).loc main_arg0)) := by
  show StableHlo.after hostOps1 (W1 m ρ c) (Proc.devRef .tc main_v2) = _
  after_results
  rw [b1_v0_0 m ρ h01 c, b1_arg0 m ρ c]
  funext y
  exact congrArg (fun t : EReal => t * (m ((c.tc : Thread nD τ).loc main_arg0)) y) (bcast_col (dinvCol (m ((c.tc : Thread nD τ).loc main_arg1))) y)

/-- The first host stretch reshapes the first bias to one row. -/
theorem b2_v3 : (W2 m ρ c (Proc.devRef .tc main_v3) : S1x128.Idx → EReal) = rowOf (m ((c.tc : Thread nD τ).loc main_arg4)) := by
  show StableHlo.after hostOps1 (W1 m ρ c) (Proc.devRef .tc main_v3) = _
  after_results
  rw [b1_arg4 m ρ c]
  exact reshape_row _ _

include h01 h02 h15 in
/-- Launch 1 leaves stage 1 of the scaled features in its output. -/
theorem b3_v4 : (W3 m ρ c (Proc.devRef .tc main_v4) : S8192x128.Idx → EReal) = hsAll (m ((c.tc : Thread nD τ).loc main_arg1)) (m ((c.tc : Thread nD τ).loc main_arg0)) (m ((c.tc : Thread nD τ).loc main_arg3)) (m ((c.tc : Thread nD τ).loc main_arg4)) := by
  refine (W3_arr m ρ c 5).trans ((h15 (V2 m ρ) c).trans ?_)
  show gcn1 (W2 m ρ c (Proc.devRef .tc main_v0_1)) (W2 m ρ c (Proc.devRef .tc main_v2)) (W2 m ρ c (Proc.devRef .tc main_v0_0)) (W2 m ρ c (Proc.devRef .tc main_arg3)) (W2 m ρ c (Proc.devRef .tc main_v3)) = _
  rw [b2_keep_main_v0_1 m ρ c, b1_v0_1 m ρ h02 c, b2_v2 m ρ h01 c, b2_keep_main_v0_0 m ρ c, b1_v0_0 m ρ h01 c,
    b2_arg3 m ρ c, b2_v3 m ρ c]
  rfl

include h02 in
theorem b4_v0_1 : (W4 m ρ c (Proc.devRef .tc main_v0_1) : S8192x8192.Idx → EReal) = (m ((c.tc : Thread nD τ).loc main_arg1)) :=
  (b4_keep_main_v0_1 m ρ c).trans ((b3_keep_main_v0_1 m ρ c).trans ((b2_keep_main_v0_1 m ρ c).trans (b1_v0_1 m ρ h02 c)))

include h01 in
theorem b4_v0_0 : (W4 m ρ c (Proc.devRef .tc main_v0_0) : S8192x1.Idx → EReal) = dinvCol (m ((c.tc : Thread nD τ).loc main_arg1)) :=
  (b4_keep_main_v0_0 m ρ c).trans ((b3_keep_main_v0_0 m ρ c).trans ((b2_keep_main_v0_0 m ρ c).trans (b1_v0_0 m ρ h01 c)))

include h01 h02 h15 in
theorem b4_v4 : (W4 m ρ c (Proc.devRef .tc main_v4) : S8192x128.Idx → EReal) = hsAll (m ((c.tc : Thread nD τ).loc main_arg1)) (m ((c.tc : Thread nD τ).loc main_arg0)) (m ((c.tc : Thread nD τ).loc main_arg3)) (m ((c.tc : Thread nD τ).loc main_arg4)) :=
  (b4_keep_main_v4 m ρ c).trans (b3_v4 m ρ h01 h02 h15 c)

theorem b4_arg2 : W4 m ρ c (Proc.devRef .tc main_arg2) = (m ((c.tc : Thread nD τ).loc main_arg2)) := (b4_keep_main_arg2 m ρ c).trans (b3_arg2 m ρ c)
theorem b4_arg5 : W4 m ρ c (Proc.devRef .tc main_arg5) = (m ((c.tc : Thread nD τ).loc main_arg5)) := (b4_keep_main_arg5 m ρ c).trans (b3_arg5 m ρ c)
theorem b4_arg7 : W4 m ρ c (Proc.devRef .tc main_arg7) = (m ((c.tc : Thread nD τ).loc main_arg7)) := (b4_keep_main_arg7 m ρ c).trans (b3_arg7 m ρ c)

/-- The second host stretch reshapes the two head biases to one row each. -/
theorem b4_v5 : (W4 m ρ c (Proc.devRef .tc main_v5) : S1x32.Idx → EReal) = rowOf (m ((c.tc : Thread nD τ).loc main_arg6)) := by
  show StableHlo.after hostOps2 (W3 m ρ c) (Proc.devRef .tc main_v5) = _
  after_results
  rw [b3_arg6 m ρ c]
  exact reshape_row _ _
theorem b4_v6 : (W4 m ρ c (Proc.devRef .tc main_v6) : S1x32.Idx → EReal) = rowOf (m ((c.tc : Thread nD τ).loc main_arg8)) := by
  show StableHlo.after hostOps2 (W3 m ρ c) (Proc.devRef .tc main_v6) = _
  after_results
  rw [b3_arg8 m ρ c]
  exact reshape_row _ _

include h01 h02 h15 h28 in
/-- Launch 2 leaves the first head in its first output. -/
theorem b5_v7_0 : (W5 m ρ c (Proc.devRef .tc main_v7_0) : S8192x32.Idx → EReal) = muAll (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  refine (W5_arr m ρ c 8).trans ((h28 (V4 m ρ) c).trans ?_)
  show head (W4 m ρ c (Proc.devRef .tc main_v0_1)) (W4 m ρ c (Proc.devRef .tc main_v4)) (W4 m ρ c (Proc.devRef .tc main_v0_0)) (W4 m ρ c (Proc.devRef .tc main_arg5)) (W4 m ρ c (Proc.devRef .tc main_v5)) = _
  rw [b4_v0_1 m ρ h02 c, b4_v4 m ρ h01 h02 h15 c, b4_v0_0 m ρ h01 c, b4_arg5 m ρ c, b4_v5 m ρ c]
  rfl

include h01 h02 h15 h29 in
/-- Launch 2 leaves the second head in its second output. -/
theorem b5_v7_1 : (W5 m ρ c (Proc.devRef .tc main_v7_1) : S8192x32.Idx → EReal) = muAll (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) := by
  refine (W5_arr m ρ c 9).trans ((h29 (V4 m ρ) c).trans ?_)
  show head (W4 m ρ c (Proc.devRef .tc main_v0_1)) (W4 m ρ c (Proc.devRef .tc main_v4)) (W4 m ρ c (Proc.devRef .tc main_v0_0)) (W4 m ρ c (Proc.devRef .tc main_arg7)) (W4 m ρ c (Proc.devRef .tc main_v6)) = _
  rw [b4_v0_1 m ρ h02 c, b4_v4 m ρ h01 h02 h15 c, b4_v0_0 m ρ h01 c, b4_arg7 m ρ c, b4_v6 m ρ c]
  rfl

include h01 h02 h15 h210 in
/-- Launch 2 leaves the sample in its third output. -/
theorem b5_v7_2 : (W5 m ρ c (Proc.devRef .tc main_v7_2) : S8192x32.Idx → EReal)
    = zAll (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W5_arr m ρ c 10).trans ((h210 (V4 m ρ) c).trans ?_)
  show latent (head (W4 m ρ c (Proc.devRef .tc main_v0_1)) (W4 m ρ c (Proc.devRef .tc main_v4)) (W4 m ρ c (Proc.devRef .tc main_v0_0)) (W4 m ρ c (Proc.devRef .tc main_arg5)) (W4 m ρ c (Proc.devRef .tc main_v5)))
      (head (W4 m ρ c (Proc.devRef .tc main_v0_1)) (W4 m ρ c (Proc.devRef .tc main_v4)) (W4 m ρ c (Proc.devRef .tc main_v0_0)) (W4 m ρ c (Proc.devRef .tc main_arg7)) (W4 m ρ c (Proc.devRef .tc main_v6))) (W4 m ρ c (Proc.devRef .tc main_arg2)) = _
  rw [b4_v0_1 m ρ h02 c, b4_v4 m ρ h01 h02 h15 c, b4_v0_0 m ρ h01 c, b4_arg5 m ρ c, b4_v5 m ρ c, b4_arg7 m ρ c, b4_v6 m ρ c,
    b4_arg2 m ρ c]
  rfl

/-! ## The three results -/

include h01 h02 h15 h210 h32 in
/-- The reconstruction: launch 3's output is stage 3 of the sample. -/
theorem W6_v8 : (W6 (F := Ideal) m ρ c (Proc.devRef .tc main_v8) : S8192x8192.Idx → EReal)
    = reconAll (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have e : W6 (F := Ideal) m ρ c (Proc.devRef .tc main_v8) = (dat3 (fun _ b => W5 m ρ c b) c).arrAt 2 cfg3.N := by
    show W3out c (W5 m ρ c) (Proc.devRef .tc main_v8) = _
    unfold W3out; exact Function.update_self _ _ _
  refine e.trans ((h32 (fun _ b => W5 m ρ c b) c).trans ?_)
  show decode (W5 m ρ c (Proc.devRef .tc main_v7_2)) = _
  rw [b5_v7_2 m ρ h01 h02 h15 h210 c]
  rfl

include h01 h02 h15 h28 in
/-- The first head: launch 3 does not write it. -/
theorem W6_v7_0 : (W6 (F := Ideal) m ρ c (Proc.devRef .tc main_v7_0) : S8192x32.Idx → EReal)
    = muAll (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  have e : W6 (F := Ideal) m ρ c (Proc.devRef .tc main_v7_0) = W5 m ρ c (Proc.devRef .tc main_v7_0) := by
    show W3out c (W5 m ρ c) (Proc.devRef .tc main_v7_0) = _
    unfold W3out; exact Function.update_of_ne (StableHlo.devRef_ne_of_ne (by decide)) _ _
  exact e.trans (b5_v7_0 m ρ h01 h02 h15 h28 c)

include h01 h02 h15 h29 in
/-- The second head: launch 3 does not write it. -/
theorem W6_v7_1 : (W6 (F := Ideal) m ρ c (Proc.devRef .tc main_v7_1) : S8192x32.Idx → EReal)
    = muAll (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg7)) (m ((c.tc : Thread nD τ).loc main_arg8)) := by
  have e : W6 (F := Ideal) m ρ c (Proc.devRef .tc main_v7_1) = W5 m ρ c (Proc.devRef .tc main_v7_1) := by
    show W3out c (W5 m ρ c) (Proc.devRef .tc main_v7_1) = _
    unfold W3out; exact Function.update_of_ne (StableHlo.devRef_ne_of_ne (by decide)) _ _
  exact e.trans (b5_v7_1 m ρ h01 h02 h15 h29 c)

end Value

end Cert.KernelIdeal.Bridge

end
-- ==== Proof.LibRowTiles.lean ====
/-
  Cert.Lib.RowTiles: a finite sum regrouped by tiles.

  A sequence of `T * B` places is `T` tiles of `B` places, place `r` of tile `t` being place `t * B + r`. In any
  additive commutative monoid the sum over all places is the sum over the tiles of each tile's sum (`sum_tiles`):
  what a kernel that walks a long axis tile by tile, adding each tile's reduction into an accumulator, ends
  holding. Over the extended reals too (only the monoid laws are used), so no finiteness is needed.
  Imports only Mathlib.
-/
import Mathlib

namespace Cert.Lib.RowTiles

/-- Place `r` of tile `t`, among `T * B` places. -/
def place (T B : ℕ) (t : Fin T) (r : Fin B) : Fin (T * B) :=
  ⟨t.val * B + r.val, by
    have ht := t.isLt
    have hr := r.isLt
    calc t.val * B + r.val < t.val * B + B := by omega
      _ = (t.val + 1) * B := by ring
      _ ≤ T * B := Nat.mul_le_mul_right B (by omega)⟩

/-- In any additive commutative monoid a sum over `T * B` places is the sum over the `T` tiles of the sums over each
    tile's `B` places. -/
theorem sum_tiles {M : Type*} [AddCommMonoid M] (T B : ℕ) (g : Fin (T * B) → M) :
    ∑ i, g i = ∑ t : Fin T, ∑ r : Fin B, g (place T B t r) := by
  rw [← Equiv.sum_comp finProdFinEquiv g, Fintype.sum_prod_type]
  refine Finset.sum_congr rfl fun t _ => Finset.sum_congr rfl fun r _ => congrArg g (Fin.ext ?_)
  show r.val + B * t.val = t.val * B + r.val
  ring

end Cert.Lib.RowTiles
-- ==== Proof.Val0.lean ====
/-
  The degree kernel's two results on the extended reals.

  After the region the scaling column holds, in row r, 1 / sqrt (deg r) where deg r = (the sum of row r of the
  adjacency) + 1 is positive and 0 elsewhere; the copy holds the adjacency itself (narrowing the float format is the
  identity on the extended reals).

  The road: each case's found pieces are read back as the payloads of the point's tile and of the running column; on
  the extended reals the accumulation adds to each row the sum of the tile's row, so that after column tile j the
  running column holds the row's sum over the tiles 0 … j (induction on the point); after tile 7 that is the row's sum
  over all 8192 columns (a sum over 8 · 1024 places regrouped by tiles), and the finish is the specification's guarded
  inverse square root. The write-backs' blocks cover the two arrays.
-/
import proofs.«169190_j76347338654297_2_alg».proof.Proof.KI_R0
import proofs.«169190_j76347338654297_2_alg».proof.Proof.Spec
import proofs.«169190_j76347338654297_2_alg».proof.Proof.LibInvSqrtGuard
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic
import proofs.«169190_j76347338654297_2_alg».proof.Proof.LibRowTiles

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL.Sem
open Idealize.ShloMosaic.Pipeline (Dat)

section Pieces
variable {F : FTy → Type} [FloatOps F]

theorem hz0 : (![0, 0] : Fin 2 → Nat) = fun _ => 0 := funext fun a => by fin_cases a <;> rfl

/-- At column tile 0 the scratch ends at the tile's row sums added onto the cleared column. -/
theorem soutA0_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) :
    sout0_A_0 c i arg2 harg2 arg3 harg3 arg4 harg4 arg5 harg5 hc0 hc1 x0 = k0_pay2 x0 (k0_pay1 (F := F)) := by
  unfold sout0_A_0
  rw [View.read_writes_eq_canon _ _ _ (scover0_A_0 c i arg2 harg2 arg3 harg3 arg4 harg4 arg5 harg5 hc0 hc1 x0)]
  unfold kernelRun0_A
  dsimp only
  try sl_unfold_words
  rw [View.canon_cons_unit_zero (S := S1024x1) hz0, View.readCov_unit_zero (S := S1024x1) _ hz0]
  simp only [View.readAt_eq_ld, harg2.read_unread, View.ld_unit_zero (S := S1024x1024) hz0]

/-- At a middle column tile it ends at the tile's row sums added onto what it held. -/
theorem soutB0_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) :
    sout0_B_0 c i arg2 harg2 arg3 harg3 arg4 harg4 arg5 harg5 hc0 hc1 x0 xs0 = k0_pay2 x0 xs0 := by
  unfold sout0_B_0
  rw [View.read_writes_eq_canon _ _ _ (scover0_B_0 c i arg2 harg2 arg3 harg3 arg4 harg4 arg5 harg5 hc0 hc1 x0 xs0)]
  unfold kernelRun0_B
  dsimp only
  try sl_unfold_words
  rw [View.canon_unit_zero hz0]
  simp only [View.readAt_eq_ld, harg2.read_unread, harg5.read_unread, View.ld_unit_zero (S := S1024x1024) hz0, View.ld_unit_zero (S := S1024x1) hz0]

/-- At column tile 7 likewise, -/
theorem soutC0_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    sout0_C_0 c i arg2 harg2 arg3 harg3 arg4 harg4 arg5 harg5 hc0 hc1 x0 xs0 = k0_pay2 x0 xs0 := by
  unfold sout0_C_0
  rw [View.read_writes_eq_canon _ _ _ (scover0_C_0 c i arg2 harg2 arg3 harg3 arg4 harg4 arg5 harg5 hc0 hc1 x0 xs0)]
  unfold kernelRun0_C
  dsimp only
  try sl_unfold_words
  rw [View.canon_unit_zero hz0]
  simp only [View.readAt_eq_ld, harg2.read_unread, harg5.read_unread, View.ld_unit_zero (S := S1024x1024) hz0, View.ld_unit_zero (S := S1024x1) hz0]

/-- and the scaling block is the guarded inverse square root of that column. -/
theorem outC0_1_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    out0_C_1 c i arg2 harg2 arg3 harg3 arg4 harg4 arg5 harg5 hc0 hc1 x0 xs0 = k0_pay4 (k0_pay2 x0 xs0) := by
  unfold out0_C_1
  rw [View.read_writes_eq_canon _ _ _ (cover0_C_1 c i arg2 harg2 arg3 harg3 arg4 harg4 arg5 harg5 hc0 hc1 x0 xs0)]
  unfold kernelRun0_C
  dsimp only
  try sl_unfold_words
  rw [View.canon_unit_zero hz0, View.readCov_unit_zero (S := S1024x1) _ hz0]
  simp only [View.readAt_eq_ld, harg2.read_unread, harg5.read_unread, View.ld_unit_zero (S := S1024x1024) hz0, View.ld_unit_zero (S := S1024x1) hz0]

/-- In every case the copy's block is the tile narrowed. -/
theorem outA0_2_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) :
    out0_A_2 c i arg2 harg2 arg3 harg3 arg4 harg4 arg5 harg5 hc0 hc1 x0 = k0_pay3 x0 := by
  unfold out0_A_2
  rw [View.read_writes_eq_canon _ _ _ (cover0_A_2 c i arg2 harg2 arg3 harg3 arg4 harg4 arg5 harg5 hc0 hc1 x0)]
  unfold kernelRun0_A
  dsimp only
  try sl_unfold_words
  rw [View.canon_unit_zero hz0]
  simp only [View.readAt_eq_ld, harg2.read_unread, View.ld_unit_zero (S := S1024x1024) hz0]

theorem outB0_2_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) :
    out0_B_2 c i arg2 harg2 arg3 harg3 arg4 harg4 arg5 harg5 hc0 hc1 x0 xs0 = k0_pay3 x0 := by
  unfold out0_B_2
  rw [View.read_writes_eq_canon _ _ _ (cover0_B_2 c i arg2 harg2 arg3 harg3 arg4 harg4 arg5 harg5 hc0 hc1 x0 xs0)]
  unfold kernelRun0_B
  dsimp only
  try sl_unfold_words
  rw [View.canon_unit_zero hz0]
  simp only [View.readAt_eq_ld, harg2.read_unread, View.ld_unit_zero (S := S1024x1024) hz0]

theorem outC0_2_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    out0_C_2 c i arg2 harg2 arg3 harg3 arg4 harg4 arg5 harg5 hc0 hc1 x0 xs0 = k0_pay3 x0 := by
  unfold out0_C_2
  rw [View.read_writes_eq_canon _ _ _ (cover0_C_2 c i arg2 harg2 arg3 harg3 arg4 harg4 arg5 harg5 hc0 hc1 x0 xs0)]
  unfold kernelRun0_C
  dsimp only
  try sl_unfold_words
  rw [View.canon_unit_zero hz0]
  simp only [View.readAt_eq_ld, harg2.read_unread, View.ld_unit_zero (S := S1024x1024) hz0]

end Pieces

/-! ## The accumulation, point by point (any float instance) -/

section Steps
variable {F : FTy → Type} [FloatOps F]
variable (V : (c : Dev nD) → (b : Ref sig .tc) → Buf (Elt F) ((c : Thread nD τ).loc b))

/-- At column tile 0 the scratch ends at the tile's row sums added onto the cleared column; -/
theorem scratch0_first (c : Dev nD) (t : Fin cfg0.N) (h0 : t.val % 8 = 0) :
    (outsAt0 V c t.val t.isLt).2.2 = k0_pay2 (iblk0 V c 0 t) (k0_pay1 (F := F)) := by
  rw [outsAt0_A V c t h0]; unfold ptA0; dsimp only; exact soutA0_eq ..

/-- at a later tile, added onto what the tile before left. -/
theorem scratch0_step (c : Dev nD) (t : Fin cfg0.N) (h0 : ¬t.val % 8 = 0) :
    (outsAt0 V c t.val t.isLt).2.2
      = k0_pay2 (iblk0 V c 0 t) (outsAt0 V c (t.val - 1) (Nat.lt_of_le_of_lt (Nat.sub_le _ _) t.isLt)).2.2 := by
  by_cases h1 : t.val % 8 = 7
  · rw [outsAt0_C V c t h1]; unfold ptC0; dsimp only; exact soutC0_eq ..
  · rw [outsAt0_B V c t h0 h1]; unfold ptB0; dsimp only; exact soutB0_eq ..

/-- At column tile 7 the scaling block is the finish of the scratch column as the point leaves it. -/
theorem out0_1_last (c : Dev nD) (t : Fin cfg0.N) (h1 : t.val % 8 = 7) :
    (outsAt0 V c t.val t.isLt).1 = k0_pay4 (outsAt0 V c t.val t.isLt).2.2 := by
  rw [outsAt0_C V c t h1]; unfold ptC0; dsimp only; rw [outC0_1_eq, soutC0_eq]

/-- At every point the copy's block is the tile narrowed. -/
theorem out0_2_eq (c : Dev nD) (t : Fin cfg0.N) : (outsAt0 V c t.val t.isLt).2.1 = k0_pay3 (iblk0 V c 0 t) := by
  by_cases h0 : t.val % 8 = 0
  · rw [outsAt0_A V c t h0]; unfold ptA0; dsimp only; exact outA0_2_eq ..
  · by_cases h1 : t.val % 8 = 7
    · rw [outsAt0_C V c t h1]; unfold ptC0; dsimp only; exact outC0_2_eq ..
    · rw [outsAt0_B V c t h0 h1]; unfold ptB0; dsimp only; exact outB0_2_eq ..

end Steps

/-! ## The payloads on the extended reals -/

open Idealize.ShloMosaic.ValueIdx

/-- The cleared column is 0. -/
theorem deg_pay1_apply (y : S1024x1.Idx) : (k0_pay1 (F := Ideal)) y = 0 := by
  unfold k0_pay1
  simp only [shapeCast_self]
  show Ideal.ofBits .f32 0x00000000#32 = 0
  exact Ideal.ofBits_zero_f32

/-- The accumulation adds, in each row, the sum of the tile's row. -/
theorem deg_pay2_apply (x : Vec Ideal S1024x1024 .f32) (xs : Vec Ideal S1024x1 .f32) (y : S1024x1.Idx) :
    (k0_pay2 x xs) y = xs y + ∑ k : Fin 1024, x (ix2 (y 0) k) := by
  unfold k0_pay2
  simp only [shapeCast_self]
  rw [addf_apply]
  congr 1
  have h1 : (y 1).val < 1 := (y 1).isLt
  refine (shapeCast_apply _ _ y (ix1 (y 0)) ?_).trans ?_
  · rw [Shape.rowMajor_val_two, Shape.rowMajor_val_one]
    show (y 0).val = (y 0).val * 1 + (y 1).val
    omega
  · refine (Ideal.multiReduction_add_single _ _ _ _ _ _).trans ?_
    exact Finset.sum_congr rfl fun k _ => congrArg x (funext fun a => Fin.ext (by
      match a with
      | ⟨0, _⟩ => rfl
      | ⟨1, _⟩ => rfl))

/-- Narrowing is the identity. -/
theorem pay3_eq (x : Vec Ideal S1024x1024 .f32) : (k0_pay3 x : S1024x1024.Idx → EReal) = x := by
  unfold k0_pay3
  funext y
  rfl

/-- The finish: 1 / sqrt (s + 1) where s + 1 is positive, 0 elsewhere. -/
theorem deg_pay4_apply (v : Vec Ideal S1024x1 .f32) (y : S1024x1.Idx) :
    (k0_pay4 v) y = if 0 < v y + 1 then Ideal.div 1 (Ideal.sqrt (v y + 1)) else 0 := by
  unfold k0_pay4
  show Scalar.select (Ideal.cmp .ogt (v y + Ideal.ofBits .f32 0x3F800000#32) (Ideal.ofBits .f32 0x00000000#32))
      (Ideal.div (Ideal.ofBits .f32 0x3F800000#32) (Ideal.sqrt (v y + Ideal.ofBits .f32 0x3F800000#32))) (Ideal.ofBits .f32 0x00000000#32) = _
  rw [Cert.Lib.InvSqrtGuard.ofBits_one, Ideal.ofBits_zero_f32]
  by_cases h : 0 < v y + 1
  · rw [if_pos h]
    have hc : Ideal.cmp .ogt (v y + 1) 0 = 1#1 := by unfold Ideal.cmp; simp [h]
    rw [hc]; exact select_one _ _
  · rw [if_neg h]
    have hc : Ideal.cmp .ogt (v y + 1) 0 = 0#1 := by unfold Ideal.cmp; simp [h]
    rw [hc]; exact select_zero _ _

/-! ## The adjacency as the region finds it, and its tiles -/

variable (V : (c : Dev nD) → (b : Ref sig .tc) → Buf (Elt Ideal) ((c : Thread nD τ).loc b))

/-- The adjacency as the region finds it, as a matrix of extended reals. -/
def adjM0 (c : Dev nD) : Cert.Spec.Mat 8192 8192 := V c main_arg1

/-- The adjacency at row `r`, column `k`, as a function of two numbers (0 outside the matrix). -/
def adjAt0 (c : Dev nD) (r k : ℕ) : EReal :=
  if h : r < 8192 ∧ k < 8192 then adjM0 V c (ix2 ⟨r, h.1⟩ ⟨k, h.2⟩) else 0

/-- The block indices of the three windows at point `t`: row tile `t / 8`, column tile `t % 8`. -/
theorem index0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem index0_1 : ∀ t : Fin cfg0.N, win0_1.index t 0 = t.val / 8 ∧ win0_1.index t 1 = 0 :=
  (by decide +kernel : ∀ t : Fin grid0.N, win0_1.index t 0 = t.val / 8 ∧ win0_1.index t 1 = 0)
theorem index0_2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

/-- The input tile at point `t` is the adjacency's rows 1024 (t / 8) …, columns 1024 (t % 8) …. -/
theorem iblk0_apply (c : Dev nD) (t : Fin cfg0.N) (x : S1024x1024.Idx) :
    (iblk0 V c 0 t : Vec Ideal S1024x1024 .f32) x = adjAt0 V c (1024 * (t.val / 8) + (x 0).val) (1024 * (t.val % 8) + (x 1).val) := by
  have hN : t.val < 64 := lt_of_lt_of_eq t.isLt (show cfg0.N = 64 from N_0)
  have hx0 : (x 0).val < 1024 := (x 0).isLt
  have hx1 : (x 1).val < 1024 := (x 1).isLt
  have hi := index0_0 t
  unfold adjAt0
  rw [dif_pos ⟨by omega, by omega⟩]
  unfold iblk0
  rw [View.read_apply]
  show (V c main_arg1 : S8192x8192.Idx → EReal) _ = (V c main_arg1 : S8192x8192.Idx → EReal) _
  congr 1
  funext a
  apply Fin.ext
  match a with
  | ⟨0, _⟩ => show win0_0.index t 0 * 1024 + 1 * (x 0).val = 1024 * (t.val / 8) + (x 0).val; rw [hi.1]; omega
  | ⟨1, _⟩ => show win0_0.index t 1 * 1024 + 1 * (x 1).val = 1024 * (t.val % 8) + (x 1).val; rw [hi.2]; omega

/-- The sum of row `r` over column tile `j`. -/
def rowTile0 (c : Dev nD) (r j : ℕ) : EReal := ∑ k : Fin 1024, adjAt0 V c r (1024 * j + k.val)

/-- After a point at column tile 0 the scratch holds the first tile's row sums. -/
theorem scratch0_eq_first (c : Dev nD) (t : Fin cfg0.N) (h0 : t.val % 8 = 0) (y : S1024x1.Idx) :
    ((outsAt0 V c t.val t.isLt).2.2 : S1024x1.Idx → EReal) y
      = ∑ j ∈ Finset.range (t.val % 8 + 1), rowTile0 V c (1024 * (t.val / 8) + (y 0).val) j := by
  rw [scratch0_first V c t h0, deg_pay2_apply, deg_pay1_apply, zero_add, h0, Finset.sum_range_one]
  unfold rowTile0
  exact Finset.sum_congr rfl fun k _ => by rw [iblk0_apply, h0]

/-- THE INVARIANT: after position `n` the scratch holds, in each row of row tile `n / 8`, the row's sum over the
    column tiles 0 … `n % 8`. -/
theorem scratch0_eq (c : Dev nD) (n : ℕ) : ∀ (hn : n < cfg0.N) (y : S1024x1.Idx),
    ((outsAt0 V c n hn).2.2 : S1024x1.Idx → EReal) y
      = ∑ j ∈ Finset.range (n % 8 + 1), rowTile0 V c (1024 * (n / 8) + (y 0).val) j := by
  induction n with
  | zero => intro hn y; exact scratch0_eq_first V c ⟨0, hn⟩ (Nat.zero_mod 8) y
  | succ n ih =>
    intro hn y
    by_cases h0 : (n + 1) % 8 = 0
    · exact scratch0_eq_first V c ⟨n + 1, hn⟩ h0 y
    · have e8 : (n + 1) % 8 = n % 8 + 1 := by omega
      have ed : (n + 1) / 8 = n / 8 := by omega
      rw [scratch0_step V c ⟨n + 1, hn⟩ h0, deg_pay2_apply, e8, Finset.sum_range_succ, ed]
      congr 1
      · exact ih (Nat.lt_of_succ_lt hn) y
      · unfold rowTile0
        exact Finset.sum_congr rfl fun k _ => by
          rw [iblk0_apply]
          show adjAt0 V c (1024 * ((n + 1) / 8) + (y 0).val) (1024 * ((n + 1) % 8) + k.val) = _
          rw [e8, ed]

/-- A row's sums over the eight column tiles make its sum over all the columns. -/
theorem rowTiles0_sum (c : Dev nD) (R : ℕ) (hR : R < 8192) :
    ∑ j ∈ Finset.range 8, rowTile0 V c R j = ∑ q : Fin 8192, adjM0 V c (ix2 ⟨R, hR⟩ q) := by
  rw [Finset.sum_range]
  refine Eq.trans ?_ (Cert.Lib.RowTiles.sum_tiles 8 1024
    (fun q : Fin (8 * 1024) => adjM0 V c (ix2 (⟨R, hR⟩ : Fin 8192) q))).symm
  refine Finset.sum_congr rfl fun j _ => ?_
  unfold rowTile0
  refine Finset.sum_congr rfl fun k _ => ?_
  unfold adjAt0
  have hj := j.isLt
  have hk := k.isLt
  rw [dif_pos ⟨hR, by omega⟩]
  congr 2
  apply Fin.ext
  show 1024 * j.val + k.val = j.val * 1024 + k.val
  omega

/-! ## The two output arrays after the region -/

/-- What the write-back at a point of column tile 7 writes into the scaling column: the specification's scaling of the
    adjacency, read through the point's block. -/
theorem flushed0_1_eq (c : Dev nD) (t : Fin cfg0.N) (hf : (cfg0.win 1).flush t = true) :
    (dat0 (F := Ideal) V c).flushed 1 t
      = ((cfg0.win 1).blk t).view.read (Elt Ideal) (Cert.Spec.dinvCol (adjM0 V c)) := by
  have hN : t.val < 64 := lt_of_lt_of_eq t.isLt (show cfg0.N = 64 from N_0)
  have h7 : t.val % 8 = 7 := (flush0_1 t).mp hf
  show (cfg0.win 1).cut (grid0.coords t) ((dat0 V c).after 1 t) = _
  rw [after0_1, out0_1_last V c t h7]
  funext x
  have hx0 : (x 0).val < 1024 := (x 0).isLt
  have hR : 1024 * (t.val / 8) + (x 0).val < 8192 := by omega
  rw [View.read_apply]
  refine (deg_pay4_apply _ _).trans ?_
  rw [scratch0_eq V c t.val t.isLt, h7]
  show (if 0 < (∑ j ∈ Finset.range 8, rowTile0 V c (1024 * (t.val / 8) + (x 0).val) j) + 1 then _ else _) = _
  rw [rowTiles0_sum V c _ hR]
  have hr : (⟨1024 * (t.val / 8) + (x 0).val, hR⟩ : Fin 8192) = ((((cfg0.win 1).blk t).view.emb x) 0) := Fin.ext (by
    show 1024 * (t.val / 8) + (x 0).val = win0_1.index t 0 * 1024 + 1 * (x 0).val
    rw [(index0_1 t).1]; omega)
  show _ = Cert.Spec.dinvAt (adjM0 V c) ((((cfg0.win 1).blk t).view.emb x) 0)
  rw [← hr]
  rfl

/-- THE SCALING COLUMN after the region: the specification's, of the adjacency as the region found it. -/
theorem final0_1' (c : Dev nD) : (dat0 (F := Ideal) V c).arrAt 1 cfg0.N = Cert.Spec.dinvCol (adjM0 V c) :=
  (dat0 (F := Ideal) V c).arrAt_eq_of_cover 1 (Cert.Spec.dinvCol (adjM0 V c)) (flushed0_1_eq V c) fun i => by
    have hi0 : (i 0 : Nat) < 8192 := (i 0).isLt
    have hi1 : (i 1 : Nat) < 1 := (i 1).isLt
    have hlt : (i 0 : Nat) / 1024 * 8 + 7 < cfg0.N := by rw [show cfg0.N = 64 from N_0]; omega
    refine ⟨⟨(i 0 : Nat) / 1024 * 8 + 7, hlt⟩, (flush0_1 _).mpr (by show ((i 0 : Nat) / 1024 * 8 + 7) % 8 = 7; omega), ?_⟩
    show i ∈ ((View.whole main_v0_0).slice (win0_1.rect ⟨(i 0 : Nat) / 1024 * 8 + 7, hlt⟩)).set
    rw [View.set_slice_whole, Rect.mem_set_unit]
    intro a
    have hidx := index0_1 ⟨(i 0 : Nat) / 1024 * 8 + 7, hlt⟩
    match a with
    | ⟨0, _⟩ =>
      show win0_1.index ⟨(i 0 : Nat) / 1024 * 8 + 7, hlt⟩ 0 * 1024 ≤ (i 0 : Nat) ∧ (i 0 : Nat) < win0_1.index ⟨(i 0 : Nat) / 1024 * 8 + 7, hlt⟩ 0 * 1024 + 1024
      rw [hidx.1]; show ((i 0 : Nat) / 1024 * 8 + 7) / 8 * 1024 ≤ (i 0 : Nat) ∧ (i 0 : Nat) < ((i 0 : Nat) / 1024 * 8 + 7) / 8 * 1024 + 1024
      omega
    | ⟨1, _⟩ =>
      show win0_1.index ⟨(i 0 : Nat) / 1024 * 8 + 7, hlt⟩ 1 * 1 ≤ (i 1 : Nat) ∧ (i 1 : Nat) < win0_1.index ⟨(i 0 : Nat) / 1024 * 8 + 7, hlt⟩ 1 * 1 + 1
      rw [hidx.2]; omega

/-- What the write-back at any point writes into the copy: the adjacency, read through the point's block. -/
theorem flushed0_2_eq (c : Dev nD) (t : Fin cfg0.N) (hf : (cfg0.win 2).flush t = true) :
    (dat0 (F := Ideal) V c).flushed 2 t = ((cfg0.win 2).blk t).view.read (Elt Ideal) (adjM0 V c) := by
  have hN : t.val < 64 := lt_of_lt_of_eq t.isLt (show cfg0.N = 64 from N_0)
  show (cfg0.win 2).cut (grid0.coords t) ((dat0 V c).after 2 t) = _
  rw [after0_2, out0_2_eq]
  funext x
  have hx0 : (x 0).val < 1024 := (x 0).isLt
  have hx1 : (x 1).val < 1024 := (x 1).isLt
  rw [View.read_apply]
  refine (congrFun (pay3_eq (iblk0 V c 0 t)) _).trans ?_
  rw [iblk0_apply]
  show adjAt0 V c (1024 * (t.val / 8) + (x 0).val) (1024 * (t.val % 8) + (x 1).val) = _
  unfold adjAt0
  rw [dif_pos ⟨by omega, by omega⟩]
  congr 1
  funext a
  apply Fin.ext
  match a with
  | ⟨0, _⟩ => show 1024 * (t.val / 8) + (x 0).val = win0_2.index t 0 * 1024 + 1 * (x 0).val; rw [(index0_2 t).1]; omega
  | ⟨1, _⟩ => show 1024 * (t.val % 8) + (x 1).val = win0_2.index t 1 * 1024 + 1 * (x 1).val; rw [(index0_2 t).2]; omega

/-- THE COPY after the region: the adjacency as the region found it. -/
theorem final0_2' (c : Dev nD) : (dat0 (F := Ideal) V c).arrAt 2 cfg0.N = adjM0 V c :=
  (dat0 (F := Ideal) V c).arrAt_eq_of_cover 2 (adjM0 V c) (flushed0_2_eq V c) fun i => by
    have hi0 : (i 0 : Nat) < 8192 := (i 0).isLt
    have hi1 : (i 1 : Nat) < 8192 := (i 1).isLt
    have hlt : (i 0 : Nat) / 1024 * 8 + (i 1 : Nat) / 1024 < cfg0.N := by rw [show cfg0.N = 64 from N_0]; omega
    refine ⟨⟨(i 0 : Nat) / 1024 * 8 + (i 1 : Nat) / 1024, hlt⟩, flush0_2 _, ?_⟩
    show i ∈ ((View.whole main_v0_1).slice (win0_2.rect ⟨(i 0 : Nat) / 1024 * 8 + (i 1 : Nat) / 1024, hlt⟩)).set
    rw [View.set_slice_whole, Rect.mem_set_unit]
    intro a
    have hidx := index0_2 ⟨(i 0 : Nat) / 1024 * 8 + (i 1 : Nat) / 1024, hlt⟩
    match a with
    | ⟨0, _⟩ =>
      show win0_2.index ⟨(i 0 : Nat) / 1024 * 8 + (i 1 : Nat) / 1024, hlt⟩ 0 * 1024 ≤ (i 0 : Nat) ∧ (i 0 : Nat) < win0_2.index ⟨(i 0 : Nat) / 1024 * 8 + (i 1 : Nat) / 1024, hlt⟩ 0 * 1024 + 1024
      rw [hidx.1]; show ((i 0 : Nat) / 1024 * 8 + (i 1 : Nat) / 1024) / 8 * 1024 ≤ (i 0 : Nat) ∧ (i 0 : Nat) < ((i 0 : Nat) / 1024 * 8 + (i 1 : Nat) / 1024) / 8 * 1024 + 1024
      omega
    | ⟨1, _⟩ =>
      show win0_2.index ⟨(i 0 : Nat) / 1024 * 8 + (i 1 : Nat) / 1024, hlt⟩ 1 * 1024 ≤ (i 1 : Nat) ∧ (i 1 : Nat) < win0_2.index ⟨(i 0 : Nat) / 1024 * 8 + (i 1 : Nat) / 1024, hlt⟩ 1 * 1024 + 1024
      rw [hidx.2]; show ((i 0 : Nat) / 1024 * 8 + (i 1 : Nat) / 1024) % 8 * 1024 ≤ (i 1 : Nat) ∧ (i 1 : Nat) < ((i 0 : Nat) / 1024 * 8 + (i 1 : Nat) / 1024) % 8 * 1024 + 1024
      omega

/-- The two, with the arrays' index types written out. -/
theorem final0_1 (c : Dev nD) : ((dat0 (F := Ideal) V c).arrAt 1 cfg0.N : S8192x1.Idx → EReal) = Cert.Spec.dinvCol (V c main_arg1) :=
  final0_1' V c
theorem final0_2 (c : Dev nD) : ((dat0 (F := Ideal) V c).arrAt 2 cfg0.N : S8192x8192.Idx → EReal) = (V c main_arg1 : S8192x8192.Idx → EReal) :=
  final0_2' V c

end Cert.KernelIdeal.Val

end
-- ==== Proof.Val1_P.lean ====
/-
  The first layer's aggregation kernel over the extended reals: the ingredients of its value.

  What each of the six cases leaves in the running sum and in the output tile, as the stores' payloads of the point's
  input blocks; each payload read at an index (the clearing payload is 0; the accumulation payload adds the adjacency
  tile times the feature tile; the diagonal payload adds the feature tile; the finishing payload scales, applies the
  dense layer, rectifies and scales again); and each input block read at an index as its array at the tile's rows
  and columns, point t being row tile t / 4 and column tile t % 4.
-/
import proofs.«169190_j76347338654297_2_alg».proof.Proof.KI_R1
import proofs.«169190_j76347338654297_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz : (![0, 0] : Fin 2 → Nat) = fun _ => 0 := funext fun a => by fin_cases a <;> rfl

/-- A load of the whole block after stores of which the last one wrote the whole block reads that store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

variable {F : FTy → Type} [FloatOps F]

/-! ## What each case leaves, as payloads of the point's blocks -/

/-- The first column tile on the diagonal: the cleared sum plus the tile's product, plus the feature tile. -/
theorem soutA_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) :
    sout1_A_0 c i arg2 harg2 arg3 harg3 arg4 harg4 arg5 harg5 arg6 harg6 arg7 harg7 arg8 harg8 hc0 hc1 hc2 x0 x1 x2 x3 x4 = k1_pay3 (k1_pay2 x1 k1_pay1 x0) x1 := by
  unfold sout1_A_0
  rw [View.read_writes_eq_canon _ _ _ (scover1_A_0 c i arg2 harg2 arg3 harg3 arg4 harg4 arg5 harg5 arg6 harg6 arg7 harg7 arg8 harg8 hc0 hc1 hc2 x0 x1 x2 x3 x4)]
  unfold kernelRun1_A
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- The first column tile off the diagonal: the cleared sum plus the tile's product. -/
theorem soutB_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) :
    sout1_B_0 c i arg2 harg2 arg3 harg3 arg4 harg4 arg5 harg5 arg6 harg6 arg7 harg7 arg8 harg8 hc0 hc1 hc2 x0 x1 x2 x3 x4 = k1_pay2 x1 k1_pay1 x0 := by
  unfold sout1_B_0
  rw [View.read_writes_eq_canon _ _ _ (scover1_B_0 c i arg2 harg2 arg3 harg3 arg4 harg4 arg5 harg5 arg6 harg6 arg7 harg7 arg8 harg8 hc0 hc1 hc2 x0 x1 x2 x3 x4)]
  unfold kernelRun1_B
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- A later column tile on the diagonal: the sum so far plus the tile's product, plus the feature tile. -/
theorem soutC_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    sout1_C_0 c i arg2 harg2 arg3 harg3 arg4 harg4 arg5 harg5 arg6 harg6 arg7 harg7 arg8 harg8 hc0 hc1 hc2 x0 x1 x2 x3 x4 xs0 = k1_pay3 (k1_pay2 x1 xs0 x0) x1 := by
  unfold sout1_C_0
  rw [View.read_writes_eq_canon _ _ _ (scover1_C_0 c i arg2 harg2 arg3 harg3 arg4 harg4 arg5 harg5 arg6 harg6 arg7 harg7 arg8 harg8 hc0 hc1 hc2 x0 x1 x2 x3 x4 xs0)]
  unfold kernelRun1_C
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- A later column tile off the diagonal: the sum so far plus the tile's product. -/
theorem soutD_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : ¬cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    sout1_D_0 c i arg2 harg2 arg3 harg3 arg4 harg4 arg5 harg5 arg6 harg6 arg7 harg7 arg8 harg8 hc0 hc1 hc2 x0 x1 x2 x3 x4 xs0 = k1_pay2 x1 xs0 x0 := by
  unfold sout1_D_0
  rw [View.read_writes_eq_canon _ _ _ (scover1_D_0 c i arg2 harg2 arg3 harg3 arg4 harg4 arg5 harg5 arg6 harg6 arg7 harg7 arg8 harg8 hc0 hc1 hc2 x0 x1 x2 x3 x4 xs0)]
  unfold kernelRun1_D
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- The last column tile on the diagonal leaves the running sum as a diagonal tile does. -/
theorem soutE_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    sout1_E_0 c i arg2 harg2 arg3 harg3 arg4 harg4 arg5 harg5 arg6 harg6 arg7 harg7 arg8 harg8 hc0 hc1 hc2 x0 x1 x2 x3 x4 xs0 = k1_pay3 (k1_pay2 x1 xs0 x0) x1 := by
  unfold sout1_E_0
  rw [View.read_writes_eq_canon _ _ _ (scover1_E_0 c i arg2 harg2 arg3 harg3 arg4 harg4 arg5 harg5 arg6 harg6 arg7 harg7 arg8 harg8 hc0 hc1 hc2 x0 x1 x2 x3 x4 xs0)]
  unfold kernelRun1_E
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- At the last column tile the output tile is the finishing payload of the running sum just completed. -/
theorem outE_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    out1_E_5 c i arg2 harg2 arg3 harg3 arg4 harg4 arg5 harg5 arg6 harg6 arg7 harg7 arg8 harg8 hc0 hc1 hc2 x0 x1 x2 x3 x4 xs0 = k1_pay4 x2 (k1_pay3 (k1_pay2 x1 xs0 x0) x1) x3 x4 x2 := by
  unfold out1_E_5
  rw [View.read_writes_eq_canon _ _ _ (cover1_E_5 c i arg2 harg2 arg3 harg3 arg4 harg4 arg5 harg5 arg6 harg6 arg7 harg7 arg8 harg8 hc0 hc1 hc2 x0 x1 x2 x3 x4 xs0)]
  unfold kernelRun1_E
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- The last column tile off the diagonal leaves the running sum as an off-diagonal tile does. -/
theorem soutF_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    sout1_F_0 c i arg2 harg2 arg3 harg3 arg4 harg4 arg5 harg5 arg6 harg6 arg7 harg7 arg8 harg8 hc0 hc1 hc2 x0 x1 x2 x3 x4 xs0 = k1_pay2 x1 xs0 x0 := by
  unfold sout1_F_0
  rw [View.read_writes_eq_canon _ _ _ (scover1_F_0 c i arg2 harg2 arg3 harg3 arg4 harg4 arg5 harg5 arg6 harg6 arg7 harg7 arg8 harg8 hc0 hc1 hc2 x0 x1 x2 x3 x4 xs0)]
  unfold kernelRun1_F
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-- At the last column tile the output tile is the finishing payload of the running sum just completed. -/
theorem outF_eq (c : Dev nD) (i : grid1.Coords) (arg2 : Memref sig .tc .vmem S2048x2048 .bf16) (harg2 : arg2.IsWhole) (arg3 : Memref sig .tc .vmem S2048x64 .f32) (harg3 : arg3.IsWhole) (arg4 : Memref sig .tc .vmem S2048x1 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S2048x128 .f32) (harg7 : arg7.IsWhole) (arg8 : Memref sig .tc .vmem S2048x64 .f32) (harg8 : arg8.IsWhole) (hc0 : ¬cond1_0 i) (hc1 : ¬cond1_1 i) (hc2 : cond1_2 i)
    (x0 : Vec F S2048x2048 .bf16) (x1 : Vec F S2048x64 .f32) (x2 : Vec F S2048x1 .f32) (x3 : Vec F S64x128 .f32) (x4 : Vec F S1x128 .f32) (xs0 : Vec F S2048x64 .f32) :
    out1_F_5 c i arg2 harg2 arg3 harg3 arg4 harg4 arg5 harg5 arg6 harg6 arg7 harg7 arg8 harg8 hc0 hc1 hc2 x0 x1 x2 x3 x4 xs0 = k1_pay4 x2 (k1_pay2 x1 xs0 x0) x3 x4 x2 := by
  unfold out1_F_5
  rw [View.read_writes_eq_canon _ _ _ (cover1_F_5 c i arg2 harg2 arg3 harg3 arg4 harg4 arg5 harg5 arg6 harg6 arg7 harg7 arg8 harg8 hc0 hc1 hc2 x0 x1 x2 x3 x4 xs0)]
  unfold kernelRun1_F
  dsimp only
  try sl_unfold_words
  simp only [View.canon_cons_unit_zero (S := S2048x64) hz, View.canon_cons_unit_zero (S := S2048x128) hz, readCov_cons_unit_zero (S := S2048x64) _ hz, View.readAt_eq_ld, harg2.read_unread, harg3.read_unread, harg4.read_unread, harg5.read_unread, harg6.read_unread, harg8.read_unread,
    View.ld_unit_zero (S := S2048x2048) hz, View.ld_unit_zero (S := S2048x64) hz, View.ld_unit_zero (S := S2048x1) hz, View.ld_unit_zero (S := S64x128) hz, View.ld_unit_zero (S := S1x128) hz]

/-! ## The payloads at an index, over the extended reals -/

section Payloads

/-- An `[a, 1]` column broadcast to `[a, b]` reads, at `(p, q)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The two products' contraction index is one coordinate. -/
abbrev eA := contrEquiv1 dot_S2048x2048_S2048x64_S2048x64_1_0_0_1_n_n 2048 rfl rfl
abbrev eB := contrEquiv1 dot_S2048x64_S64x128_S2048x128_1_0_0_1_n_n 64 rfl rfl

theorem dotA_lhs (p : Fin 2048) (q : Fin 64) (i : Fin 2048) :
    dot_S2048x2048_S2048x64_S2048x64_1_0_0_1_n_n.lhsIdx (ix2 p q) (eA.symm i) = ix2 p i := by
  funext a; apply Fin.ext
  match a with
  | ⟨0, _⟩ => rfl
  | ⟨1, _⟩ => exact contrEquiv1_symm_val dot_S2048x2048_S2048x64_S2048x64_1_0_0_1_n_n 2048 rfl rfl i
theorem dotA_rhs (p : Fin 2048) (q : Fin 64) (i : Fin 2048) :
    dot_S2048x2048_S2048x64_S2048x64_1_0_0_1_n_n.rhsIdx (ix2 p q) (eA.symm i) = ix2 i q := by
  funext a; apply Fin.ext
  match a with
  | ⟨0, _⟩ => exact contrEquiv1_symm_val dot_S2048x2048_S2048x64_S2048x64_1_0_0_1_n_n 2048 rfl rfl i
  | ⟨1, _⟩ => rfl
theorem dotB_lhs (p : Fin 2048) (q : Fin 128) (i : Fin 64) :
    dot_S2048x64_S64x128_S2048x128_1_0_0_1_n_n.lhsIdx (ix2 p q) (eB.symm i) = ix2 p i := by
  funext a; apply Fin.ext
  match a with
  | ⟨0, _⟩ => rfl
  | ⟨1, _⟩ => exact contrEquiv1_symm_val dot_S2048x64_S64x128_S2048x128_1_0_0_1_n_n 64 rfl rfl i
theorem dotB_rhs (p : Fin 2048) (q : Fin 128) (i : Fin 64) :
    dot_S2048x64_S64x128_S2048x128_1_0_0_1_n_n.rhsIdx (ix2 p q) (eB.symm i) = ix2 i q := by
  funext a; apply Fin.ext
  match a with
  | ⟨0, _⟩ => exact contrEquiv1_symm_val dot_S2048x64_S64x128_S2048x128_1_0_0_1_n_n 64 rfl rfl i
  | ⟨1, _⟩ => rfl

/-- The clearing payload is zero everywhere. -/
theorem pay1_apply (y : S2048x64.Idx) : (k1_pay1 (F := Ideal)) y = 0 := by
  unfold k1_pay1
  simp only [shapeCast_self, broadcast_apply]
  exact Ideal.ofBits_zero_f32

/-- The accumulation payload: the sum so far plus the adjacency tile times the feature tile. -/
theorem pay2_apply (v3 : Vec Ideal S2048x64 .f32) (v6 : Vec Ideal S2048x64 .f32) (v7 : Vec Ideal S2048x2048 .bf16) (p : Fin 2048) (q : Fin 64) :
    k1_pay2 v3 v6 v7 (ix2 p q) = v6 (ix2 p q) + ∑ k : Fin 2048, v7 (ix2 p k) * v3 (ix2 k q) := by
  unfold k1_pay2
  simp only [shapeCast_self, addf_apply, Ideal.matmul_constant_zero_apply, truncf_apply]
  congr 1
  rw [← Equiv.sum_comp eA.symm]
  refine Finset.sum_congr rfl fun k _ => ?_
  rw [dotA_lhs, dotA_rhs]

/-- The diagonal payload: the sum plus the feature tile. -/
theorem pay3_apply (v20 v21 : Vec Ideal S2048x64 .f32) (y : S2048x64.Idx) : k1_pay3 v20 v21 y = v20 y + v21 y := by
  unfold k1_pay3
  simp only [shapeCast_self, addf_apply]

/-- The finishing payload: the row's scaling times the rectified dense layer of the scaled sum. -/
theorem pay4_apply (v20 : Vec Ideal S2048x1 .f32) (v22 : Vec Ideal S2048x64 .f32) (v26 : Vec Ideal S64x128 .f32) (v29 : Vec Ideal S1x128 .f32) (v35 : Vec Ideal S2048x1 .f32) (p : Fin 2048) (q : Fin 128) :
    k1_pay4 v20 v22 v26 v29 v35 (ix2 p q)
      = v35 (ix2 p 0) * max ((∑ f : Fin 64, (v20 (ix2 p 0) * v22 (ix2 p f)) * v26 (ix2 f q)) + v29 (ix2 0 q)) 0 := by
  unfold k1_pay4
  simp only [shapeCast_self, addf_apply, mulf_apply, maximumf_apply, Ideal.matmul_constant_zero_apply, truncf_apply, broadcast_apply]
  rw [broadcastTo_a1_ab_apply, broadcastTo_1b_ab_apply, show (FloatOps.ofBits FTy.f32 0#32 : Ideal .f32) = 0 from Ideal.ofBits_zero_f32]
  congr 2
  congr 1
  rw [← Equiv.sum_comp eB.symm]
  refine Finset.sum_congr rfl fun k _ => ?_
  rw [dotB_lhs, dotB_rhs, broadcastTo_a1_ab_apply]

end Payloads

/-! ## The input blocks at an index -/

section Blocks

variable (V : (c : Dev nD) → (b : Ref sig .tc) → Buf (Elt Ideal) ((c : Thread nD τ).loc b))

/-- Row (or column) `r` of tile `i` among the 8192 = 4 · 2048 rows; total in `i` (reduced modulo 8192, which changes
    nothing for the four tiles). -/
def tile (i : ℕ) (r : Fin 2048) : Fin 8192 := ⟨(2048 * i + r.val) % 8192, Nat.mod_lt _ (by decide)⟩

theorem tile_val (i : ℕ) (hi : i < 4) (r : Fin 2048) : (tile i r).val = 2048 * i + r.val := by
  unfold tile; have := r.isLt; show (2048 * i + r.val) % 8192 = _; omega

/-- The windows' block indices over the grid: point t is row tile t / 4, column tile t % 4. -/
theorem index1 : ∀ t : Fin grid1.N,
    (win1_0.index t 0 = t.val / 4 ∧ win1_0.index t 1 = t.val % 4) ∧ (win1_1.index t 0 = t.val % 4 ∧ win1_1.index t 1 = 0)
    ∧ (win1_2.index t 0 = t.val / 4 ∧ win1_2.index t 1 = 0) ∧ (win1_3.index t 0 = 0 ∧ win1_3.index t 1 = 0)
    ∧ (win1_4.index t 0 = 0 ∧ win1_4.index t 1 = 0) ∧ (win1_5.index t 0 = t.val / 4 ∧ win1_5.index t 1 = 0) := by decide +kernel

/-! Each input block at an index is its array at the tile's row and column. -/

theorem blk0 (c : Dev nD) (t : Fin cfg1.N) (p : Fin 2048) (q : Fin 2048) :
    (iblk1 V c 0 t : Vec Ideal S2048x2048 .bf16) (ix2 p q) = (V c main_v0_1 : Cert.Spec.Mat 8192 8192) (ix2 (tile (t.val / 4) p) (tile (t.val % 4) q)) := by
  have hN : t.val < 16 := lt_of_lt_of_eq t.isLt (show cfg1.N = 16 from N_1)
  have hi := (index1 t).1
  unfold iblk1
  rw [View.read_apply]
  show (V c main_v0_1 : Cert.Spec.Mat 8192 8192) _ = _
  congr 1
  funext a
  apply Fin.ext
  match a with
  | ⟨0, _⟩ =>
    show win1_0.index t 0 * 2048 + 1 * p.val = _
    rw [hi.1]
    show _ = (tile _ p).val
    rw [tile_val _ (by omega)]
    omega
  | ⟨1, _⟩ =>
    show win1_0.index t 1 * 2048 + 1 * q.val = _
    rw [hi.2]
    show _ = (tile _ q).val
    rw [tile_val _ (by omega)]
    omega

theorem blk1 (c : Dev nD) (t : Fin cfg1.N) (p : Fin 2048) (q : Fin 64) :
    (iblk1 V c 1 t : Vec Ideal S2048x64 .f32) (ix2 p q) = (V c main_v2 : Cert.Spec.Mat 8192 64) (ix2 (tile (t.val % 4) p) q) := by
  have hN : t.val < 16 := lt_of_lt_of_eq t.isLt (show cfg1.N = 16 from N_1)
  have hi := (index1 t).2.1
  unfold iblk1
  rw [View.read_apply]
  show (V c main_v2 : Cert.Spec.Mat 8192 64) _ = _
  congr 1
  funext a
  apply Fin.ext
  match a with
  | ⟨0, _⟩ =>
    show win1_1.index t 0 * 2048 + 1 * p.val = _
    rw [hi.1]
    show _ = (tile _ p).val
    rw [tile_val _ (by omega)]
    omega
  | ⟨1, _⟩ =>
    show win1_1.index t 1 * 64 + 1 * q.val = _
    rw [hi.2]
    show _ = q.val
    omega

theorem blk2 (c : Dev nD) (t : Fin cfg1.N) (p : Fin 2048) (q : Fin 1) :
    (iblk1 V c 2 t : Vec Ideal S2048x1 .f32) (ix2 p q) = (V c main_v0_0 : Cert.Spec.Mat 8192 1) (ix2 (tile (t.val / 4) p) q) := by
  have hN : t.val < 16 := lt_of_lt_of_eq t.isLt (show cfg1.N = 16 from N_1)
  have hi := (index1 t).2.2.1
  unfold iblk1
  rw [View.read_apply]
  show (V c main_v0_0 : Cert.Spec.Mat 8192 1) _ = _
  congr 1
  funext a
  apply Fin.ext
  match a with
  | ⟨0, _⟩ =>
    show win1_2.index t 0 * 2048 + 1 * p.val = _
    rw [hi.1]
    show _ = (tile _ p).val
    rw [tile_val _ (by omega)]
    omega
  | ⟨1, _⟩ =>
    show win1_2.index t 1 * 1 + 1 * q.val = _
    rw [hi.2]
    show _ = q.val
    omega

theorem blk3 (c : Dev nD) (t : Fin cfg1.N) (p : Fin 64) (q : Fin 128) :
    (iblk1 V c 3 t : Vec Ideal S64x128 .f32) (ix2 p q) = (V c main_arg3 : Cert.Spec.Mat 64 128) (ix2 p q) := by
  have hN : t.val < 16 := lt_of_lt_of_eq t.isLt (show cfg1.N = 16 from N_1)
  have hi := (index1 t).2.2.2.1
  unfold iblk1
  rw [View.read_apply]
  show (V c main_arg3 : Cert.Spec.Mat 64 128) _ = _
  congr 1
  funext a
  apply Fin.ext
  match a with
  | ⟨0, _⟩ =>
    show win1_3.index t 0 * 64 + 1 * p.val = _
    rw [hi.1]
    show _ = p.val
    omega
  | ⟨1, _⟩ =>
    show win1_3.index t 1 * 128 + 1 * q.val = _
    rw [hi.2]
    show _ = q.val
    omega

theorem blk4 (c : Dev nD) (t : Fin cfg1.N) (p : Fin 1) (q : Fin 128) :
    (iblk1 V c 4 t : Vec Ideal S1x128 .f32) (ix2 p q) = (V c main_v3 : Cert.Spec.Mat 1 128) (ix2 p q) := by
  have hN : t.val < 16 := lt_of_lt_of_eq t.isLt (show cfg1.N = 16 from N_1)
  have hi := (index1 t).2.2.2.2.1
  unfold iblk1
  rw [View.read_apply]
  show (V c main_v3 : Cert.Spec.Mat 1 128) _ = _
  congr 1
  funext a
  apply Fin.ext
  match a with
  | ⟨0, _⟩ =>
    show win1_4.index t 0 * 1 + 1 * p.val = _
    rw [hi.1]
    show _ = p.val
    omega
  | ⟨1, _⟩ =>
    show win1_4.index t 1 * 128 + 1 * q.val = _
    rw [hi.2]
    show _ = q.val
    omega

/-- A matrix of the result's shape read through the output window's block at point t: its rows of row tile t / 4. -/
theorem rd5 (G : Cert.Spec.Mat 8192 128) (t : Fin cfg1.N) (p : Fin 2048) (q : Fin 128) :
    ((((cfg1.win 5).blk t).view.read (Elt Ideal) G) : Vec Ideal S2048x128 .f32) (ix2 p q) = G (ix2 (tile (t.val / 4) p) q) := by
  have hN : t.val < 16 := lt_of_lt_of_eq t.isLt (show cfg1.N = 16 from N_1)
  have hi := (index1 t).2.2.2.2.2
  rw [View.read_apply]
  show G _ = _
  congr 1
  funext a
  apply Fin.ext
  match a with
  | ⟨0, _⟩ =>
    show win1_5.index t 0 * 2048 + 1 * p.val = _
    rw [hi.1]
    show _ = (tile _ p).val
    rw [tile_val _ (by omega)]
    omega
  | ⟨1, _⟩ =>
    show win1_5.index t 1 * 128 + 1 * q.val = _
    rw [hi.2]
    show _ = q.val
    omega

end Blocks

end Cert.KernelIdeal.Val

end
-- ==== Proof.Val1.lean ====
/-
  The first layer's aggregation kernel over the extended reals: its result.

  With A the adjacency copy, S the pre-scaled features and d the scaling column, the running sum after the point of
  row tile i and column tile j holds, at row r and feature f, the sum over the column tiles 0 … j of the tile's part
  of sum_k A_(i r, k) · S_(k, f), plus S_(i r, f) once the diagonal tile i has been passed (i ≤ j): by induction on
  the point, following the body's cases. At the last column tile that is the whole sum over the 8192 = 4 · 2048
  columns plus S_(i r, f) (a sum over 4 · 2048 places regrouped by tiles), and the finishing payload turns it into
  row tile i of the specification's first layer. The four last-column points write back the four row tiles, which
  cover the result.
-/
import proofs.«169190_j76347338654297_2_alg».proof.Proof.Val1_P
import proofs.«169190_j76347338654297_2_alg».proof.Proof.LibRowTiles
import proofs.«169190_j76347338654297_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-- The adjacency copy and the pre-scaled features found on entry, as matrices. -/
abbrev ADJ (c : Dev nD) : Cert.Spec.Mat 8192 8192 := V c main_v0_1
abbrev XS (c : Dev nD) : Cert.Spec.Mat 8192 64 := V c main_v2
/-- The scaling column, the weights and the one-row bias found on entry. -/
abbrev DC (c : Dev nD) : Cert.Spec.Mat 8192 1 := V c main_v0_0
abbrev W1 (c : Dev nD) : Cert.Spec.Mat 64 128 := V c main_arg3
abbrev B1 (c : Dev nD) : Cert.Spec.Mat 1 128 := V c main_v3

/-- Column tile j's part of the aggregate at row r of row tile i and feature f. -/
def T (c : Dev nD) (i j : ℕ) (p : Fin 2048) (q : Fin 64) : EReal :=
  ∑ k : Fin 2048, ADJ V c (ix2 (tile i p) (tile j k)) * XS V c (ix2 (tile j k) q)

/-- The self-loop's addend: the pre-scaled feature at the row itself. -/
def Xd (c : Dev nD) (i : ℕ) (p : Fin 2048) (q : Fin 64) : EReal := XS V c (ix2 (tile i p) q)

/-- The accumulation payload on the point's blocks adds the point's tile part. -/
theorem step2 (c : Dev nD) (t : Fin cfg1.N) (s : Vec Ideal S2048x64 .f32) (p : Fin 2048) (q : Fin 64) :
    k1_pay2 (iblk1 V c 1 t) s (iblk1 V c 0 t) (ix2 p q) = s (ix2 p q) + T V c (t.val / 4) (t.val % 4) p q := by
  rw [pay2_apply]
  congr 1
  exact Finset.sum_congr rfl fun k _ => by rw [blk0, blk1]

/-- The diagonal payload on the point's blocks adds the feature at the row of the column tile. -/
theorem step3 (c : Dev nD) (t : Fin cfg1.N) (s : Vec Ideal S2048x64 .f32) (p : Fin 2048) (q : Fin 64) :
    k1_pay3 s (iblk1 V c 1 t) (ix2 p q) = s (ix2 p q) + Xd V c (t.val % 4) p q := by
  rw [pay3_apply, blk1]; rfl

/-- THE RUNNING SUM after point n: the parts of the column tiles 0 … n % 4, plus the self-loop's addend once the
    diagonal tile has been passed. -/
theorem inv (c : Dev nD) : ∀ (n : ℕ) (hn : n < cfg1.N) (p : Fin 2048) (q : Fin 64),
    (outsAt1 V c n hn).2 (ix2 p q)
      = (∑ j ∈ Finset.range (n % 4 + 1), T V c (n / 4) j p q) + (if n / 4 ≤ n % 4 then Xd V c (n / 4) p q else 0) := by
  intro n
  induction n with
  | zero =>
    intro hn p q
    rw [show outsAt1 V c 0 hn = _ from outsAt1_A V c ⟨0, hn⟩ (Nat.zero_mod _) (Nat.zero_mod _) (by show ¬ (0 % 4 = 3); decide)]
    dsimp only
    rw [soutA_eq, step3, step2, pay1_apply]
    simp only [Nat.zero_mod, Nat.zero_div, zero_add, Finset.sum_range_one, le_refl, if_true]
  | succ n ih =>
    intro hn p q
    have hN : n + 1 < 16 := lt_of_lt_of_eq hn (show cfg1.N = 16 from N_1)
    have key : ∀ h, (outsAt1 V c (n + 1 - 1) h).2 (ix2 p q)
        = (∑ j ∈ Finset.range (n % 4 + 1), T V c (n / 4) j p q) + (if n / 4 ≤ n % 4 then Xd V c (n / 4) p q else 0) :=
      fun h => ih h p q
    by_cases h0 : (n + 1) % 4 = 0
    · by_cases h1 : (n + 1) % 5 = 0
      · exfalso; omega
      · have h2 : ¬(n + 1) % 4 = 3 := by omega
        rw [show outsAt1 V c (n + 1) hn = _ from outsAt1_B V c ⟨n + 1, hn⟩ h0 h1 h2]
        dsimp only
        rw [soutB_eq, step2, pay1_apply]
        have hi : ¬ (n + 1) / 4 ≤ 0 := by omega
        dsimp only
        rw [h0, Nat.zero_add, Finset.sum_range_one, if_neg hi, zero_add, add_zero]
    · have e1 : (n + 1) % 4 = n % 4 + 1 := by omega
      have e2 : (n + 1) / 4 = n / 4 := by omega
      by_cases h1 : (n + 1) % 5 = 0
      · have hd : n / 4 = n % 4 + 1 := by omega
        have hlt : ¬ n / 4 ≤ n % 4 := by omega
        by_cases h2 : (n + 1) % 4 = 3
        · rw [show outsAt1 V c (n + 1) hn = _ from outsAt1_E V c ⟨n + 1, hn⟩ h0 h1 h2]
          dsimp only
          rw [soutE_eq, step3, step2]
          dsimp only
          rw [key, if_neg hlt, add_zero, e1, e2, Finset.sum_range_succ _ (n % 4 + 1), if_pos (le_of_eq hd), ← hd]
        · rw [show outsAt1 V c (n + 1) hn = _ from outsAt1_C V c ⟨n + 1, hn⟩ h0 h1 h2]
          dsimp only
          rw [soutC_eq, step3, step2]
          dsimp only
          rw [key, if_neg hlt, add_zero, e1, e2, Finset.sum_range_succ _ (n % 4 + 1), if_pos (le_of_eq hd), ← hd]
      · have hne : n / 4 ≠ n % 4 + 1 := by omega
        have fin : ((∑ j ∈ Finset.range (n % 4 + 1), T V c (n / 4) j p q) + (if n / 4 ≤ n % 4 then Xd V c (n / 4) p q else 0))
              + T V c (n / 4) (n % 4 + 1) p q
            = (∑ j ∈ Finset.range (n % 4 + 1 + 1), T V c (n / 4) j p q) + (if n / 4 ≤ n % 4 + 1 then Xd V c (n / 4) p q else 0) := by
          rw [Finset.sum_range_succ _ (n % 4 + 1)]
          by_cases hle : n / 4 ≤ n % 4
          · rw [if_pos hle, if_pos (by omega), add_right_comm]
          · rw [if_neg hle, if_neg (by omega), add_zero, add_zero]
        by_cases h2 : (n + 1) % 4 = 3
        · rw [show outsAt1 V c (n + 1) hn = _ from outsAt1_F V c ⟨n + 1, hn⟩ h0 h1 h2]
          dsimp only
          rw [soutF_eq, step2]
          dsimp only
          rw [key, e1, e2]
          exact fin
        · rw [show outsAt1 V c (n + 1) hn = _ from outsAt1_D V c ⟨n + 1, hn⟩ h0 h1 h2]
          dsimp only
          rw [soutD_eq, step2]
          dsimp only
          rw [key, e1, e2]
          exact fin

/-- The four column tiles' parts are the whole sum over the 8192 columns. -/
theorem sum_T (c : Dev nD) (i : ℕ) (p : Fin 2048) (f : Fin 64) :
    ∑ j ∈ Finset.range 4, T V c i j p f
      = ∑ j : Fin 8192, ADJ V c (ix2 (tile i p) j) * XS V c (ix2 j f) := by
  have h := Cert.Lib.RowTiles.sum_tiles 4 2048
    (fun j : Fin (4 * 2048) => (ADJ V c (ix2 (tile i p) j) * XS V c (ix2 j f) : EReal))
  refine Eq.trans ?_ h.symm
  rw [← Fin.sum_univ_eq_sum_range (fun j => T V c i j p f) 4]
  refine Finset.sum_congr rfl fun t _ => ?_
  unfold T
  refine Finset.sum_congr rfl fun k _ => ?_
  have e : Cert.Lib.RowTiles.place 4 2048 t k = tile t.val k := Fin.ext (by
    show t.val * 2048 + k.val = (2048 * t.val + k.val) % 8192
    have := t.isLt; have := k.isLt; omega)
  rw [e]

/-- The specification's first layer on the arrays found on entry. -/
abbrev G (c : Dev nD) : Cert.Spec.Mat 8192 128 :=
  Cert.Spec.gcn1 (V c main_v0_1) (V c main_v2) (V c main_v0_0) (V c main_arg3) (V c main_v3)

/-- At a last-column point the output tile is the finishing payload of the running sum the point leaves. -/
theorem out_scr (c : Dev nD) (t : Fin cfg1.N) (h2 : t.val % 4 = 3) :
    (outsAt1 V c t.val t.isLt).1
      = k1_pay4 (iblk1 V c 2 t) (outsAt1 V c t.val t.isLt).2 (iblk1 V c 3 t) (iblk1 V c 4 t) (iblk1 V c 2 t) := by
  have hN : t.val < 16 := lt_of_lt_of_eq t.isLt (show cfg1.N = 16 from N_1)
  have h0 : ¬ t.val % 4 = 0 := by omega
  by_cases h1 : t.val % 5 = 0
  · rw [outsAt1_E V c t h0 h1 h2]; dsimp only; rw [outE_eq, soutE_eq]
  · rw [outsAt1_F V c t h0 h1 h2]; dsimp only; rw [outF_eq, soutF_eq]

/-- The specification's first layer at an index, written out. -/
theorem G_apply (c : Dev nD) (r : Fin 8192) (q : Fin 128) :
    G V c (ix2 r q)
      = DC V c (ix2 r 0) * max ((∑ f : Fin 64, (DC V c (ix2 r 0) * ((∑ j : Fin 8192, ADJ V c (ix2 r j) * XS V c (ix2 j f)) + XS V c (ix2 r f))) * W1 V c (ix2 f q)) + B1 V c (ix2 0 q)) 0 := rfl

set_option maxHeartbeats 1000000 in
/-- At a last-column point the output tile is row tile t / 4 of the specification's first layer. -/
theorem out_at (c : Dev nD) (t : Fin cfg1.N) (h2 : t.val % 4 = 3) (p : Fin 2048) (q : Fin 128) :
    (outsAt1 V c t.val t.isLt).1 (ix2 p q) = G V c (ix2 (tile (t.val / 4) p) q) := by
  have hN : t.val < 16 := lt_of_lt_of_eq t.isLt (show cfg1.N = 16 from N_1)
  have hle : t.val / 4 ≤ t.val % 4 := by omega
  have e4 : t.val % 4 + 1 = 4 := by omega
  rw [out_scr V c t h2, pay4_apply, G_apply, blk2, blk4]
  congr 1
  congr 1
  congr 1
  refine Finset.sum_congr rfl fun f _ => ?_
  rw [blk3, inv V c t.val t.isLt, e4, if_pos hle, sum_T]
  rfl

/-- Each write-back writes its row tile of the specification's first layer. -/
theorem flushed_eq (c : Dev nD) (t : Fin cfg1.N) (hf : (cfg1.win 5).flush t = true) :
    (dat1 V c).flushed 5 t = ((cfg1.win 5).blk t).view.read (Elt Ideal) (G V c) := by
  have h2 : t.val % 4 = 3 := (flush1_5 t).mp hf
  have e : (dat1 V c).flushed 5 t = (outsAt1 V c t.val t.isLt).1 := by
    show (cfg1.win 5).cut (grid1.coords t) ((dat1 V c).after 5 t) = _
    rw [after1_5]; rfl
  rw [e]
  funext x
  obtain ⟨p, q, rfl⟩ : ∃ (p : Fin 2048) (q : Fin 128), x = ix2 p q := ⟨x 0, x 1, eq_ix2 x⟩
  rw [rd5, out_at V c t h2]

/-- The output window's block has its full extent at every point. -/
theorem xsize1_5 : ∀ t : Fin grid1.N, win1_5.xsize (grid1.coords t) 0 = 2048 ∧ win1_5.xsize (grid1.coords t) 1 = 128 := by decide +kernel

/-- THE RESULT: after the region the output array holds the specification's first layer of the arrays found on entry. -/
theorem final1_5 (c : Dev nD) : ((dat1 (F := Ideal) V c).arrAt 5 cfg1.N : S8192x128.Idx → EReal)
      = Cert.Spec.gcn1 (V c main_v0_1) (V c main_v2) (V c main_v0_0) (V c main_arg3) (V c main_v3) :=
  (dat1 V c).arrAt_eq_of_cover 5 (G V c) (flushed_eq V c) fun i => by
    have hr : (i 0).val < 8192 := (i 0).isLt
    have hq : (i 1).val < 128 := (i 1).isLt
    have htN : 4 * ((i 0).val / 2048) + 3 < cfg1.N := by rw [show cfg1.N = 16 from N_1]; omega
    let t : Fin cfg1.N := ⟨4 * ((i 0).val / 2048) + 3, htN⟩
    refine ⟨t, (flush1_5 t).mpr (by show (4 * ((i 0).val / 2048) + 3) % 4 = 3; omega), ?_⟩
    show i ∈ ((View.whole main_v4).slice (win1_5.rect t)).set
    rw [View.set_slice_whole, Rect.mem_set_unit]
    intro a
    have hi := (index1 t).2.2.2.2.2
    have hx := xsize1_5 t
    match a with
    | ⟨0, _⟩ =>
      show win1_5.index t 0 * win1_5.size 0 ≤ (i 0 : Nat) ∧ (i 0 : Nat) < win1_5.index t 0 * win1_5.size 0 + win1_5.xsize (grid1.coords t) 0
      rw [hi.1, hx.1]
      show (4 * ((i 0).val / 2048) + 3) / 4 * 2048 ≤ (i 0).val ∧ (i 0).val < (4 * ((i 0).val / 2048) + 3) / 4 * 2048 + 2048
      omega
    | ⟨1, _⟩ =>
      show win1_5.index t 1 * win1_5.size 1 ≤ (i 1 : Nat) ∧ (i 1 : Nat) < win1_5.index t 1 * win1_5.size 1 + win1_5.xsize (grid1.coords t) 1
      rw [hi.2, hx.2]
      show 0 * 128 ≤ (i 1).val ∧ (i 1).val < 0 * 128 + 128
      omega

end Cert.KernelIdeal.Val

end
-- ==== Proof.Val2Pieces.lean ====
/-
  The second aggregation kernel over the extended reals: the ingredients of its value.

  What each of the six cases leaves in the running sum and in the three output tiles, as the stores' payloads of the
  point's input blocks; then the same at a grid point, and the recursion over the points: the running sum after a
  point from the running sum after the point before, and the three output tiles at the last column tile from the
  running sum just completed.
-/
import proofs.«169190_j76347338654297_2_alg».proof.Proof.KI_R2
import proofs.«169190_j76347338654297_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

/-- The zero offsets of a whole-tile access. -/
theorem hz2 : (![0, 0] : Fin 2 → Nat) = fun _ => 0 := funext fun a => by fin_cases a <;> rfl

/-- A load of the whole block after stores of which the last one wrote the whole block reads that store's payload. -/
theorem readCov_cons_unit_zero2 {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

variable {F : FTy → Type} [FloatOps F]

/-! ## What each case leaves, as payloads of the point's blocks -/

/-- The first column tile on the diagonal: the cleared sum plus the tile's product, plus the feature tile. -/
theorem sout2_A_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) :
    sout2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 = k2_pay3 (k2_pay2 x1 k2_pay1 x0) x1 := by
  unfold sout2_A
  rw [View.read_writes_eq_canon _ _ _ (scover2_A c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun2_A
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- The first column tile off the diagonal: the cleared sum plus the tile's product. -/
theorem sout2_B_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : cond2_0 i) (hc1 : ¬cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) :
    sout2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 = k2_pay2 x1 k2_pay1 x0 := by
  unfold sout2_B
  rw [View.read_writes_eq_canon _ _ _ (scover2_B c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7)]
  unfold kernelRun2_B
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- A later column tile on the diagonal: the sum so far plus the tile's product, plus the feature tile. -/
theorem sout2_C_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    sout2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay3 (k2_pay2 x1 xs0 x0) x1 := by
  unfold sout2_C
  rw [View.read_writes_eq_canon _ _ _ (scover2_C c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_C
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- A later column tile off the diagonal: the sum so far plus the tile's product. -/
theorem sout2_D_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : ¬cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    sout2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay2 x1 xs0 x0 := by
  unfold sout2_D
  rw [View.read_writes_eq_canon _ _ _ (scover2_D c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_D
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- The last column tile on the diagonal leaves the running sum as a diagonal tile does. -/
theorem sout2_E_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    sout2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay3 (k2_pay2 x1 xs0 x0) x1 := by
  unfold sout2_E
  rw [View.read_writes_eq_canon _ _ _ (scover2_E c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_E
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- At the last column tile the first head's tile is its finishing payload of the running sum just completed. -/
theorem out2_E_8_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    out2_E_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay5 x2 (k2_pay3 (k2_pay2 x1 xs0 x0) x1) x3 x4 := by
  unfold out2_E_8
  rw [View.read_writes_eq_canon _ _ _ (cover2_E_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_E
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- At the last column tile the second head's tile is its finishing payload of the running sum just completed. -/
theorem out2_E_9_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    out2_E_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay6 x2 (k2_pay3 (k2_pay2 x1 xs0 x0) x1) x5 x6 := by
  unfold out2_E_9
  rw [View.read_writes_eq_canon _ _ _ (cover2_E_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_E
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- At the last column tile the sample's tile is its finishing payload of the running sum just completed. -/
theorem out2_E_10_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    out2_E_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay7 x2 (k2_pay3 (k2_pay2 x1 xs0 x0) x1) x3 x5 x4 x6 x7 := by
  unfold out2_E_10
  rw [View.read_writes_eq_canon _ _ _ (cover2_E_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_E
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- The last column tile off the diagonal leaves the running sum as an off-diagonal tile does. -/
theorem sout2_F_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    sout2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay2 x1 xs0 x0 := by
  unfold sout2_F
  rw [View.read_writes_eq_canon _ _ _ (scover2_F c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_F
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- At the last column tile the first head's tile is its finishing payload of the running sum just completed. -/
theorem out2_F_8_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    out2_F_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay5 x2 (k2_pay2 x1 xs0 x0) x3 x4 := by
  unfold out2_F_8
  rw [View.read_writes_eq_canon _ _ _ (cover2_F_8 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_F
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- At the last column tile the second head's tile is its finishing payload of the running sum just completed. -/
theorem out2_F_9_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    out2_F_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay6 x2 (k2_pay2 x1 xs0 x0) x5 x6 := by
  unfold out2_F_9
  rw [View.read_writes_eq_canon _ _ _ (cover2_F_9 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_F
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-- At the last column tile the sample's tile is its finishing payload of the running sum just completed. -/
theorem out2_F_10_eq (c : Dev nD) (i : grid2.Coords) (arg2 : Memref sig .tc .vmem S2048x2048 .bf16) (harg2 : arg2.IsWhole) (arg3 : Memref sig .tc .vmem S2048x128 .f32) (harg3 : arg3.IsWhole) (arg4 : Memref sig .tc .vmem S2048x1 .f32) (harg4 : arg4.IsWhole) (arg5 : Memref sig .tc .vmem S128x32 .f32) (harg5 : arg5.IsWhole) (arg6 : Memref sig .tc .vmem S1x32 .f32) (harg6 : arg6.IsWhole) (arg7 : Memref sig .tc .vmem S128x32 .f32) (harg7 : arg7.IsWhole) (arg8 : Memref sig .tc .vmem S1x32 .f32) (harg8 : arg8.IsWhole) (arg9 : Memref sig .tc .vmem S2048x32 .f32) (harg9 : arg9.IsWhole) (arg10 : Memref sig .tc .vmem S2048x32 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S2048x128 .f32) (harg13 : arg13.IsWhole) (hc0 : ¬cond2_0 i) (hc1 : ¬cond2_1 i) (hc2 : cond2_2 i)
    (x0 : Vec F S2048x2048 .bf16) (x1 : Vec F S2048x128 .f32) (x2 : Vec F S2048x1 .f32) (x3 : Vec F S128x32 .f32) (x4 : Vec F S1x32 .f32) (x5 : Vec F S128x32 .f32) (x6 : Vec F S1x32 .f32) (x7 : Vec F S2048x32 .f32) (xs0 : Vec F S2048x128 .f32) :
    out2_F_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 = k2_pay7 x2 (k2_pay2 x1 xs0 x0) x3 x5 x4 x6 x7 := by
  unfold out2_F_10
  rw [View.read_writes_eq_canon _ _ _ (cover2_F_10 c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0)]
  unfold kernelRun2_F
  dsimp only
  try sl_unfold_words
  simp only [View.canon_cons_unit_zero (S := S2048x128) hz2, View.canon_cons_unit_zero (S := S2048x32) hz2, readCov_cons_unit_zero2 (S := S2048x128) _ hz2, View.readAt_eq_ld, harg2.read_unread, harg3.read_unread, harg4.read_unread, harg5.read_unread, harg6.read_unread, harg7.read_unread, harg8.read_unread, harg9.read_unread, harg13.read_unread,
    View.ld_unit_zero (S := S2048x2048) hz2, View.ld_unit_zero (S := S2048x128) hz2, View.ld_unit_zero (S := S2048x1) hz2, View.ld_unit_zero (S := S128x32) hz2, View.ld_unit_zero (S := S1x32) hz2, View.ld_unit_zero (S := S2048x32) hz2]

/-! ## The cases at a grid point, and the recursion over the points, as payloads -/

section Recursion

variable (V : (c : Dev nD) → (b : Ref sig .tc) → Buf (Elt F) ((c : Thread nD τ).loc b))

theorem ptS2_A_eq (c : Dev nD) (t : Fin cfg2.N) (h0 : t.val % 4 = 0) (h1 : t.val / 4 = t.val % 4) (h2 : ¬t.val % 4 = 3) : ptS2_A V c t h0 h1 h2 = k2_pay3 (k2_pay2 (iblk2 V c 1 t) k2_pay1 (iblk2 V c 0 t)) (iblk2 V c 1 t) := by
  unfold ptS2_A
  exact sout2_A_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)

theorem ptS2_B_eq (c : Dev nD) (t : Fin cfg2.N) (h0 : t.val % 4 = 0) (h1 : ¬t.val / 4 = t.val % 4) (h2 : ¬t.val % 4 = 3) : ptS2_B V c t h0 h1 h2 = k2_pay2 (iblk2 V c 1 t) k2_pay1 (iblk2 V c 0 t) := by
  unfold ptS2_B
  exact sout2_B_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t)

theorem ptS2_C_eq (c : Dev nD) (t : Fin cfg2.N) (h0 : ¬t.val % 4 = 0) (h1 : t.val / 4 = t.val % 4) (h2 : ¬t.val % 4 = 3) (xs : Vec F S2048x128 .f32) : ptS2_C V c t h0 h1 h2 xs = k2_pay3 (k2_pay2 (iblk2 V c 1 t) xs (iblk2 V c 0 t)) (iblk2 V c 1 t) := by
  unfold ptS2_C
  exact sout2_C_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) xs

theorem ptS2_D_eq (c : Dev nD) (t : Fin cfg2.N) (h0 : ¬t.val % 4 = 0) (h1 : ¬t.val / 4 = t.val % 4) (h2 : ¬t.val % 4 = 3) (xs : Vec F S2048x128 .f32) : ptS2_D V c t h0 h1 h2 xs = k2_pay2 (iblk2 V c 1 t) xs (iblk2 V c 0 t) := by
  unfold ptS2_D
  exact sout2_D_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (iblk2 V c 6 t) (iblk2 V c 7 t) xs

theorem ptS2_E_eq (c : Dev nD) (t : Fin cfg2.N) (h0 : ¬t.val % 4 = 0) (h1 : t.val / 4 = t.val % 4) (h2 : t.val % 4 = 3) (xs : Vec F S2048x128 .f32) : ptS2_E V c t h0 h1 h2 xs = k2_pay3 (k2_pay2 (iblk2 V c 1 t) xs (iblk2 V c 0 t)) (iblk2 V c 1 t) := by
  unfold ptS2_E
  exact sout2_E_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
theorem ptO2_E_8_eq (c : Dev nD) (t : Fin cfg2.N) (h0 : ¬t.val % 4 = 0) (h1 : t.val / 4 = t.val % 4) (h2 : t.val % 4 = 3) (xs : Vec F S2048x128 .f32) : ptO2_E_8 V c t h0 h1 h2 xs = k2_pay5 (iblk2 V c 2 t) (k2_pay3 (k2_pay2 (iblk2 V c 1 t) xs (iblk2 V c 0 t)) (iblk2 V c 1 t)) (iblk2 V c 3 t) (iblk2 V c 4 t) := by
  unfold ptO2_E_8
  exact out2_E_8_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
theorem ptO2_E_9_eq (c : Dev nD) (t : Fin cfg2.N) (h0 : ¬t.val % 4 = 0) (h1 : t.val / 4 = t.val % 4) (h2 : t.val % 4 = 3) (xs : Vec F S2048x128 .f32) : ptO2_E_9 V c t h0 h1 h2 xs = k2_pay6 (iblk2 V c 2 t) (k2_pay3 (k2_pay2 (iblk2 V c 1 t) xs (iblk2 V c 0 t)) (iblk2 V c 1 t)) (iblk2 V c 5 t) (iblk2 V c 6 t) := by
  unfold ptO2_E_9
  exact out2_E_9_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
theorem ptO2_E_10_eq (c : Dev nD) (t : Fin cfg2.N) (h0 : ¬t.val % 4 = 0) (h1 : t.val / 4 = t.val % 4) (h2 : t.val % 4 = 3) (xs : Vec F S2048x128 .f32) : ptO2_E_10 V c t h0 h1 h2 xs = k2_pay7 (iblk2 V c 2 t) (k2_pay3 (k2_pay2 (iblk2 V c 1 t) xs (iblk2 V c 0 t)) (iblk2 V c 1 t)) (iblk2 V c 3 t) (iblk2 V c 5 t) (iblk2 V c 4 t) (iblk2 V c 6 t) (iblk2 V c 7 t) := by
  unfold ptO2_E_10
  exact out2_E_10_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (iblk2 V c 6 t) (iblk2 V c 7 t) xs

theorem ptS2_F_eq (c : Dev nD) (t : Fin cfg2.N) (h0 : ¬t.val % 4 = 0) (h1 : ¬t.val / 4 = t.val % 4) (h2 : t.val % 4 = 3) (xs : Vec F S2048x128 .f32) : ptS2_F V c t h0 h1 h2 xs = k2_pay2 (iblk2 V c 1 t) xs (iblk2 V c 0 t) := by
  unfold ptS2_F
  exact sout2_F_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
theorem ptO2_F_8_eq (c : Dev nD) (t : Fin cfg2.N) (h0 : ¬t.val % 4 = 0) (h1 : ¬t.val / 4 = t.val % 4) (h2 : t.val % 4 = 3) (xs : Vec F S2048x128 .f32) : ptO2_F_8 V c t h0 h1 h2 xs = k2_pay5 (iblk2 V c 2 t) (k2_pay2 (iblk2 V c 1 t) xs (iblk2 V c 0 t)) (iblk2 V c 3 t) (iblk2 V c 4 t) := by
  unfold ptO2_F_8
  exact out2_F_8_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
theorem ptO2_F_9_eq (c : Dev nD) (t : Fin cfg2.N) (h0 : ¬t.val % 4 = 0) (h1 : ¬t.val / 4 = t.val % 4) (h2 : t.val % 4 = 3) (xs : Vec F S2048x128 .f32) : ptO2_F_9 V c t h0 h1 h2 xs = k2_pay6 (iblk2 V c 2 t) (k2_pay2 (iblk2 V c 1 t) xs (iblk2 V c 0 t)) (iblk2 V c 5 t) (iblk2 V c 6 t) := by
  unfold ptO2_F_9
  exact out2_F_9_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs
theorem ptO2_F_10_eq (c : Dev nD) (t : Fin cfg2.N) (h0 : ¬t.val % 4 = 0) (h1 : ¬t.val / 4 = t.val % 4) (h2 : t.val % 4 = 3) (xs : Vec F S2048x128 .f32) : ptO2_F_10 V c t h0 h1 h2 xs = k2_pay7 (iblk2 V c 2 t) (k2_pay2 (iblk2 V c 1 t) xs (iblk2 V c 0 t)) (iblk2 V c 3 t) (iblk2 V c 5 t) (iblk2 V c 4 t) (iblk2 V c 6 t) (iblk2 V c 7 t) := by
  unfold ptO2_F_10
  exact out2_F_10_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) scM2_0 (Memref.isWhole_whole _) (fun h => h0 ((hcond2_0 t).mp h)) (fun h => h1 ((hcond2_1 t).mp h)) ((hcond2_2 t).mpr h2) (iblk2 V c 0 t) (iblk2 V c 1 t) (iblk2 V c 2 t) (iblk2 V c 3 t) (iblk2 V c 4 t) (iblk2 V c 5 t) (iblk2 V c 6 t) (iblk2 V c 7 t) xs

/-- The running sum after a point at the first column tile: the cleared block plus the tile's product (plus the
    feature tile on the diagonal). -/
theorem acc2_first (c : Dev nD) (t : Fin cfg2.N) (h0 : t.val % 4 = 0) :
    (outsAt2 V c t.val t.isLt).2.2.2 = if t.val / 4 = t.val % 4 then k2_pay3 (k2_pay2 (iblk2 V c 1 t) k2_pay1 (iblk2 V c 0 t)) (iblk2 V c 1 t) else k2_pay2 (iblk2 V c 1 t) k2_pay1 (iblk2 V c 0 t) := by
  have h2 : ¬t.val % 4 = 3 := by omega
  by_cases h1 : t.val / 4 = t.val % 4
  · rw [if_pos h1, outsAt2_A V c t h0 h1 h2]; dsimp only; rw [ptS2_A_eq]
  · rw [if_neg h1, outsAt2_B V c t h0 h1 h2]; dsimp only; rw [ptS2_B_eq]

/-- The running sum after a point at a later column tile: what the point before left plus the tile's product (plus
    the feature tile on the diagonal). -/
theorem acc2_next (c : Dev nD) (t : Fin cfg2.N) (h0 : ¬t.val % 4 = 0) :
    (outsAt2 V c t.val t.isLt).2.2.2 = if t.val / 4 = t.val % 4 then k2_pay3 (k2_pay2 (iblk2 V c 1 t) (outsAt2 V c (t.val - 1) (Nat.lt_of_le_of_lt (Nat.sub_le _ _) t.isLt)).2.2.2 (iblk2 V c 0 t)) (iblk2 V c 1 t) else k2_pay2 (iblk2 V c 1 t) (outsAt2 V c (t.val - 1) (Nat.lt_of_le_of_lt (Nat.sub_le _ _) t.isLt)).2.2.2 (iblk2 V c 0 t) := by
  by_cases h2 : t.val % 4 = 3
  · by_cases h1 : t.val / 4 = t.val % 4
    · rw [if_pos h1, outsAt2_E V c t h0 h1 h2]; dsimp only; rw [ptS2_E_eq]
    · rw [if_neg h1, outsAt2_F V c t h0 h1 h2]; dsimp only; rw [ptS2_F_eq]
  · by_cases h1 : t.val / 4 = t.val % 4
    · rw [if_pos h1, outsAt2_C V c t h0 h1 h2]; dsimp only; rw [ptS2_C_eq]
    · rw [if_neg h1, outsAt2_D V c t h0 h1 h2]; dsimp only; rw [ptS2_D_eq]

/-- At the last column tile the first head's tile is the head payload of the running sum just completed. -/
theorem out2_8_last (c : Dev nD) (t : Fin cfg2.N) (h2 : t.val % 4 = 3) :
    (outsAt2 V c t.val t.isLt).1 = k2_pay5 (iblk2 V c 2 t) (outsAt2 V c t.val t.isLt).2.2.2 (iblk2 V c 3 t) (iblk2 V c 4 t) := by
  have h0 : ¬t.val % 4 = 0 := by omega
  by_cases h1 : t.val / 4 = t.val % 4
  · rw [outsAt2_E V c t h0 h1 h2]; dsimp only; rw [ptO2_E_8_eq, ptS2_E_eq]
  · rw [outsAt2_F V c t h0 h1 h2]; dsimp only; rw [ptO2_F_8_eq, ptS2_F_eq]

/-- The second head's tile. -/
theorem out2_9_last (c : Dev nD) (t : Fin cfg2.N) (h2 : t.val % 4 = 3) :
    (outsAt2 V c t.val t.isLt).2.1 = k2_pay6 (iblk2 V c 2 t) (outsAt2 V c t.val t.isLt).2.2.2 (iblk2 V c 5 t) (iblk2 V c 6 t) := by
  have h0 : ¬t.val % 4 = 0 := by omega
  by_cases h1 : t.val / 4 = t.val % 4
  · rw [outsAt2_E V c t h0 h1 h2]; dsimp only; rw [ptO2_E_9_eq, ptS2_E_eq]
  · rw [outsAt2_F V c t h0 h1 h2]; dsimp only; rw [ptO2_F_9_eq, ptS2_F_eq]

/-- The sample's tile. -/
theorem out2_10_last (c : Dev nD) (t : Fin cfg2.N) (h2 : t.val % 4 = 3) :
    (outsAt2 V c t.val t.isLt).2.2.1 = k2_pay7 (iblk2 V c 2 t) (outsAt2 V c t.val t.isLt).2.2.2 (iblk2 V c 3 t) (iblk2 V c 5 t) (iblk2 V c 4 t) (iblk2 V c 6 t) (iblk2 V c 7 t) := by
  have h0 : ¬t.val % 4 = 0 := by omega
  by_cases h1 : t.val / 4 = t.val % 4
  · rw [outsAt2_E V c t h0 h1 h2]; dsimp only; rw [ptO2_E_10_eq, ptS2_E_eq]
  · rw [outsAt2_F V c t h0 h1 h2]; dsimp only; rw [ptO2_F_10_eq, ptS2_F_eq]

end Recursion

end Cert.KernelIdeal.Val

end
-- ==== Proof.Val2Pay.lean ====
/-
  The payloads of the second aggregation kernel read at an index, on the extended reals.

  The accumulation adds to the running block the product of the adjacency tile and the feature tile; the diagonal step
  adds the feature tile itself; the finish scales the running block's rows by the scaling column, multiplies by a weight
  matrix and adds a bias row (twice: the mean and the log-variance), and forms mean + eps · exp (log-variance / 2).
  Narrowing a float format is the identity here, a product of matrices is the sum over the contracted index, and a
  broadcast column or row is read at the index's row or column.
-/
import proofs.«169190_j76347338654297_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.ValueIdx

/-! ## The two matrix products' index maps -/

theorem lhs2A_0 (i : S2048x128.Idx) (q : dot_S2048x2048_S2048x128_S2048x128_1_0_0_1_n_n.contr.Idx) : (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs2A_1 (i : S2048x128.Idx) (q : dot_S2048x2048_S2048x128_S2048x128_1_0_0_1_n_n.contr.Idx) : (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhs2A_0 (i : S2048x128.Idx) (q : dot_S2048x2048_S2048x128_S2048x128_1_0_0_1_n_n.contr.Idx) : (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhs2A_1 (i : S2048x128.Idx) (q : dot_S2048x2048_S2048x128_S2048x128_1_0_0_1_n_n.contr.Idx) : (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The contraction of a [2048, 2048] by a [2048, 128] matrix at (p, q): the sum over the 2048 places of row p times column q. -/
theorem sum2A (L : S2048x2048.Idx → EReal) (R : S2048x128.Idx → EReal) (p : Fin 2048) (q : Fin 128) :
    ∑ k : dot_S2048x2048_S2048x128_S2048x128_1_0_0_1_n_n.contr.Idx, L (dot_S2048x2048_S2048x128_S2048x128_1_0_0_1_n_n.lhsIdx (ix2 p q) k) * R (dot_S2048x2048_S2048x128_S2048x128_1_0_0_1_n_n.rhsIdx (ix2 p q) k)
      = ∑ k : Fin 2048, L (ix2 p k) * R (ix2 k q) := by
  rw [← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 p q) ((contrEquiv1 dot_S2048x2048_S2048x128_S2048x128_1_0_0_1_n_n 2048 rfl rfl).symm k) = ix2 p k := funext fun a => Fin.ext (by
    match a with
    | ⟨0, _⟩ => exact lhs2A_0 _ _
    | ⟨1, _⟩ => exact (lhs2A_1 _ _).trans hk)
  have er : dot_S2048x2048_S2048x128_S2048x128_1_0_0_1_n_n.rhsIdx (ix2 p q) ((contrEquiv1 dot_S2048x2048_S2048x128_S2048x128_1_0_0_1_n_n 2048 rfl rfl).symm k) = ix2 k q := funext fun a => Fin.ext (by
    match a with
    | ⟨0, _⟩ => exact (rhs2A_0 _ _).trans hk
    | ⟨1, _⟩ => exact rhs2A_1 _ _)
  rw [el, er]

theorem lhs2B_0 (i : S2048x32.Idx) (q : dot_S2048x128_S128x32_S2048x32_1_0_0_1_n_n.contr.Idx) : (dot_S2048x128_S128x32_S2048x32_1_0_0_1_n_n.lhsIdx i q 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
theorem lhs2B_1 (i : S2048x32.Idx) (q : dot_S2048x128_S128x32_S2048x32_1_0_0_1_n_n.contr.Idx) : (dot_S2048x128_S128x32_S2048x32_1_0_0_1_n_n.lhsIdx i q 1).val = (q ⟨0, by decide⟩).val :=
  dot_S2048x128_S128x32_S2048x32_1_0_0_1_n_n.lhsIdx_val_of_single rfl i q
theorem rhs2B_0 (i : S2048x32.Idx) (q : dot_S2048x128_S128x32_S2048x32_1_0_0_1_n_n.contr.Idx) : (dot_S2048x128_S128x32_S2048x32_1_0_0_1_n_n.rhsIdx i q 0).val = (q ⟨0, by decide⟩).val :=
  dot_S2048x128_S128x32_S2048x32_1_0_0_1_n_n.rhsIdx_val_of_single rfl i q
theorem rhs2B_1 (i : S2048x32.Idx) (q : dot_S2048x128_S128x32_S2048x32_1_0_0_1_n_n.contr.Idx) : (dot_S2048x128_S128x32_S2048x32_1_0_0_1_n_n.rhsIdx i q 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- The contraction of a [2048, 128] by a [128, 32] matrix at (p, q): the sum over the 128 places of row p times column q. -/
theorem sum2B (L : S2048x128.Idx → EReal) (R : S128x32.Idx → EReal) (p : Fin 2048) (q : Fin 32) :
    ∑ k : dot_S2048x128_S128x32_S2048x32_1_0_0_1_n_n.contr.Idx, L (dot_S2048x128_S128x32_S2048x32_1_0_0_1_n_n.lhsIdx (ix2 p q) k) * R (dot_S2048x128_S128x32_S2048x32_1_0_0_1_n_n.rhsIdx (ix2 p q) k)
      = ∑ k : Fin 128, L (ix2 p k) * R (ix2 k q) := by
  rw [← Equiv.sum_comp (contrEquiv1 dot_S2048x128_S128x32_S2048x32_1_0_0_1_n_n 128 rfl rfl).symm]
  refine Finset.sum_congr rfl fun k _ => ?_
  have hk := contrEquiv1_symm_val dot_S2048x128_S128x32_S2048x32_1_0_0_1_n_n 128 rfl rfl k
  have el : dot_S2048x128_S128x32_S2048x32_1_0_0_1_n_n.lhsIdx (ix2 p q) ((contrEquiv1 dot_S2048x128_S128x32_S2048x32_1_0_0_1_n_n 128 rfl rfl).symm k) = ix2 p k := funext fun a => Fin.ext (by
    match a with
    | ⟨0, _⟩ => exact lhs2B_0 _ _
    | ⟨1, _⟩ => exact (lhs2B_1 _ _).trans hk)
  have er : dot_S2048x128_S128x32_S2048x32_1_0_0_1_n_n.rhsIdx (ix2 p q) ((contrEquiv1 dot_S2048x128_S128x32_S2048x32_1_0_0_1_n_n 128 rfl rfl).symm k) = ix2 k q := funext fun a => Fin.ext (by
    match a with
    | ⟨0, _⟩ => exact (rhs2B_0 _ _).trans hk
    | ⟨1, _⟩ => exact rhs2B_1 _ _)
  rw [el, er]

/-! ## The payloads -/

/-- The cleared running block is 0. -/
theorem k2_pay1_apply (y : S2048x128.Idx) : (k2_pay1 (F := Ideal)) y = 0 := by
  unfold k2_pay1
  simp only [shapeCast_self]
  show Ideal.ofBits .f32 0x00000000#32 = 0
  exact Ideal.ofBits_zero_f32

/-- The accumulation: the running block plus the adjacency tile times the feature tile. -/
theorem k2_pay2_apply (v3 : Vec Ideal S2048x128 .f32) (v6 : Vec Ideal S2048x128 .f32) (v7 : Vec Ideal S2048x2048 .bf16)
    (p : Fin 2048) (q : Fin 128) :
    k2_pay2 v3 v6 v7 (ix2 p q) = v6 (ix2 p q) + ∑ k : Fin 2048, v7 (ix2 p k) * v3 (ix2 k q) := by
  unfold k2_pay2
  simp only [shapeCast_self]
  rw [addf_apply]
  congr 1
  simp only [matmul]
  rw [Ideal.matmul_constant_zero_apply]
  exact sum2A v7 v3 p q

/-- The diagonal step adds the feature tile. -/
theorem k2_pay3_apply (v20 v21 : Vec Ideal S2048x128 .f32) (y : S2048x128.Idx) : k2_pay3 v20 v21 y = v20 y + v21 y := by
  unfold k2_pay3
  simp only [shapeCast_self]
  rfl

/-- The running block with its rows scaled by the scaling column. -/
theorem k2_pay4_apply (v20 : Vec Ideal S2048x1 .f32) (v22 : Vec Ideal S2048x128 .f32) (p : Fin 2048) (k : Fin 128) :
    k2_pay4 v20 v22 (ix2 p k) = v20 (ix2 p 0) * v22 (ix2 p k) := by
  unfold k2_pay4
  simp only [shapeCast_self]
  show (broadcastTo S2048x128 v20 broadcasts_S2048x1_S2048x128 (ix2 p k)) * v22 (ix2 p k) = _
  congr 1
  refine broadcastTo_apply v20 _ (ix2 p k) (ix2 p 0) fun ax => ?_
  match ax with
  | ⟨0, _⟩ => rfl
  | ⟨1, _⟩ => rfl

/-- One head: the scaled running block times the weights, plus the bias row. -/
theorem k2_pay5_apply (v20 : Vec Ideal S2048x1 .f32) (v22 : Vec Ideal S2048x128 .f32) (v26 : Vec Ideal S128x32 .f32)
    (v31 : Vec Ideal S1x32 .f32) (p : Fin 2048) (q : Fin 32) :
    k2_pay5 v20 v22 v26 v31 (ix2 p q)
      = (∑ k : Fin 128, (v20 (ix2 p 0) * v22 (ix2 p k)) * v26 (ix2 k q)) + v31 (ix2 0 q) := by
  unfold k2_pay5
  simp only [shapeCast_self]
  rw [addf_apply]
  congr 1
  · simp only [matmul]
    rw [Ideal.matmul_constant_zero_apply]
    refine (sum2B _ _ p q).trans ?_
    exact Finset.sum_congr rfl fun k _ => by rw [k2_pay4_apply]; rfl
  · exact broadcastTo_1b_ab_apply v31 _ p q

/-- The other head. -/
theorem k2_pay6_apply (v20 : Vec Ideal S2048x1 .f32) (v22 : Vec Ideal S2048x128 .f32) (v28 : Vec Ideal S128x32 .f32)
    (v36 : Vec Ideal S1x32 .f32) (p : Fin 2048) (q : Fin 32) :
    k2_pay6 v20 v22 v28 v36 (ix2 p q)
      = (∑ k : Fin 128, (v20 (ix2 p 0) * v22 (ix2 p k)) * v28 (ix2 k q)) + v36 (ix2 0 q) := by
  unfold k2_pay6
  simp only [shapeCast_self]
  rw [addf_apply]
  congr 1
  · simp only [matmul]
    rw [Ideal.matmul_constant_zero_apply]
    refine (sum2B _ _ p q).trans ?_
    exact Finset.sum_congr rfl fun k _ => by rw [k2_pay4_apply]; rfl
  · exact broadcastTo_1b_ab_apply v36 _ p q

/-- The sample: the first head plus eps times the exponential of half the second. -/
theorem k2_pay7_apply (v20 : Vec Ideal S2048x1 .f32) (v22 : Vec Ideal S2048x128 .f32) (v26 v28 : Vec Ideal S128x32 .f32)
    (v31 v36 : Vec Ideal S1x32 .f32) (v40 : Vec Ideal S2048x32 .f32) (y : S2048x32.Idx) :
    k2_pay7 v20 v22 v26 v28 v31 v36 v40 y
      = k2_pay5 v20 v22 v26 v31 y + v40 y * Ideal.exp (Ideal.ofBits .f32 0x3F000000#32 * k2_pay6 v20 v22 v28 v36 y) := by
  unfold k2_pay7
  rfl

end Cert.KernelIdeal.Val

end
-- ==== Proof.LibTileAcc.lean ====
/-
  Cert.Lib.TileAcc — an accumulator over column tiles with one extra addend at a chosen tile.

  A row of length T · B is cut into T tiles of B places. An accumulator starts at 0, adds at tile j the sum of the
  tile's B terms g (j · B + k), and at one chosen tile d adds one extra addend e as well. After the first j tiles it
  holds the sum of the first j · B terms, plus e once the chosen tile is behind; after all T tiles (d among them) it
  holds the whole row's sum plus e. Only + is rearranged, so this holds in any additive commutative monoid — on the
  extended reals with no finiteness assumed.

  * run            : the accumulator after j tiles (run 0 = 0, run (j + 1) = (run j + tile j's sum) + [j = d] e)
  * run_closed     : run j = (sum of the first j · B terms) + (e if d < j, else 0)
  * run_lt         : up to and including the entry of tile d nothing extra has been added (j ≤ d)
  * run_lt_tiles   : the same with the sum written tile by tile
  * run_all        : after T tiles, d < T: the sum over all T · B places, plus e
  * sum_tiles_range, sum_tiles : a sum over T · B places is the sum over the tiles of the sums within each tile
                     (for a sequence, and for a function of Fin (T · B))

  Imports only Mathlib.
-/
import Mathlib.Algebra.BigOperators.Fin
import Mathlib.Algebra.BigOperators.Intervals
import Mathlib.Logic.Equiv.Fin.Basic
import Mathlib.Tactic.Abel
import Mathlib.Tactic.Ring

namespace Cert.Lib.TileAcc

open Finset

variable {M : Type*} [AddCommMonoid M]

/-- The accumulator after j tiles of B places: it starts at 0; tile j adds its B terms, and tile d the extra addend too. -/
def run (B : ℕ) (g : ℕ → M) (e : M) (d : ℕ) : ℕ → M
  | 0 => 0
  | j + 1 => (run B g e d j + ∑ k : Fin B, g (j * B + k)) + (if j = d then e else 0)

@[simp] theorem run_zero (B : ℕ) (g : ℕ → M) (e : M) (d : ℕ) : run B g e d 0 = 0 := rfl

theorem run_succ (B : ℕ) (g : ℕ → M) (e : M) (d j : ℕ) :
    run B g e d (j + 1) = (run B g e d j + ∑ k : Fin B, g (j * B + k)) + (if j = d then e else 0) := rfl

/-- The first (j + 1) · B terms are the first j · B terms and then tile j's. -/
theorem sum_range_succ_tile (B : ℕ) (g : ℕ → M) (j : ℕ) :
    ∑ n ∈ range ((j + 1) * B), g n = (∑ n ∈ range (j * B), g n) + ∑ k : Fin B, g (j * B + k) := by
  rw [Nat.succ_mul, Finset.sum_range_add, Finset.sum_range fun x => g (j * B + x)]

/-- After j tiles the accumulator holds the first j · B terms, and the extra addend once tile d is behind. -/
theorem run_closed (B : ℕ) (g : ℕ → M) (e : M) (d j : ℕ) :
    run B g e d j = (∑ n ∈ range (j * B), g n) + (if d < j then e else 0) := by
  induction j with
  | zero => simp
  | succ j ih =>
    rw [run_succ, ih, sum_range_succ_tile]
    have h : (if d < j then e else 0) + (if j = d then e else 0) = if d < j + 1 then e else (0 : M) := by
      rcases lt_trichotomy d j with h | h | h
      · rw [if_pos h, if_neg (by omega), if_pos (by omega), add_zero]
      · rw [if_neg (by omega), if_pos h.symm, if_pos (by omega), zero_add]
      · rw [if_neg (by omega), if_neg (by omega), if_neg (by omega), add_zero]
    rw [← h]
    abel

/-- Up to the entry of tile d the accumulator holds the first j · B terms and nothing else. -/
theorem run_lt (B : ℕ) (g : ℕ → M) (e : M) {d j : ℕ} (hj : j ≤ d) :
    run B g e d j = ∑ n ∈ range (j * B), g n := by
  rw [run_closed, if_neg (by omega), add_zero]

/-- A sum over the first T · B terms of a sequence is the sum over the tiles of the sums within each tile. -/
theorem sum_tiles_range (B : ℕ) (g : ℕ → M) (T : ℕ) :
    ∑ j ∈ range T, ∑ k : Fin B, g (j * B + k) = ∑ n ∈ range (T * B), g n := by
  induction T with
  | zero => simp
  | succ T ih => rw [Finset.sum_range_succ, ih, sum_range_succ_tile]

/-- Up to the entry of tile d the accumulator holds the sums of the first j tiles and nothing else. -/
theorem run_lt_tiles (B : ℕ) (g : ℕ → M) (e : M) {d j : ℕ} (hj : j ≤ d) :
    run B g e d j = ∑ i : Fin j, ∑ k : Fin B, g (i * B + k) := by
  rw [run_lt B g e hj, ← sum_tiles_range, Finset.sum_range]

/-- After all T tiles, tile d among them, the accumulator holds the sum over all T · B places plus the extra addend. -/
theorem run_all (B : ℕ) (g : ℕ → M) (e : M) {d T : ℕ} (hd : d < T) :
    run B g e d T = (∑ n : Fin (T * B), g n) + e := by
  rw [run_closed, if_pos hd, Finset.sum_range]

/-- After all T tiles, tile d among them: tile by tile. -/
theorem run_all_tiles (B : ℕ) (g : ℕ → M) (e : M) {d T : ℕ} (hd : d < T) :
    run B g e d T = (∑ j : Fin T, ∑ k : Fin B, g (j * B + k)) + e := by
  rw [run_closed, if_pos hd, ← sum_tiles_range, Finset.sum_range]

/-- Place k of tile j is a place of the row. -/
theorem tile_lt {T B : ℕ} (j : Fin T) (k : Fin B) : j.val * B + k.val < T * B :=
  calc j.val * B + k.val < j.val * B + B := Nat.add_lt_add_left k.isLt _
    _ = (j.val + 1) * B := (Nat.succ_mul _ _).symm
    _ ≤ T * B := Nat.mul_le_mul_right B j.isLt

/-- A sum over the T · B places of a row is the sum over the tiles of the sums within each tile. -/
theorem sum_tiles {T B : ℕ} (G : Fin (T * B) → M) :
    (∑ j : Fin T, ∑ k : Fin B, G ⟨j.val * B + k.val, tile_lt j k⟩) = ∑ n, G n := by
  rw [← (finProdFinEquiv (m := T) (n := B)).sum_comp G, Fintype.sum_prod_type]
  refine Finset.sum_congr rfl fun j _ => Finset.sum_congr rfl fun k _ => congrArg G (Fin.ext ?_)
  show j.val * B + k.val = k.val + B * j.val
  rw [Nat.mul_comm, Nat.add_comm]

end Cert.Lib.TileAcc
-- ==== Proof.Val2.lean ====
/-
  The second aggregation kernel over the extended reals: its three results.

  With A the adjacency copy, S the pre-scaled features of the first layer and d the scaling column, the running sum
  after the point of row tile i and column tile j holds, at row r and feature f, the sum over the column tiles 0 … j
  of the tile's part of sum_k A_(i r, k) · S_(k, f), plus S_(i r, f) once the diagonal tile i has been passed (i ≤ j):
  by induction on the point, following the body's cases. At the last column tile that is the whole sum over the
  8192 = 4 · 2048 columns plus S_(i r, f) (a sum over 4 · 2048 places regrouped by tiles), and the three finishing
  payloads turn it into row tile i of the specification's two heads and of its sample. The four last-column points
  write back the four row tiles, which cover each result.
-/
import proofs.«169190_j76347338654297_2_alg».proof.Proof.Val2Pieces
import proofs.«169190_j76347338654297_2_alg».proof.Proof.Val2Pay
import proofs.«169190_j76347338654297_2_alg».proof.Proof.LibTileAcc
import proofs.«169190_j76347338654297_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

/-! ## The input blocks at an index -/

/-- Row (or column) r of tile i among the 8192 = 4 · 2048 rows; total in i (reduced modulo 8192, which changes
    nothing for the four tiles). -/
def tile2 (i : ℕ) (r : Fin 2048) : Fin 8192 := ⟨(2048 * i + r.val) % 8192, Nat.mod_lt _ (by decide)⟩

theorem tile2_val (i : ℕ) (hi : i < 4) (r : Fin 2048) : (tile2 i r).val = 2048 * i + r.val := by
  unfold tile2; have := r.isLt; show (2048 * i + r.val) % 8192 = _; omega

/-- The windows' block indices over the grid: point t is row tile t / 4, column tile t % 4. -/
theorem index2 : ∀ t : Fin grid2.N,
    (win2_0.index t 0 = t.val / 4 ∧ win2_0.index t 1 = t.val % 4)
    ∧ (win2_1.index t 0 = t.val % 4 ∧ win2_1.index t 1 = 0)
    ∧ (win2_2.index t 0 = t.val / 4 ∧ win2_2.index t 1 = 0)
    ∧ (win2_3.index t 0 = 0 ∧ win2_3.index t 1 = 0)
    ∧ (win2_4.index t 0 = 0 ∧ win2_4.index t 1 = 0)
    ∧ (win2_5.index t 0 = 0 ∧ win2_5.index t 1 = 0)
    ∧ (win2_6.index t 0 = 0 ∧ win2_6.index t 1 = 0)
    ∧ (win2_7.index t 0 = t.val / 4 ∧ win2_7.index t 1 = 0)
    ∧ (win2_8.index t 0 = t.val / 4 ∧ win2_8.index t 1 = 0)
    ∧ (win2_9.index t 0 = t.val / 4 ∧ win2_9.index t 1 = 0)
    ∧ (win2_10.index t 0 = t.val / 4 ∧ win2_10.index t 1 = 0) := by decide +kernel

/-! Each input block at an index is its array at the tile's row and column. -/

theorem blk2_0 (c : Dev nD) (t : Fin cfg2.N) (p : Fin 2048) (q : Fin 2048) :
    (iblk2 V c 0 t : Vec Ideal S2048x2048 .bf16) (ix2 p q) = (V c main_v0_1 : Cert.Spec.Mat 8192 8192) (ix2 (tile2 (t.val / 4) p) (tile2 (t.val % 4) q)) := by
  have hN : t.val < 16 := lt_of_lt_of_eq t.isLt (show cfg2.N = 16 from N_2)
  have hi := (index2 t).1
  unfold iblk2
  rw [View.read_apply]
  show (V c main_v0_1 : Cert.Spec.Mat 8192 8192) _ = _
  congr 1
  funext a
  apply Fin.ext
  match a with
  | ⟨0, _⟩ =>
    show win2_0.index t 0 * 2048 + 1 * p.val = _
    rw [hi.1]
    show _ = (tile2 _ p).val
    rw [tile2_val _ (by omega)]
    omega
  | ⟨1, _⟩ =>
    show win2_0.index t 1 * 2048 + 1 * q.val = _
    rw [hi.2]
    show _ = (tile2 _ q).val
    rw [tile2_val _ (by omega)]
    omega

theorem blk2_1 (c : Dev nD) (t : Fin cfg2.N) (p : Fin 2048) (q : Fin 128) :
    (iblk2 V c 1 t : Vec Ideal S2048x128 .f32) (ix2 p q) = (V c main_v4 : Cert.Spec.Mat 8192 128) (ix2 (tile2 (t.val % 4) p) q) := by
  have hN : t.val < 16 := lt_of_lt_of_eq t.isLt (show cfg2.N = 16 from N_2)
  have hi := (index2 t).2.1
  unfold iblk2
  rw [View.read_apply]
  show (V c main_v4 : Cert.Spec.Mat 8192 128) _ = _
  congr 1
  funext a
  apply Fin.ext
  match a with
  | ⟨0, _⟩ =>
    show win2_1.index t 0 * 2048 + 1 * p.val = _
    rw [hi.1]
    show _ = (tile2 _ p).val
    rw [tile2_val _ (by omega)]
    omega
  | ⟨1, _⟩ =>
    show win2_1.index t 1 * 128 + 1 * q.val = _
    rw [hi.2]
    show _ = q.val
    omega

theorem blk2_2 (c : Dev nD) (t : Fin cfg2.N) (p : Fin 2048) (q : Fin 1) :
    (iblk2 V c 2 t : Vec Ideal S2048x1 .f32) (ix2 p q) = (V c main_v0_0 : Cert.Spec.Mat 8192 1) (ix2 (tile2 (t.val / 4) p) q) := by
  have hN : t.val < 16 := lt_of_lt_of_eq t.isLt (show cfg2.N = 16 from N_2)
  have hi := (index2 t).2.2.1
  unfold iblk2
  rw [View.read_apply]
  show (V c main_v0_0 : Cert.Spec.Mat 8192 1) _ = _
  congr 1
  funext a
  apply Fin.ext
  match a with
  | ⟨0, _⟩ =>
    show win2_2.index t 0 * 2048 + 1 * p.val = _
    rw [hi.1]
    show _ = (tile2 _ p).val
    rw [tile2_val _ (by omega)]
    omega
  | ⟨1, _⟩ =>
    show win2_2.index t 1 * 1 + 1 * q.val = _
    rw [hi.2]
    show _ = q.val
    omega

theorem blk2_3 (c : Dev nD) (t : Fin cfg2.N) (p : Fin 128) (q : Fin 32) :
    (iblk2 V c 3 t : Vec Ideal S128x32 .f32) (ix2 p q) = (V c main_arg5 : Cert.Spec.Mat 128 32) (ix2 p q) := by
  have hN : t.val < 16 := lt_of_lt_of_eq t.isLt (show cfg2.N = 16 from N_2)
  have hi := (index2 t).2.2.2.1
  unfold iblk2
  rw [View.read_apply]
  show (V c main_arg5 : Cert.Spec.Mat 128 32) _ = _
  congr 1
  funext a
  apply Fin.ext
  match a with
  | ⟨0, _⟩ =>
    show win2_3.index t 0 * 128 + 1 * p.val = _
    rw [hi.1]
    show _ = p.val
    omega
  | ⟨1, _⟩ =>
    show win2_3.index t 1 * 32 + 1 * q.val = _
    rw [hi.2]
    show _ = q.val
    omega

theorem blk2_4 (c : Dev nD) (t : Fin cfg2.N) (p : Fin 1) (q : Fin 32) :
    (iblk2 V c 4 t : Vec Ideal S1x32 .f32) (ix2 p q) = (V c main_v5 : Cert.Spec.Mat 1 32) (ix2 p q) := by
  have hN : t.val < 16 := lt_of_lt_of_eq t.isLt (show cfg2.N = 16 from N_2)
  have hi := (index2 t).2.2.2.2.1
  unfold iblk2
  rw [View.read_apply]
  show (V c main_v5 : Cert.Spec.Mat 1 32) _ = _
  congr 1
  funext a
  apply Fin.ext
  match a with
  | ⟨0, _⟩ =>
    show win2_4.index t 0 * 1 + 1 * p.val = _
    rw [hi.1]
    show _ = p.val
    omega
  | ⟨1, _⟩ =>
    show win2_4.index t 1 * 32 + 1 * q.val = _
    rw [hi.2]
    show _ = q.val
    omega

theorem blk2_5 (c : Dev nD) (t : Fin cfg2.N) (p : Fin 128) (q : Fin 32) :
    (iblk2 V c 5 t : Vec Ideal S128x32 .f32) (ix2 p q) = (V c main_arg7 : Cert.Spec.Mat 128 32) (ix2 p q) := by
  have hN : t.val < 16 := lt_of_lt_of_eq t.isLt (show cfg2.N = 16 from N_2)
  have hi := (index2 t).2.2.2.2.2.1
  unfold iblk2
  rw [View.read_apply]
  show (V c main_arg7 : Cert.Spec.Mat 128 32) _ = _
  congr 1
  funext a
  apply Fin.ext
  match a with
  | ⟨0, _⟩ =>
    show win2_5.index t 0 * 128 + 1 * p.val = _
    rw [hi.1]
    show _ = p.val
    omega
  | ⟨1, _⟩ =>
    show win2_5.index t 1 * 32 + 1 * q.val = _
    rw [hi.2]
    show _ = q.val
    omega

theorem blk2_6 (c : Dev nD) (t : Fin cfg2.N) (p : Fin 1) (q : Fin 32) :
    (iblk2 V c 6 t : Vec Ideal S1x32 .f32) (ix2 p q) = (V c main_v6 : Cert.Spec.Mat 1 32) (ix2 p q) := by
  have hN : t.val < 16 := lt_of_lt_of_eq t.isLt (show cfg2.N = 16 from N_2)
  have hi := (index2 t).2.2.2.2.2.2.1
  unfold iblk2
  rw [View.read_apply]
  show (V c main_v6 : Cert.Spec.Mat 1 32) _ = _
  congr 1
  funext a
  apply Fin.ext
  match a with
  | ⟨0, _⟩ =>
    show win2_6.index t 0 * 1 + 1 * p.val = _
    rw [hi.1]
    show _ = p.val
    omega
  | ⟨1, _⟩ =>
    show win2_6.index t 1 * 32 + 1 * q.val = _
    rw [hi.2]
    show _ = q.val
    omega

theorem blk2_7 (c : Dev nD) (t : Fin cfg2.N) (p : Fin 2048) (q : Fin 32) :
    (iblk2 V c 7 t : Vec Ideal S2048x32 .f32) (ix2 p q) = (V c main_arg2 : Cert.Spec.Mat 8192 32) (ix2 (tile2 (t.val / 4) p) q) := by
  have hN : t.val < 16 := lt_of_lt_of_eq t.isLt (show cfg2.N = 16 from N_2)
  have hi := (index2 t).2.2.2.2.2.2.2.1
  unfold iblk2
  rw [View.read_apply]
  show (V c main_arg2 : Cert.Spec.Mat 8192 32) _ = _
  congr 1
  funext a
  apply Fin.ext
  match a with
  | ⟨0, _⟩ =>
    show win2_7.index t 0 * 2048 + 1 * p.val = _
    rw [hi.1]
    show _ = (tile2 _ p).val
    rw [tile2_val _ (by omega)]
    omega
  | ⟨1, _⟩ =>
    show win2_7.index t 1 * 32 + 1 * q.val = _
    rw [hi.2]
    show _ = q.val
    omega

/-- A matrix of the result's shape read through output window 8's block at point t: its rows of row tile t / 4. -/
theorem rd2_8 (G : Cert.Spec.Mat 8192 32) (t : Fin cfg2.N) (p : Fin 2048) (q : Fin 32) :
    ((((cfg2.win 8).blk t).view.read (Elt Ideal) G) : Vec Ideal S2048x32 .f32) (ix2 p q) = G (ix2 (tile2 (t.val / 4) p) q) := by
  have hN : t.val < 16 := lt_of_lt_of_eq t.isLt (show cfg2.N = 16 from N_2)
  have hi := (index2 t).2.2.2.2.2.2.2.2.1
  rw [View.read_apply]
  show G _ = _
  congr 1
  funext a
  apply Fin.ext
  match a with
  | ⟨0, _⟩ =>
    show win2_8.index t 0 * 2048 + 1 * p.val = _
    rw [hi.1]
    show _ = (tile2 _ p).val
    rw [tile2_val _ (by omega)]
    omega
  | ⟨1, _⟩ =>
    show win2_8.index t 1 * 32 + 1 * q.val = _
    rw [hi.2]
    show _ = q.val
    omega

/-- A matrix of the result's shape read through output window 9's block at point t: its rows of row tile t / 4. -/
theorem rd2_9 (G : Cert.Spec.Mat 8192 32) (t : Fin cfg2.N) (p : Fin 2048) (q : Fin 32) :
    ((((cfg2.win 9).blk t).view.read (Elt Ideal) G) : Vec Ideal S2048x32 .f32) (ix2 p q) = G (ix2 (tile2 (t.val / 4) p) q) := by
  have hN : t.val < 16 := lt_of_lt_of_eq t.isLt (show cfg2.N = 16 from N_2)
  have hi := (index2 t).2.2.2.2.2.2.2.2.2.1
  rw [View.read_apply]
  show G _ = _
  congr 1
  funext a
  apply Fin.ext
  match a with
  | ⟨0, _⟩ =>
    show win2_9.index t 0 * 2048 + 1 * p.val = _
    rw [hi.1]
    show _ = (tile2 _ p).val
    rw [tile2_val _ (by omega)]
    omega
  | ⟨1, _⟩ =>
    show win2_9.index t 1 * 32 + 1 * q.val = _
    rw [hi.2]
    show _ = q.val
    omega

/-- A matrix of the result's shape read through output window 10's block at point t: its rows of row tile t / 4. -/
theorem rd2_10 (G : Cert.Spec.Mat 8192 32) (t : Fin cfg2.N) (p : Fin 2048) (q : Fin 32) :
    ((((cfg2.win 10).blk t).view.read (Elt Ideal) G) : Vec Ideal S2048x32 .f32) (ix2 p q) = G (ix2 (tile2 (t.val / 4) p) q) := by
  have hN : t.val < 16 := lt_of_lt_of_eq t.isLt (show cfg2.N = 16 from N_2)
  have hi := (index2 t).2.2.2.2.2.2.2.2.2.2
  rw [View.read_apply]
  show G _ = _
  congr 1
  funext a
  apply Fin.ext
  match a with
  | ⟨0, _⟩ =>
    show win2_10.index t 0 * 2048 + 1 * p.val = _
    rw [hi.1]
    show _ = (tile2 _ p).val
    rw [tile2_val _ (by omega)]
    omega
  | ⟨1, _⟩ =>
    show win2_10.index t 1 * 32 + 1 * q.val = _
    rw [hi.2]
    show _ = q.val
    omega

/-! ## The running sum -/

/-- The adjacency copy and the pre-scaled features found on entry, as matrices. -/
abbrev ADJ2 (c : Dev nD) : Cert.Spec.Mat 8192 8192 := V c main_v0_1
abbrev HS2 (c : Dev nD) : Cert.Spec.Mat 8192 128 := V c main_v4

/-- Column tile j's part of the aggregate at row p of row tile i and feature q. -/
def T2 (c : Dev nD) (i j : ℕ) (p : Fin 2048) (q : Fin 128) : EReal :=
  ∑ k : Fin 2048, ADJ2 V c (ix2 (tile2 i p) (tile2 j k)) * HS2 V c (ix2 (tile2 j k) q)

/-- The self-loop's addend: the pre-scaled feature at the row itself. -/
def Xd2 (c : Dev nD) (i : ℕ) (p : Fin 2048) (q : Fin 128) : EReal := HS2 V c (ix2 (tile2 i p) q)

/-- The accumulation payload on the point's blocks adds the point's tile part. -/
theorem step2_2 (c : Dev nD) (t : Fin cfg2.N) (s : Vec Ideal S2048x128 .f32) (p : Fin 2048) (q : Fin 128) :
    k2_pay2 (iblk2 V c 1 t) s (iblk2 V c 0 t) (ix2 p q) = s (ix2 p q) + T2 V c (t.val / 4) (t.val % 4) p q := by
  refine (k2_pay2_apply _ _ _ p q).trans ?_
  congr 1
  exact Finset.sum_congr rfl fun k _ => by rw [blk2_0, blk2_1]

/-- The diagonal payload on the point's blocks adds the feature at the row of the column tile. -/
theorem step2_3 (c : Dev nD) (t : Fin cfg2.N) (s : Vec Ideal S2048x128 .f32) (p : Fin 2048) (q : Fin 128) :
    k2_pay3 s (iblk2 V c 1 t) (ix2 p q) = s (ix2 p q) + Xd2 V c (t.val % 4) p q := by
  refine (k2_pay3_apply _ _ _).trans ?_
  rw [blk2_1]; rfl

/-- THE RUNNING SUM after point n: the parts of the column tiles 0 … n % 4, plus the self-loop's addend once the
    diagonal tile has been passed. -/
theorem inv2 (c : Dev nD) : ∀ (n : ℕ) (hn : n < cfg2.N) (p : Fin 2048) (q : Fin 128),
    (outsAt2 V c n hn).2.2.2 (ix2 p q)
      = (∑ j ∈ Finset.range (n % 4 + 1), T2 V c (n / 4) j p q) + (if n / 4 ≤ n % 4 then Xd2 V c (n / 4) p q else 0) := by
  intro n
  induction n with
  | zero =>
    intro hn p q
    rw [show (outsAt2 V c 0 hn).2.2.2 = _ from acc2_first V c ⟨0, hn⟩ (Nat.zero_mod 4)]
    rw [if_pos (show (0 : ℕ) / 4 = 0 % 4 from rfl), step2_3, step2_2, k2_pay1_apply]
    simp only [Nat.zero_mod, Nat.zero_div, zero_add, Finset.sum_range_one, le_refl, if_true]
  | succ n ih =>
    intro hn p q
    have hN : n + 1 < 16 := lt_of_lt_of_eq hn (show cfg2.N = 16 from N_2)
    have key : ∀ h, (outsAt2 V c (n + 1 - 1) h).2.2.2 (ix2 p q)
        = (∑ j ∈ Finset.range (n % 4 + 1), T2 V c (n / 4) j p q) + (if n / 4 ≤ n % 4 then Xd2 V c (n / 4) p q else 0) :=
      fun h => ih h p q
    by_cases h0 : (n + 1) % 4 = 0
    · rw [show (outsAt2 V c (n + 1) hn).2.2.2 = _ from acc2_first V c ⟨n + 1, hn⟩ h0]
      have h1 : ¬ (n + 1) / 4 = (n + 1) % 4 := by omega
      rw [if_neg h1, step2_2, k2_pay1_apply]
      have hi : ¬ (n + 1) / 4 ≤ 0 := by omega
      dsimp only
      rw [h0, Nat.zero_add, Finset.sum_range_one, if_neg hi, zero_add, add_zero]
    · have e1 : (n + 1) % 4 = n % 4 + 1 := by omega
      have e2 : (n + 1) / 4 = n / 4 := by omega
      rw [show (outsAt2 V c (n + 1) hn).2.2.2 = _ from acc2_next V c ⟨n + 1, hn⟩ h0]
      by_cases h1 : (n + 1) / 4 = (n + 1) % 4
      · have hd : n / 4 = n % 4 + 1 := by omega
        have hlt : ¬ n / 4 ≤ n % 4 := by omega
        rw [if_pos h1, step2_3, step2_2]
        dsimp only
        rw [key, if_neg hlt, add_zero, e1, e2, Finset.sum_range_succ _ (n % 4 + 1), if_pos (le_of_eq hd), ← hd]
      · have fin : ((∑ j ∈ Finset.range (n % 4 + 1), T2 V c (n / 4) j p q) + (if n / 4 ≤ n % 4 then Xd2 V c (n / 4) p q else 0))
              + T2 V c (n / 4) (n % 4 + 1) p q
            = (∑ j ∈ Finset.range (n % 4 + 1 + 1), T2 V c (n / 4) j p q) + (if n / 4 ≤ n % 4 + 1 then Xd2 V c (n / 4) p q else 0) := by
          rw [Finset.sum_range_succ _ (n % 4 + 1)]
          by_cases hle : n / 4 ≤ n % 4
          · rw [if_pos hle, if_pos (by omega), add_right_comm]
          · rw [if_neg hle, if_neg (by omega), add_zero, add_zero]
        rw [if_neg h1, step2_2]
        dsimp only
        rw [key, e1, e2]
        exact fin

/-- The four column tiles' parts are the whole sum over the 8192 columns. -/
theorem sum_T2 (c : Dev nD) (i : ℕ) (p : Fin 2048) (f : Fin 128) :
    ∑ j ∈ Finset.range 4, T2 V c i j p f
      = ∑ j : Fin 8192, ADJ2 V c (ix2 (tile2 i p) j) * HS2 V c (ix2 j f) := by
  have h := Cert.Lib.TileAcc.sum_tiles (T := 4) (B := 2048)
    (fun j : Fin (4 * 2048) => (ADJ2 V c (ix2 (tile2 i p) j) * HS2 V c (ix2 j f) : EReal))
  refine Eq.trans ?_ h
  rw [← Fin.sum_univ_eq_sum_range (fun j => T2 V c i j p f) 4]
  refine Finset.sum_congr rfl fun t _ => ?_
  unfold T2
  refine Finset.sum_congr rfl fun k _ => ?_
  have e : (⟨t.val * 2048 + k.val, Cert.Lib.TileAcc.tile_lt t k⟩ : Fin (4 * 2048)) = tile2 t.val k := Fin.ext (by
    show t.val * 2048 + k.val = (2048 * t.val + k.val) % 8192
    have := t.isLt; have := k.isLt; omega)
  rw [e]

/-- After the last column tile the running sum is the whole aggregate before scaling: the sum over all 8192
    columns plus the node's own row. -/
theorem acc2_last (c : Dev nD) (t : Fin cfg2.N) (h2 : t.val % 4 = 3) (p : Fin 2048) (k : Fin 128) :
    (outsAt2 V c t.val t.isLt).2.2.2 (ix2 p k)
      = (∑ j : Fin 8192, ADJ2 V c (ix2 (tile2 (t.val / 4) p) j) * HS2 V c (ix2 j k)) + HS2 V c (ix2 (tile2 (t.val / 4) p) k) := by
  have hN : t.val < 16 := lt_of_lt_of_eq t.isLt (show cfg2.N = 16 from N_2)
  rw [inv2 V c t.val t.isLt, h2, if_pos (show t.val / 4 ≤ 3 by omega), sum_T2]
  rfl

/-! ## The three results -/

/-- The two heads and the sample of the specification, on the arrays found on entry. -/
abbrev MU2 (c : Dev nD) : Cert.Spec.Mat 8192 32 :=
  Cert.Spec.head (V c main_v0_1) (V c main_v4) (V c main_v0_0) (V c main_arg5) (V c main_v5)
abbrev LV2 (c : Dev nD) : Cert.Spec.Mat 8192 32 :=
  Cert.Spec.head (V c main_v0_1) (V c main_v4) (V c main_v0_0) (V c main_arg7) (V c main_v6)
abbrev Z2 (c : Dev nD) : Cert.Spec.Mat 8192 32 := Cert.Spec.latent (MU2 V c) (LV2 V c) (V c main_arg2)

/-- At a last-column point the first head's payload of the completed running sum is row tile t / 4 of the
    specification's first head. -/
theorem k2_pay5_at (c : Dev nD) (t : Fin cfg2.N) (h2 : t.val % 4 = 3) (p : Fin 2048) (q : Fin 32) :
    k2_pay5 (iblk2 V c 2 t) (outsAt2 V c t.val t.isLt).2.2.2 (iblk2 V c 3 t) (iblk2 V c 4 t) (ix2 p q)
      = MU2 V c (ix2 (tile2 (t.val / 4) p) q) := by
  refine (k2_pay5_apply _ _ _ _ p q).trans ?_
  simp only [blk2_2, blk2_3, blk2_4, acc2_last V c t h2]
  rfl

/-- The same for the second head. -/
theorem k2_pay6_at (c : Dev nD) (t : Fin cfg2.N) (h2 : t.val % 4 = 3) (p : Fin 2048) (q : Fin 32) :
    k2_pay6 (iblk2 V c 2 t) (outsAt2 V c t.val t.isLt).2.2.2 (iblk2 V c 5 t) (iblk2 V c 6 t) (ix2 p q)
      = LV2 V c (ix2 (tile2 (t.val / 4) p) q) := by
  refine (k2_pay6_apply _ _ _ _ p q).trans ?_
  simp only [blk2_2, blk2_5, blk2_6, acc2_last V c t h2]
  rfl

theorem out2_8_at (c : Dev nD) (t : Fin cfg2.N) (h2 : t.val % 4 = 3) (p : Fin 2048) (q : Fin 32) :
    (outsAt2 V c t.val t.isLt).1 (ix2 p q) = MU2 V c (ix2 (tile2 (t.val / 4) p) q) := by
  rw [out2_8_last V c t h2]; exact k2_pay5_at V c t h2 p q

theorem out2_9_at (c : Dev nD) (t : Fin cfg2.N) (h2 : t.val % 4 = 3) (p : Fin 2048) (q : Fin 32) :
    (outsAt2 V c t.val t.isLt).2.1 (ix2 p q) = LV2 V c (ix2 (tile2 (t.val / 4) p) q) := by
  rw [out2_9_last V c t h2]; exact k2_pay6_at V c t h2 p q

theorem out2_10_at (c : Dev nD) (t : Fin cfg2.N) (h2 : t.val % 4 = 3) (p : Fin 2048) (q : Fin 32) :
    (outsAt2 V c t.val t.isLt).2.2.1 (ix2 p q) = Z2 V c (ix2 (tile2 (t.val / 4) p) q) := by
  rw [out2_10_last V c t h2]
  refine (k2_pay7_apply _ _ _ _ _ _ _ _).trans ?_
  rw [k2_pay5_at V c t h2, k2_pay6_at V c t h2, blk2_7]
  rfl

/-! ## From the tiles to the arrays -/

/-- Each write-back of output window 8 writes its row tile of the specification's result. -/
theorem flushed2_8_eq (c : Dev nD) (t : Fin cfg2.N) (hf : (cfg2.win 8).flush t = true) :
    (dat2 V c).flushed 8 t = ((cfg2.win 8).blk t).view.read (Elt Ideal) (MU2 V c) := by
  have h2 : t.val % 4 = 3 := (flush2_8 t).mp hf
  have e : (dat2 V c).flushed 8 t = (outsAt2 V c t.val t.isLt).1 := by
    show (cfg2.win 8).cut (grid2.coords t) ((dat2 V c).after 8 t) = _
    rw [after2_8]; rfl
  rw [e]
  funext x
  obtain ⟨p, q, rfl⟩ : ∃ (p : Fin 2048) (q : Fin 32), x = ix2 p q := ⟨x 0, x 1, eq_ix2 x⟩
  rw [rd2_8, out2_8_at V c t h2]

/-- Each write-back of output window 9 writes its row tile of the specification's result. -/
theorem flushed2_9_eq (c : Dev nD) (t : Fin cfg2.N) (hf : (cfg2.win 9).flush t = true) :
    (dat2 V c).flushed 9 t = ((cfg2.win 9).blk t).view.read (Elt Ideal) (LV2 V c) := by
  have h2 : t.val % 4 = 3 := (flush2_9 t).mp hf
  have e : (dat2 V c).flushed 9 t = (outsAt2 V c t.val t.isLt).2.1 := by
    show (cfg2.win 9).cut (grid2.coords t) ((dat2 V c).after 9 t) = _
    rw [after2_9]; rfl
  rw [e]
  funext x
  obtain ⟨p, q, rfl⟩ : ∃ (p : Fin 2048) (q : Fin 32), x = ix2 p q := ⟨x 0, x 1, eq_ix2 x⟩
  rw [rd2_9, out2_9_at V c t h2]

/-- Each write-back of output window 10 writes its row tile of the specification's result. -/
theorem flushed2_10_eq (c : Dev nD) (t : Fin cfg2.N) (hf : (cfg2.win 10).flush t = true) :
    (dat2 V c).flushed 10 t = ((cfg2.win 10).blk t).view.read (Elt Ideal) (Z2 V c) := by
  have h2 : t.val % 4 = 3 := (flush2_10 t).mp hf
  have e : (dat2 V c).flushed 10 t = (outsAt2 V c t.val t.isLt).2.2.1 := by
    show (cfg2.win 10).cut (grid2.coords t) ((dat2 V c).after 10 t) = _
    rw [after2_10]; rfl
  rw [e]
  funext x
  obtain ⟨p, q, rfl⟩ : ∃ (p : Fin 2048) (q : Fin 32), x = ix2 p q := ⟨x 0, x 1, eq_ix2 x⟩
  rw [rd2_10, out2_10_at V c t h2]

/-- The output windows' blocks have their full extent at every point. -/
theorem xsize2 : ∀ t : Fin grid2.N,
    (win2_8.xsize (grid2.coords t) 0 = 2048 ∧ win2_8.xsize (grid2.coords t) 1 = 32)
    ∧ (win2_9.xsize (grid2.coords t) 0 = 2048 ∧ win2_9.xsize (grid2.coords t) 1 = 32)
    ∧ (win2_10.xsize (grid2.coords t) 0 = 2048 ∧ win2_10.xsize (grid2.coords t) 1 = 32) := by decide +kernel

/-- The four last-column points' tiles of output window 8 cover its array: row r is in the tile of row tile r / 2048. -/
theorem cover2_8 (i : S8192x32.Idx) :
    ∃ t : Fin cfg2.N, (cfg2.win 8).flush t = true ∧ i ∈ ((cfg2.win 8).blk t).view.set := by
  have hr : (i 0).val < 8192 := (i 0).isLt
  have hq : (i 1).val < 32 := (i 1).isLt
  have htN : 4 * ((i 0).val / 2048) + 3 < cfg2.N := by rw [show cfg2.N = 16 from N_2]; omega
  let t : Fin cfg2.N := ⟨4 * ((i 0).val / 2048) + 3, htN⟩
  refine ⟨t, (flush2_8 t).mpr (by show (4 * ((i 0).val / 2048) + 3) % 4 = 3; omega), ?_⟩
  show i ∈ ((View.whole main_v7_0).slice (win2_8.rect t)).set
  rw [View.set_slice_whole, Rect.mem_set_unit]
  intro a
  have hi := (index2 t).2.2.2.2.2.2.2.2.1
  have hx := (xsize2 t).1
  match a with
  | ⟨0, _⟩ =>
    show win2_8.index t 0 * win2_8.size 0 ≤ (i 0 : Nat) ∧ (i 0 : Nat) < win2_8.index t 0 * win2_8.size 0 + win2_8.xsize (grid2.coords t) 0
    rw [hi.1, hx.1]
    show (4 * ((i 0).val / 2048) + 3) / 4 * 2048 ≤ (i 0).val ∧ (i 0).val < (4 * ((i 0).val / 2048) + 3) / 4 * 2048 + 2048
    omega
  | ⟨1, _⟩ =>
    show win2_8.index t 1 * win2_8.size 1 ≤ (i 1 : Nat) ∧ (i 1 : Nat) < win2_8.index t 1 * win2_8.size 1 + win2_8.xsize (grid2.coords t) 1
    rw [hi.2, hx.2]
    show 0 * 32 ≤ (i 1).val ∧ (i 1).val < 0 * 32 + 32
    omega

/-- The four last-column points' tiles of output window 9 cover its array: row r is in the tile of row tile r / 2048. -/
theorem cover2_9 (i : S8192x32.Idx) :
    ∃ t : Fin cfg2.N, (cfg2.win 9).flush t = true ∧ i ∈ ((cfg2.win 9).blk t).view.set := by
  have hr : (i 0).val < 8192 := (i 0).isLt
  have hq : (i 1).val < 32 := (i 1).isLt
  have htN : 4 * ((i 0).val / 2048) + 3 < cfg2.N := by rw [show cfg2.N = 16 from N_2]; omega
  let t : Fin cfg2.N := ⟨4 * ((i 0).val / 2048) + 3, htN⟩
  refine ⟨t, (flush2_9 t).mpr (by show (4 * ((i 0).val / 2048) + 3) % 4 = 3; omega), ?_⟩
  show i ∈ ((View.whole main_v7_1).slice (win2_9.rect t)).set
  rw [View.set_slice_whole, Rect.mem_set_unit]
  intro a
  have hi := (index2 t).2.2.2.2.2.2.2.2.2.1
  have hx := (xsize2 t).2.1
  match a with
  | ⟨0, _⟩ =>
    show win2_9.index t 0 * win2_9.size 0 ≤ (i 0 : Nat) ∧ (i 0 : Nat) < win2_9.index t 0 * win2_9.size 0 + win2_9.xsize (grid2.coords t) 0
    rw [hi.1, hx.1]
    show (4 * ((i 0).val / 2048) + 3) / 4 * 2048 ≤ (i 0).val ∧ (i 0).val < (4 * ((i 0).val / 2048) + 3) / 4 * 2048 + 2048
    omega
  | ⟨1, _⟩ =>
    show win2_9.index t 1 * win2_9.size 1 ≤ (i 1 : Nat) ∧ (i 1 : Nat) < win2_9.index t 1 * win2_9.size 1 + win2_9.xsize (grid2.coords t) 1
    rw [hi.2, hx.2]
    show 0 * 32 ≤ (i 1).val ∧ (i 1).val < 0 * 32 + 32
    omega

/-- The four last-column points' tiles of output window 10 cover its array: row r is in the tile of row tile r / 2048. -/
theorem cover2_10 (i : S8192x32.Idx) :
    ∃ t : Fin cfg2.N, (cfg2.win 10).flush t = true ∧ i ∈ ((cfg2.win 10).blk t).view.set := by
  have hr : (i 0).val < 8192 := (i 0).isLt
  have hq : (i 1).val < 32 := (i 1).isLt
  have htN : 4 * ((i 0).val / 2048) + 3 < cfg2.N := by rw [show cfg2.N = 16 from N_2]; omega
  let t : Fin cfg2.N := ⟨4 * ((i 0).val / 2048) + 3, htN⟩
  refine ⟨t, (flush2_10 t).mpr (by show (4 * ((i 0).val / 2048) + 3) % 4 = 3; omega), ?_⟩
  show i ∈ ((View.whole main_v7_2).slice (win2_10.rect t)).set
  rw [View.set_slice_whole, Rect.mem_set_unit]
  intro a
  have hi := (index2 t).2.2.2.2.2.2.2.2.2.2
  have hx := (xsize2 t).2.2
  match a with
  | ⟨0, _⟩ =>
    show win2_10.index t 0 * win2_10.size 0 ≤ (i 0 : Nat) ∧ (i 0 : Nat) < win2_10.index t 0 * win2_10.size 0 + win2_10.xsize (grid2.coords t) 0
    rw [hi.1, hx.1]
    show (4 * ((i 0).val / 2048) + 3) / 4 * 2048 ≤ (i 0).val ∧ (i 0).val < (4 * ((i 0).val / 2048) + 3) / 4 * 2048 + 2048
    omega
  | ⟨1, _⟩ =>
    show win2_10.index t 1 * win2_10.size 1 ≤ (i 1 : Nat) ∧ (i 1 : Nat) < win2_10.index t 1 * win2_10.size 1 + win2_10.xsize (grid2.coords t) 1
    rw [hi.2, hx.2]
    show 0 * 32 ≤ (i 1).val ∧ (i 1).val < 0 * 32 + 32
    omega

/-- THE FIRST HEAD: after the region its array holds the specification's first head of the arrays found on entry. -/
theorem final2_8 (c : Dev nD) : ((dat2 (F := Ideal) V c).arrAt 8 cfg2.N : S8192x32.Idx → EReal)
      = Cert.Spec.head (V c main_v0_1) (V c main_v4) (V c main_v0_0) (V c main_arg5) (V c main_v5) :=
  (dat2 V c).arrAt_eq_of_cover 8 (MU2 V c) (flushed2_8_eq V c) cover2_8

/-- THE SECOND HEAD. -/
theorem final2_9 (c : Dev nD) : ((dat2 (F := Ideal) V c).arrAt 9 cfg2.N : S8192x32.Idx → EReal)
      = Cert.Spec.head (V c main_v0_1) (V c main_v4) (V c main_v0_0) (V c main_arg7) (V c main_v6) :=
  (dat2 V c).arrAt_eq_of_cover 9 (LV2 V c) (flushed2_9_eq V c) cover2_9

/-- THE SAMPLE: the first head plus the noise times the exponential of half the second. -/
theorem final2_10 (c : Dev nD) : ((dat2 (F := Ideal) V c).arrAt 10 cfg2.N : S8192x32.Idx → EReal)
      = Cert.Spec.latent (Cert.Spec.head (V c main_v0_1) (V c main_v4) (V c main_v0_0) (V c main_arg5) (V c main_v5))
          (Cert.Spec.head (V c main_v0_1) (V c main_v4) (V c main_v0_0) (V c main_arg7) (V c main_v6)) (V c main_arg2) :=
  (dat2 V c).arrAt_eq_of_cover 10 (Z2 V c) (flushed2_10_eq V c) cover2_10

end Cert.KernelIdeal.Val

end
-- ==== Proof.Val3.lean ====
/-
  The decoder region's result, index by index on the extended reals.

  At point (i, j) of its 8 x 8 grid the region writes the (i, j) tile of the result: the logistic of the product of
  row tile i of the latent array by the transpose of row tile j. Read at an index, the product is the sum over the 32
  latent coordinates of the products of two rows' entries; a tile's row r is row i · 1024 + r of the array; and the
  64 tiles cover the result. So after the region the result array is the logistic of the Gram matrix of the latent
  array as the region found it.
-/
import proofs.«169190_j76347338654297_2_alg».proof.Proof.KI_R3
import proofs.«169190_j76347338654297_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the TensorCore's buffer contents when the region is entered, at the ideal values
variable (V : (c : Dev nD) → (b : Ref sig .tc) → Buf (Elt Ideal) ((c : Thread nD τ).loc b))

/-- The zero offsets of a whole-tile access. -/
theorem zeros3 : (![0, 0] : Fin 2 → Nat) = fun _ => 0 := funext fun a => by fin_cases a <;> rfl

/-- The payload at an index: the logistic of the inner product of row a of the first tile and row b of the second
    (the product contracts the SECOND axis of both operands; the narrowing casts are the identity at the ideal values). -/
theorem k3_pay1_apply (x0 : Vec Ideal S1024x32 .f32) (x1 : Vec Ideal S1024x32 .f32) (a b : Fin 1024) :
    k3_pay1 x0 x1 (ix2 a b) = Ideal.logistic (∑ z : Fin 32, x0 (ix2 a z) * x1 (ix2 b z)) := by
  unfold k3_pay1
  simp only [shapeCast_self]
  show Ideal.logistic (FloatOps.matmul (F := Ideal) (φ₁ := .bf16) (φ₂ := .bf16) dot_S1024x32_S1024x32_S1024x1024_1_1_0_0_n_n none _ _ (constant (F := Ideal) S1024x1024 .f32 0x00000000#32) (ix2 a b)) = _
  rw [Ideal.matmul_constant_zero_apply,
    ← Equiv.sum_comp (contrEquiv1 dot_S1024x32_S1024x32_S1024x1024_1_1_0_0_n_n 32 rfl rfl).symm]
  congr 1
  refine Finset.sum_congr rfl fun z _ => ?_
  have cz := contrEquiv1_symm_val dot_S1024x32_S1024x32_S1024x1024_1_1_0_0_n_n 32 rfl rfl z
  have hl : dot_S1024x32_S1024x32_S1024x1024_1_1_0_0_n_n.lhsIdx (ix2 a b) ((contrEquiv1 _ 32 rfl rfl).symm z) = ix2 a z := by
    funext ax; apply Fin.ext
    match ax with
    | ⟨0, _⟩ => simp [DotDims.lhsIdx, dot_S1024x32_S1024x32_S1024x1024_1_1_0_0_n_n]; rfl
    | ⟨1, _⟩ => simp [DotDims.lhsIdx, dot_S1024x32_S1024x32_S1024x1024_1_1_0_0_n_n]; exact cz
  have hr : dot_S1024x32_S1024x32_S1024x1024_1_1_0_0_n_n.rhsIdx (ix2 a b) ((contrEquiv1 _ 32 rfl rfl).symm z) = ix2 b z := by
    funext ax; apply Fin.ext
    match ax with
    | ⟨0, _⟩ => simp [DotDims.rhsIdx, dot_S1024x32_S1024x32_S1024x1024_1_1_0_0_n_n]; rfl
    | ⟨1, _⟩ => simp [DotDims.rhsIdx, dot_S1024x32_S1024x32_S1024x1024_1_1_0_0_n_n]; exact cz
  rw [hl, hr]
  rfl

/-- The printed index maps, decided over the grid: at point (i, j) the first window is on row tile i, the second on
    row tile j, the result window on tile (i, j). -/
theorem idx_facts3 : ∀ t : Fin cfg3.N, win3_0.index t (0 : Fin 2) = win3_2.index t (0 : Fin 2)
    ∧ win3_0.index t (1 : Fin 2) = 0
    ∧ win3_1.index t (0 : Fin 2) = win3_2.index t (1 : Fin 2)
    ∧ win3_1.index t (1 : Fin 2) = 0
    ∧ win3_2.index t (0 : Fin 2) ≤ 7 ∧ win3_2.index t (1 : Fin 2) ≤ 7 :=
  (by decide +kernel : ∀ t : Fin grid3.N, _)

/-- Every tile of the result is some point's. -/
theorem idx_onto3 : ∀ (q0 : Fin 8) (q1 : Fin 8), ∃ t : Fin cfg3.N, win3_2.index t = ![q0.val, q1.val] :=
  (by decide +kernel : ∀ (q0 : Fin 8) (q1 : Fin 8), ∃ t : Fin grid3.N, win3_2.index t = ![q0.val, q1.val])

/-- WHAT POINT `t` WRITES BACK is tile `t` of the logistic of the latent array's Gram matrix. -/
theorem flushed3_eq (c : Dev nD) (t : Fin cfg3.N) :
    (dat3 V c).flushed 2 t = ((cfg3.win 2).blk t).view.read (Elt Ideal) (Cert.Spec.decode (V c main_v7_2)) := by
  show (cfg3.win 2).cut (grid3.coords t) ((dat3 V c).after 2 t) = _
  rw [after3_2]
  unfold out3_2
  rw [View.canon_unit_zero zeros3]
  simp only [View.ld_unit_zero (S := S1024x32) zeros3]
  obtain ⟨e0, e1, e2, e3, e4, e5⟩ := idx_facts3 t
  funext j
  show k3_pay1 (iblk3 V c 0 t) (iblk3 V c 1 t) j = Cert.Spec.decode (V c main_v7_2) (((cfg3.win 2).blk t).view.emb j)
  rw [eq_ix2 j]
  refine (k3_pay1_apply _ _ _ _).trans ?_
  unfold Cert.Spec.decode
  congr 1
  refine Finset.sum_congr rfl fun z _ => ?_
  have h0 : iblk3 V c 0 t (ix2 (j 0) z) = V c main_v7_2 (ix2 ((((cfg3.win 2).blk t).view.emb (ix2 (j 0) (j 1))) 0) z) := by
    show V c main_v7_2 (((cfg3.win 0).blk t).view.emb (ix2 (j 0) z)) = _
    congr 1
    funext a; apply Fin.ext
    match a with
    | ⟨0, _⟩ => show win3_0.index t (0 : Fin 2) * 1024 + 1 * (j 0).val = win3_2.index t (0 : Fin 2) * 1024 + 1 * (j 0).val; omega
    | ⟨1, _⟩ => show win3_0.index t (1 : Fin 2) * 32 + 1 * z.val = z.val; omega
  have h1 : iblk3 V c 1 t (ix2 (j 1) z) = V c main_v7_2 (ix2 ((((cfg3.win 2).blk t).view.emb (ix2 (j 0) (j 1))) 1) z) := by
    show V c main_v7_2 (((cfg3.win 1).blk t).view.emb (ix2 (j 1) z)) = _
    congr 1
    funext a; apply Fin.ext
    match a with
    | ⟨0, _⟩ => show win3_1.index t (0 : Fin 2) * 1024 + 1 * (j 1).val = win3_2.index t (1 : Fin 2) * 1024 + 1 * (j 1).val; omega
    | ⟨1, _⟩ => show win3_1.index t (1 : Fin 2) * 32 + 1 * z.val = z.val; omega
  rw [h0, h1]
  rfl

/-- An index of the result is in point `t`'s tile iff each coordinate is in the tile's range on its axis. -/
theorem mem_blk3 (t : Fin cfg3.N) (i : S8192x8192.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v8).slice (win3_2.rect t)).set ↔ _
  rw [View.set_slice_whole, Rect.mem_set_unit]
  exact Iff.rfl

/-- The tiles cover the result: the tile of row r, column s is (r / 1024, s / 1024). -/
theorem cover3 (i : S8192x8192.Idx) :
    ∃ t : Fin cfg3.N, (cfg3.win 2).flush t = true ∧ i ∈ ((cfg3.win 2).blk t).view.set := by
  have hi0 : (i 0).val < 8192 := (i 0).isLt
  have hi1 : (i 1).val < 8192 := (i 1).isLt
  obtain ⟨t, ht⟩ := idx_onto3 ⟨(i 0).val / 1024, by omega⟩ ⟨(i 1).val / 1024, by omega⟩
  have q0 : win3_2.index t (0 : Fin 2) = (i 0).val / 1024 := congrFun ht 0
  have q1 : win3_2.index t (1 : Fin 2) = (i 1).val / 1024 := congrFun ht 1
  refine ⟨t, flush3_2 t, ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 1024 ≤ (i 1).val ∧ (i 1).val < win3_2.index t (1 : Fin 2) * 1024 + 1024; omega

/-- THE RESULT after the region: the logistic of the Gram matrix of the latent array as the region finds it. -/
theorem final3_2 (c : Dev nD) :
    ((dat3 (F := Ideal) V c).arrAt 2 cfg3.N : S8192x8192.Idx → EReal) = Cert.Spec.decode (V c main_v7_2) :=
  (dat3 V c).arrAt_eq_of_cover 2 (Cert.Spec.decode (V c main_v7_2)) (fun t _ => flushed3_eq V c t) cover3

end Cert.KernelIdeal.Val

end
-- ==== Proof.Alg.lean ====
/-
  The two idealized programs end with equal results.

  From a memory whose nine arguments hold real numbers (the precondition), the kernel program's run ends with every
  buffer at the last boundary's content, and the three results there are the composition of the stages at the arguments
  (the launches' value lemmas walked back through the boundaries). The plain program's run ends with its three results at
  its operations' composed term, which is the plain formula of the arguments, which for real data is the same composition
  of stages. The two memories agree on the arguments, so the results are equal.
-/
import proofs.«169190_j76347338654297_2_alg».proof.Defs
import proofs.«169190_j76347338654297_2_alg».proof.Proof.KI_Frame
import proofs.«169190_j76347338654297_2_alg».proof.Proof.RefIs
import proofs.«169190_j76347338654297_2_alg».proof.Proof.RefMath
import proofs.«169190_j76347338654297_2_alg».proof.Proof.Finite
import proofs.«169190_j76347338654297_2_alg».proof.Proof.BridgeWalk
import proofs.«169190_j76347338654297_2_alg».proof.Proof.Val0
import proofs.«169190_j76347338654297_2_alg».proof.Proof.Val1
import proofs.«169190_j76347338654297_2_alg».proof.Proof.Val2
import proofs.«169190_j76347338654297_2_alg».proof.Proof.Val3

set_option maxRecDepth 16384

noncomputable section

namespace Cert.Proof.Alg

open Idealize.ShloMosaic Idealize.ShloMosaic.TcCoe Idealize.SL.Sem
open Cert.KernelIdeal Cert.KernelIdeal.Gen Cert.KernelIdeal.Hand

theorem algebraic : Cert.algebraic_KernelIdeal_ReferenceIdeal := by
  intro m ρ m' ρ' hpre hagree
  refine ⟨fun c => W6 (F := Ideal) m ρ c (Proc.devRef .tc main_v8), fun c => W6 (F := Ideal) m ρ c (Proc.devRef .tc main_v7_0),
    fun c => W6 (F := Ideal) m ρ c (Proc.devRef .tc main_v7_1), ?_, ?_⟩
  · exact (θ_run Cert.KernelIdeal.defs _ _).mono (fun r h c =>
      ⟨h c _ (mem_uc main_v8 (by decide)), h c _ (mem_uc main_v7_0 (by decide)), h c _ (mem_uc main_v7_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩) (run_all m ρ)
  · refine (θ_run Cert.ReferenceIdeal.defs _ _).mono (fun r h c => ?_) (Cert.ReferenceIdeal.Value.run (F := Ideal) m' ρ')
    obtain ⟨e0, e1, e2, e3, e4, e5, e6, e7, e8⟩ := hagree c
    obtain ⟨r0, r1, r2, r3, r4, r5, r6, r7, r8⟩ := Cert.Proof.Finite.real_of_pre m hpre c
    refine ⟨?_, ?_, ?_, (h c).2.2.2⟩
    · rw [(h c).1, Cert.ReferenceIdeal.RefValue.ref_recon, e0, e1, e2, e3, e4, e5, e6, e7, e8, Cert.Spec.rRecon_eq r1 r0 r2 r3 r4 r5 r6 r7 r8]
      exact (Cert.KernelIdeal.Bridge.W6_v8 m ρ Cert.KernelIdeal.Val.final0_1 Cert.KernelIdeal.Val.final0_2 Cert.KernelIdeal.Val.final1_5 Cert.KernelIdeal.Val.final2_10 Cert.KernelIdeal.Val.final3_2 c).symm
    · rw [(h c).2.1, Cert.ReferenceIdeal.RefValue.ref_mu, e0, e1, e3, e4, e5, e6, Cert.Spec.rHead_eq r1 r0 r3 r4 r5 r6]
      exact (Cert.KernelIdeal.Bridge.W6_v7_0 m ρ Cert.KernelIdeal.Val.final0_1 Cert.KernelIdeal.Val.final0_2 Cert.KernelIdeal.Val.final1_5 Cert.KernelIdeal.Val.final2_8 c).symm
    · rw [(h c).2.2.1, Cert.ReferenceIdeal.RefValue.ref_logvar, e0, e1, e3, e4, e7, e8, Cert.Spec.rHead_eq r1 r0 r3 r4 r7 r8]
      exact (Cert.KernelIdeal.Bridge.W6_v7_1 m ρ Cert.KernelIdeal.Val.final0_1 Cert.KernelIdeal.Val.final0_2 Cert.KernelIdeal.Val.final1_5 Cert.KernelIdeal.Val.final2_9 c).symm

end Cert.Proof.Alg

end
-- ==== Proof.lean ====
/-
  A dense graph auto-encoder's forward pass, computed by four kernels, against its plain description.

  With A the adjacency matrix (any finite reals), deg_i = 1 + sum_j A_ij and d_i = deg_i^(-1/2) guarded to 0 where
  deg_i ≤ 0, both programs compute, over the extended reals,
      h      = max (N (X) W1 + b1) 0,        N (Y)_i = sum_j (d_i (A_ij + [i = j]) d_j) Y_j,
      mu     = N (h) Wmu + bmu,   logvar = N (h) Wlv + blv,   z = mu + eps · exp (logvar / 2),
      result = 1 / (1 + exp (-(z zᵀ))),  mu,  logvar.
  The kernels never scale the matrix: they form d_i · (sum_j A_ij (d_j Y_j) + d_i Y_i), the sum taken one column tile
  at a time into a running total and the node's own term added at the diagonal tile. The two spellings of d agree at every
  real degree (Proof/LibInvSqrtGuard.lean); the two spellings of N agree for real data, by distributivity
  (Proof/LibDenseNormAgg.lean), which is where finiteness of the inputs enters; a change of float format is the identity
  and the one-operation logistic is by definition the quotient the other side spells.

  The pieces. Each of the four launches is taken through all its grid points at ANY entry contents: what every point's
  body leaves in the buffers it is handed, the running totals' contents between points, and from these the launch's
  output arrays as whole functions of its input arrays (the stages of Proof/Spec.lean). The launches and the host
  operations between them are chained through the buffer contents at the six boundaries of @main (Proof/KI_Run.lean; the
  word-level program is the same text, Proof/K_Run.lean), which gives both kernel programs' frames and, read at the result
  buffers, the composition of the stages. The plain program's run is its operations' composed term, which is the plain
  formula index by index (Proof/RefIs.lean) and, for real data, the same composition of stages (Proof/RefMath.lean).
-/
import proofs.«169190_j76347338654297_2_alg».proof.Defs
import proofs.«169190_j76347338654297_2_alg».proof.Proof.Gen.Kernel
import proofs.«169190_j76347338654297_2_alg».proof.Proof.Gen.KernelIdeal
import proofs.«169190_j76347338654297_2_alg».proof.Proof.Gen.ReferenceIdeal
import proofs.«169190_j76347338654297_2_alg».proof.Proof.Gen.Pre_finite_inputs
import proofs.«169190_j76347338654297_2_alg».proof.Proof.RefFrame
import proofs.«169190_j76347338654297_2_alg».proof.Proof.K_Frame
import proofs.«169190_j76347338654297_2_alg».proof.Proof.KI_Frame
import proofs.«169190_j76347338654297_2_alg».proof.Proof.Alg
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.Proof.RefFrame.frame_ri,
  trivial,
  Cert.Proof.Alg.algebraic⟩

end Cert.Proof

end
